-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 32 := constantI S_ 32 50000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  main_v40

def fn_part1 {F : FTy → Type} [FloatOps F] (main_arg1 : IVec S2x800000 32) (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S51200x64 : Shape := ⟨2, ![51200, 64]⟩
abbrev S851968x64 : Shape := ⟨2, ![851968, 64]⟩
abbrev S8192 : Shape := ⟨1, ![8192]⟩
abbrev S1024x64 : Shape := ⟨2, ![1024, 64]⟩
abbrev S8192x64 : Shape := ⟨2, ![8192, 64]⟩
abbrev S1024x1 : Shape := ⟨2, ![1024, 1]⟩
abbrev S1x8192 : Shape := ⟨2, ![1, 8192]⟩
abbrev S1024x8192 : Shape := ⟨2, ![1024, 8192]⟩
abbrev S8192x1 : Shape := ⟨2, ![8192, 1]⟩
abbrev S1x64 : Shape := ⟨2, ![1, 64]⟩
abbrev S4096 : Shape := ⟨1, ![4096]⟩
abbrev S4096x64 : Shape := ⟨2, ![4096, 64]⟩
abbrev S2048x64 : Shape := ⟨2, ![2048, 64]⟩
abbrev S2048x1 : Shape := ⟨2, ![2048, 1]⟩
abbrev S1x4096 : Shape := ⟨2, ![1, 4096]⟩
abbrev S2048x4096 : Shape := ⟨2, ![2048, 4096]⟩
abbrev S51200x32 : Shape := ⟨2, ![51200, 32]⟩
abbrev S851968x32 : Shape := ⟨2, ![851968, 32]⟩
abbrev S1024x32 : Shape := ⟨2, ![1024, 32]⟩
abbrev S8192x32 : Shape := ⟨2, ![8192, 32]⟩
abbrev S1x32 : Shape := ⟨2, ![1, 32]⟩
abbrev S4096x32 : Shape := ⟨2, ![4096, 32]⟩
abbrev S2048x32 : Shape := ⟨2, ![2048, 32]⟩
abbrev S50000x32 : Shape := ⟨2, ![50000, 32]⟩

abbrev nBuf : Space → Nat
  | .hbm => 76
  | .vmem => 51
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S1968, .i32⟩
  | .hbm, ⟨50, _⟩ => ⟨S851968, .i32⟩
  | .hbm, ⟨51, _⟩ => ⟨S_, .i32⟩
  | .hbm, ⟨52, _⟩ => ⟨S1968, .i32⟩
  | .hbm, ⟨53, _⟩ => ⟨S851968, .i32⟩
  | .hbm, ⟨54, _⟩ => ⟨S_, .f32⟩
  | .hbm, ⟨55, _⟩ => ⟨S1968, .f32⟩
  | .hbm, ⟨56, _⟩ => ⟨S851968, .f32⟩
  | .hbm, ⟨57, _⟩ => ⟨S_, .i32⟩
  | .hbm, ⟨58, _⟩ => ⟨S_, .f32⟩
  | .hbm, ⟨59, _⟩ => ⟨S51200x64, .f32⟩
  | .hbm, ⟨60, _⟩ => ⟨S51200x64, .f32⟩
  | .hbm, ⟨61, _⟩ => ⟨S51200x64, .bf16⟩
  | .hbm, ⟨62, _⟩ => ⟨S851968x64, .bf16⟩
  | .hbm, ⟨63, _⟩ => ⟨S1x64, .f32⟩
  | .hbm, ⟨64, _⟩ => ⟨S51200x64, .f32⟩
  | .hbm, ⟨65, _⟩ => ⟨S51200x64, .f32⟩
  | .hbm, ⟨66, _⟩ => ⟨S51200x64, .bf16⟩
  | .hbm, ⟨67, _⟩ => ⟨S851968x64, .bf16⟩
  | .hbm, ⟨68, _⟩ => ⟨S1x64, .f32⟩
  | .hbm, ⟨69, _⟩ => ⟨S51200x64, .f32⟩
  | .hbm, ⟨70, _⟩ => ⟨S51200x32, .f32⟩
  | .hbm, ⟨71, _⟩ => ⟨S51200x32, .bf16⟩
  | .hbm, ⟨72, _⟩ => ⟨S851968x32, .bf16⟩
  | .hbm, ⟨73, _⟩ => ⟨S1x32, .f32⟩
  | .hbm, ⟨74, _⟩ => ⟨S51200x32, .f32⟩
  | .hbm, ⟨75, _⟩ => ⟨S50000x32, .f32⟩
  | .local _ .vmem, ⟨0, _⟩ => ⟨S8192, .i32⟩
  | .local _ .vmem, ⟨1, _⟩ => ⟨S8192, .i32⟩
  | .local _ .vmem, ⟨2, _⟩ => ⟨S8192, .f32⟩
  | .local _ .vmem, ⟨3, _⟩ => ⟨S8192, .f32⟩
  | .local _ .vmem, ⟨4, _⟩ => ⟨S1024x64, .bf16⟩
  | .local _ .vmem, ⟨5, _⟩ => ⟨S1024x64, .bf16⟩
  | .local _ .vmem, ⟨6, _⟩ => ⟨S8192x64, .bf16⟩
  | .local _ .vmem, ⟨7, _⟩ => ⟨S8192x64, .bf16⟩
  | .local _ .vmem, ⟨8, _⟩ => ⟨S8192x64, .f32⟩
  | .local _ .vmem, ⟨9, _⟩ => ⟨S4096, .i32⟩
  | .local _ .vmem, ⟨10, _⟩ => ⟨S4096, .i32⟩
  | .local _ .vmem, ⟨11, _⟩ => ⟨S4096x64, .bf16⟩
  | .local _ .vmem, ⟨12, _⟩ => ⟨S4096x64, .bf16⟩
  | .local _ .vmem, ⟨13, _⟩ => ⟨S1x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S8192, .i32⟩
  | .local _ .vmem, ⟨18, _⟩ => ⟨S8192, .i32⟩
  | .local _ .vmem, ⟨19, _⟩ => ⟨S8192, .f32⟩
  | .local _ .vmem, ⟨20, _⟩ => ⟨S8192, .f32⟩
  | .local _ .vmem, ⟨21, _⟩ => ⟨S1024x64, .bf16⟩
  | .local _ .vmem, ⟨22, _⟩ => ⟨S1024x64, .bf16⟩
  | .local _ .vmem, ⟨23, _⟩ => ⟨S8192x64, .bf16⟩
  | .local _ .vmem, ⟨24, _⟩ => ⟨S8192x64, .bf16⟩
  | .local _ .vmem, ⟨25, _⟩ => ⟨S8192x64, .f32⟩
  | .local _ .vmem, ⟨26, _⟩ => ⟨S4096, .i32⟩
  | .local _ .vmem, ⟨27, _⟩ => ⟨S4096, .i32⟩
  | .local _ .vmem, ⟨28, _⟩ => ⟨S4096x64, .bf16⟩
  | .local _ .vmem, ⟨29, _⟩ => ⟨S4096x64, .bf16⟩
  | .local _ .vmem, ⟨30, _⟩ => ⟨S1x64, .f32⟩
  | .local _ .vmem, ⟨31, _⟩ => ⟨S2048x64, .f32⟩
  | .local _ .vmem, ⟨32, _⟩ => ⟨S2048x64, .f32⟩
  | .local _ .vmem, ⟨33, _⟩ => ⟨S2048x64, .f32⟩
  | .local _ .vmem, ⟨34, _⟩ => ⟨S8192, .i32⟩
  | .local _ .vmem, ⟨35, _⟩ => ⟨S8192, .i32⟩
  | .local _ .vmem, ⟨36, _⟩ => ⟨S8192, .f32⟩
  | .local _ .vmem, ⟨37, _⟩ => ⟨S8192, .f32⟩
  | .local _ .vmem, ⟨38, _⟩ => ⟨S1024x32, .bf16⟩
  | .local _ .vmem, ⟨39, _⟩ => ⟨S1024x32, .bf16⟩
  | .local _ .vmem, ⟨40, _⟩ => ⟨S8192x32, .bf16⟩
  | .local _ .vmem, ⟨41, _⟩ => ⟨S8192x32, .bf16⟩
  | .local _ .vmem, ⟨42, _⟩ => ⟨S8192x32, .f32⟩
  | .local _ .vmem, ⟨43, _⟩ => ⟨S4096, .i32⟩
  | .local _ .vmem, ⟨44, _⟩ => ⟨S4096, .i32⟩
  | .local _ .vmem, ⟨45, _⟩ => ⟨S4096x32, .bf16⟩
  | .local _ .vmem, ⟨46, _⟩ => ⟨S4096x32, .bf16⟩
  | .local _ .vmem, ⟨47, _⟩ => ⟨S1x32, .f32⟩
  | .local _ .vmem, ⟨48, _⟩ => ⟨S2048x32, .f32⟩
  | .local _ .vmem, ⟨49, _⟩ => ⟨S2048x32, .f32⟩
  | .local _ .vmem, ⟨50, _⟩ => ⟨S2048x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_scratch0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_scratch0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44

abbrev nD : Nat := 1
abbrev τ : Topo := Topo.v7x

variable {F : FTy → Type} [FloatOps F]

abbrev grid0 : Pipeline.Grid := ⟨2, ![104, 50], ![false, false]⟩

def k0_cond2 (i : grid0.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 208], ![false, false]⟩

def k1_cond2 (i : grid1.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![104, 50], ![false, false]⟩

def k2_cond2 (i : grid2.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S8192x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 208], ![false, false]⟩

def k3_cond2 (i : grid3.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_7 : BitVec 32 := 0#32
  let v26 : BitVec 1 := Scalar.cmpi .ne v25 c0_i32_7
  v26

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![104, 50], ![false, false]⟩

def k4_cond2 (i : grid4.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_7 : BitVec 32 := 0#32
  let v26 : BitVec 1 := Scalar.cmpi .ne v25 c0_i32_7
  v26

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8192 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x32 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8192x32 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 208], ![false, false]⟩

def k5_cond2 (i : grid5.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_7 : BitVec 32 := 0#32
  let v26 : BitVec 1 := Scalar.cmpi .ne v25 c0_i32_7
  v26

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x32 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1968 : S_.BroadcastsInDim S1968 (![] : Fin 0 → Fin S1968.rank)
  concatenates_S850000_S1968_S851968_d0 : Shape.Concatenates [S850000, S1968] S851968 0
  pads_S50000x64_S51200x64_012000_000 : S50000x64.Pads (![0, 0] : Fin 2 → Nat) ![1200, 0] ![0, 0] S51200x64
  h_S_ : 0 < S_.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  iota_S1024x1_d0_w32 : S1024x1.Iotas .tc 32 [0]
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  broadcasts_S1024x1_S1024x8192 : S1024x1.Broadcasts S1024x8192
  broadcasts_S1x8192_S1024x8192 : S1x8192.Broadcasts S1024x8192
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S8192_S8192x1 : S8192.ShapeCasts S8192x1
  broadcasts_S8192x1_S8192x64 : S8192x1.Broadcasts S8192x64
  packedbf16_S8192x64_S8192x64_0_0 : (Rect.unit (s := S8192x64) ![0, 0] S8192x64.size inb_S8192x64_S8192x64_0_0).PackedRows (EltTy.packing .bf16)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x1_d0_w32 : S2048x1.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S2048x1_S2048x4096 : S2048x1.Broadcasts S2048x4096
  broadcasts_S1x4096_S2048x4096 : S1x4096.Broadcasts S2048x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  broadcasts_S8192x1_S8192x32 : S8192x1.Broadcasts S8192x32
  packedbf16_S8192x32_S8192x32_0_0 : (Rect.unit (s := S8192x32) ![0, 0] S8192x32.size inb_S8192x32_S8192x32_0_0).PackedRows (EltTy.packing .bf16)
  shapeCasts_S32_S1x32 : S32.ShapeCasts S1x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  slices_S51200x32_S50000x32_0_0 : S51200x32.Slices ![0, 0] S50000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S51200x64_S64x64_S51200x64_1_0_0_1_n_n_wf : DotDims.WF S51200x64 S64x64 S51200x64 [1] [0] [0] [1] [] []
  dot_S1024x8192_S1024x64_S8192x64_0_0_1_1_n_n_wf : DotDims.WF S1024x8192 S1024x64 S8192x64 [0] [0] [1] [1] [] []
  dot_S2048x4096_S4096x64_S2048x64_1_0_0_1_n_n_wf : DotDims.WF S2048x4096 S4096x64 S2048x64 [1] [0] [0] [1] [] []
  dot_S51200x64_S64x32_S51200x32_1_0_0_1_n_n_wf : DotDims.WF S51200x64 S64x32 S51200x32 [1] [0] [0] [1] [] []
  dot_S1024x8192_S1024x32_S8192x32_0_0_1_1_n_n_wf : DotDims.WF S1024x8192 S1024x32 S8192x32 [0] [0] [1] [1] [] []
  dot_S2048x4096_S4096x32_S2048x32_1_0_0_1_n_n_wf : DotDims.WF S2048x4096 S4096x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S851968.size a
  hwx0_0 : ∀ i : grid0.Coords, EltTy.bits .i32 = 32 ∨ (Rect.block (s := S851968) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S851968.size a
  hwx0_1 : ∀ i : grid0.Coords, EltTy.bits .f32 = 32 ∨ (Rect.block (s := S851968) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S51200x64.size a
  hwx0_2 : ∀ i : grid0.Coords, EltTy.bits .bf16 = 32 ∨ (Rect.block (s := S51200x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S851968x64.size a
  hwx0_3 : ∀ i : grid0.Coords, EltTy.bits .bf16 = 32 ∨ (Rect.block (s := S851968x64) S8192x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S851968.size a
  hwx1_0 : ∀ i : grid1.Coords, EltTy.bits .i32 = 32 ∨ (Rect.block (s := S851968) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S851968x64.size a
  hwx1_1 : ∀ i : grid1.Coords, EltTy.bits .bf16 = 32 ∨ (Rect.block (s := S851968x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S51200x64.size a
  hwx1_3 : ∀ i : grid1.Coords, EltTy.bits .f32 = 32 ∨ (Rect.block (s := S51200x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192.size a ≤ S851968.size a
  hwx2_0 : ∀ i : grid2.Coords, EltTy.bits .i32 = 32 ∨ (Rect.block (s := S851968) S8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192.size a ≤ S851968.size a
  hwx2_1 : ∀ i : grid2.Coords, EltTy.bits .f32 = 32 ∨ (Rect.block (s := S851968) S8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S51200x64.size a
  hwx2_2 : ∀ i : grid2.Coords, EltTy.bits .bf16 = 32 ∨ (Rect.block (s := S51200x64) S1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S851968x64.size a
  hwx2_3 : ∀ i : grid2.Coords, EltTy.bits .bf16 = 32 ∨ (Rect.block (s := S851968x64) S8192x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S851968.size a
  hwx3_0 : ∀ i : grid3.Coords, EltTy.bits .i32 = 32 ∨ (Rect.block (s := S851968) S4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S851968x64.size a
  hwx3_1 : ∀ i : grid3.Coords, EltTy.bits .bf16 = 32 ∨ (Rect.block (s := S851968x64) S4096x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S51200x64.size a
  hwx3_3 : ∀ i : grid3.Coords, EltTy.bits .f32 = 32 ∨ (Rect.block (s := S51200x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192.size a ≤ S851968.size a
  hwx4_0 : ∀ i : grid4.Coords, EltTy.bits .i32 = 32 ∨ (Rect.block (s := S851968) S8192.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192.size a ≤ S851968.size a
  hwx4_1 : ∀ i : grid4.Coords, EltTy.bits .f32 = 32 ∨ (Rect.block (s := S851968) S8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x32.size a ≤ S51200x32.size a
  hwx4_2 : ∀ i : grid4.Coords, EltTy.bits .bf16 = 32 ∨ (Rect.block (s := S51200x32) S1024x32.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x32.size a ≤ S851968x32.size a
  hwx4_3 : ∀ i : grid4.Coords, EltTy.bits .bf16 = 32 ∨ (Rect.block (s := S851968x32) S8192x32.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S851968.size a
  hwx5_0 : ∀ i : grid5.Coords, EltTy.bits .i32 = 32 ∨ (Rect.block (s := S851968) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x32.size a ≤ S851968x32.size a
  hwx5_1 : ∀ i : grid5.Coords, EltTy.bits .bf16 = 32 ∨ (Rect.block (s := S851968x32) S4096x32.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x32.size a ≤ S51200x32.size a
  hwx5_3 : ∀ i : grid5.Coords, EltTy.bits .f32 = 32 ∨ (Rect.block (s := S51200x32) S2048x32.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S51200x64_S64x64_S51200x64_1_0_0_1_n_n : DotDims S51200x64 S64x64 S51200x64 where
  lhsContracting := [1]
  rhsContracting := [0]
  lhsNonContracting := [0]
  rhsNonContracting := [1]
  lhsBatch := []
  rhsBatch := []
  wf := dot_S51200x64_S64x64_S51200x64_1_0_0_1_n_n_wf
def dot_S1024x8192_S1024x64_S8192x64_0_0_1_1_n_n : DotDims S1024x8192 S1024x64 S8192x64 where
  lhsContracting := [0]
  rhsContracting := [0]
  lhsNonContracting := [1]
  rhsNonContracting := [1]
  lhsBatch := []
  rhsBatch := []
  wf := dot_S1024x8192_S1024x64_S8192x64_0_0_1_1_n_n_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S51200x64_S64x32_S51200x32_1_0_0_1_n_n : DotDims S51200x64 S64x32 S51200x32 where
  lhsContracting := [1]
  rhsContracting := [0]
  lhsNonContracting := [0]
  rhsNonContracting := [1]
  lhsBatch := []
  rhsBatch := []
  wf := dot_S51200x64_S64x32_S51200x32_1_0_0_1_n_n_wf
def dot_S1024x8192_S1024x32_S8192x32_0_0_1_1_n_n : DotDims S1024x8192 S1024x32 S8192x32 where
  lhsContracting := [0]
  rhsContracting := [0]
  lhsNonContracting := [1]
  rhsNonContracting := [1]
  lhsBatch := []
  rhsBatch := []
  wf := dot_S1024x8192_S1024x32_S8192x32_0_0_1_1_n_n_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf

abbrev win0_0 : Pipeline.Window sig grid0 :=
  Pipeline.Window.ofSpec (Memref.whole main_v31) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v33) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v31) S8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v33) S4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v31) S8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S1024x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v49) S8192x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v33) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S4096x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2048x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 110
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S50000x32, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x32, .f32⟩
  | .hbm, ⟨100, _⟩ => ⟨S850000x1, .f32⟩
  | .hbm, ⟨101, _⟩ => ⟨S850000x32, .f32⟩
  | .hbm, ⟨102, _⟩ => ⟨S850000x32, .f32⟩
  | .hbm, ⟨103, _⟩ => ⟨S_, .f32⟩
  | .hbm, ⟨104, _⟩ => ⟨S50000x32, .f32⟩
  | .hbm, ⟨105, _⟩ => ⟨S850000x1, .i32⟩
  | .hbm, ⟨106, _⟩ => ⟨S50000x32, .f32⟩
  | .hbm, ⟨107, _⟩ => ⟨S1x32, .f32⟩
  | .hbm, ⟨108, _⟩ => ⟨S50000x32, .f32⟩
  | .hbm, ⟨109, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.HandBasics.lean ====
/-
  The zero offsets of a whole rectangle: a store or load through the rectangle at offsets zero of the full extents
  touches every index of its buffer, which is how the kernels of this program access their blocks.
-/
import Idealize.ShloMosaic.Lib.Pipeline.Value

namespace Cert.HandBasics

/-- Rank 1. -/
theorem hz1 : (![0] : Fin 1 → Nat) = fun _ => 0 := by funext a; fin_cases a; rfl
/-- Rank 2. -/
theorem hz2 : (![0, 0] : Fin 2 → Nat) = fun _ => 0 := by funext a; fin_cases a <;> rfl

end Cert.HandBasics
-- ==== Proof.KBRuns0.lean ====
/-
  The body of kernel region 0 (gather and scale) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 0: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g0first (i : grid0.Coords) : Prop :=
  (Scalar.cmpi .ne (Scalar.extui (Scalar.cmpi .eq (BitVec.ofNat 32 (i 1).val) 0#32)) 0#32) = 1#1
/-- The node-block coordinate is the last one: the body's second conditional. -/
abbrev g0last (i : grid0.Coords) : Prop := k0_cond2 i = 1#1

set_option maxHeartbeats 2000000 in
/-- First node block of a row: the scratch, whatever it held, ends at the first partial sum added to zeros. -/
theorem gather0_first (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : g0first i) (hc2 : ¬ g0last i)
    (x2 : Vec F S8192 .i32) (x3 : Vec F S8192 .f32) (x4 : Vec F S1024x64 .bf16) (x5 : Vec F S8192x64 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay2 i x2 x4 k0_pay1)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x64_S8192x64_0_0 y⟩), View.canon_cons_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]
  rw [View.readCov_unit_zero _ hz2]

set_option maxHeartbeats 2000000 in
/-- A node block that is neither first nor last: the partial sum is added to what the scratch held. -/
theorem gather0_mid (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g0first i) (hc2 : ¬ g0last i)
    (x2 : Vec F S8192 .i32) (x3 : Vec F S8192 .f32) (x4 : Vec F S1024x64 .bf16) (x5 : Vec F S8192x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay2 i x2 x4 xs)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

set_option maxHeartbeats 2000000 in
/-- Last node block of a row: the sum is completed in the scratch and its product with the norm column is stored into the output block. -/
theorem gather0_last (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g0first i) (hc2 : g0last i)
    (x2 : Vec F S8192 .i32) (x3 : Vec F S8192 .f32) (x4 : Vec F S1024x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 x3 (k0_pay2 i x2 x4 xs)) ∗ owns (c : Thread nD τ) arg6 fullShare (k0_pay2 i x2 x4 xs)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x64_S8192x64_0_0 y⟩), View.canon_unit_zero hz2]
    simp only [View.readAt_eq_ld, harg2.read_unread, harg3.read_unread, harg4.read_unread, harg6.read_unread,
      View.ld_unit_zero (S := S8192) hz1, View.ld_unit_zero (S := S1024x64) hz2, View.ld_unit_zero (S := S8192x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

end Cert.Kernel.Hand

end
-- ==== Proof.KBRegion0.lean ====
/-
  Kernel region 0 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 0 of @main (gather), at the buffer contents `V` it is entered from

The proof data of the region's pipeline: each input window's staging buffer holds its block of the array; the
scratch operand carries the running sum from point to point along a row of the grid (`acc0`), which is part of
the region's invariant from the first point on; the output window's buffer is stored at the last point of a row
only, and is idle at the others. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals in closed form -/

/-- The first conditional holds at the first point of each row of the grid. -/
theorem hfirst0 : ∀ t : Fin cfg0.N, g0first (grid0.coords t) ↔ t.val % 50 = 0 :=
  (by decide +kernel : ∀ t : Fin grid0.N, g0first (grid0.coords t) ↔ t.val % 50 = 0)
/-- The second at the last. -/
theorem hlast0 : ∀ t : Fin cfg0.N, g0last (grid0.coords t) ↔ t.val % 50 = 49 :=
  (by decide +kernel : ∀ t : Fin grid0.N, g0last (grid0.coords t) ↔ t.val % 50 = 49)

/-- Away from the last point of a row the output window is idle, -/
theorem idle0_3 (t : Fin cfg0.N) (h : ¬ g0last (grid0.coords t)) : cfg0.idle 3 (cfg0.grid.coords t) = true := by
  show (!(k0_cond2 (grid0.coords t) == 1#1)) = true
  rw [Bool.not_eq_true', beq_eq_false_iff_ne]; exact h
/-- and is not written back; -/
theorem noFlush0_3 (t : Fin cfg0.N) (h : ¬ g0last (grid0.coords t)) : (cfg0.win 3).flush t = false :=
  Bool.eq_false_iff.mpr fun hf => h ((hlast0 t).mpr ((flush0_3 t).mp hf))
/-- at the last point it is live. -/
theorem live0_3 (t : Fin cfg0.N) (h : g0last (grid0.coords t)) : cfg0.idle 3 (cfg0.grid.coords t) = false := by
  show (!(k0_cond2 (grid0.coords t) == 1#1)) = false
  rw [Bool.not_eq_false', beq_iff_eq]; exact h

/-! ## The running sum -/

/-- What the scratch holds after the body at position `n`: at the first point of a row the first partial sum added to
    zeros, afterwards the point's partial sum added to what the point before left. -/
def acc0 (c : Dev nD) : (n : ℕ) → n < cfg0.N → Vec F S8192x64 .f32
  | 0, hn => k0_pay2 (grid0.coords ⟨0, hn⟩) (iblk0 V c 0 ⟨0, hn⟩) (iblk0 V c 2 ⟨0, hn⟩) k0_pay1
  | n + 1, hn =>
    if (n + 1) % 50 = 0 then k0_pay2 (grid0.coords ⟨n + 1, hn⟩) (iblk0 V c 0 ⟨n + 1, hn⟩) (iblk0 V c 2 ⟨n + 1, hn⟩) k0_pay1
    else k0_pay2 (grid0.coords ⟨n + 1, hn⟩) (iblk0 V c 0 ⟨n + 1, hn⟩) (iblk0 V c 2 ⟨n + 1, hn⟩) (acc0 c n (Nat.lt_of_succ_lt hn))

theorem acc0_first (c : Dev nD) (t : Fin cfg0.N) (h : t.val % 50 = 0) :
    acc0 V c t.val t.isLt = k0_pay2 (grid0.coords t) (iblk0 V c 0 t) (iblk0 V c 2 t) k0_pay1 := by
  obtain ⟨n, hn⟩ := t
  cases n with
  | zero => rfl
  | succ n => exact if_pos h

theorem acc0_next (c : Dev nD) (t : Fin cfg0.N) (h : ¬ t.val % 50 = 0) :
    acc0 V c t.val t.isLt = k0_pay2 (grid0.coords t) (iblk0 V c 0 t) (iblk0 V c 2 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM0 : Memref sig .tc .vmem S8192x64 .f32 := Memref.whole cc0_scratch0

/-- The scoped buffers other than the scratch operand, unopened. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: before the first point every scoped buffer at anything; afterwards the
    scratch at the running sum the point before left, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The class invariant with the scratch operand opened. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; rfl

/-! ## The proof data -/

/-- The arrays as the region finds them; after the body at point `t` each input's buffer at its block and the output's
    at the scaled running sum (consulted where the block is written back: the last point of a row); the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 1 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (iblk0 V c 1 t) (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [show cfg0.idle 0 (cfg0.grid.coords t) = false from rfl], after0_0]
  rw [show (dat0 V c).leavesExact 1 t = owns (c : Thread nD τ) (st0_1 t) fullShare ((dat0 V c).after 1 t) from by
      unfold Dat.leavesExact; rw [show cfg0.idle 1 (cfg0.grid.coords t) = false from rfl], after0_1]
  rw [show (dat0 V c).leavesExact 2 t = owns (c : Thread nD τ) (st0_2 t) fullShare ((dat0 V c).after 2 t) from by
      unfold Dat.leavesExact; rw [show cfg0.idle 2 (cfg0.grid.coords t) = false from rfl], after0_2]
  have hN : t.val < 5200 := lt_of_lt_of_eq t.isLt (show cfg0.N = 5200 from N_0)
  by_cases h0 : t.val % 50 = 0
  · have h1 : ¬ t.val % 50 = 49 := by omega
    have hl : ¬ g0last (grid0.coords t) := fun h => h1 ((hlast0 t).mp h)
    rw [Dat.leavesExact_idle (dat0 V c) 3 t (idle0_3 t hl) (noFlush0_3 t hl)]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (gather0_first c (grid0.coords t) _ _ _ _ _ _ _ _ _ _ ((hfirst0 t).mpr h0) hl (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (gather0_first c (grid0.coords t) _ _ _ _ _ _ _ _ _ _ ((hfirst0 t).mpr h0) hl (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g0first (grid0.coords t) := fun h => h0 ((hfirst0 t).mp h)
    have hz : t.val ≠ 0 := fun h => h0 (by rw [h])
    rw [acc0_next V c t h0]
    rw [PhiS0_castSucc V c t, PhiS0_pos V c _ _ hz]
    by_cases h1 : t.val % 50 = 49
    · have hl : g0last (grid0.coords t) := (hlast0 t).mpr h1
      rw [show (dat0 V c).leavesExact 3 t = owns (c : Thread nD τ) (st0_3 t) fullShare ((dat0 V c).after 3 t) from by
        unfold Dat.leavesExact; rw [live0_3 t hl], after0_3, acc0_next V c t h0]
      iintro ⟨⟨⟨HS, HR⟩, Hg⟩, Ho, ⟨%d0, H0⟩, ⟨%d1, H1⟩, ⟨%d2, H2⟩, ⟨%d3, H3⟩⟩
      iapply (gather0_last c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g0last (grid0.coords t) := fun h => h1 ((hlast0 t).mp h)
      rw [Dat.leavesExact_idle (dat0 V c) 3 t (idle0_3 t hl) (noFlush0_3 t hl)]
      iintro ⟨⟨⟨HS, HR⟩, Hg⟩, Ho, ⟨%d0, H0⟩, ⟨%d1, H1⟩, ⟨%d2, H2⟩, ⟨%d3, H3⟩⟩
      iapply (gather0_mid c (grid0.coords t) _ _ _ _ _ _ _ _ _ _ hf hl (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sum's name is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 5200 := N_0; omega), PhiA0_eq]
  iintro ⟨⟨HS, HR⟩, Hg⟩
  isplitl [HS HR]
  · isplitl [HS]; · iexists _; iexact HS
    iexact HR
  iexact Hg

end Region0

end Cert.Kernel.Hand

end
-- ==== Proof.KBRuns1.lean ====
/-
  The body of kernel region 1 (scatter and add) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 1: the scatter body on any whole staging memrefs, case by case

The body keeps a running sum in its scratch operand. At the first edge block of a row of the grid it stores zeros into
the scratch before adding; at the last, the hyperbolic tangent of the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s1first (i : grid1.Coords) : Prop :=
  (Scalar.cmpi .ne (Scalar.extui (Scalar.cmpi .eq (BitVec.ofNat 32 (i 1).val) 0#32)) 0#32) = 1#1
/-- The edge-block coordinate is the last one: the body's second conditional. -/
abbrev s1last (i : grid1.Coords) : Prop := k1_cond2 i = 1#1

set_option maxHeartbeats 2000000 in
/-- First edge block of a row: the scratch, whatever it held, ends at the first partial sum added to zeros. -/
theorem scatter1_first (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : s1first i) (hc2 : ¬ s1last i)
    (x2 : Vec F S4096 .i32) (x3 : Vec F S4096x64 .bf16) (x4 : Vec F S1x64 .f32) (x5 : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k1_pay2 i x2 k1_pay1 x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x64_S2048x64_0_0 y⟩), View.canon_cons_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
  rw [View.readCov_unit_zero _ hz2]

set_option maxHeartbeats 2000000 in
/-- A edge block that is neither first nor last: the partial sum is added to what the scratch held. -/
theorem scatter1_mid (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s1first i) (hc2 : ¬ s1last i)
    (x2 : Vec F S4096 .i32) (x3 : Vec F S4096x64 .bf16) (x4 : Vec F S1x64 .f32) (x5 : Vec F S2048x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k1_pay2 i x2 xs x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

set_option maxHeartbeats 2000000 in
/-- Last edge block of a row: the sum is completed in the scratch and the hyperbolic tangent of the sum plus the bias row is stored into the output block. -/
theorem scatter1_last (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s1first i) (hc2 : s1last i)
    (x2 : Vec F S4096 .i32) (x3 : Vec F S4096x64 .bf16) (x4 : Vec F S1x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k1_pay3 (k1_pay2 i x2 xs x3) x4) ∗ owns (c : Thread nD τ) arg6 fullShare (k1_pay2 i x2 xs x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

end Cert.Kernel.Hand

end
-- ==== Proof.KBRegion1.lean ====
/-
  Kernel region 1 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns1
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 1 of @main (scatter), at the buffer contents `V` it is entered from

The proof data of the region's pipeline: each input window's staging buffer holds its block of the array; the
scratch operand carries the running sum from point to point along a row of the grid (`acc1`), which is part of
the region's invariant from the first point on; the output window's buffer is stored at the last point of a row
only, and is idle at the others. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals in closed form -/

/-- The first conditional holds at the first point of each row of the grid. -/
theorem hfirst1 : ∀ t : Fin cfg1.N, s1first (grid1.coords t) ↔ t.val % 208 = 0 :=
  (by decide +kernel : ∀ t : Fin grid1.N, s1first (grid1.coords t) ↔ t.val % 208 = 0)
/-- The second at the last. -/
theorem hlast1 : ∀ t : Fin cfg1.N, s1last (grid1.coords t) ↔ t.val % 208 = 207 :=
  (by decide +kernel : ∀ t : Fin grid1.N, s1last (grid1.coords t) ↔ t.val % 208 = 207)

/-- Away from the last point of a row the output window is idle, -/
theorem idle1_3 (t : Fin cfg1.N) (h : ¬ s1last (grid1.coords t)) : cfg1.idle 3 (cfg1.grid.coords t) = true := by
  show (!(k1_cond2 (grid1.coords t) == 1#1)) = true
  rw [Bool.not_eq_true', beq_eq_false_iff_ne]; exact h
/-- and is not written back; -/
theorem noFlush1_3 (t : Fin cfg1.N) (h : ¬ s1last (grid1.coords t)) : (cfg1.win 3).flush t = false :=
  Bool.eq_false_iff.mpr fun hf => h ((hlast1 t).mpr ((flush1_3 t).mp hf))
/-- at the last point it is live. -/
theorem live1_3 (t : Fin cfg1.N) (h : s1last (grid1.coords t)) : cfg1.idle 3 (cfg1.grid.coords t) = false := by
  show (!(k1_cond2 (grid1.coords t) == 1#1)) = false
  rw [Bool.not_eq_false', beq_iff_eq]; exact h

/-! ## The running sum -/

/-- What the scratch holds after the body at position `n`: at the first point of a row the first partial sum added to
    zeros, afterwards the point's partial sum added to what the point before left. -/
def acc1 (c : Dev nD) : (n : ℕ) → n < cfg1.N → Vec F S2048x64 .f32
  | 0, hn => k1_pay2 (grid1.coords ⟨0, hn⟩) (iblk1 V c 0 ⟨0, hn⟩) k1_pay1 (iblk1 V c 1 ⟨0, hn⟩)
  | n + 1, hn =>
    if (n + 1) % 208 = 0 then k1_pay2 (grid1.coords ⟨n + 1, hn⟩) (iblk1 V c 0 ⟨n + 1, hn⟩) k1_pay1 (iblk1 V c 1 ⟨n + 1, hn⟩)
    else k1_pay2 (grid1.coords ⟨n + 1, hn⟩) (iblk1 V c 0 ⟨n + 1, hn⟩) (acc1 c n (Nat.lt_of_succ_lt hn)) (iblk1 V c 1 ⟨n + 1, hn⟩)

theorem acc1_first (c : Dev nD) (t : Fin cfg1.N) (h : t.val % 208 = 0) :
    acc1 V c t.val t.isLt = k1_pay2 (grid1.coords t) (iblk1 V c 0 t) k1_pay1 (iblk1 V c 1 t) := by
  obtain ⟨n, hn⟩ := t
  cases n with
  | zero => rfl
  | succ n => exact if_pos h

theorem acc1_next (c : Dev nD) (t : Fin cfg1.N) (h : ¬ t.val % 208 = 0) :
    acc1 V c t.val t.isLt = k1_pay2 (grid1.coords t) (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-! ## The invariant -/

/-- The scratch operand as a memref. -/
abbrev scM1 : Memref sig .tc .vmem S2048x64 .f32 := Memref.whole cc1_scratch0

/-- The scoped buffers other than the scratch operand, unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point every scoped buffer at anything; afterwards the
    scratch at the running sum the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-- The class invariant with the scratch operand opened. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; rfl

/-! ## The proof data -/

/-- The arrays as the region finds them; after the body at point `t` each input's buffer at its block and the output's
    at the scaled running sum (consulted where the block is written back: the last point of a row); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [show cfg1.idle 0 (cfg1.grid.coords t) = false from rfl], after1_0]
  rw [show (dat1 V c).leavesExact 1 t = owns (c : Thread nD τ) (st1_1 t) fullShare ((dat1 V c).after 1 t) from by
      unfold Dat.leavesExact; rw [show cfg1.idle 1 (cfg1.grid.coords t) = false from rfl], after1_1]
  rw [show (dat1 V c).leavesExact 2 t = owns (c : Thread nD τ) (st1_2 t) fullShare ((dat1 V c).after 2 t) from by
      unfold Dat.leavesExact; rw [show cfg1.idle 2 (cfg1.grid.coords t) = false from rfl], after1_2]
  have hN : t.val < 5200 := lt_of_lt_of_eq t.isLt (show cfg1.N = 5200 from N_1)
  by_cases h0 : t.val % 208 = 0
  · have h1 : ¬ t.val % 208 = 207 := by omega
    have hl : ¬ s1last (grid1.coords t) := fun h => h1 ((hlast1 t).mp h)
    rw [Dat.leavesExact_idle (dat1 V c) 3 t (idle1_3 t hl) (noFlush1_3 t hl)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (scatter1_first c (grid1.coords t) _ _ _ _ _ _ _ _ _ _ ((hfirst1 t).mpr h0) hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (scatter1_first c (grid1.coords t) _ _ _ _ _ _ _ _ _ _ ((hfirst1 t).mpr h0) hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s1first (grid1.coords t) := fun h => h0 ((hfirst1 t).mp h)
    have hz : t.val ≠ 0 := fun h => h0 (by rw [h])
    rw [acc1_next V c t h0]
    rw [PhiS1_castSucc V c t, PhiS1_pos V c _ _ hz]
    by_cases h1 : t.val % 208 = 207
    · have hl : s1last (grid1.coords t) := (hlast1 t).mpr h1
      rw [show (dat1 V c).leavesExact 3 t = owns (c : Thread nD τ) (st1_3 t) fullShare ((dat1 V c).after 3 t) from by
        unfold Dat.leavesExact; rw [live1_3 t hl], after1_3, acc1_next V c t h0]
      iintro ⟨⟨⟨HS, HR⟩, Hg⟩, Ho, ⟨%d0, H0⟩, ⟨%d1, H1⟩, ⟨%d2, H2⟩, ⟨%d3, H3⟩⟩
      iapply (scatter1_last c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s1last (grid1.coords t) := fun h => h1 ((hlast1 t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (scatter1_mid c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running sum's name is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5200 := N_1; omega), PhiA1_eq]
  iintro ⟨⟨HS, HR⟩, Hg⟩
  isplitl [HS HR]
  · isplitl [HS]; · iexists _; iexact HS
    iexact HR
  iexact Hg

end Region1

end Cert.Kernel.Hand

end
-- ==== Proof.KBRuns2.lean ====
/-
  The body of kernel region 2 (gather and scale) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 2: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g2first (i : grid2.Coords) : Prop :=
  (Scalar.cmpi .ne (Scalar.extui (Scalar.cmpi .eq (BitVec.ofNat 32 (i 1).val) 0#32)) 0#32) = 1#1
/-- The node-block coordinate is the last one: the body's second conditional. -/
abbrev g2last (i : grid2.Coords) : Prop := k2_cond2 i = 1#1

set_option maxHeartbeats 2000000 in
/-- First node block of a row: the scratch, whatever it held, ends at the first partial sum added to zeros. -/
theorem gather2_first (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : g2first i) (hc2 : ¬ g2last i)
    (x2 : Vec F S8192 .i32) (x3 : Vec F S8192 .f32) (x4 : Vec F S1024x64 .bf16) (x5 : Vec F S8192x64 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k2_pay2 i x2 x4 k2_pay1)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x64_S8192x64_0_0 y⟩), View.canon_cons_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]
  rw [View.readCov_unit_zero _ hz2]

set_option maxHeartbeats 2000000 in
/-- A node block that is neither first nor last: the partial sum is added to what the scratch held. -/
theorem gather2_mid (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g2first i) (hc2 : ¬ g2last i)
    (x2 : Vec F S8192 .i32) (x3 : Vec F S8192 .f32) (x4 : Vec F S1024x64 .bf16) (x5 : Vec F S8192x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k2_pay2 i x2 x4 xs)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

set_option maxHeartbeats 2000000 in
/-- Last node block of a row: the sum is completed in the scratch and its product with the norm column is stored into the output block. -/
theorem gather2_last (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g2first i) (hc2 : g2last i)
    (x2 : Vec F S8192 .i32) (x3 : Vec F S8192 .f32) (x4 : Vec F S1024x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k2_pay3 x3 (k2_pay2 i x2 x4 xs)) ∗ owns (c : Thread nD τ) arg6 fullShare (k2_pay2 i x2 x4 xs)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x64_S8192x64_0_0 y⟩), View.canon_unit_zero hz2]
    simp only [View.readAt_eq_ld, harg2.read_unread, harg3.read_unread, harg4.read_unread, harg6.read_unread,
      View.ld_unit_zero (S := S8192) hz1, View.ld_unit_zero (S := S1024x64) hz2, View.ld_unit_zero (S := S8192x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

end Cert.Kernel.Hand

end
-- ==== Proof.KBRegion2.lean ====
/-
  Kernel region 2 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns2
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 2 of @main (gather), at the buffer contents `V` it is entered from

The proof data of the region's pipeline: each input window's staging buffer holds its block of the array; the
scratch operand carries the running sum from point to point along a row of the grid (`acc2`), which is part of
the region's invariant from the first point on; the output window's buffer is stored at the last point of a row
only, and is idle at the others. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The conditionals in closed form -/

/-- The first conditional holds at the first point of each row of the grid. -/
theorem hfirst2 : ∀ t : Fin cfg2.N, g2first (grid2.coords t) ↔ t.val % 50 = 0 :=
  (by decide +kernel : ∀ t : Fin grid2.N, g2first (grid2.coords t) ↔ t.val % 50 = 0)
/-- The second at the last. -/
theorem hlast2 : ∀ t : Fin cfg2.N, g2last (grid2.coords t) ↔ t.val % 50 = 49 :=
  (by decide +kernel : ∀ t : Fin grid2.N, g2last (grid2.coords t) ↔ t.val % 50 = 49)

/-- Away from the last point of a row the output window is idle, -/
theorem idle2_3 (t : Fin cfg2.N) (h : ¬ g2last (grid2.coords t)) : cfg2.idle 3 (cfg2.grid.coords t) = true := by
  show (!(k2_cond2 (grid2.coords t) == 1#1)) = true
  rw [Bool.not_eq_true', beq_eq_false_iff_ne]; exact h
/-- and is not written back; -/
theorem noFlush2_3 (t : Fin cfg2.N) (h : ¬ g2last (grid2.coords t)) : (cfg2.win 3).flush t = false :=
  Bool.eq_false_iff.mpr fun hf => h ((hlast2 t).mpr ((flush2_3 t).mp hf))
/-- at the last point it is live. -/
theorem live2_3 (t : Fin cfg2.N) (h : g2last (grid2.coords t)) : cfg2.idle 3 (cfg2.grid.coords t) = false := by
  show (!(k2_cond2 (grid2.coords t) == 1#1)) = false
  rw [Bool.not_eq_false', beq_iff_eq]; exact h

/-! ## The running sum -/

/-- What the scratch holds after the body at position `n`: at the first point of a row the first partial sum added to
    zeros, afterwards the point's partial sum added to what the point before left. -/
def acc2 (c : Dev nD) : (n : ℕ) → n < cfg2.N → Vec F S8192x64 .f32
  | 0, hn => k2_pay2 (grid2.coords ⟨0, hn⟩) (iblk2 V c 0 ⟨0, hn⟩) (iblk2 V c 2 ⟨0, hn⟩) k2_pay1
  | n + 1, hn =>
    if (n + 1) % 50 = 0 then k2_pay2 (grid2.coords ⟨n + 1, hn⟩) (iblk2 V c 0 ⟨n + 1, hn⟩) (iblk2 V c 2 ⟨n + 1, hn⟩) k2_pay1
    else k2_pay2 (grid2.coords ⟨n + 1, hn⟩) (iblk2 V c 0 ⟨n + 1, hn⟩) (iblk2 V c 2 ⟨n + 1, hn⟩) (acc2 c n (Nat.lt_of_succ_lt hn))

theorem acc2_first (c : Dev nD) (t : Fin cfg2.N) (h : t.val % 50 = 0) :
    acc2 V c t.val t.isLt = k2_pay2 (grid2.coords t) (iblk2 V c 0 t) (iblk2 V c 2 t) k2_pay1 := by
  obtain ⟨n, hn⟩ := t
  cases n with
  | zero => rfl
  | succ n => exact if_pos h

theorem acc2_next (c : Dev nD) (t : Fin cfg2.N) (h : ¬ t.val % 50 = 0) :
    acc2 V c t.val t.isLt = k2_pay2 (grid2.coords t) (iblk2 V c 0 t) (iblk2 V c 2 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM2 : Memref sig .tc .vmem S8192x64 .f32 := Memref.whole cc2_scratch0

/-- The scoped buffers other than the scratch operand, unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant before position `n`: before the first point every scoped buffer at anything; afterwards the
    scratch at the running sum the point before left, the other scoped buffers at anything, the generator register at
    some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

/-- The class invariant with the scratch operand opened. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; rfl

/-! ## The proof data -/

/-- The arrays as the region finds them; after the body at point `t` each input's buffer at its block and the output's
    at the scaled running sum (consulted where the block is written back: the last point of a row); the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 1 t) (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (iblk2 V c 1 t) (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
      unfold Dat.leavesExact; rw [show cfg2.idle 0 (cfg2.grid.coords t) = false from rfl], after2_0]
  rw [show (dat2 V c).leavesExact 1 t = owns (c : Thread nD τ) (st2_1 t) fullShare ((dat2 V c).after 1 t) from by
      unfold Dat.leavesExact; rw [show cfg2.idle 1 (cfg2.grid.coords t) = false from rfl], after2_1]
  rw [show (dat2 V c).leavesExact 2 t = owns (c : Thread nD τ) (st2_2 t) fullShare ((dat2 V c).after 2 t) from by
      unfold Dat.leavesExact; rw [show cfg2.idle 2 (cfg2.grid.coords t) = false from rfl], after2_2]
  have hN : t.val < 5200 := lt_of_lt_of_eq t.isLt (show cfg2.N = 5200 from N_2)
  by_cases h0 : t.val % 50 = 0
  · have h1 : ¬ t.val % 50 = 49 := by omega
    have hl : ¬ g2last (grid2.coords t) := fun h => h1 ((hlast2 t).mp h)
    rw [Dat.leavesExact_idle (dat2 V c) 3 t (idle2_3 t hl) (noFlush2_3 t hl)]
    rw [acc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (gather2_first c (grid2.coords t) _ _ _ _ _ _ _ _ _ _ ((hfirst2 t).mpr h0) hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (gather2_first c (grid2.coords t) _ _ _ _ _ _ _ _ _ _ ((hfirst2 t).mpr h0) hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g2first (grid2.coords t) := fun h => h0 ((hfirst2 t).mp h)
    have hz : t.val ≠ 0 := fun h => h0 (by rw [h])
    rw [acc2_next V c t h0]
    rw [PhiS2_castSucc V c t, PhiS2_pos V c _ _ hz]
    by_cases h1 : t.val % 50 = 49
    · have hl : g2last (grid2.coords t) := (hlast2 t).mpr h1
      rw [show (dat2 V c).leavesExact 3 t = owns (c : Thread nD τ) (st2_3 t) fullShare ((dat2 V c).after 3 t) from by
        unfold Dat.leavesExact; rw [live2_3 t hl], after2_3, acc2_next V c t h0]
      iintro ⟨⟨⟨HS, HR⟩, Hg⟩, Ho, ⟨%d0, H0⟩, ⟨%d1, H1⟩, ⟨%d2, H2⟩, ⟨%d3, H3⟩⟩
      iapply (gather2_last c (grid2.coords t) _ _ _ _ _ _ _ _ _ _ hf hl (iblk2 V c 0 t) (iblk2 V c 1 t) (iblk2 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g2last (grid2.coords t) := fun h => h1 ((hlast2 t).mp h)
      rw [Dat.leavesExact_idle (dat2 V c) 3 t (idle2_3 t hl) (noFlush2_3 t hl)]
      iintro ⟨⟨⟨HS, HR⟩, Hg⟩, Ho, ⟨%d0, H0⟩, ⟨%d1, H1⟩, ⟨%d2, H2⟩, ⟨%d3, H3⟩⟩
      iapply (gather2_mid c (grid2.coords t) _ _ _ _ _ _ _ _ _ _ hf hl (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the running sum's name is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5200 := N_2; omega), PhiA2_eq]
  iintro ⟨⟨HS, HR⟩, Hg⟩
  isplitl [HS HR]
  · isplitl [HS]; · iexists _; iexact HS
    iexact HR
  iexact Hg

end Region2

end Cert.Kernel.Hand

end
-- ==== Proof.KBRuns3.lean ====
/-
  The body of kernel region 3 (scatter and add) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 3: the scatter body on any whole staging memrefs, case by case

The body keeps a running sum in its scratch operand. At the first edge block of a row of the grid it stores zeros into
the scratch before adding; at the last, the hyperbolic tangent of the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s3first (i : grid3.Coords) : Prop :=
  (Scalar.cmpi .ne (Scalar.extui (Scalar.cmpi .eq (BitVec.ofNat 32 (i 1).val) 0#32)) 0#32) = 1#1
/-- The edge-block coordinate is the last one: the body's second conditional. -/
abbrev s3last (i : grid3.Coords) : Prop := k3_cond2 i = 1#1

set_option maxHeartbeats 2000000 in
/-- First edge block of a row: the scratch, whatever it held, ends at the first partial sum added to zeros. -/
theorem scatter3_first (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : s3first i) (hc2 : ¬ s3last i)
    (x2 : Vec F S4096 .i32) (x3 : Vec F S4096x64 .bf16) (x4 : Vec F S1x64 .f32) (x5 : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 i x2 k3_pay1 x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x64_S2048x64_0_0 y⟩), View.canon_cons_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
  rw [View.readCov_unit_zero _ hz2]

set_option maxHeartbeats 2000000 in
/-- A edge block that is neither first nor last: the partial sum is added to what the scratch held. -/
theorem scatter3_mid (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s3first i) (hc2 : ¬ s3last i)
    (x2 : Vec F S4096 .i32) (x3 : Vec F S4096x64 .bf16) (x4 : Vec F S1x64 .f32) (x5 : Vec F S2048x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 i x2 xs x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

set_option maxHeartbeats 2000000 in
/-- Last edge block of a row: the sum is completed in the scratch and the hyperbolic tangent of the sum plus the bias row is stored into the output block. -/
theorem scatter3_last (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s3first i) (hc2 : s3last i)
    (x2 : Vec F S4096 .i32) (x3 : Vec F S4096x64 .bf16) (x4 : Vec F S1x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k3_pay3 (k3_pay2 i x2 xs x3) x4) ∗ owns (c : Thread nD τ) arg6 fullShare (k3_pay2 i x2 xs x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

end Cert.Kernel.Hand

end
-- ==== Proof.KBRegion3.lean ====
/-
  Kernel region 3 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns3
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 3 of @main (scatter), at the buffer contents `V` it is entered from

The proof data of the region's pipeline: each input window's staging buffer holds its block of the array; the
scratch operand carries the running sum from point to point along a row of the grid (`acc3`), which is part of
the region's invariant from the first point on; the output window's buffer is stored at the last point of a row
only, and is idle at the others. -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The conditionals in closed form -/

/-- The first conditional holds at the first point of each row of the grid. -/
theorem hfirst3 : ∀ t : Fin cfg3.N, s3first (grid3.coords t) ↔ t.val % 208 = 0 :=
  (by decide +kernel : ∀ t : Fin grid3.N, s3first (grid3.coords t) ↔ t.val % 208 = 0)
/-- The second at the last. -/
theorem hlast3 : ∀ t : Fin cfg3.N, s3last (grid3.coords t) ↔ t.val % 208 = 207 :=
  (by decide +kernel : ∀ t : Fin grid3.N, s3last (grid3.coords t) ↔ t.val % 208 = 207)

/-- Away from the last point of a row the output window is idle, -/
theorem idle3_3 (t : Fin cfg3.N) (h : ¬ s3last (grid3.coords t)) : cfg3.idle 3 (cfg3.grid.coords t) = true := by
  show (!(k3_cond2 (grid3.coords t) == 1#1)) = true
  rw [Bool.not_eq_true', beq_eq_false_iff_ne]; exact h
/-- and is not written back; -/
theorem noFlush3_3 (t : Fin cfg3.N) (h : ¬ s3last (grid3.coords t)) : (cfg3.win 3).flush t = false :=
  Bool.eq_false_iff.mpr fun hf => h ((hlast3 t).mpr ((flush3_3 t).mp hf))
/-- at the last point it is live. -/
theorem live3_3 (t : Fin cfg3.N) (h : s3last (grid3.coords t)) : cfg3.idle 3 (cfg3.grid.coords t) = false := by
  show (!(k3_cond2 (grid3.coords t) == 1#1)) = false
  rw [Bool.not_eq_false', beq_iff_eq]; exact h

/-! ## The running sum -/

/-- What the scratch holds after the body at position `n`: at the first point of a row the first partial sum added to
    zeros, afterwards the point's partial sum added to what the point before left. -/
def acc3 (c : Dev nD) : (n : ℕ) → n < cfg3.N → Vec F S2048x64 .f32
  | 0, hn => k3_pay2 (grid3.coords ⟨0, hn⟩) (iblk3 V c 0 ⟨0, hn⟩) k3_pay1 (iblk3 V c 1 ⟨0, hn⟩)
  | n + 1, hn =>
    if (n + 1) % 208 = 0 then k3_pay2 (grid3.coords ⟨n + 1, hn⟩) (iblk3 V c 0 ⟨n + 1, hn⟩) k3_pay1 (iblk3 V c 1 ⟨n + 1, hn⟩)
    else k3_pay2 (grid3.coords ⟨n + 1, hn⟩) (iblk3 V c 0 ⟨n + 1, hn⟩) (acc3 c n (Nat.lt_of_succ_lt hn)) (iblk3 V c 1 ⟨n + 1, hn⟩)

theorem acc3_first (c : Dev nD) (t : Fin cfg3.N) (h : t.val % 208 = 0) :
    acc3 V c t.val t.isLt = k3_pay2 (grid3.coords t) (iblk3 V c 0 t) k3_pay1 (iblk3 V c 1 t) := by
  obtain ⟨n, hn⟩ := t
  cases n with
  | zero => rfl
  | succ n => exact if_pos h

theorem acc3_next (c : Dev nD) (t : Fin cfg3.N) (h : ¬ t.val % 208 = 0) :
    acc3 V c t.val t.isLt = k3_pay2 (grid3.coords t) (iblk3 V c 0 t) (acc3 V c (t.val - 1) (Nat.lt_of_le_of_lt (Nat.sub_le _ _) t.isLt)) (iblk3 V c 1 t) := by
  obtain ⟨n, hn⟩ := t
  cases n with
  | zero => exact absurd (Nat.zero_mod _) h
  | succ n => exact if_neg h

/-! ## The invariant -/

/-- The scratch operand as a memref. -/
abbrev scM3 : Memref sig .tc .vmem S2048x64 .f32 := Memref.whole cc3_scratch0

/-- The scoped buffers other than the scratch operand, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant before position `n`: before the first point every scoped buffer at anything; afterwards the
    scratch at the running sum the point before left, the other scoped buffers at anything, the generator register at
    some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 c) ∗ (∃ r, prngReg c r)) := by
  cases n with
  | zero => exact absurd rfl hz
  | succ n => rfl

/-- The class invariant with the scratch operand opened. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; rfl

/-! ## The proof data -/

/-- The arrays as the region finds them; after the body at point `t` each input's buffer at its block and the output's
    at the scaled running sum (consulted where the block is written back: the last point of a row); the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
      unfold Dat.leavesExact; rw [show cfg3.idle 0 (cfg3.grid.coords t) = false from rfl], after3_0]
  rw [show (dat3 V c).leavesExact 1 t = owns (c : Thread nD τ) (st3_1 t) fullShare ((dat3 V c).after 1 t) from by
      unfold Dat.leavesExact; rw [show cfg3.idle 1 (cfg3.grid.coords t) = false from rfl], after3_1]
  rw [show (dat3 V c).leavesExact 2 t = owns (c : Thread nD τ) (st3_2 t) fullShare ((dat3 V c).after 2 t) from by
      unfold Dat.leavesExact; rw [show cfg3.idle 2 (cfg3.grid.coords t) = false from rfl], after3_2]
  have hN : t.val < 5200 := lt_of_lt_of_eq t.isLt (show cfg3.N = 5200 from N_3)
  by_cases h0 : t.val % 208 = 0
  · have h1 : ¬ t.val % 208 = 207 := by omega
    have hl : ¬ s3last (grid3.coords t) := fun h => h1 ((hlast3 t).mp h)
    rw [Dat.leavesExact_idle (dat3 V c) 3 t (idle3_3 t hl) (noFlush3_3 t hl)]
    rw [acc3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (scatter3_first c (grid3.coords t) _ _ _ _ _ _ _ _ _ _ ((hfirst3 t).mpr h0) hl (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (scatter3_first c (grid3.coords t) _ _ _ _ _ _ _ _ _ _ ((hfirst3 t).mpr h0) hl (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s3first (grid3.coords t) := fun h => h0 ((hfirst3 t).mp h)
    have hz : t.val ≠ 0 := fun h => h0 (by rw [h])
    rw [acc3_next V c t h0]
    rw [PhiS3_castSucc V c t, PhiS3_pos V c _ _ hz]
    by_cases h1 : t.val % 208 = 207
    · have hl : s3last (grid3.coords t) := (hlast3 t).mpr h1
      rw [show (dat3 V c).leavesExact 3 t = owns (c : Thread nD τ) (st3_3 t) fullShare ((dat3 V c).after 3 t) from by
        unfold Dat.leavesExact; rw [live3_3 t hl], after3_3, acc3_next V c t h0]
      iintro ⟨⟨⟨HS, HR⟩, Hg⟩, Ho, ⟨%d0, H0⟩, ⟨%d1, H1⟩, ⟨%d2, H2⟩, ⟨%d3, H3⟩⟩
      iapply (scatter3_last c (grid3.coords t) _ _ _ _ _ _ _ _ _ _ hf hl (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s3last (grid3.coords t) := fun h => h1 ((hlast3 t).mp h)
      rw [Dat.leavesExact_idle (dat3 V c) 3 t (idle3_3 t hl) (noFlush3_3 t hl)]
      iintro ⟨⟨⟨HS, HR⟩, Hg⟩, Ho, ⟨%d0, H0⟩, ⟨%d1, H1⟩, ⟨%d2, H2⟩, ⟨%d3, H3⟩⟩
      iapply (scatter3_mid c (grid3.coords t) _ _ _ _ _ _ _ _ _ _ hf hl (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the running sum's name is forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 5200 := N_3; omega), PhiA3_eq]
  iintro ⟨⟨HS, HR⟩, Hg⟩
  isplitl [HS HR]
  · isplitl [HS]; · iexists _; iexact HS
    iexact HR
  iexact Hg

end Region3

end Cert.Kernel.Hand

end
-- ==== Proof.KBRuns4.lean ====
/-
  The body of kernel region 4 (gather and scale) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 4: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g4first (i : grid4.Coords) : Prop :=
  (Scalar.cmpi .ne (Scalar.extui (Scalar.cmpi .eq (BitVec.ofNat 32 (i 1).val) 0#32)) 0#32) = 1#1
/-- The node-block coordinate is the last one: the body's second conditional. -/
abbrev g4last (i : grid4.Coords) : Prop := k4_cond2 i = 1#1

set_option maxHeartbeats 2000000 in
/-- First node block of a row: the scratch, whatever it held, ends at the first partial sum added to zeros. -/
theorem gather4_first (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : g4first i) (hc2 : ¬ g4last i)
    (x2 : Vec F S8192 .i32) (x3 : Vec F S8192 .f32) (x4 : Vec F S1024x32 .bf16) (x5 : Vec F S8192x32 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 i x2 x4 k4_pay1)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x32_S8192x32_0_0 y⟩), View.canon_cons_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]
  rw [View.readCov_unit_zero _ hz2]

set_option maxHeartbeats 2000000 in
/-- A node block that is neither first nor last: the partial sum is added to what the scratch held. -/
theorem gather4_mid (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : ¬ g4first i) (hc2 : ¬ g4last i)
    (x2 : Vec F S8192 .i32) (x3 : Vec F S8192 .f32) (x4 : Vec F S1024x32 .bf16) (x5 : Vec F S8192x32 .bf16) (xs : Vec F S8192x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 i x2 x4 xs)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x32_S8192x32_0_0 y⟩), View.canon_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]

set_option maxHeartbeats 2000000 in
/-- Last node block of a row: the sum is completed in the scratch and its product with the norm column is stored into the output block. -/
theorem gather4_last (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : ¬ g4first i) (hc2 : g4last i)
    (x2 : Vec F S8192 .i32) (x3 : Vec F S8192 .f32) (x4 : Vec F S1024x32 .bf16) (xs : Vec F S8192x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k4_pay3 x3 (k4_pay2 i x2 x4 xs)) ∗ owns (c : Thread nD τ) arg6 fullShare (k4_pay2 i x2 x4 xs)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x32_S8192x32_0_0 y⟩), View.canon_unit_zero hz2]
    simp only [View.readAt_eq_ld, harg2.read_unread, harg3.read_unread, harg4.read_unread, harg6.read_unread,
      View.ld_unit_zero (S := S8192) hz1, View.ld_unit_zero (S := S1024x32) hz2, View.ld_unit_zero (S := S8192x32) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x32_S8192x32_0_0 y⟩), View.canon_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]

end Cert.Kernel.Hand

end
-- ==== Proof.KBRegion4.lean ====
/-
  Kernel region 4 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns4
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 4 of @main (gather), at the buffer contents `V` it is entered from

The proof data of the region's pipeline: each input window's staging buffer holds its block of the array; the
scratch operand carries the running sum from point to point along a row of the grid (`acc4`), which is part of
the region's invariant from the first point on; the output window's buffer is stored at the last point of a row
only, and is idle at the others. -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The conditionals in closed form -/

/-- The first conditional holds at the first point of each row of the grid. -/
theorem hfirst4 : ∀ t : Fin cfg4.N, g4first (grid4.coords t) ↔ t.val % 50 = 0 :=
  (by decide +kernel : ∀ t : Fin grid4.N, g4first (grid4.coords t) ↔ t.val % 50 = 0)
/-- The second at the last. -/
theorem hlast4 : ∀ t : Fin cfg4.N, g4last (grid4.coords t) ↔ t.val % 50 = 49 :=
  (by decide +kernel : ∀ t : Fin grid4.N, g4last (grid4.coords t) ↔ t.val % 50 = 49)

/-- Away from the last point of a row the output window is idle, -/
theorem idle4_3 (t : Fin cfg4.N) (h : ¬ g4last (grid4.coords t)) : cfg4.idle 3 (cfg4.grid.coords t) = true := by
  show (!(k4_cond2 (grid4.coords t) == 1#1)) = true
  rw [Bool.not_eq_true', beq_eq_false_iff_ne]; exact h
/-- and is not written back; -/
theorem noFlush4_3 (t : Fin cfg4.N) (h : ¬ g4last (grid4.coords t)) : (cfg4.win 3).flush t = false :=
  Bool.eq_false_iff.mpr fun hf => h ((hlast4 t).mpr ((flush4_3 t).mp hf))
/-- at the last point it is live. -/
theorem live4_3 (t : Fin cfg4.N) (h : g4last (grid4.coords t)) : cfg4.idle 3 (cfg4.grid.coords t) = false := by
  show (!(k4_cond2 (grid4.coords t) == 1#1)) = false
  rw [Bool.not_eq_false', beq_iff_eq]; exact h

/-! ## The running sum -/

/-- What the scratch holds after the body at position `n`: at the first point of a row the first partial sum added to
    zeros, afterwards the point's partial sum added to what the point before left. -/
def acc4 (c : Dev nD) : (n : ℕ) → n < cfg4.N → Vec F S8192x32 .f32
  | 0, hn => k4_pay2 (grid4.coords ⟨0, hn⟩) (iblk4 V c 0 ⟨0, hn⟩) (iblk4 V c 2 ⟨0, hn⟩) k4_pay1
  | n + 1, hn =>
    if (n + 1) % 50 = 0 then k4_pay2 (grid4.coords ⟨n + 1, hn⟩) (iblk4 V c 0 ⟨n + 1, hn⟩) (iblk4 V c 2 ⟨n + 1, hn⟩) k4_pay1
    else k4_pay2 (grid4.coords ⟨n + 1, hn⟩) (iblk4 V c 0 ⟨n + 1, hn⟩) (iblk4 V c 2 ⟨n + 1, hn⟩) (acc4 c n (Nat.lt_of_succ_lt hn))

theorem acc4_first (c : Dev nD) (t : Fin cfg4.N) (h : t.val % 50 = 0) :
    acc4 V c t.val t.isLt = k4_pay2 (grid4.coords t) (iblk4 V c 0 t) (iblk4 V c 2 t) k4_pay1 := by
  obtain ⟨n, hn⟩ := t
  cases n with
  | zero => rfl
  | succ n => exact if_pos h

theorem acc4_next (c : Dev nD) (t : Fin cfg4.N) (h : ¬ t.val % 50 = 0) :
    acc4 V c t.val t.isLt = k4_pay2 (grid4.coords t) (iblk4 V c 0 t) (iblk4 V c 2 t) (acc4 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM4 : Memref sig .tc .vmem S8192x32 .f32 := Memref.whole cc4_scratch0

/-- The scoped buffers other than the scratch operand, unopened. -/
abbrev rest4 (c : Dev nD) : sProp 𝕄 :=
  Pipeline.scopedRestBut (Ix := Unit) (Name := ℕ) (U := UR sig nD τ) (Lvl := ℕ) (Val := Elt F) spec4 c [cc4_scratch0]

/-- The region's invariant before position `n`: before the first point every scoped buffer at anything; afterwards the
    scratch at the running sum the point before left, the other scoped buffers at anything, the generator register at
    some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ rest4 c) ∗ (∃ r, prngReg c r)) := by
  cases n with
  | zero => exact absurd rfl hz
  | succ n => rfl

/-- The class invariant with the scratch operand opened. -/
theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; rfl

/-! ## The proof data -/

/-- The arrays as the region finds them; after the body at point `t` each input's buffer at its block and the output's
    at the scaled running sum (consulted where the block is written back: the last point of a row); the invariant
    `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 1 t) (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (iblk4 V c 1 t) (acc4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
      unfold Dat.leavesExact; rw [show cfg4.idle 0 (cfg4.grid.coords t) = false from rfl], after4_0]
  rw [show (dat4 V c).leavesExact 1 t = owns (c : Thread nD τ) (st4_1 t) fullShare ((dat4 V c).after 1 t) from by
      unfold Dat.leavesExact; rw [show cfg4.idle 1 (cfg4.grid.coords t) = false from rfl], after4_1]
  rw [show (dat4 V c).leavesExact 2 t = owns (c : Thread nD τ) (st4_2 t) fullShare ((dat4 V c).after 2 t) from by
      unfold Dat.leavesExact; rw [show cfg4.idle 2 (cfg4.grid.coords t) = false from rfl], after4_2]
  have hN : t.val < 5200 := lt_of_lt_of_eq t.isLt (show cfg4.N = 5200 from N_4)
  by_cases h0 : t.val % 50 = 0
  · have h1 : ¬ t.val % 50 = 49 := by omega
    have hl : ¬ g4last (grid4.coords t) := fun h => h1 ((hlast4 t).mp h)
    rw [Dat.leavesExact_idle (dat4 V c) 3 t (idle4_3 t hl) (noFlush4_3 t hl)]
    rw [acc4_first V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply (gather4_first c (grid4.coords t) _ _ _ _ _ _ _ _ _ _ ((hfirst4 t).mpr h0) hl (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply (gather4_first c (grid4.coords t) _ _ _ _ _ _ _ _ _ _ ((hfirst4 t).mpr h0) hl (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g4first (grid4.coords t) := fun h => h0 ((hfirst4 t).mp h)
    have hz : t.val ≠ 0 := fun h => h0 (by rw [h])
    rw [acc4_next V c t h0]
    rw [PhiS4_castSucc V c t, PhiS4_pos V c _ _ hz]
    by_cases h1 : t.val % 50 = 49
    · have hl : g4last (grid4.coords t) := (hlast4 t).mpr h1
      rw [show (dat4 V c).leavesExact 3 t = owns (c : Thread nD τ) (st4_3 t) fullShare ((dat4 V c).after 3 t) from by
        unfold Dat.leavesExact; rw [live4_3 t hl], after4_3, acc4_next V c t h0]
      iintro ⟨⟨⟨HS, HR⟩, Hg⟩, Ho, ⟨%d0, H0⟩, ⟨%d1, H1⟩, ⟨%d2, H2⟩, ⟨%d3, H3⟩⟩
      iapply (gather4_last c (grid4.coords t) _ _ _ _ _ _ _ _ _ _ hf hl (iblk4 V c 0 t) (iblk4 V c 1 t) (iblk4 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g4last (grid4.coords t) := fun h => h1 ((hlast4 t).mp h)
      rw [Dat.leavesExact_idle (dat4 V c) 3 t (idle4_3 t hl) (noFlush4_3 t hl)]
      iintro ⟨⟨⟨HS, HR⟩, Hg⟩, Ho, ⟨%d0, H0⟩, ⟨%d1, H1⟩, ⟨%d2, H2⟩, ⟨%d3, H3⟩⟩
      iapply (gather4_mid c (grid4.coords t) _ _ _ _ _ _ _ _ _ _ hf hl (iblk4 V c 0 t) (iblk4 V c 1 t) (iblk4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the running sum's name is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 5200 := N_4; omega), PhiA4_eq]
  iintro ⟨⟨HS, HR⟩, Hg⟩
  isplitl [HS HR]
  · isplitl [HS]; · iexists _; iexact HS
    iexact HR
  iexact Hg

end Region4

end Cert.Kernel.Hand

end
-- ==== Proof.KBRuns5.lean ====
/-
  The body of kernel region 5 (scatter and add) run symbolically in each of the three cases of its two conditionals.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 5: the scatter body on any whole staging memrefs, case by case

The body keeps a running sum in its scratch operand. At the first edge block of a row of the grid it stores zeros into
the scratch before adding; at the last, the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s5first (i : grid5.Coords) : Prop :=
  (Scalar.cmpi .ne (Scalar.extui (Scalar.cmpi .eq (BitVec.ofNat 32 (i 1).val) 0#32)) 0#32) = 1#1
/-- The edge-block coordinate is the last one: the body's second conditional. -/
abbrev s5last (i : grid5.Coords) : Prop := k5_cond2 i = 1#1

set_option maxHeartbeats 2000000 in
/-- First edge block of a row: the scratch, whatever it held, ends at the first partial sum added to zeros. -/
theorem scatter5_first (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : s5first i) (hc2 : ¬ s5last i)
    (x2 : Vec F S4096 .i32) (x3 : Vec F S4096x32 .bf16) (x4 : Vec F S1x32 .f32) (x5 : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 i x2 k5_pay1 x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x32_S2048x32_0_0 y⟩), View.canon_cons_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]
  rw [View.readCov_unit_zero _ hz2]

set_option maxHeartbeats 2000000 in
/-- A edge block that is neither first nor last: the partial sum is added to what the scratch held. -/
theorem scatter5_mid (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : ¬ s5first i) (hc2 : ¬ s5last i)
    (x2 : Vec F S4096 .i32) (x3 : Vec F S4096x32 .bf16) (x4 : Vec F S1x32 .f32) (x5 : Vec F S2048x32 .f32) (xs : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 i x2 xs x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x32_S2048x32_0_0 y⟩), View.canon_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]

set_option maxHeartbeats 2000000 in
/-- Last edge block of a row: the sum is completed in the scratch and the sum plus the bias row is stored into the output block. -/
theorem scatter5_last (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : ¬ s5first i) (hc2 : s5last i)
    (x2 : Vec F S4096 .i32) (x3 : Vec F S4096x32 .bf16) (x4 : Vec F S1x32 .f32) (xs : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k5_pay3 (k5_pay2 i x2 xs x3) x4) ∗ owns (c : Thread nD τ) arg6 fullShare (k5_pay2 i x2 xs x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x32_S2048x32_0_0 y⟩), View.canon_unit_zero hz2]
    simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x32_S2048x32_0_0 y⟩), View.canon_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]

end Cert.Kernel.Hand

end
-- ==== Proof.KBRegion5.lean ====
/-
  Kernel region 5 of the program as a pipeline with proof data: blocks, running sum, invariant, body obligation.
-/
import proofs.«130920_j16286515987226_2_alg».proof.Proof.Gen.Kernel.Skeleton
import proofs.«130920_j16286515987226_2_alg».proof.Proof.Gen.Kernel.Launch
import proofs.«130920_j16286515987226_2_alg».proof.Proof.Gen.Kernel.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KBRuns5
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 5 of @main (scatter), at the buffer contents `V` it is entered from

The proof data of the region's pipeline: each input window's staging buffer holds its block of the array; the
scratch operand carries the running sum from point to point along a row of the grid (`acc5`), which is part of
the region's invariant from the first point on; the output window's buffer is stored at the last point of a row
only, and is idle at the others. -/

section Region5

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The conditionals in closed form -/

/-- The first conditional holds at the first point of each row of the grid. -/
theorem hfirst5 : ∀ t : Fin cfg5.N, s5first (grid5.coords t) ↔ t.val % 208 = 0 :=
  (by decide +kernel : ∀ t : Fin grid5.N, s5first (grid5.coords t) ↔ t.val % 208 = 0)
/-- The second at the last. -/
theorem hlast5 : ∀ t : Fin cfg5.N, s5last (grid5.coords t) ↔ t.val % 208 = 207 :=
  (by decide +kernel : ∀ t : Fin grid5.N, s5last (grid5.coords t) ↔ t.val % 208 = 207)

/-- Away from the last point of a row the output window is idle, -/
theorem idle5_3 (t : Fin cfg5.N) (h : ¬ s5last (grid5.coords t)) : cfg5.idle 3 (cfg5.grid.coords t) = true := by
  show (!(k5_cond2 (grid5.coords t) == 1#1)) = true
  rw [Bool.not_eq_true', beq_eq_false_iff_ne]; exact h
/-- and is not written back; -/
theorem noFlush5_3 (t : Fin cfg5.N) (h : ¬ s5last (grid5.coords t)) : (cfg5.win 3).flush t = false :=
  Bool.eq_false_iff.mpr fun hf => h ((hlast5 t).mpr ((flush5_3 t).mp hf))
/-- at the last point it is live. -/
theorem live5_3 (t : Fin cfg5.N) (h : s5last (grid5.coords t)) : cfg5.idle 3 (cfg5.grid.coords t) = false := by
  show (!(k5_cond2 (grid5.coords t) == 1#1)) = false
  rw [Bool.not_eq_false', beq_iff_eq]; exact h

/-! ## The running sum -/

/-- What the scratch holds after the body at position `n`: at the first point of a row the first partial sum added to
    zeros, afterwards the point's partial sum added to what the point before left. -/
def acc5 (c : Dev nD) : (n : ℕ) → n < cfg5.N → Vec F S2048x32 .f32
  | 0, hn => k5_pay2 (grid5.coords ⟨0, hn⟩) (iblk5 V c 0 ⟨0, hn⟩) k5_pay1 (iblk5 V c 1 ⟨0, hn⟩)
  | n + 1, hn =>
    if (n + 1) % 208 = 0 then k5_pay2 (grid5.coords ⟨n + 1, hn⟩) (iblk5 V c 0 ⟨n + 1, hn⟩) k5_pay1 (iblk5 V c 1 ⟨n + 1, hn⟩)
    else k5_pay2 (grid5.coords ⟨n + 1, hn⟩) (iblk5 V c 0 ⟨n + 1, hn⟩) (acc5 c n (Nat.lt_of_succ_lt hn)) (iblk5 V c 1 ⟨n + 1, hn⟩)

theorem acc5_first (c : Dev nD) (t : Fin cfg5.N) (h : t.val % 208 = 0) :
    acc5 V c t.val t.isLt = k5_pay2 (grid5.coords t) (iblk5 V c 0 t) k5_pay1 (iblk5 V c 1 t) := by
  obtain ⟨n, hn⟩ := t
  cases n with
  | zero => rfl
  | succ n => exact if_pos h

theorem acc5_next (c : Dev nD) (t : Fin cfg5.N) (h : ¬ t.val % 208 = 0) :
    acc5 V c t.val t.isLt = k5_pay2 (grid5.coords t) (iblk5 V c 0 t) (acc5 V c (t.val - 1) (Nat.lt_of_le_of_lt (Nat.sub_le _ _) t.isLt)) (iblk5 V c 1 t) := by
  obtain ⟨n, hn⟩ := t
  cases n with
  | zero => exact absurd (Nat.zero_mod _) h
  | succ n => exact if_neg h

/-! ## The invariant -/

/-- The scratch operand as a memref. -/
abbrev scM5 : Memref sig .tc .vmem S2048x32 .f32 := Memref.whole cc5_scratch0

/-- The scoped buffers other than the scratch operand, unopened. -/
abbrev rest5 (c : Dev nD) : sProp 𝕄 :=
  Pipeline.scopedRestBut (Ix := Unit) (Name := ℕ) (U := UR sig nD τ) (Lvl := ℕ) (Val := Elt F) spec5 c [cc5_scratch0]

/-- The region's invariant before position `n`: before the first point every scoped buffer at anything; afterwards the
    scratch at the running sum the point before left, the other scoped buffers at anything, the generator register at
    some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ rest5 c) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ rest5 c) ∗ (∃ r, prngReg c r)) := by
  cases n with
  | zero => exact absurd rfl hz
  | succ n => rfl

/-- The class invariant with the scratch operand opened. -/
theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; rfl

/-! ## The proof data -/

/-- The arrays as the region finds them; after the body at point `t` each input's buffer at its block and the output's
    at the scaled running sum (consulted where the block is written back: the last point of a row); the invariant
    `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (acc5 V c t.val t.isLt) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
      unfold Dat.leavesExact; rw [show cfg5.idle 0 (cfg5.grid.coords t) = false from rfl], after5_0]
  rw [show (dat5 V c).leavesExact 1 t = owns (c : Thread nD τ) (st5_1 t) fullShare ((dat5 V c).after 1 t) from by
      unfold Dat.leavesExact; rw [show cfg5.idle 1 (cfg5.grid.coords t) = false from rfl], after5_1]
  rw [show (dat5 V c).leavesExact 2 t = owns (c : Thread nD τ) (st5_2 t) fullShare ((dat5 V c).after 2 t) from by
      unfold Dat.leavesExact; rw [show cfg5.idle 2 (cfg5.grid.coords t) = false from rfl], after5_2]
  have hN : t.val < 5200 := lt_of_lt_of_eq t.isLt (show cfg5.N = 5200 from N_5)
  by_cases h0 : t.val % 208 = 0
  · have h1 : ¬ t.val % 208 = 207 := by omega
    have hl : ¬ s5last (grid5.coords t) := fun h => h1 ((hlast5 t).mp h)
    rw [Dat.leavesExact_idle (dat5 V c) 3 t (idle5_3 t hl) (noFlush5_3 t hl)]
    rw [acc5_first V c t h0]
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩⟩
      iapply (scatter5_first c (grid5.coords t) _ _ _ _ _ _ _ _ _ _ ((hfirst5 t).mpr h0) hl (iblk5 V c 0 t) (iblk5 V c 1 t) (iblk5 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩⟩
      iapply (scatter5_first c (grid5.coords t) _ _ _ _ _ _ _ _ _ _ ((hfirst5 t).mpr h0) hl (iblk5 V c 0 t) (iblk5 V c 1 t) (iblk5 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s5first (grid5.coords t) := fun h => h0 ((hfirst5 t).mp h)
    have hz : t.val ≠ 0 := fun h => h0 (by rw [h])
    rw [acc5_next V c t h0]
    rw [PhiS5_castSucc V c t, PhiS5_pos V c _ _ hz]
    by_cases h1 : t.val % 208 = 207
    · have hl : s5last (grid5.coords t) := (hlast5 t).mpr h1
      rw [show (dat5 V c).leavesExact 3 t = owns (c : Thread nD τ) (st5_3 t) fullShare ((dat5 V c).after 3 t) from by
        unfold Dat.leavesExact; rw [live5_3 t hl], after5_3, acc5_next V c t h0]
      iintro ⟨⟨⟨HS, HR⟩, Hg⟩, Ho, ⟨%d0, H0⟩, ⟨%d1, H1⟩, ⟨%d2, H2⟩, ⟨%d3, H3⟩⟩
      iapply (scatter5_last c (grid5.coords t) _ _ _ _ _ _ _ _ _ _ hf hl (iblk5 V c 0 t) (iblk5 V c 1 t) (iblk5 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s5last (grid5.coords t) := fun h => h1 ((hlast5 t).mp h)
      rw [Dat.leavesExact_idle (dat5 V c) 3 t (idle5_3 t hl) (noFlush5_3 t hl)]
      iintro ⟨⟨⟨HS, HR⟩, Hg⟩, Ho, ⟨%d0, H0⟩, ⟨%d1, H1⟩, ⟨%d2, H2⟩, ⟨%d3, H3⟩⟩
      iapply (scatter5_mid c (grid5.coords t) _ _ _ _ _ _ _ _ _ _ hf hl (iblk5 V c 0 t) (iblk5 V c 1 t) (iblk5 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: the running sum's name is forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 5200 := N_5; omega), PhiA5_eq]
  iintro ⟨⟨HS, HR⟩, Hg⟩
  isplitl [HS HR]
  · isplitl [HS]; · iexists _; iexact HS
    iexact HR
  iexact Hg

end Region5

end Cert.Kernel.Hand

end
-- ==== Proof.KBFrame.lean ====
/-
  @main of the program as a list of segments — host stretches and the six kernel regions — and its run: every weakly
  fair execution terminates, nothing faults, and every unscoped buffer ends at the contents the last boundary names;
  in particular every argument array ends as launched.
-/
import proofs.«130920_j16286515987226_2_alg».proof.Proof.KBRegion0
import proofs.«130920_j16286515987226_2_alg».proof.Proof.KBRegion1
import proofs.«130920_j16286515987226_2_alg».proof.Proof.KBRegion2
import proofs.«130920_j16286515987226_2_alg».proof.Proof.KBRegion3
import proofs.«130920_j16286515987226_2_alg».proof.Proof.KBRegion4
import proofs.«130920_j16286515987226_2_alg».proof.Proof.KBRegion5
import proofs.«130920_j16286515987226_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # @main as segments, and its run -/

variable (m : (ℓ : Loc nD τ sig) → Buf (Elt F) ℓ) (ρ : Dev nD → PrngReg)

/-! ## The buffers' contents at each boundary between two items of @main

Before region 0 they are the launch contents run through the first five stretches of host operations. A region
changes its output array only, to what its pipeline leaves there (`Dat.arrAt` at the last point); a host stretch
changes what its operations write. -/

/-- Entering region 0. -/
abbrev X5 (c : Dev nD) : Valuation τ sig (Elt F) := Gen.V5 m c

/-- The contents region 0 is entered from, read at the TensorCore's references. -/
abbrev En0 : (c : Dev nD) → (b : Ref sig .tc) → Buf (Elt F) ((c : Thread nD τ).loc b) := fun c b => X5 m c b
/-- What region 0's pipeline leaves in its output array. -/
def arr0 (c : Dev nD) : Buf (Elt F) ((c : Thread nD τ).loc main_v39) := (dat0 (En0 m) c).arrAt 3 cfg0.N
/-- Leaving region 0. -/
def X6 (c : Dev nD) : Valuation τ sig (Elt F) := Function.update (X5 m c) main_v39 (arr0 m c)
/-- After the host stretch `hostOps1`. -/
abbrev X7 (c : Dev nD) : Valuation τ sig (Elt F) := StableHlo.after hostOps1 (X6 m c)
/-- The same read at the TensorCore's references. -/
abbrev Ex0 : (c : Dev nD) → (b : Ref sig .tc) → Buf (Elt F) ((c : Thread nD τ).loc b) := fun c b => X6 m c b

theorem X6_out (c : Dev nD) : X6 m c main_v39 = arr0 m c := by
  unfold X6; exact Function.update_self _ _ _
theorem X6_of_ne (c : Dev nD) (b : Ref sig .tc) (hb : b ≠ main_v39) : X6 m c b = X5 m c b := by
  unfold X6; exact Function.update_of_ne (StableHlo.devRef_ne_of_ne hb) _ _

/-- At region 0's exit each of its arrays holds what the pipeline leaves: an input array what it held (the pipeline only
    reads it), the output array the folded write-backs. -/
theorem hF0 (c : Dev nD) : ∀ w : Fin cfg0.W, (dat0 (En0 m) c).arrAt w cfg0.N = Ex0 m c (Pipeline.arrRef spec0 w)
  | ⟨0, _⟩ => ((dat0 (En0 m) c).arrAt_in 0 rfl _).trans ((A_eq0 (En0 m) c 0).trans (X6_of_ne m c _ (by decide)).symm)
  | ⟨1, _⟩ => ((dat0 (En0 m) c).arrAt_in 1 rfl _).trans ((A_eq0 (En0 m) c 1).trans (X6_of_ne m c _ (by decide)).symm)
  | ⟨2, _⟩ => ((dat0 (En0 m) c).arrAt_in 2 rfl _).trans ((A_eq0 (En0 m) c 2).trans (X6_of_ne m c _ (by decide)).symm)
  | ⟨3, _⟩ => (X6_out m c).symm
/-- Every other buffer holds what it held at entry. -/
theorem hrest0 (c : Dev nD) : ∀ b, b ∉ Finset.univ.image (Pipeline.arrRef spec0) → Ex0 m c b = En0 m c b :=
  fun b hb => X6_of_ne m c b fun e => hb (Finset.mem_image.mpr ⟨3, Finset.mem_univ _, e.symm⟩)

/-- The contents region 1 is entered from, read at the TensorCore's references. -/
abbrev En1 : (c : Dev nD) → (b : Ref sig .tc) → Buf (Elt F) ((c : Thread nD τ).loc b) := fun c b => X7 m c b
/-- What region 1's pipeline leaves in its output array. -/
def arr1 (c : Dev nD) : Buf (Elt F) ((c : Thread nD τ).loc main_v41) := (dat1 (En1 m) c).arrAt 3 cfg1.N
/-- Leaving region 1. -/
def X8 (c : Dev nD) : Valuation τ sig (Elt F) := Function.update (X7 m c) main_v41 (arr1 m c)
/-- After the host stretch `hostOps2`. -/
abbrev X9 (c : Dev nD) : Valuation τ sig (Elt F) := StableHlo.after hostOps2 (X8 m c)
/-- The same read at the TensorCore's references. -/
abbrev Ex1 : (c : Dev nD) → (b : Ref sig .tc) → Buf (Elt F) ((c : Thread nD τ).loc b) := fun c b => X8 m c b

theorem X8_out (c : Dev nD) : X8 m c main_v41 = arr1 m c := by
  unfold X8; exact Function.update_self _ _ _
theorem X8_of_ne (c : Dev nD) (b : Ref sig .tc) (hb : b ≠ main_v41) : X8 m c b = X7 m c b := by
  unfold X8; exact Function.update_of_ne (StableHlo.devRef_ne_of_ne hb) _ _

/-- At region 1's exit each of its arrays holds what the pipeline leaves: an input array what it held (the pipeline only
    reads it), the output array the folded write-backs. -/
theorem hF1 (c : Dev nD) : ∀ w : Fin cfg1.W, (dat1 (En1 m) c).arrAt w cfg1.N = Ex1 m c (Pipeline.arrRef spec1 w)
  | ⟨0, _⟩ => ((dat1 (En1 m) c).arrAt_in 0 rfl _).trans ((A_eq1 (En1 m) c 0).trans (X8_of_ne m c _ (by decide)).symm)
  | ⟨1, _⟩ => ((dat1 (En1 m) c).arrAt_in 1 rfl _).trans ((A_eq1 (En1 m) c 1).trans (X8_of_ne m c _ (by decide)).symm)
  | ⟨2, _⟩ => ((dat1 (En1 m) c).arrAt_in 2 rfl _).trans ((A_eq1 (En1 m) c 2).trans (X8_of_ne m c _ (by decide)).symm)
  | ⟨3, _⟩ => (X8_out m c).symm
/-- Every other buffer holds what it held at entry. -/
theorem hrest1 (c : Dev nD) : ∀ b, b ∉ Finset.univ.image (Pipeline.arrRef spec1) → Ex1 m c b = En1 m c b :=
  fun b hb => X8_of_ne m c b fun e => hb (Finset.mem_image.mpr ⟨3, Finset.mem_univ _, e.symm⟩)

/-- The contents region 2 is entered from, read at the TensorCore's references. -/
abbrev En2 : (c : Dev nD) → (b : Ref sig .tc) → Buf (Elt F) ((c : Thread nD τ).loc b) := fun c b => X9 m c b
/-- What region 2's pipeline leaves in its output array. -/
def arr2 (c : Dev nD) : Buf (Elt F) ((c : Thread nD τ).loc main_v44) := (dat2 (En2 m) c).arrAt 3 cfg2.N
/-- Leaving region 2. -/
def X10 (c : Dev nD) : Valuation τ sig (Elt F) := Function.update (X9 m c) main_v44 (arr2 m c)
/-- After the host stretch `hostOps3`. -/
abbrev X11 (c : Dev nD) : Valuation τ sig (Elt F) := StableHlo.after hostOps3 (X10 m c)
/-- The same read at the TensorCore's references. -/
abbrev Ex2 : (c : Dev nD) → (b : Ref sig .tc) → Buf (Elt F) ((c : Thread nD τ).loc b) := fun c b => X10 m c b

theorem X10_out (c : Dev nD) : X10 m c main_v44 = arr2 m c := by
  unfold X10; exact Function.update_self _ _ _
theorem X10_of_ne (c : Dev nD) (b : Ref sig .tc) (hb : b ≠ main_v44) : X10 m c b = X9 m c b := by
  unfold X10; exact Function.update_of_ne (StableHlo.devRef_ne_of_ne hb) _ _

/-- At region 2's exit each of its arrays holds what the pipeline leaves: an input array what it held (the pipeline only
    reads it), the output array the folded write-backs. -/
theorem hF2 (c : Dev nD) : ∀ w : Fin cfg2.W, (dat2 (En2 m) c).arrAt w cfg2.N = Ex2 m c (Pipeline.arrRef spec2 w)
  | ⟨0, _⟩ => ((dat2 (En2 m) c).arrAt_in 0 rfl _).trans ((A_eq2 (En2 m) c 0).trans (X10_of_ne m c _ (by decide)).symm)
  | ⟨1, _⟩ => ((dat2 (En2 m) c).arrAt_in 1 rfl _).trans ((A_eq2 (En2 m) c 1).trans (X10_of_ne m c _ (by decide)).symm)
  | ⟨2, _⟩ => ((dat2 (En2 m) c).arrAt_in 2 rfl _).trans ((A_eq2 (En2 m) c 2).trans (X10_of_ne m c _ (by decide)).symm)
  | ⟨3, _⟩ => (X10_out m c).symm
/-- Every other buffer holds what it held at entry. -/
theorem hrest2 (c : Dev nD) : ∀ b, b ∉ Finset.univ.image (Pipeline.arrRef spec2) → Ex2 m c b = En2 m c b :=
  fun b hb => X10_of_ne m c b fun e => hb (Finset.mem_image.mpr ⟨3, Finset.mem_univ _, e.symm⟩)

/-- The contents region 3 is entered from, read at the TensorCore's references. -/
abbrev En3 : (c : Dev nD) → (b : Ref sig .tc) → Buf (Elt F) ((c : Thread nD τ).loc b) := fun c b => X11 m c b
/-- What region 3's pipeline leaves in its output array. -/
def arr3 (c : Dev nD) : Buf (Elt F) ((c : Thread nD τ).loc main_v46) := (dat3 (En3 m) c).arrAt 3 cfg3.N
/-- Leaving region 3. -/
def X12 (c : Dev nD) : Valuation τ sig (Elt F) := Function.update (X11 m c) main_v46 (arr3 m c)
/-- After the host stretch `hostOps4`. -/
abbrev X13 (c : Dev nD) : Valuation τ sig (Elt F) := StableHlo.after hostOps4 (X12 m c)
/-- The same read at the TensorCore's references. -/
abbrev Ex3 : (c : Dev nD) → (b : Ref sig .tc) → Buf (Elt F) ((c : Thread nD τ).loc b) := fun c b => X12 m c b

theorem X12_out (c : Dev nD) : X12 m c main_v46 = arr3 m c := by
  unfold X12; exact Function.update_self _ _ _
theorem X12_of_ne (c : Dev nD) (b : Ref sig .tc) (hb : b ≠ main_v46) : X12 m c b = X11 m c b := by
  unfold X12; exact Function.update_of_ne (StableHlo.devRef_ne_of_ne hb) _ _

/-- At region 3's exit each of its arrays holds what the pipeline leaves: an input array what it held (the pipeline only
    reads it), the output array the folded write-backs. -/
theorem hF3 (c : Dev nD) : ∀ w : Fin cfg3.W, (dat3 (En3 m) c).arrAt w cfg3.N = Ex3 m c (Pipeline.arrRef spec3 w)
  | ⟨0, _⟩ => ((dat3 (En3 m) c).arrAt_in 0 rfl _).trans ((A_eq3 (En3 m) c 0).trans (X12_of_ne m c _ (by decide)).symm)
  | ⟨1, _⟩ => ((dat3 (En3 m) c).arrAt_in 1 rfl _).trans ((A_eq3 (En3 m) c 1).trans (X12_of_ne m c _ (by decide)).symm)
  | ⟨2, _⟩ => ((dat3 (En3 m) c).arrAt_in 2 rfl _).trans ((A_eq3 (En3 m) c 2).trans (X12_of_ne m c _ (by decide)).symm)
  | ⟨3, _⟩ => (X12_out m c).symm
/-- Every other buffer holds what it held at entry. -/
theorem hrest3 (c : Dev nD) : ∀ b, b ∉ Finset.univ.image (Pipeline.arrRef spec3) → Ex3 m c b = En3 m c b :=
  fun b hb => X12_of_ne m c b fun e => hb (Finset.mem_image.mpr ⟨3, Finset.mem_univ _, e.symm⟩)

/-- The contents region 4 is entered from, read at the TensorCore's references. -/
abbrev En4 : (c : Dev nD) → (b : Ref sig .tc) → Buf (Elt F) ((c : Thread nD τ).loc b) := fun c b => X13 m c b
/-- What region 4's pipeline leaves in its output array. -/
def arr4 (c : Dev nD) : Buf (Elt F) ((c : Thread nD τ).loc main_v49) := (dat4 (En4 m) c).arrAt 3 cfg4.N
/-- Leaving region 4. -/
def X14 (c : Dev nD) : Valuation τ sig (Elt F) := Function.update (X13 m c) main_v49 (arr4 m c)
/-- After the host stretch `hostOps5`. -/
abbrev X15 (c : Dev nD) : Valuation τ sig (Elt F) := StableHlo.after hostOps5 (X14 m c)
/-- The same read at the TensorCore's references. -/
abbrev Ex4 : (c : Dev nD) → (b : Ref sig .tc) → Buf (Elt F) ((c : Thread nD τ).loc b) := fun c b => X14 m c b

theorem X14_out (c : Dev nD) : X14 m c main_v49 = arr4 m c := by
  unfold X14; exact Function.update_self _ _ _
theorem X14_of_ne (c : Dev nD) (b : Ref sig .tc) (hb : b ≠ main_v49) : X14 m c b = X13 m c b := by
  unfold X14; exact Function.update_of_ne (StableHlo.devRef_ne_of_ne hb) _ _

/-- At region 4's exit each of its arrays holds what the pipeline leaves: an input array what it held (the pipeline only
    reads it), the output array the folded write-backs. -/
theorem hF4 (c : Dev nD) : ∀ w : Fin cfg4.W, (dat4 (En4 m) c).arrAt w cfg4.N = Ex4 m c (Pipeline.arrRef spec4 w)
  | ⟨0, _⟩ => ((dat4 (En4 m) c).arrAt_in 0 rfl _).trans ((A_eq4 (En4 m) c 0).trans (X14_of_ne m c _ (by decide)).symm)
  | ⟨1, _⟩ => ((dat4 (En4 m) c).arrAt_in 1 rfl _).trans ((A_eq4 (En4 m) c 1).trans (X14_of_ne m c _ (by decide)).symm)
  | ⟨2, _⟩ => ((dat4 (En4 m) c).arrAt_in 2 rfl _).trans ((A_eq4 (En4 m) c 2).trans (X14_of_ne m c _ (by decide)).symm)
  | ⟨3, _⟩ => (X14_out m c).symm
/-- Every other buffer holds what it held at entry. -/
theorem hrest4 (c : Dev nD) : ∀ b, b ∉ Finset.univ.image (Pipeline.arrRef spec4) → Ex4 m c b = En4 m c b :=
  fun b hb => X14_of_ne m c b fun e => hb (Finset.mem_image.mpr ⟨3, Finset.mem_univ _, e.symm⟩)

/-- The contents region 5 is entered from, read at the TensorCore's references. -/
abbrev En5 : (c : Dev nD) → (b : Ref sig .tc) → Buf (Elt F) ((c : Thread nD τ).loc b) := fun c b => X15 m c b
/-- What region 5's pipeline leaves in its output array. -/
def arr5 (c : Dev nD) : Buf (Elt F) ((c : Thread nD τ).loc main_v51) := (dat5 (En5 m) c).arrAt 3 cfg5.N
/-- Leaving region 5. -/
def X16 (c : Dev nD) : Valuation τ sig (Elt F) := Function.update (X15 m c) main_v51 (arr5 m c)
/-- After the host stretch `hostOps6`. -/
abbrev X17 (c : Dev nD) : Valuation τ sig (Elt F) := StableHlo.after hostOps6 (X16 m c)
/-- The same read at the TensorCore's references. -/
abbrev Ex5 : (c : Dev nD) → (b : Ref sig .tc) → Buf (Elt F) ((c : Thread nD τ).loc b) := fun c b => X16 m c b

theorem X16_out (c : Dev nD) : X16 m c main_v51 = arr5 m c := by
  unfold X16; exact Function.update_self _ _ _
theorem X16_of_ne (c : Dev nD) (b : Ref sig .tc) (hb : b ≠ main_v51) : X16 m c b = X15 m c b := by
  unfold X16; exact Function.update_of_ne (StableHlo.devRef_ne_of_ne hb) _ _

/-- At region 5's exit each of its arrays holds what the pipeline leaves: an input array what it held (the pipeline only
    reads it), the output array the folded write-backs. -/
theorem hF5 (c : Dev nD) : ∀ w : Fin cfg5.W, (dat5 (En5 m) c).arrAt w cfg5.N = Ex5 m c (Pipeline.arrRef spec5 w)
  | ⟨0, _⟩ => ((dat5 (En5 m) c).arrAt_in 0 rfl _).trans ((A_eq5 (En5 m) c 0).trans (X16_of_ne m c _ (by decide)).symm)
  | ⟨1, _⟩ => ((dat5 (En5 m) c).arrAt_in 1 rfl _).trans ((A_eq5 (En5 m) c 1).trans (X16_of_ne m c _ (by decide)).symm)
  | ⟨2, _⟩ => ((dat5 (En5 m) c).arrAt_in 2 rfl _).trans ((A_eq5 (En5 m) c 2).trans (X16_of_ne m c _ (by decide)).symm)
  | ⟨3, _⟩ => (X16_out m c).symm
/-- Every other buffer holds what it held at entry. -/
theorem hrest5 (c : Dev nD) : ∀ b, b ∉ Finset.univ.image (Pipeline.arrRef spec5) → Ex5 m c b = En5 m c b :=
  fun b hb => X16_of_ne m c b fun e => hb (Finset.mem_image.mpr ⟨3, Finset.mem_univ _, e.symm⟩)

/-! ## The proof data family and the thread state -/

/-- Every pipeline's proof data, each at its region's entry contents: a literal match, so that the pinned configuration
    at a numeral reduces to the printed one. -/
def pdats : (p : Fin 6) → (c : Dev nD) → Dat τ (Elt F) Unit ℕ (UR sig nD τ) ℕ (Pipeline.pin (pcfgs (F := F)) Gen.adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

section Regs

set_option backward.isDefEq.respectTransparency.types false in
/-- Region 0 as a segment of @main: entered from every unscoped buffer at `X5`, left at `X6`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (En0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered from every unscoped buffer at `X7`, left at `X8`. Its arrays are
    split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (En1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered from every unscoped buffer at `X9`, left at `X10`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (En2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of @main: entered from every unscoped buffer at `X11`, left at `X12`. Its arrays are
    split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (En3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of @main: entered from every unscoped buffer at `X13`, left at `X14`. Its arrays are
    split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ L lv 4 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (En4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En4 m c) (Ex4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment of @main: entered from every unscoped buffer at `X15`, left at `X16`. Its arrays are
    split out of the unscoped buffers and put back at the exit contents; the generator register goes into the
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En5 m) c).loose
  hwaits := Pipeline.hwaits_of_owed_zero _ _ _ _ L lv 5 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec5 c (En5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (hout5 (En5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (En5 m c) (Ex5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

/-! ## The generated boundary valuations, at these contents

The generated conditional frame states its boundary valuations `Gen.VJ` over unknown region outputs `outs`; at the
outputs the pipelines leave they are the chain above. -/

/-- What the regions leave, as the unknowns the generated valuations are written over. -/
def outs : Gen.Outs (F := F) := fun J r c => match J with
  | 6 => X6 m c r | 8 => X8 m c r | 10 => X10 m c r | 12 => X12 m c r | 14 => X14 m c r | 16 => X16 m c r
  | _ => X5 m c r

theorem V6_eq (c : Dev nD) : Gen.V6 m (outs m) c = X6 m c := by
  show Function.update (Gen.V5 m c) main_v39 (outs m 6 main_v39 c) = _
  rw [show outs m 6 main_v39 c = arr0 m c from X6_out m c]; rfl
theorem V7_eq (c : Dev nD) : Gen.V7 m (outs m) c = X7 m c := by
  show StableHlo.after hostOps1 (Gen.V6 m (outs m) c) = _
  rw [V6_eq]

theorem V8_eq (c : Dev nD) : Gen.V8 m (outs m) c = X8 m c := by
  show Function.update (Gen.V7 m (outs m) c) main_v41 (outs m 8 main_v41 c) = _
  rw [V7_eq, show outs m 8 main_v41 c = arr1 m c from X8_out m c]; rfl
theorem V9_eq (c : Dev nD) : Gen.V9 m (outs m) c = X9 m c := by
  show StableHlo.after hostOps2 (Gen.V8 m (outs m) c) = _
  rw [V8_eq]

theorem V10_eq (c : Dev nD) : Gen.V10 m (outs m) c = X10 m c := by
  show Function.update (Gen.V9 m (outs m) c) main_v44 (outs m 10 main_v44 c) = _
  rw [V9_eq, show outs m 10 main_v44 c = arr2 m c from X10_out m c]; rfl
theorem V11_eq (c : Dev nD) : Gen.V11 m (outs m) c = X11 m c := by
  show StableHlo.after hostOps3 (Gen.V10 m (outs m) c) = _
  rw [V10_eq]

theorem V12_eq (c : Dev nD) : Gen.V12 m (outs m) c = X12 m c := by
  show Function.update (Gen.V11 m (outs m) c) main_v46 (outs m 12 main_v46 c) = _
  rw [V11_eq, show outs m 12 main_v46 c = arr3 m c from X12_out m c]; rfl
theorem V13_eq (c : Dev nD) : Gen.V13 m (outs m) c = X13 m c := by
  show StableHlo.after hostOps4 (Gen.V12 m (outs m) c) = _
  rw [V12_eq]

theorem V14_eq (c : Dev nD) : Gen.V14 m (outs m) c = X14 m c := by
  show Function.update (Gen.V13 m (outs m) c) main_v49 (outs m 14 main_v49 c) = _
  rw [V13_eq, show outs m 14 main_v49 c = arr4 m c from X14_out m c]; rfl
theorem V15_eq (c : Dev nD) : Gen.V15 m (outs m) c = X15 m c := by
  show StableHlo.after hostOps5 (Gen.V14 m (outs m) c) = _
  rw [V14_eq]

theorem V16_eq (c : Dev nD) : Gen.V16 m (outs m) c = X16 m c := by
  show Function.update (Gen.V15 m (outs m) c) main_v51 (outs m 16 main_v51 c) = _
  rw [V15_eq, show outs m 16 main_v51 c = arr5 m c from X16_out m c]; rfl
theorem V17_eq (c : Dev nD) : Gen.V17 m (outs m) c = X17 m c := by
  show StableHlo.after hostOps6 (Gen.V16 m (outs m) c) = _
  rw [V16_eq]

theorem hpre0 (c : Dev nD) : iprop(StableHlo.held (c : Thread nD τ) (Pipeline.ucRefs τ sig) (Gen.V5 m c) ∗ R c) ⊢ (reg0 m).pre c := by
  exact .rfl
theorem hpost0 (c : Dev nD) : (reg0 m).post c ⊢ iprop(StableHlo.held (c : Thread nD τ) (Pipeline.ucRefs τ sig) (Gen.V6 m (outs m) c) ∗ R c) := by
  rw [V6_eq]; exact .rfl

theorem hpre1 (c : Dev nD) : iprop(StableHlo.held (c : Thread nD τ) (Pipeline.ucRefs τ sig) (Gen.V7 m (outs m) c) ∗ R c) ⊢ (reg1 m).pre c := by
  rw [V7_eq]; exact .rfl
theorem hpost1 (c : Dev nD) : (reg1 m).post c ⊢ iprop(StableHlo.held (c : Thread nD τ) (Pipeline.ucRefs τ sig) (Gen.V8 m (outs m) c) ∗ R c) := by
  rw [V8_eq]; exact .rfl

theorem hpre2 (c : Dev nD) : iprop(StableHlo.held (c : Thread nD τ) (Pipeline.ucRefs τ sig) (Gen.V9 m (outs m) c) ∗ R c) ⊢ (reg2 m).pre c := by
  rw [V9_eq]; exact .rfl
theorem hpost2 (c : Dev nD) : (reg2 m).post c ⊢ iprop(StableHlo.held (c : Thread nD τ) (Pipeline.ucRefs τ sig) (Gen.V10 m (outs m) c) ∗ R c) := by
  rw [V10_eq]; exact .rfl

theorem hpre3 (c : Dev nD) : iprop(StableHlo.held (c : Thread nD τ) (Pipeline.ucRefs τ sig) (Gen.V11 m (outs m) c) ∗ R c) ⊢ (reg3 m).pre c := by
  rw [V11_eq]; exact .rfl
theorem hpost3 (c : Dev nD) : (reg3 m).post c ⊢ iprop(StableHlo.held (c : Thread nD τ) (Pipeline.ucRefs τ sig) (Gen.V12 m (outs m) c) ∗ R c) := by
  rw [V12_eq]; exact .rfl

theorem hpre4 (c : Dev nD) : iprop(StableHlo.held (c : Thread nD τ) (Pipeline.ucRefs τ sig) (Gen.V13 m (outs m) c) ∗ R c) ⊢ (reg4 m).pre c := by
  rw [V13_eq]; exact .rfl
theorem hpost4 (c : Dev nD) : (reg4 m).post c ⊢ iprop(StableHlo.held (c : Thread nD τ) (Pipeline.ucRefs τ sig) (Gen.V14 m (outs m) c) ∗ R c) := by
  rw [V14_eq]; exact .rfl

theorem hpre5 (c : Dev nD) : iprop(StableHlo.held (c : Thread nD τ) (Pipeline.ucRefs τ sig) (Gen.V15 m (outs m) c) ∗ R c) ⊢ (reg5 m).pre c := by
  rw [V15_eq]; exact .rfl
theorem hpost5 (c : Dev nD) : (reg5 m).post c ⊢ iprop(StableHlo.held (c : Thread nD τ) (Pipeline.ucRefs τ sig) (Gen.V16 m (outs m) c) ∗ R c) := by
  rw [V16_eq]; exact .rfl

/-- The last thread state ends owing nothing. -/
theorem hE6 (c : Dev nD) : R c ⊢ (iprop(∃ W, owes (c : Thread nD τ) (0 : CellTallies nD τ sig Unit) W) : sProp 𝕄) := by
  iintro ⟨-, HO⟩; iexact HO

set_option backward.isDefEq.respectTransparency.types false in
/-- THE RUN. From any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V17 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m) (reg4 m) (reg5 m))
    (fun c Q => by
      rewrite [main_chain c, Pipeline.Seg.run_eq_chain,
        show (Gen.segs m (outs m) 𝒱₀ L lv (fun _ c => R c) () (pdats m) (reg0 m) (reg1 m) (reg2 m) (reg3 m) (reg4 m) (reg5 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outs m) c))
    (hch := fun c => ⟨.rfl, .rfl, .rfl, .rfl, .rfl, hpre0 m c, hpost0 m c, hpre1 m c, hpost1 m c, hpre2 m c, hpost2 m c, hpre3 m c, hpost3 m c, hpre4 m c, hpost4 m c, hpre5 m c, hpost5 m c, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V17 m (outs m) c b)
    (hfin := fun c s' => by
      iintro ⟨Hh, HSI⟩
      unfold StableHlo.held
      imodintro
      iapply (pointsTo_read_all (Pipeline.ucRefs τ sig) (fun b => ((c : Thread nD τ).1, b)) (Gen.V17 m (outs m) c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (Gen.V17_main_arg0 m (outs m) c),
    (h c _ (mem_uc main_arg1 (by decide))).trans (Gen.V17_main_arg1 m (outs m) c),
    (h c _ (mem_uc main_arg2 (by decide))).trans (Gen.V17_main_arg2 m (outs m) c),
    (h c _ (mem_uc main_arg3 (by decide))).trans (Gen.V17_main_arg3 m (outs m) c),
    (h c _ (mem_uc main_arg4 (by decide))).trans (Gen.V17_main_arg4 m (outs m) c),
    (h c _ (mem_uc main_arg5 (by decide))).trans (Gen.V17_main_arg5 m (outs m) c),
    (h c _ (mem_uc main_arg6 (by decide))).trans (Gen.V17_main_arg6 m (outs m) c),
    (h c _ (mem_uc main_arg7 (by decide))).trans (Gen.V17_main_arg7 m (outs m) c)⟩) (run_all m ρ)

end Cert.Kernel.Hand

end
-- ==== Proof.KIRuns0.lean ====
/-
  The body of kernel region 0 (gather and scale) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 0: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g0first (i : grid0.Coords) : Prop :=
  (Scalar.cmpi .ne (Scalar.extui (Scalar.cmpi .eq (BitVec.ofNat 32 (i 1).val) 0#32)) 0#32) = 1#1
/-- The node-block coordinate is the last one: the body's second conditional. -/
abbrev g0last (i : grid0.Coords) : Prop := k0_cond2 i = 1#1

set_option maxHeartbeats 2000000 in
/-- First node block of a row: the scratch, whatever it held, ends at the first partial sum added to zeros. -/
theorem gather0_first (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : g0first i) (hc2 : ¬ g0last i)
    (x2 : Vec F S8192 .i32) (x3 : Vec F S8192 .f32) (x4 : Vec F S1024x64 .bf16) (x5 : Vec F S8192x64 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay2 i x2 x4 k0_pay1)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x64_S8192x64_0_0 y⟩), View.canon_cons_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]
  rw [View.readCov_unit_zero _ hz2]

set_option maxHeartbeats 2000000 in
/-- A node block that is neither first nor last: the partial sum is added to what the scratch held. -/
theorem gather0_mid (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g0first i) (hc2 : ¬ g0last i)
    (x2 : Vec F S8192 .i32) (x3 : Vec F S8192 .f32) (x4 : Vec F S1024x64 .bf16) (x5 : Vec F S8192x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay2 i x2 x4 xs)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

set_option maxHeartbeats 2000000 in
/-- Last node block of a row: the sum is completed in the scratch and its product with the norm column is stored into the output block. -/
theorem gather0_last (c : Dev nD) (i : grid0.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g0first i) (hc2 : g0last i)
    (x2 : Vec F S8192 .i32) (x3 : Vec F S8192 .f32) (x4 : Vec F S1024x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 x3 (k0_pay2 i x2 x4 xs)) ∗ owns (c : Thread nD τ) arg6 fullShare (k0_pay2 i x2 x4 xs)) -∗ K ⟨⟩))
      ⊢ wp frame (wpE (defs₀ (F := F)) Variants.none c none) E (cc0__gather_scale_kernel i arg2 harg2 arg3 harg3 arg4 harg4 arg5 harg5 arg6 harg6) K := by
  simp only [cc0__gather_scale_kernel_eq_skeleton]; unfold cc0__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x64_S8192x64_0_0 y⟩), View.canon_unit_zero hz2]
    simp only [View.readAt_eq_ld, harg2.read_unread, harg3.read_unread, harg4.read_unread, harg6.read_unread,
      View.ld_unit_zero (S := S8192) hz1, View.ld_unit_zero (S := S1024x64) hz2, View.ld_unit_zero (S := S8192x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

end Cert.KernelIdeal.Hand

end
-- ==== Proof.KIRegion0.lean ====
/-
  Kernel region 0 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 0 of @main (gather), at the buffer contents `V` it is entered from

The proof data of the region's pipeline: each input window's staging buffer holds its block of the array; the
scratch operand carries the running sum from point to point along a row of the grid (`acc0`), which is part of
the region's invariant from the first point on; the output window's buffer is stored at the last point of a row
only, and is idle at the others. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals in closed form -/

/-- The first conditional holds at the first point of each row of the grid. -/
theorem hfirst0 : ∀ t : Fin cfg0.N, g0first (grid0.coords t) ↔ t.val % 50 = 0 :=
  (by decide +kernel : ∀ t : Fin grid0.N, g0first (grid0.coords t) ↔ t.val % 50 = 0)
/-- The second at the last. -/
theorem hlast0 : ∀ t : Fin cfg0.N, g0last (grid0.coords t) ↔ t.val % 50 = 49 :=
  (by decide +kernel : ∀ t : Fin grid0.N, g0last (grid0.coords t) ↔ t.val % 50 = 49)

/-- Away from the last point of a row the output window is idle, -/
theorem idle0_3 (t : Fin cfg0.N) (h : ¬ g0last (grid0.coords t)) : cfg0.idle 3 (cfg0.grid.coords t) = true := by
  show (!(k0_cond2 (grid0.coords t) == 1#1)) = true
  rw [Bool.not_eq_true', beq_eq_false_iff_ne]; exact h
/-- and is not written back; -/
theorem noFlush0_3 (t : Fin cfg0.N) (h : ¬ g0last (grid0.coords t)) : (cfg0.win 3).flush t = false :=
  Bool.eq_false_iff.mpr fun hf => h ((hlast0 t).mpr ((flush0_3 t).mp hf))
/-- at the last point it is live. -/
theorem live0_3 (t : Fin cfg0.N) (h : g0last (grid0.coords t)) : cfg0.idle 3 (cfg0.grid.coords t) = false := by
  show (!(k0_cond2 (grid0.coords t) == 1#1)) = false
  rw [Bool.not_eq_false', beq_iff_eq]; exact h

/-! ## The running sum -/

/-- What the scratch holds after the body at position `n`: at the first point of a row the first partial sum added to
    zeros, afterwards the point's partial sum added to what the point before left. -/
def acc0 (c : Dev nD) : (n : ℕ) → n < cfg0.N → Vec F S8192x64 .f32
  | 0, hn => k0_pay2 (grid0.coords ⟨0, hn⟩) (iblk0 V c 0 ⟨0, hn⟩) (iblk0 V c 2 ⟨0, hn⟩) k0_pay1
  | n + 1, hn =>
    if (n + 1) % 50 = 0 then k0_pay2 (grid0.coords ⟨n + 1, hn⟩) (iblk0 V c 0 ⟨n + 1, hn⟩) (iblk0 V c 2 ⟨n + 1, hn⟩) k0_pay1
    else k0_pay2 (grid0.coords ⟨n + 1, hn⟩) (iblk0 V c 0 ⟨n + 1, hn⟩) (iblk0 V c 2 ⟨n + 1, hn⟩) (acc0 c n (Nat.lt_of_succ_lt hn))

theorem acc0_first (c : Dev nD) (t : Fin cfg0.N) (h : t.val % 50 = 0) :
    acc0 V c t.val t.isLt = k0_pay2 (grid0.coords t) (iblk0 V c 0 t) (iblk0 V c 2 t) k0_pay1 := by
  obtain ⟨n, hn⟩ := t
  cases n with
  | zero => rfl
  | succ n => exact if_pos h

theorem acc0_next (c : Dev nD) (t : Fin cfg0.N) (h : ¬ t.val % 50 = 0) :
    acc0 V c t.val t.isLt = k0_pay2 (grid0.coords t) (iblk0 V c 0 t) (iblk0 V c 2 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM0 : Memref sig .tc .vmem S8192x64 .f32 := Memref.whole cc0_scratch0

/-- The scoped buffers other than the scratch operand, unopened. -/
abbrev rest0 (c : Dev nD) : sProp 𝕄 :=
  Pipeline.scopedRestBut (Ix := Unit) (Name := ℕ) (U := UR sig nD τ) (Lvl := ℕ) (Val := Elt F) spec0 c [cc0_scratch0]

/-- The region's invariant before position `n`: before the first point every scoped buffer at anything; afterwards the
    scratch at the running sum the point before left, the other scoped buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The class invariant with the scratch operand opened. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; rfl

/-! ## The proof data -/

/-- The arrays as the region finds them; after the body at point `t` each input's buffer at its block and the output's
    at the scaled running sum (consulted where the block is written back: the last point of a row); the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 1 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (iblk0 V c 1 t) (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [show cfg0.idle 0 (cfg0.grid.coords t) = false from rfl], after0_0]
  rw [show (dat0 V c).leavesExact 1 t = owns (c : Thread nD τ) (st0_1 t) fullShare ((dat0 V c).after 1 t) from by
      unfold Dat.leavesExact; rw [show cfg0.idle 1 (cfg0.grid.coords t) = false from rfl], after0_1]
  rw [show (dat0 V c).leavesExact 2 t = owns (c : Thread nD τ) (st0_2 t) fullShare ((dat0 V c).after 2 t) from by
      unfold Dat.leavesExact; rw [show cfg0.idle 2 (cfg0.grid.coords t) = false from rfl], after0_2]
  have hN : t.val < 5200 := lt_of_lt_of_eq t.isLt (show cfg0.N = 5200 from N_0)
  by_cases h0 : t.val % 50 = 0
  · have h1 : ¬ t.val % 50 = 49 := by omega
    have hl : ¬ g0last (grid0.coords t) := fun h => h1 ((hlast0 t).mp h)
    rw [Dat.leavesExact_idle (dat0 V c) 3 t (idle0_3 t hl) (noFlush0_3 t hl)]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (gather0_first c (grid0.coords t) _ _ _ _ _ _ _ _ _ _ ((hfirst0 t).mpr h0) hl (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (gather0_first c (grid0.coords t) _ _ _ _ _ _ _ _ _ _ ((hfirst0 t).mpr h0) hl (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g0first (grid0.coords t) := fun h => h0 ((hfirst0 t).mp h)
    have hz : t.val ≠ 0 := fun h => h0 (by rw [h])
    rw [acc0_next V c t h0]
    rw [PhiS0_castSucc V c t, PhiS0_pos V c _ _ hz]
    by_cases h1 : t.val % 50 = 49
    · have hl : g0last (grid0.coords t) := (hlast0 t).mpr h1
      rw [show (dat0 V c).leavesExact 3 t = owns (c : Thread nD τ) (st0_3 t) fullShare ((dat0 V c).after 3 t) from by
        unfold Dat.leavesExact; rw [live0_3 t hl], after0_3, acc0_next V c t h0]
      iintro ⟨⟨⟨HS, HR⟩, Hg⟩, Ho, ⟨%d0, H0⟩, ⟨%d1, H1⟩, ⟨%d2, H2⟩, ⟨%d3, H3⟩⟩
      iapply (gather0_last c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g0last (grid0.coords t) := fun h => h1 ((hlast0 t).mp h)
      rw [Dat.leavesExact_idle (dat0 V c) 3 t (idle0_3 t hl) (noFlush0_3 t hl)]
      iintro ⟨⟨⟨HS, HR⟩, Hg⟩, Ho, ⟨%d0, H0⟩, ⟨%d1, H1⟩, ⟨%d2, H2⟩, ⟨%d3, H3⟩⟩
      iapply (gather0_mid c (grid0.coords t) _ _ _ _ _ _ _ _ _ _ hf hl (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the running sum's name is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 5200 := N_0; omega), PhiA0_eq]
  iintro ⟨⟨HS, HR⟩, Hg⟩
  isplitl [HS HR]
  · isplitl [HS]; · iexists _; iexact HS
    iexact HR
  iexact Hg

end Region0

end Cert.KernelIdeal.Hand

end
-- ==== Proof.KIRuns1.lean ====
/-
  The body of kernel region 1 (scatter and add) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 1: the scatter body on any whole staging memrefs, case by case

The body keeps a running sum in its scratch operand. At the first edge block of a row of the grid it stores zeros into
the scratch before adding; at the last, the hyperbolic tangent of the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s1first (i : grid1.Coords) : Prop :=
  (Scalar.cmpi .ne (Scalar.extui (Scalar.cmpi .eq (BitVec.ofNat 32 (i 1).val) 0#32)) 0#32) = 1#1
/-- The edge-block coordinate is the last one: the body's second conditional. -/
abbrev s1last (i : grid1.Coords) : Prop := k1_cond2 i = 1#1

set_option maxHeartbeats 2000000 in
/-- First edge block of a row: the scratch, whatever it held, ends at the first partial sum added to zeros. -/
theorem scatter1_first (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : s1first i) (hc2 : ¬ s1last i)
    (x2 : Vec F S4096 .i32) (x3 : Vec F S4096x64 .bf16) (x4 : Vec F S1x64 .f32) (x5 : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k1_pay2 i x2 k1_pay1 x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x64_S2048x64_0_0 y⟩), View.canon_cons_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
  rw [View.readCov_unit_zero _ hz2]

set_option maxHeartbeats 2000000 in
/-- A edge block that is neither first nor last: the partial sum is added to what the scratch held. -/
theorem scatter1_mid (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s1first i) (hc2 : ¬ s1last i)
    (x2 : Vec F S4096 .i32) (x3 : Vec F S4096x64 .bf16) (x4 : Vec F S1x64 .f32) (x5 : Vec F S2048x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k1_pay2 i x2 xs x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

set_option maxHeartbeats 2000000 in
/-- Last edge block of a row: the sum is completed in the scratch and the hyperbolic tangent of the sum plus the bias row is stored into the output block. -/
theorem scatter1_last (c : Dev nD) (i : grid1.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s1first i) (hc2 : s1last i)
    (x2 : Vec F S4096 .i32) (x3 : Vec F S4096x64 .bf16) (x4 : Vec F S1x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k1_pay3 (k1_pay2 i x2 xs x3) x4) ∗ owns (c : Thread nD τ) arg6 fullShare (k1_pay2 i x2 xs x3)) -∗ K ⟨⟩))
      ⊢ wp frame (wpE (defs₀ (F := F)) Variants.none c none) E (cc1__scatter_add_kernel i arg2 harg2 arg3 harg3 arg4 harg4 arg5 harg5 arg6 harg6) K := by
  simp only [cc1__scatter_add_kernel_eq_skeleton]; unfold cc1__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

end Cert.KernelIdeal.Hand

end
-- ==== Proof.KIRegion1.lean ====
/-
  Kernel region 1 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns1
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 1 of @main (scatter), at the buffer contents `V` it is entered from

The proof data of the region's pipeline: each input window's staging buffer holds its block of the array; the
scratch operand carries the running sum from point to point along a row of the grid (`acc1`), which is part of
the region's invariant from the first point on; the output window's buffer is stored at the last point of a row
only, and is idle at the others. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals in closed form -/

/-- The first conditional holds at the first point of each row of the grid. -/
theorem hfirst1 : ∀ t : Fin cfg1.N, s1first (grid1.coords t) ↔ t.val % 208 = 0 :=
  (by decide +kernel : ∀ t : Fin grid1.N, s1first (grid1.coords t) ↔ t.val % 208 = 0)
/-- The second at the last. -/
theorem hlast1 : ∀ t : Fin cfg1.N, s1last (grid1.coords t) ↔ t.val % 208 = 207 :=
  (by decide +kernel : ∀ t : Fin grid1.N, s1last (grid1.coords t) ↔ t.val % 208 = 207)

/-- Away from the last point of a row the output window is idle, -/
theorem idle1_3 (t : Fin cfg1.N) (h : ¬ s1last (grid1.coords t)) : cfg1.idle 3 (cfg1.grid.coords t) = true := by
  show (!(k1_cond2 (grid1.coords t) == 1#1)) = true
  rw [Bool.not_eq_true', beq_eq_false_iff_ne]; exact h
/-- and is not written back; -/
theorem noFlush1_3 (t : Fin cfg1.N) (h : ¬ s1last (grid1.coords t)) : (cfg1.win 3).flush t = false :=
  Bool.eq_false_iff.mpr fun hf => h ((hlast1 t).mpr ((flush1_3 t).mp hf))
/-- at the last point it is live. -/
theorem live1_3 (t : Fin cfg1.N) (h : s1last (grid1.coords t)) : cfg1.idle 3 (cfg1.grid.coords t) = false := by
  show (!(k1_cond2 (grid1.coords t) == 1#1)) = false
  rw [Bool.not_eq_false', beq_iff_eq]; exact h

/-! ## The running sum -/

/-- What the scratch holds after the body at position `n`: at the first point of a row the first partial sum added to
    zeros, afterwards the point's partial sum added to what the point before left. -/
def acc1 (c : Dev nD) : (n : ℕ) → n < cfg1.N → Vec F S2048x64 .f32
  | 0, hn => k1_pay2 (grid1.coords ⟨0, hn⟩) (iblk1 V c 0 ⟨0, hn⟩) k1_pay1 (iblk1 V c 1 ⟨0, hn⟩)
  | n + 1, hn =>
    if (n + 1) % 208 = 0 then k1_pay2 (grid1.coords ⟨n + 1, hn⟩) (iblk1 V c 0 ⟨n + 1, hn⟩) k1_pay1 (iblk1 V c 1 ⟨n + 1, hn⟩)
    else k1_pay2 (grid1.coords ⟨n + 1, hn⟩) (iblk1 V c 0 ⟨n + 1, hn⟩) (acc1 c n (Nat.lt_of_succ_lt hn)) (iblk1 V c 1 ⟨n + 1, hn⟩)

theorem acc1_first (c : Dev nD) (t : Fin cfg1.N) (h : t.val % 208 = 0) :
    acc1 V c t.val t.isLt = k1_pay2 (grid1.coords t) (iblk1 V c 0 t) k1_pay1 (iblk1 V c 1 t) := by
  obtain ⟨n, hn⟩ := t
  cases n with
  | zero => rfl
  | succ n => exact if_pos h

theorem acc1_next (c : Dev nD) (t : Fin cfg1.N) (h : ¬ t.val % 208 = 0) :
    acc1 V c t.val t.isLt = k1_pay2 (grid1.coords t) (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact if_neg h

/-! ## The invariant -/

/-- The scratch operand as a memref. -/
abbrev scM1 : Memref sig .tc .vmem S2048x64 .f32 := Memref.whole cc1_scratch0

/-- The scoped buffers other than the scratch operand, unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point every scoped buffer at anything; afterwards the
    scratch at the running sum the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-- The class invariant with the scratch operand opened. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; rfl

/-! ## The proof data -/

/-- The arrays as the region finds them; after the body at point `t` each input's buffer at its block and the output's
    at the scaled running sum (consulted where the block is written back: the last point of a row); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
      unfold Dat.leavesExact; rw [show cfg1.idle 0 (cfg1.grid.coords t) = false from rfl], after1_0]
  rw [show (dat1 V c).leavesExact 1 t = owns (c : Thread nD τ) (st1_1 t) fullShare ((dat1 V c).after 1 t) from by
      unfold Dat.leavesExact; rw [show cfg1.idle 1 (cfg1.grid.coords t) = false from rfl], after1_1]
  rw [show (dat1 V c).leavesExact 2 t = owns (c : Thread nD τ) (st1_2 t) fullShare ((dat1 V c).after 2 t) from by
      unfold Dat.leavesExact; rw [show cfg1.idle 2 (cfg1.grid.coords t) = false from rfl], after1_2]
  have hN : t.val < 5200 := lt_of_lt_of_eq t.isLt (show cfg1.N = 5200 from N_1)
  by_cases h0 : t.val % 208 = 0
  · have h1 : ¬ t.val % 208 = 207 := by omega
    have hl : ¬ s1last (grid1.coords t) := fun h => h1 ((hlast1 t).mp h)
    rw [Dat.leavesExact_idle (dat1 V c) 3 t (idle1_3 t hl) (noFlush1_3 t hl)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (scatter1_first c (grid1.coords t) _ _ _ _ _ _ _ _ _ _ ((hfirst1 t).mpr h0) hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (scatter1_first c (grid1.coords t) _ _ _ _ _ _ _ _ _ _ ((hfirst1 t).mpr h0) hl (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s1first (grid1.coords t) := fun h => h0 ((hfirst1 t).mp h)
    have hz : t.val ≠ 0 := fun h => h0 (by rw [h])
    rw [acc1_next V c t h0]
    rw [PhiS1_castSucc V c t, PhiS1_pos V c _ _ hz]
    by_cases h1 : t.val % 208 = 207
    · have hl : s1last (grid1.coords t) := (hlast1 t).mpr h1
      rw [show (dat1 V c).leavesExact 3 t = owns (c : Thread nD τ) (st1_3 t) fullShare ((dat1 V c).after 3 t) from by
        unfold Dat.leavesExact; rw [live1_3 t hl], after1_3, acc1_next V c t h0]
      iintro ⟨⟨⟨HS, HR⟩, Hg⟩, Ho, ⟨%d0, H0⟩, ⟨%d1, H1⟩, ⟨%d2, H2⟩, ⟨%d3, H3⟩⟩
      iapply (scatter1_last c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s1last (grid1.coords t) := fun h => h1 ((hlast1 t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (scatter1_mid c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the running sum's name is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5200 := N_1; omega), PhiA1_eq]
  iintro ⟨⟨HS, HR⟩, Hg⟩
  isplitl [HS HR]
  · isplitl [HS]; · iexists _; iexact HS
    iexact HR
  iexact Hg

end Region1

end Cert.KernelIdeal.Hand

end
-- ==== Proof.KIRuns2.lean ====
/-
  The body of kernel region 2 (gather and scale) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 2: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g2first (i : grid2.Coords) : Prop :=
  (Scalar.cmpi .ne (Scalar.extui (Scalar.cmpi .eq (BitVec.ofNat 32 (i 1).val) 0#32)) 0#32) = 1#1
/-- The node-block coordinate is the last one: the body's second conditional. -/
abbrev g2last (i : grid2.Coords) : Prop := k2_cond2 i = 1#1

set_option maxHeartbeats 2000000 in
/-- First node block of a row: the scratch, whatever it held, ends at the first partial sum added to zeros. -/
theorem gather2_first (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : g2first i) (hc2 : ¬ g2last i)
    (x2 : Vec F S8192 .i32) (x3 : Vec F S8192 .f32) (x4 : Vec F S1024x64 .bf16) (x5 : Vec F S8192x64 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k2_pay2 i x2 x4 k2_pay1)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x64_S8192x64_0_0 y⟩), View.canon_cons_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]
  rw [View.readCov_unit_zero _ hz2]

set_option maxHeartbeats 2000000 in
/-- A node block that is neither first nor last: the partial sum is added to what the scratch held. -/
theorem gather2_mid (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g2first i) (hc2 : ¬ g2last i)
    (x2 : Vec F S8192 .i32) (x3 : Vec F S8192 .f32) (x4 : Vec F S1024x64 .bf16) (x5 : Vec F S8192x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k2_pay2 i x2 x4 xs)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

set_option maxHeartbeats 2000000 in
/-- Last node block of a row: the sum is completed in the scratch and its product with the norm column is stored into the output block. -/
theorem gather2_last (c : Dev nD) (i : grid2.Coords)
    (arg2 : Memref sig .tc .vmem S8192 .i32) (harg2 : arg2.IsWhole) (arg3 : Memref sig .tc .vmem S8192 .f32) (harg3 : arg3.IsWhole)
    (arg4 : Memref sig .tc .vmem S1024x64 .bf16) (harg4 : arg4.IsWhole) (arg5 : Memref sig .tc .vmem S8192x64 .bf16) (harg5 : arg5.IsWhole)
    (arg6 : Memref sig .tc .vmem S8192x64 .f32) (harg6 : arg6.IsWhole)
    (hc1 : ¬ g2first i) (hc2 : g2last i)
    (x2 : Vec F S8192 .i32) (x3 : Vec F S8192 .f32) (x4 : Vec F S1024x64 .bf16) (xs : Vec F S8192x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k2_pay3 x3 (k2_pay2 i x2 x4 xs)) ∗ owns (c : Thread nD τ) arg6 fullShare (k2_pay2 i x2 x4 xs)) -∗ K ⟨⟩))
      ⊢ wp frame (wpE (defs₀ (F := F)) Variants.none c none) E (cc2__gather_scale_kernel i arg2 harg2 arg3 harg3 arg4 harg4 arg5 harg5 arg6 harg6) K := by
  simp only [cc2__gather_scale_kernel_eq_skeleton]; unfold cc2__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x64_S8192x64_0_0 y⟩), View.canon_unit_zero hz2]
    simp only [View.readAt_eq_ld, harg2.read_unread, harg3.read_unread, harg4.read_unread, harg6.read_unread,
      View.ld_unit_zero (S := S8192) hz1, View.ld_unit_zero (S := S1024x64) hz2, View.ld_unit_zero (S := S8192x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x64_S8192x64_0_0 y⟩), View.canon_unit_zero hz2]
  simp only [View.readAt_eq_ld, harg2.read_unread, harg3.read_unread, harg4.read_unread, harg6.read_unread,
      View.ld_unit_zero (S := S8192) hz1, View.ld_unit_zero (S := S1024x64) hz2, View.ld_unit_zero (S := S8192x64) hz2]

end Cert.KernelIdeal.Hand

end
-- ==== Proof.KIRegion2.lean ====
/-
  Kernel region 2 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns2
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 2 of @main (gather), at the buffer contents `V` it is entered from

The proof data of the region's pipeline: each input window's staging buffer holds its block of the array; the
scratch operand carries the running sum from point to point along a row of the grid (`acc2`), which is part of
the region's invariant from the first point on; the output window's buffer is stored at the last point of a row
only, and is idle at the others. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The conditionals in closed form -/

/-- The first conditional holds at the first point of each row of the grid. -/
theorem hfirst2 : ∀ t : Fin cfg2.N, g2first (grid2.coords t) ↔ t.val % 50 = 0 :=
  (by decide +kernel : ∀ t : Fin grid2.N, g2first (grid2.coords t) ↔ t.val % 50 = 0)
/-- The second at the last. -/
theorem hlast2 : ∀ t : Fin cfg2.N, g2last (grid2.coords t) ↔ t.val % 50 = 49 :=
  (by decide +kernel : ∀ t : Fin grid2.N, g2last (grid2.coords t) ↔ t.val % 50 = 49)

/-- Away from the last point of a row the output window is idle, -/
theorem idle2_3 (t : Fin cfg2.N) (h : ¬ g2last (grid2.coords t)) : cfg2.idle 3 (cfg2.grid.coords t) = true := by
  show (!(k2_cond2 (grid2.coords t) == 1#1)) = true
  rw [Bool.not_eq_true', beq_eq_false_iff_ne]; exact h
/-- and is not written back; -/
theorem noFlush2_3 (t : Fin cfg2.N) (h : ¬ g2last (grid2.coords t)) : (cfg2.win 3).flush t = false :=
  Bool.eq_false_iff.mpr fun hf => h ((hlast2 t).mpr ((flush2_3 t).mp hf))
/-- at the last point it is live. -/
theorem live2_3 (t : Fin cfg2.N) (h : g2last (grid2.coords t)) : cfg2.idle 3 (cfg2.grid.coords t) = false := by
  show (!(k2_cond2 (grid2.coords t) == 1#1)) = false
  rw [Bool.not_eq_false', beq_iff_eq]; exact h

/-! ## The running sum -/

/-- What the scratch holds after the body at position `n`: at the first point of a row the first partial sum added to
    zeros, afterwards the point's partial sum added to what the point before left. -/
def acc2 (c : Dev nD) : (n : ℕ) → n < cfg2.N → Vec F S8192x64 .f32
  | 0, hn => k2_pay2 (grid2.coords ⟨0, hn⟩) (iblk2 V c 0 ⟨0, hn⟩) (iblk2 V c 2 ⟨0, hn⟩) k2_pay1
  | n + 1, hn =>
    if (n + 1) % 50 = 0 then k2_pay2 (grid2.coords ⟨n + 1, hn⟩) (iblk2 V c 0 ⟨n + 1, hn⟩) (iblk2 V c 2 ⟨n + 1, hn⟩) k2_pay1
    else k2_pay2 (grid2.coords ⟨n + 1, hn⟩) (iblk2 V c 0 ⟨n + 1, hn⟩) (iblk2 V c 2 ⟨n + 1, hn⟩) (acc2 c n (Nat.lt_of_succ_lt hn))

theorem acc2_first (c : Dev nD) (t : Fin cfg2.N) (h : t.val % 50 = 0) :
    acc2 V c t.val t.isLt = k2_pay2 (grid2.coords t) (iblk2 V c 0 t) (iblk2 V c 2 t) k2_pay1 := by
  obtain ⟨n, hn⟩ := t
  cases n with
  | zero => rfl
  | succ n => exact if_pos h

theorem acc2_next (c : Dev nD) (t : Fin cfg2.N) (h : ¬ t.val % 50 = 0) :
    acc2 V c t.val t.isLt = k2_pay2 (grid2.coords t) (iblk2 V c 0 t) (iblk2 V c 2 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM2 : Memref sig .tc .vmem S8192x64 .f32 := Memref.whole cc2_scratch0

/-- The scoped buffers other than the scratch operand, unopened. -/
abbrev rest2 (c : Dev nD) : sProp 𝕄 :=
  Pipeline.scopedRestBut (Ix := Unit) (Name := ℕ) (U := UR sig nD τ) (Lvl := ℕ) (Val := Elt F) spec2 c [cc2_scratch0]

/-- The region's invariant before position `n`: before the first point every scoped buffer at anything; afterwards the
    scratch at the running sum the point before left, the other scoped buffers at anything, the generator register at
    some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ rest2 c) ∗ (∃ r, prngReg c r)) := by
  cases n with
  | zero => exact absurd rfl hz
  | succ n => rfl

/-- The class invariant with the scratch operand opened. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; rfl

/-! ## The proof data -/

/-- The arrays as the region finds them; after the body at point `t` each input's buffer at its block and the output's
    at the scaled running sum (consulted where the block is written back: the last point of a row); the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 1 t) (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (iblk2 V c 1 t) (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
      unfold Dat.leavesExact; rw [show cfg2.idle 0 (cfg2.grid.coords t) = false from rfl], after2_0]
  rw [show (dat2 V c).leavesExact 1 t = owns (c : Thread nD τ) (st2_1 t) fullShare ((dat2 V c).after 1 t) from by
      unfold Dat.leavesExact; rw [show cfg2.idle 1 (cfg2.grid.coords t) = false from rfl], after2_1]
  rw [show (dat2 V c).leavesExact 2 t = owns (c : Thread nD τ) (st2_2 t) fullShare ((dat2 V c).after 2 t) from by
      unfold Dat.leavesExact; rw [show cfg2.idle 2 (cfg2.grid.coords t) = false from rfl], after2_2]
  have hN : t.val < 5200 := lt_of_lt_of_eq t.isLt (show cfg2.N = 5200 from N_2)
  by_cases h0 : t.val % 50 = 0
  · have h1 : ¬ t.val % 50 = 49 := by omega
    have hl : ¬ g2last (grid2.coords t) := fun h => h1 ((hlast2 t).mp h)
    rw [Dat.leavesExact_idle (dat2 V c) 3 t (idle2_3 t hl) (noFlush2_3 t hl)]
    rw [acc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (gather2_first c (grid2.coords t) _ _ _ _ _ _ _ _ _ _ ((hfirst2 t).mpr h0) hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (gather2_first c (grid2.coords t) _ _ _ _ _ _ _ _ _ _ ((hfirst2 t).mpr h0) hl (iblk2 V c 0 t) (iblk2 V c 1 t) (iblk2 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g2first (grid2.coords t) := fun h => h0 ((hfirst2 t).mp h)
    have hz : t.val ≠ 0 := fun h => h0 (by rw [h])
    rw [acc2_next V c t h0]
    rw [PhiS2_castSucc V c t, PhiS2_pos V c _ _ hz]
    by_cases h1 : t.val % 50 = 49
    · have hl : g2last (grid2.coords t) := (hlast2 t).mpr h1
      rw [show (dat2 V c).leavesExact 3 t = owns (c : Thread nD τ) (st2_3 t) fullShare ((dat2 V c).after 3 t) from by
        unfold Dat.leavesExact; rw [live2_3 t hl], after2_3, acc2_next V c t h0]
      iintro ⟨⟨⟨HS, HR⟩, Hg⟩, Ho, ⟨%d0, H0⟩, ⟨%d1, H1⟩, ⟨%d2, H2⟩, ⟨%d3, H3⟩⟩
      iapply (gather2_last c (grid2.coords t) _ _ _ _ _ _ _ _ _ _ hf hl (iblk2 V c 0 t) (iblk2 V c 1 t) (iblk2 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g2last (grid2.coords t) := fun h => h1 ((hlast2 t).mp h)
      rw [Dat.leavesExact_idle (dat2 V c) 3 t (idle2_3 t hl) (noFlush2_3 t hl)]
      iintro ⟨⟨⟨HS, HR⟩, Hg⟩, Ho, ⟨%d0, H0⟩, ⟨%d1, H1⟩, ⟨%d2, H2⟩, ⟨%d3, H3⟩⟩
      iapply (gather2_mid c (grid2.coords t) _ _ _ _ _ _ _ _ _ _ hf hl (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the running sum's name is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 5200 := N_2; omega), PhiA2_eq]
  iintro ⟨⟨HS, HR⟩, Hg⟩
  isplitl [HS HR]
  · isplitl [HS]; · iexists _; iexact HS
    iexact HR
  iexact Hg

end Region2

end Cert.KernelIdeal.Hand

end
-- ==== Proof.KIRuns3.lean ====
/-
  The body of kernel region 3 (scatter and add) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 3: the scatter body on any whole staging memrefs, case by case

The body keeps a running sum in its scratch operand. At the first edge block of a row of the grid it stores zeros into
the scratch before adding; at the last, the hyperbolic tangent of the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s3first (i : grid3.Coords) : Prop :=
  (Scalar.cmpi .ne (Scalar.extui (Scalar.cmpi .eq (BitVec.ofNat 32 (i 1).val) 0#32)) 0#32) = 1#1
/-- The edge-block coordinate is the last one: the body's second conditional. -/
abbrev s3last (i : grid3.Coords) : Prop := k3_cond2 i = 1#1

set_option maxHeartbeats 2000000 in
/-- First edge block of a row: the scratch, whatever it held, ends at the first partial sum added to zeros. -/
theorem scatter3_first (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : s3first i) (hc2 : ¬ s3last i)
    (x2 : Vec F S4096 .i32) (x3 : Vec F S4096x64 .bf16) (x4 : Vec F S1x64 .f32) (x5 : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 i x2 k3_pay1 x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x64_S2048x64_0_0 y⟩), View.canon_cons_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
  rw [View.readCov_unit_zero _ hz2]

set_option maxHeartbeats 2000000 in
/-- A edge block that is neither first nor last: the partial sum is added to what the scratch held. -/
theorem scatter3_mid (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s3first i) (hc2 : ¬ s3last i)
    (x2 : Vec F S4096 .i32) (x3 : Vec F S4096x64 .bf16) (x4 : Vec F S1x64 .f32) (x5 : Vec F S2048x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k3_pay2 i x2 xs x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

set_option maxHeartbeats 2000000 in
/-- Last edge block of a row: the sum is completed in the scratch and the hyperbolic tangent of the sum plus the bias row is stored into the output block. -/
theorem scatter3_last (c : Dev nD) (i : grid3.Coords)
    (arg2 : Memref sig .tc .vmem S4096 .i32) (harg2 : arg2.IsWhole) (arg3 : Memref sig .tc .vmem S4096x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc1 : ¬ s3first i) (hc2 : s3last i)
    (x2 : Vec F S4096 .i32) (x3 : Vec F S4096x64 .bf16) (x4 : Vec F S1x64 .f32) (xs : Vec F S2048x64 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k3_pay3 (k3_pay2 i x2 xs x3) x4) ∗ owns (c : Thread nD τ) arg6 fullShare (k3_pay2 i x2 xs x3)) -∗ K ⟨⟩))
      ⊢ wp frame (wpE (defs₀ (F := F)) Variants.none c none) E (cc3__scatter_add_kernel i arg2 harg2 arg3 harg3 arg4 harg4 arg5 harg5 arg6 harg6) K := by
  simp only [cc3__scatter_add_kernel_eq_skeleton]; unfold cc3__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x64_S2048x64_0_0 y⟩), View.canon_unit_zero hz2]
    simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x64_S2048x64_0_0 y⟩), View.canon_unit_zero hz2]
  simp only [View.readAt_eq_ld, harg2.read_unread, harg3.read_unread, harg4.read_unread, harg6.read_unread,
      View.ld_unit_zero (S := S4096) hz1, View.ld_unit_zero (S := S4096x64) hz2, View.ld_unit_zero (S := S1x64) hz2, View.ld_unit_zero (S := S2048x64) hz2]

end Cert.KernelIdeal.Hand

end
-- ==== Proof.KIRegion3.lean ====
/-
  Kernel region 3 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns3
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 3 of @main (scatter), at the buffer contents `V` it is entered from

The proof data of the region's pipeline: each input window's staging buffer holds its block of the array; the
scratch operand carries the running sum from point to point along a row of the grid (`acc3`), which is part of
the region's invariant from the first point on; the output window's buffer is stored at the last point of a row
only, and is idle at the others. -/

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The conditionals in closed form -/

/-- The first conditional holds at the first point of each row of the grid. -/
theorem hfirst3 : ∀ t : Fin cfg3.N, s3first (grid3.coords t) ↔ t.val % 208 = 0 :=
  (by decide +kernel : ∀ t : Fin grid3.N, s3first (grid3.coords t) ↔ t.val % 208 = 0)
/-- The second at the last. -/
theorem hlast3 : ∀ t : Fin cfg3.N, s3last (grid3.coords t) ↔ t.val % 208 = 207 :=
  (by decide +kernel : ∀ t : Fin grid3.N, s3last (grid3.coords t) ↔ t.val % 208 = 207)

/-- Away from the last point of a row the output window is idle, -/
theorem idle3_3 (t : Fin cfg3.N) (h : ¬ s3last (grid3.coords t)) : cfg3.idle 3 (cfg3.grid.coords t) = true := by
  show (!(k3_cond2 (grid3.coords t) == 1#1)) = true
  rw [Bool.not_eq_true', beq_eq_false_iff_ne]; exact h
/-- and is not written back; -/
theorem noFlush3_3 (t : Fin cfg3.N) (h : ¬ s3last (grid3.coords t)) : (cfg3.win 3).flush t = false :=
  Bool.eq_false_iff.mpr fun hf => h ((hlast3 t).mpr ((flush3_3 t).mp hf))
/-- at the last point it is live. -/
theorem live3_3 (t : Fin cfg3.N) (h : s3last (grid3.coords t)) : cfg3.idle 3 (cfg3.grid.coords t) = false := by
  show (!(k3_cond2 (grid3.coords t) == 1#1)) = false
  rw [Bool.not_eq_false', beq_iff_eq]; exact h

/-! ## The running sum -/

/-- What the scratch holds after the body at position `n`: at the first point of a row the first partial sum added to
    zeros, afterwards the point's partial sum added to what the point before left. -/
def acc3 (c : Dev nD) : (n : ℕ) → n < cfg3.N → Vec F S2048x64 .f32
  | 0, hn => k3_pay2 (grid3.coords ⟨0, hn⟩) (iblk3 V c 0 ⟨0, hn⟩) k3_pay1 (iblk3 V c 1 ⟨0, hn⟩)
  | n + 1, hn =>
    if (n + 1) % 208 = 0 then k3_pay2 (grid3.coords ⟨n + 1, hn⟩) (iblk3 V c 0 ⟨n + 1, hn⟩) k3_pay1 (iblk3 V c 1 ⟨n + 1, hn⟩)
    else k3_pay2 (grid3.coords ⟨n + 1, hn⟩) (iblk3 V c 0 ⟨n + 1, hn⟩) (acc3 c n (Nat.lt_of_succ_lt hn)) (iblk3 V c 1 ⟨n + 1, hn⟩)

theorem acc3_first (c : Dev nD) (t : Fin cfg3.N) (h : t.val % 208 = 0) :
    acc3 V c t.val t.isLt = k3_pay2 (grid3.coords t) (iblk3 V c 0 t) k3_pay1 (iblk3 V c 1 t) := by
  obtain ⟨n, hn⟩ := t
  cases n with
  | zero => rfl
  | succ n => exact if_pos h

theorem acc3_next (c : Dev nD) (t : Fin cfg3.N) (h : ¬ t.val % 208 = 0) :
    acc3 V c t.val t.isLt = k3_pay2 (grid3.coords t) (iblk3 V c 0 t) (acc3 V c (t.val - 1) (Nat.lt_of_le_of_lt (Nat.sub_le _ _) t.isLt)) (iblk3 V c 1 t) := by
  obtain ⟨n, hn⟩ := t
  cases n with
  | zero => exact absurd (Nat.zero_mod _) h
  | succ n => exact if_neg h

/-! ## The invariant -/

/-- The scratch operand as a memref. -/
abbrev scM3 : Memref sig .tc .vmem S2048x64 .f32 := Memref.whole cc3_scratch0

/-- The scoped buffers other than the scratch operand, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant before position `n`: before the first point every scoped buffer at anything; afterwards the
    scratch at the running sum the point before left, the other scoped buffers at anything, the generator register at
    some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ rest3 c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 c) ∗ (∃ r, prngReg c r)) := by
  cases n with
  | zero => exact absurd rfl hz
  | succ n => rfl

/-- The class invariant with the scratch operand opened. -/
theorem PhiA3_eq (c : Dev nD) :
    (Pipeline.ΦA spec3 c : sProp 𝕄)
      = iprop(iprop((∃ d, owns (c : Thread nD τ) scM3 fullShare d) ∗ rest3 c) ∗ (∃ r, prngReg c r)) := by
  unfold Pipeline.ΦA; rw [scopedRest3_split]; simp only [scM3, owns_whole]; rfl

/-! ## The proof data -/

/-- The arrays as the region finds them; after the body at point `t` each input's buffer at its block and the output's
    at the scaled running sum (consulted where the block is written back: the last point of a row); the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
      unfold Dat.leavesExact; rw [show cfg3.idle 0 (cfg3.grid.coords t) = false from rfl], after3_0]
  rw [show (dat3 V c).leavesExact 1 t = owns (c : Thread nD τ) (st3_1 t) fullShare ((dat3 V c).after 1 t) from by
      unfold Dat.leavesExact; rw [show cfg3.idle 1 (cfg3.grid.coords t) = false from rfl], after3_1]
  rw [show (dat3 V c).leavesExact 2 t = owns (c : Thread nD τ) (st3_2 t) fullShare ((dat3 V c).after 2 t) from by
      unfold Dat.leavesExact; rw [show cfg3.idle 2 (cfg3.grid.coords t) = false from rfl], after3_2]
  have hN : t.val < 5200 := lt_of_lt_of_eq t.isLt (show cfg3.N = 5200 from N_3)
  by_cases h0 : t.val % 208 = 0
  · have h1 : ¬ t.val % 208 = 207 := by omega
    have hl : ¬ s3last (grid3.coords t) := fun h => h1 ((hlast3 t).mp h)
    rw [Dat.leavesExact_idle (dat3 V c) 3 t (idle3_3 t hl) (noFlush3_3 t hl)]
    rw [acc3_first V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (scatter3_first c (grid3.coords t) _ _ _ _ _ _ _ _ _ _ ((hfirst3 t).mpr h0) hl (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (scatter3_first c (grid3.coords t) _ _ _ _ _ _ _ _ _ _ ((hfirst3 t).mpr h0) hl (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s3first (grid3.coords t) := fun h => h0 ((hfirst3 t).mp h)
    have hz : t.val ≠ 0 := fun h => h0 (by rw [h])
    rw [acc3_next V c t h0]
    rw [PhiS3_castSucc V c t, PhiS3_pos V c _ _ hz]
    by_cases h1 : t.val % 208 = 207
    · have hl : s3last (grid3.coords t) := (hlast3 t).mpr h1
      rw [show (dat3 V c).leavesExact 3 t = owns (c : Thread nD τ) (st3_3 t) fullShare ((dat3 V c).after 3 t) from by
        unfold Dat.leavesExact; rw [live3_3 t hl], after3_3, acc3_next V c t h0]
      iintro ⟨⟨⟨HS, HR⟩, Hg⟩, Ho, ⟨%d0, H0⟩, ⟨%d1, H1⟩, ⟨%d2, H2⟩, ⟨%d3, H3⟩⟩
      iapply (scatter3_last c (grid3.coords t) _ _ _ _ _ _ _ _ _ _ hf hl (iblk3 V c 0 t) (iblk3 V c 1 t) (iblk3 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s3last (grid3.coords t) := fun h => h1 ((hlast3 t).mp h)
      rw [Dat.leavesExact_idle (dat3 V c) 3 t (idle3_3 t hl) (noFlush3_3 t hl)]
      iintro ⟨⟨⟨HS, HR⟩, Hg⟩, Ho, ⟨%d0, H0⟩, ⟨%d1, H1⟩, ⟨%d2, H2⟩, ⟨%d3, H3⟩⟩
      iapply (scatter3_mid c (grid3.coords t) _ _ _ _ _ _ _ _ _ _ hf hl (iblk3 V c 0 t) (iblk3 V c 1 t) (iblk3 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the running sum's name is forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 5200 := N_3; omega), PhiA3_eq]
  iintro ⟨⟨HS, HR⟩, Hg⟩
  isplitl [HS HR]
  · isplitl [HS]; · iexists _; iexact HS
    iexact HR
  iexact Hg

end Region3

end Cert.KernelIdeal.Hand

end
-- ==== Proof.KIRuns4.lean ====
/-
  The body of kernel region 4 (gather and scale) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 4: the gather body on any whole staging memrefs, case by case

The body keeps a running sum in its scratch operand. At the first node block of a row of the grid it stores zeros into
the scratch before adding; at the last, its product with the norm column is stored into the output block.
The three theorems run the printed body in the three cases the grid meets and name what the scratch (and, in the last
case, the output block) holds afterwards through the body's own payload terms; where the output block is not stored
it is handed back as it was found. -/

/-- The node-block coordinate is zero: the body's first conditional. -/
abbrev g4first (i : grid4.Coords) : Prop :=
  (Scalar.cmpi .ne (Scalar.extui (Scalar.cmpi .eq (BitVec.ofNat 32 (i 1).val) 0#32)) 0#32) = 1#1
/-- The node-block coordinate is the last one: the body's second conditional. -/
abbrev g4last (i : grid4.Coords) : Prop := k4_cond2 i = 1#1

set_option maxHeartbeats 2000000 in
/-- First node block of a row: the scratch, whatever it held, ends at the first partial sum added to zeros. -/
theorem gather4_first (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : g4first i) (hc2 : ¬ g4last i)
    (x2 : Vec F S8192 .i32) (x3 : Vec F S8192 .f32) (x4 : Vec F S1024x32 .bf16) (x5 : Vec F S8192x32 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 i x2 x4 k4_pay1)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S8192x32_S8192x32_0_0 y⟩), View.canon_cons_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]
  rw [View.readCov_unit_zero _ hz2]

set_option maxHeartbeats 2000000 in
/-- A node block that is neither first nor last: the partial sum is added to what the scratch held. -/
theorem gather4_mid (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : ¬ g4first i) (hc2 : ¬ g4last i)
    (x2 : Vec F S8192 .i32) (x3 : Vec F S8192 .f32) (x4 : Vec F S1024x32 .bf16) (x5 : Vec F S8192x32 .bf16) (xs : Vec F S8192x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k4_pay2 i x2 x4 xs)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S8192x32_S8192x32_0_0 y⟩), View.canon_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]

set_option maxHeartbeats 2000000 in
/-- Last node block of a row: the sum is completed in the scratch and its product with the norm column is stored into the output block. -/
theorem gather4_last (c : Dev nD) (i : grid4.Coords)
    (arg2 : Memref sig .tc .vmem S8192 .i32) (harg2 : arg2.IsWhole) (arg3 : Memref sig .tc .vmem S8192 .f32) (harg3 : arg3.IsWhole)
    (arg4 : Memref sig .tc .vmem S1024x32 .bf16) (harg4 : arg4.IsWhole) (arg5 : Memref sig .tc .vmem S8192x32 .bf16) (harg5 : arg5.IsWhole)
    (arg6 : Memref sig .tc .vmem S8192x32 .f32) (harg6 : arg6.IsWhole)
    (hc1 : ¬ g4first i) (hc2 : g4last i)
    (x2 : Vec F S8192 .i32) (x3 : Vec F S8192 .f32) (x4 : Vec F S1024x32 .bf16) (xs : Vec F S8192x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k4_pay3 x3 (k4_pay2 i x2 x4 xs)) ∗ owns (c : Thread nD τ) arg6 fullShare (k4_pay2 i x2 x4 xs)) -∗ K ⟨⟩))
      ⊢ wp frame (wpE (defs₀ (F := F)) Variants.none c none) E (cc4__gather_scale_kernel i arg2 harg2 arg3 harg3 arg4 harg4 arg5 harg5 arg6 harg6) K := by
  simp only [cc4__gather_scale_kernel_eq_skeleton]; unfold cc4__gather_scale_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S8192x32_S8192x32_0_0 y⟩), View.canon_unit_zero hz2]
    simp only [View.readAt_eq_ld, harg2.read_unread, harg3.read_unread, harg4.read_unread, harg6.read_unread,
      View.ld_unit_zero (S := S8192) hz1, View.ld_unit_zero (S := S1024x32) hz2, View.ld_unit_zero (S := S8192x32) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S8192x32_S8192x32_0_0 y⟩), View.canon_unit_zero hz2]
  simp only [View.readAt_eq_ld, harg2.read_unread, harg3.read_unread, harg4.read_unread, harg6.read_unread,
      View.ld_unit_zero (S := S8192) hz1, View.ld_unit_zero (S := S1024x32) hz2, View.ld_unit_zero (S := S8192x32) hz2]

end Cert.KernelIdeal.Hand

end
-- ==== Proof.KIRegion4.lean ====
/-
  Kernel region 4 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns4
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 4 of @main (gather), at the buffer contents `V` it is entered from

The proof data of the region's pipeline: each input window's staging buffer holds its block of the array; the
scratch operand carries the running sum from point to point along a row of the grid (`acc4`), which is part of
the region's invariant from the first point on; the output window's buffer is stored at the last point of a row
only, and is idle at the others. -/

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The conditionals in closed form -/

/-- The first conditional holds at the first point of each row of the grid. -/
theorem hfirst4 : ∀ t : Fin cfg4.N, g4first (grid4.coords t) ↔ t.val % 50 = 0 :=
  (by decide +kernel : ∀ t : Fin grid4.N, g4first (grid4.coords t) ↔ t.val % 50 = 0)
/-- The second at the last. -/
theorem hlast4 : ∀ t : Fin cfg4.N, g4last (grid4.coords t) ↔ t.val % 50 = 49 :=
  (by decide +kernel : ∀ t : Fin grid4.N, g4last (grid4.coords t) ↔ t.val % 50 = 49)

/-- Away from the last point of a row the output window is idle, -/
theorem idle4_3 (t : Fin cfg4.N) (h : ¬ g4last (grid4.coords t)) : cfg4.idle 3 (cfg4.grid.coords t) = true := by
  show (!(k4_cond2 (grid4.coords t) == 1#1)) = true
  rw [Bool.not_eq_true', beq_eq_false_iff_ne]; exact h
/-- and is not written back; -/
theorem noFlush4_3 (t : Fin cfg4.N) (h : ¬ g4last (grid4.coords t)) : (cfg4.win 3).flush t = false :=
  Bool.eq_false_iff.mpr fun hf => h ((hlast4 t).mpr ((flush4_3 t).mp hf))
/-- at the last point it is live. -/
theorem live4_3 (t : Fin cfg4.N) (h : g4last (grid4.coords t)) : cfg4.idle 3 (cfg4.grid.coords t) = false := by
  show (!(k4_cond2 (grid4.coords t) == 1#1)) = false
  rw [Bool.not_eq_false', beq_iff_eq]; exact h

/-! ## The running sum -/

/-- What the scratch holds after the body at position `n`: at the first point of a row the first partial sum added to
    zeros, afterwards the point's partial sum added to what the point before left. -/
def acc4 (c : Dev nD) : (n : ℕ) → n < cfg4.N → Vec F S8192x32 .f32
  | 0, hn => k4_pay2 (grid4.coords ⟨0, hn⟩) (iblk4 V c 0 ⟨0, hn⟩) (iblk4 V c 2 ⟨0, hn⟩) k4_pay1
  | n + 1, hn =>
    if (n + 1) % 50 = 0 then k4_pay2 (grid4.coords ⟨n + 1, hn⟩) (iblk4 V c 0 ⟨n + 1, hn⟩) (iblk4 V c 2 ⟨n + 1, hn⟩) k4_pay1
    else k4_pay2 (grid4.coords ⟨n + 1, hn⟩) (iblk4 V c 0 ⟨n + 1, hn⟩) (iblk4 V c 2 ⟨n + 1, hn⟩) (acc4 c n (Nat.lt_of_succ_lt hn))

theorem acc4_first (c : Dev nD) (t : Fin cfg4.N) (h : t.val % 50 = 0) :
    acc4 V c t.val t.isLt = k4_pay2 (grid4.coords t) (iblk4 V c 0 t) (iblk4 V c 2 t) k4_pay1 := by
  obtain ⟨n, hn⟩ := t
  cases n with
  | zero => rfl
  | succ n => exact if_pos h

theorem acc4_next (c : Dev nD) (t : Fin cfg4.N) (h : ¬ t.val % 50 = 0) :
    acc4 V c t.val t.isLt = k4_pay2 (grid4.coords t) (iblk4 V c 0 t) (iblk4 V c 2 t) (acc4 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scratch operand as a memref. -/
abbrev scM4 : Memref sig .tc .vmem S8192x32 .f32 := Memref.whole cc4_scratch0

/-- The scoped buffers other than the scratch operand, unopened. -/
abbrev rest4 (c : Dev nD) : sProp 𝕄 :=
  Pipeline.scopedRestBut (Ix := Unit) (Name := ℕ) (U := UR sig nD τ) (Lvl := ℕ) (Val := Elt F) spec4 c [cc4_scratch0]

/-- The region's invariant before position `n`: before the first point every scoped buffer at anything; afterwards the
    scratch at the running sum the point before left, the other scoped buffers at anything, the generator register at
    some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ rest4 c) ∗ (∃ r, prngReg c r)) := by
  cases n with
  | zero => exact absurd rfl hz
  | succ n => rfl

/-- The class invariant with the scratch operand opened. -/
theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; rfl

/-! ## The proof data -/

/-- The arrays as the region finds them; after the body at point `t` each input's buffer at its block and the output's
    at the scaled running sum (consulted where the block is written back: the last point of a row); the invariant
    `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 1 t) (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = k4_pay3 (iblk4 V c 1 t) (acc4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
      unfold Dat.leavesExact; rw [show cfg4.idle 0 (cfg4.grid.coords t) = false from rfl], after4_0]
  rw [show (dat4 V c).leavesExact 1 t = owns (c : Thread nD τ) (st4_1 t) fullShare ((dat4 V c).after 1 t) from by
      unfold Dat.leavesExact; rw [show cfg4.idle 1 (cfg4.grid.coords t) = false from rfl], after4_1]
  rw [show (dat4 V c).leavesExact 2 t = owns (c : Thread nD τ) (st4_2 t) fullShare ((dat4 V c).after 2 t) from by
      unfold Dat.leavesExact; rw [show cfg4.idle 2 (cfg4.grid.coords t) = false from rfl], after4_2]
  have hN : t.val < 5200 := lt_of_lt_of_eq t.isLt (show cfg4.N = 5200 from N_4)
  by_cases h0 : t.val % 50 = 0
  · have h1 : ¬ t.val % 50 = 49 := by omega
    have hl : ¬ g4last (grid4.coords t) := fun h => h1 ((hlast4 t).mp h)
    rw [Dat.leavesExact_idle (dat4 V c) 3 t (idle4_3 t hl) (noFlush4_3 t hl)]
    rw [acc4_first V c t h0]
    by_cases hz : t.val = 0
    · rw [PhiS4_castSucc V c t, PhiS4_zero V c _ _ hz, PhiA4_eq]
      iintro ⟨⟨⟨HS, HR⟩, Hg⟩, Ho, ⟨%d0, H0⟩, ⟨%d1, H1⟩, ⟨%d2, H2⟩, ⟨%d3, H3⟩⟩
      iapply (gather4_first c (grid4.coords t) _ _ _ _ _ _ _ _ _ _ ((hfirst4 t).mpr h0) hl (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS, HR⟩, Hg⟩, Ho, ⟨%d0, H0⟩, ⟨%d1, H1⟩, ⟨%d2, H2⟩, ⟨%d3, H3⟩⟩
      iapply (gather4_first c (grid4.coords t) _ _ _ _ _ _ _ _ _ _ ((hfirst4 t).mpr h0) hl (iblk4 V c 0 t) (iblk4 V c 1 t) (iblk4 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ g4first (grid4.coords t) := fun h => h0 ((hfirst4 t).mp h)
    have hz : t.val ≠ 0 := fun h => h0 (by rw [h])
    rw [acc4_next V c t h0]
    rw [PhiS4_castSucc V c t, PhiS4_pos V c _ _ hz]
    by_cases h1 : t.val % 50 = 49
    · have hl : g4last (grid4.coords t) := (hlast4 t).mpr h1
      rw [show (dat4 V c).leavesExact 3 t = owns (c : Thread nD τ) (st4_3 t) fullShare ((dat4 V c).after 3 t) from by
        unfold Dat.leavesExact; rw [live4_3 t hl], after4_3, acc4_next V c t h0]
      iintro ⟨⟨⟨HS, HR⟩, Hg⟩, Ho, ⟨%d0, H0⟩, ⟨%d1, H1⟩, ⟨%d2, H2⟩, ⟨%d3, H3⟩⟩
      iapply (gather4_last c (grid4.coords t) _ _ _ _ _ _ _ _ _ _ hf hl (iblk4 V c 0 t) (iblk4 V c 1 t) (iblk4 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ g4last (grid4.coords t) := fun h => h1 ((hlast4 t).mp h)
      rw [Dat.leavesExact_idle (dat4 V c) 3 t (idle4_3 t hl) (noFlush4_3 t hl)]
      iintro ⟨⟨⟨HS, HR⟩, Hg⟩, Ho, ⟨%d0, H0⟩, ⟨%d1, H1⟩, ⟨%d2, H2⟩, ⟨%d3, H3⟩⟩
      iapply (gather4_mid c (grid4.coords t) _ _ _ _ _ _ _ _ _ _ hf hl (iblk4 V c 0 t) (iblk4 V c 1 t) (iblk4 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the running sum's name is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 5200 := N_4; omega), PhiA4_eq]
  iintro ⟨⟨HS, HR⟩, Hg⟩
  isplitl [HS HR]
  · isplitl [HS]; · iexists _; iexact HS
    iexact HR
  iexact Hg

end Region4

end Cert.KernelIdeal.Hand

end
-- ==== Proof.KIRuns5.lean ====
/-
  The body of kernel region 5 (scatter and add) run symbolically in each of the three cases of its two conditionals.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! ## Region 5: the scatter body on any whole staging memrefs, case by case

The body keeps a running sum in its scratch operand. At the first edge block of a row of the grid it stores zeros into
the scratch before adding; at the last, the sum plus the bias row is stored into the output block.
The three theorems run the printed body in the three cases the grid meets and name what the scratch (and, in the last
case, the output block) holds afterwards through the body's own payload terms; where the output block is not stored
it is handed back as it was found. -/

/-- The edge-block coordinate is zero: the body's first conditional. -/
abbrev s5first (i : grid5.Coords) : Prop :=
  (Scalar.cmpi .ne (Scalar.extui (Scalar.cmpi .eq (BitVec.ofNat 32 (i 1).val) 0#32)) 0#32) = 1#1
/-- The edge-block coordinate is the last one: the body's second conditional. -/
abbrev s5last (i : grid5.Coords) : Prop := k5_cond2 i = 1#1

set_option maxHeartbeats 2000000 in
/-- First edge block of a row: the scratch, whatever it held, ends at the first partial sum added to zeros. -/
theorem scatter5_first (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : s5first i) (hc2 : ¬ s5last i)
    (x2 : Vec F S4096 .i32) (x3 : Vec F S4096x32 .bf16) (x4 : Vec F S1x32 .f32) (x5 : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 i x2 k5_pay1 x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%f5, %hf5, H5⟩, ⟨%ds, %fs, -, HS⟩, Hk⟩
  obtain rfl := harg2.eq_unread hf2; obtain rfl := harg3.eq_unread hf3; obtain rfl := harg4.eq_unread hf4
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  sl_unfold_run_names
  rw [View.read_writes_eq_canon _ _ _ (fun y => ⟨_, List.mem_cons_self, View.mem_set_unit_zero hz2 inb_S2048x32_S2048x32_0_0 y⟩), View.canon_cons_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]
  rw [View.readCov_unit_zero _ hz2]

set_option maxHeartbeats 2000000 in
/-- A edge block that is neither first nor last: the partial sum is added to what the scratch held. -/
theorem scatter5_mid (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : ¬ s5first i) (hc2 : ¬ s5last i)
    (x2 : Vec F S4096 .i32) (x3 : Vec F S4096x32 .bf16) (x4 : Vec F S1x32 .f32) (x5 : Vec F S2048x32 .f32) (xs : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k5_pay2 i x2 xs x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%f5, %hf5, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists f5; isplitr; · ipureintro; exact hf5
    iexact H5
  iexists _; isplitr
  swap; · iexact HS
  ipureintro
  rw [View.read_writes_eq_canon _ _ _ (fun y => ⟨_, List.mem_singleton_self _, View.mem_set_unit_zero hz2 inb_S2048x32_S2048x32_0_0 y⟩), View.canon_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]

set_option maxHeartbeats 2000000 in
/-- Last edge block of a row: the sum is completed in the scratch and the sum plus the bias row is stored into the output block. -/
theorem scatter5_last (c : Dev nD) (i : grid5.Coords)
    (arg2 : Memref sig .tc .vmem S4096 .i32) (harg2 : arg2.IsWhole) (arg3 : Memref sig .tc .vmem S4096x32 .bf16) (harg3 : arg3.IsWhole)
    (arg4 : Memref sig .tc .vmem S1x32 .f32) (harg4 : arg4.IsWhole) (arg5 : Memref sig .tc .vmem S2048x32 .f32) (harg5 : arg5.IsWhole)
    (arg6 : Memref sig .tc .vmem S2048x32 .f32) (harg6 : arg6.IsWhole)
    (hc1 : ¬ s5first i) (hc2 : s5last i)
    (x2 : Vec F S4096 .i32) (x3 : Vec F S4096x32 .bf16) (x4 : Vec F S1x32 .f32) (xs : Vec F S2048x32 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare xs
        ∗ (iprop(owns (c : Thread nD τ) arg2 fullShare x2 ∗ owns (c : Thread nD τ) arg3 fullShare x3 ∗ owns (c : Thread nD τ) arg4 fullShare x4
            ∗ owns (c : Thread nD τ) arg5 fullShare (k5_pay3 (k5_pay2 i x2 xs x3) x4) ∗ owns (c : Thread nD τ) arg6 fullShare (k5_pay2 i x2 xs x3)) -∗ K ⟨⟩))
      ⊢ wp frame (wpE (defs₀ (F := F)) Variants.none c none) E (cc5__scatter_add_kernel i arg2 harg2 arg3 harg3 arg4 harg4 arg5 harg5 arg6 harg6) K := by
  simp only [cc5__scatter_add_kernel_eq_skeleton]; unfold cc5__scatter_add_kernel_skel
  unfold owns
  iintro ⟨⟨%f2, %hf2, H2⟩, ⟨%f3, %hf3, H3⟩, ⟨%f4, %hf4, H4⟩, ⟨%d5, %f5, -, H5⟩, ⟨%fs, %hfs, HS⟩, Hk⟩
  obtain rfl := harg2.eq_unread hf2; obtain rfl := harg3.eq_unread hf3; obtain rfl := harg4.eq_unread hf4; obtain rfl := harg6.eq_unread hfs
  sl_exec (disch := first | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (fun y => ⟨_, List.mem_singleton_self _, View.mem_set_unit_zero hz2 inb_S2048x32_S2048x32_0_0 y⟩), View.canon_unit_zero hz2]
    simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]
    rw [View.readCov_unit_zero _ hz2]
  iexists _; isplitr
  swap; · iexact HS
  ipureintro
  sl_unfold_run_names
  rw [View.read_writes_eq_canon _ _ _ (fun y => ⟨_, List.mem_singleton_self _, View.mem_set_unit_zero hz2 inb_S2048x32_S2048x32_0_0 y⟩), View.canon_unit_zero hz2]
  simp only [View.readAt_eq_ld, harg2.read_unread, harg3.read_unread, harg4.read_unread, harg6.read_unread,
      View.ld_unit_zero (S := S4096) hz1, View.ld_unit_zero (S := S4096x32) hz2, View.ld_unit_zero (S := S1x32) hz2, View.ld_unit_zero (S := S2048x32) hz2]

end Cert.KernelIdeal.Hand

end
-- ==== Proof.KIRegion5.lean ====
/-
  Kernel region 5 of the program as a pipeline with proof data: blocks, running sum, invariant, body obligation.
-/
import proofs.«130920_j16286515987226_2_alg».proof.Proof.Gen.KernelIdeal.Skeleton
import proofs.«130920_j16286515987226_2_alg».proof.Proof.Gen.KernelIdeal.Launch
import proofs.«130920_j16286515987226_2_alg».proof.Proof.Gen.KernelIdeal.Points
import Idealize.ShloMosaic.Lib.Tactic
import Idealize.ShloMosaic.Lib.Pipeline.Value
import Idealize.ShloMosaic.Lib.Pipeline.FrameBody
import proofs.«130920_j16286515987226_2_alg».proof.Proof.HandBasics
import proofs.«130920_j16286515987226_2_alg».proof.Proof.KIRuns5
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # Region 5 of @main (scatter), at the buffer contents `V` it is entered from

The proof data of the region's pipeline: each input window's staging buffer holds its block of the array; the
scratch operand carries the running sum from point to point along a row of the grid (`acc5`), which is part of
the region's invariant from the first point on; the output window's buffer is stored at the last point of a row
only, and is idle at the others. -/

section Region5

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The conditionals in closed form -/

/-- The first conditional holds at the first point of each row of the grid. -/
theorem hfirst5 : ∀ t : Fin cfg5.N, s5first (grid5.coords t) ↔ t.val % 208 = 0 :=
  (by decide +kernel : ∀ t : Fin grid5.N, s5first (grid5.coords t) ↔ t.val % 208 = 0)
/-- The second at the last. -/
theorem hlast5 : ∀ t : Fin cfg5.N, s5last (grid5.coords t) ↔ t.val % 208 = 207 :=
  (by decide +kernel : ∀ t : Fin grid5.N, s5last (grid5.coords t) ↔ t.val % 208 = 207)

/-- Away from the last point of a row the output window is idle, -/
theorem idle5_3 (t : Fin cfg5.N) (h : ¬ s5last (grid5.coords t)) : cfg5.idle 3 (cfg5.grid.coords t) = true := by
  show (!(k5_cond2 (grid5.coords t) == 1#1)) = true
  rw [Bool.not_eq_true', beq_eq_false_iff_ne]; exact h
/-- and is not written back; -/
theorem noFlush5_3 (t : Fin cfg5.N) (h : ¬ s5last (grid5.coords t)) : (cfg5.win 3).flush t = false :=
  Bool.eq_false_iff.mpr fun hf => h ((hlast5 t).mpr ((flush5_3 t).mp hf))
/-- at the last point it is live. -/
theorem live5_3 (t : Fin cfg5.N) (h : s5last (grid5.coords t)) : cfg5.idle 3 (cfg5.grid.coords t) = false := by
  show (!(k5_cond2 (grid5.coords t) == 1#1)) = false
  rw [Bool.not_eq_false', beq_iff_eq]; exact h

/-! ## The running sum -/

/-- What the scratch holds after the body at position `n`: at the first point of a row the first partial sum added to
    zeros, afterwards the point's partial sum added to what the point before left. -/
def acc5 (c : Dev nD) : (n : ℕ) → n < cfg5.N → Vec F S2048x32 .f32
  | 0, hn => k5_pay2 (grid5.coords ⟨0, hn⟩) (iblk5 V c 0 ⟨0, hn⟩) k5_pay1 (iblk5 V c 1 ⟨0, hn⟩)
  | n + 1, hn =>
    if (n + 1) % 208 = 0 then k5_pay2 (grid5.coords ⟨n + 1, hn⟩) (iblk5 V c 0 ⟨n + 1, hn⟩) k5_pay1 (iblk5 V c 1 ⟨n + 1, hn⟩)
    else k5_pay2 (grid5.coords ⟨n + 1, hn⟩) (iblk5 V c 0 ⟨n + 1, hn⟩) (acc5 c n (Nat.lt_of_succ_lt hn)) (iblk5 V c 1 ⟨n + 1, hn⟩)

theorem acc5_first (c : Dev nD) (t : Fin cfg5.N) (h : t.val % 208 = 0) :
    acc5 V c t.val t.isLt = k5_pay2 (grid5.coords t) (iblk5 V c 0 t) k5_pay1 (iblk5 V c 1 t) := by
  obtain ⟨n, hn⟩ := t
  cases n with
  | zero => rfl
  | succ n => exact if_pos h

theorem acc5_next (c : Dev nD) (t : Fin cfg5.N) (h : ¬ t.val % 208 = 0) :
    acc5 V c t.val t.isLt = k5_pay2 (grid5.coords t) (iblk5 V c 0 t) (acc5 V c (t.val - 1) (Nat.lt_of_le_of_lt (Nat.sub_le _ _) t.isLt)) (iblk5 V c 1 t) := by
  obtain ⟨n, hn⟩ := t
  cases n with
  | zero => exact absurd (Nat.zero_mod _) h
  | succ n => exact if_neg h

/-! ## The invariant -/

/-- The scratch operand as a memref. -/
abbrev scM5 : Memref sig .tc .vmem S2048x32 .f32 := Memref.whole cc5_scratch0

/-- The scoped buffers other than the scratch operand, unopened. -/
abbrev rest5 (c : Dev nD) : sProp 𝕄 :=
  Pipeline.scopedRestBut (Ix := Unit) (Name := ℕ) (U := UR sig nD τ) (Lvl := ℕ) (Val := Elt F) spec5 c [cc5_scratch0]

/-- The region's invariant before position `n`: before the first point every scoped buffer at anything; afterwards the
    scratch at the running sum the point before left, the other scoped buffers at anything, the generator register at
    some state. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ rest5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ rest5 c) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ rest5 c) ∗ (∃ r, prngReg c r)) := by
  cases n with
  | zero => exact absurd rfl hz
  | succ n => rfl

/-- The class invariant with the scratch operand opened. -/
theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; rfl

/-! ## The proof data -/

/-- The arrays as the region finds them; after the body at point `t` each input's buffer at its block and the output's
    at the scaled running sum (consulted where the block is written back: the last point of a row); the invariant
    `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k5_pay3 (acc5 V c t.val t.isLt) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks; the closed forms say which case the point is in; the
    invariant hands the body the scratch at what the point before left (at anything at the very first point) and takes
    it back at this point's running sum; where the output block is not stored its buffer is handed back as found. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (st5_0 t) fullShare ((dat5 V c).after 0 t) from by
      unfold Dat.leavesExact; rw [show cfg5.idle 0 (cfg5.grid.coords t) = false from rfl], after5_0]
  rw [show (dat5 V c).leavesExact 1 t = owns (c : Thread nD τ) (st5_1 t) fullShare ((dat5 V c).after 1 t) from by
      unfold Dat.leavesExact; rw [show cfg5.idle 1 (cfg5.grid.coords t) = false from rfl], after5_1]
  rw [show (dat5 V c).leavesExact 2 t = owns (c : Thread nD τ) (st5_2 t) fullShare ((dat5 V c).after 2 t) from by
      unfold Dat.leavesExact; rw [show cfg5.idle 2 (cfg5.grid.coords t) = false from rfl], after5_2]
  have hN : t.val < 5200 := lt_of_lt_of_eq t.isLt (show cfg5.N = 5200 from N_5)
  by_cases h0 : t.val % 208 = 0
  · have h1 : ¬ t.val % 208 = 207 := by omega
    have hl : ¬ s5last (grid5.coords t) := fun h => h1 ((hlast5 t).mp h)
    rw [Dat.leavesExact_idle (dat5 V c) 3 t (idle5_3 t hl) (noFlush5_3 t hl)]
    rw [acc5_first V c t h0]
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩, ⟨%d3, H3⟩⟩
      iapply (scatter5_first c (grid5.coords t) _ _ _ _ _ _ _ _ _ _ ((hfirst5 t).mpr h0) hl (iblk5 V c 0 t) (iblk5 V c 1 t) (iblk5 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, HR⟩, Hg⟩, Ho, ⟨%d0, H0⟩, ⟨%d1, H1⟩, ⟨%d2, H2⟩, ⟨%d3, H3⟩⟩
      iapply (scatter5_first c (grid5.coords t) _ _ _ _ _ _ _ _ _ _ ((hfirst5 t).mpr h0) hl (iblk5 V c 0 t) (iblk5 V c 1 t) (iblk5 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬ s5first (grid5.coords t) := fun h => h0 ((hfirst5 t).mp h)
    have hz : t.val ≠ 0 := fun h => h0 (by rw [h])
    rw [acc5_next V c t h0]
    rw [PhiS5_castSucc V c t, PhiS5_pos V c _ _ hz]
    by_cases h1 : t.val % 208 = 207
    · have hl : s5last (grid5.coords t) := (hlast5 t).mpr h1
      rw [show (dat5 V c).leavesExact 3 t = owns (c : Thread nD τ) (st5_3 t) fullShare ((dat5 V c).after 3 t) from by
        unfold Dat.leavesExact; rw [live5_3 t hl], after5_3, acc5_next V c t h0]
      iintro ⟨⟨⟨HS, HR⟩, Hg⟩, Ho, ⟨%d0, H0⟩, ⟨%d1, H1⟩, ⟨%d2, H2⟩, ⟨%d3, H3⟩⟩
      iapply (scatter5_last c (grid5.coords t) _ _ _ _ _ _ _ _ _ _ hf hl (iblk5 V c 0 t) (iblk5 V c 1 t) (iblk5 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬ s5last (grid5.coords t) := fun h => h1 ((hlast5 t).mp h)
      rw [Dat.leavesExact_idle (dat5 V c) 3 t (idle5_3 t hl) (noFlush5_3 t hl)]
      iintro ⟨⟨⟨HS, HR⟩, Hg⟩, Ho, ⟨%d0, H0⟩, ⟨%d1, H1⟩, ⟨%d2, H2⟩, ⟨%d3, H3⟩⟩
      iapply (scatter5_mid c (grid5.coords t) _ _ _ _ _ _ _ _ _ _ hf hl (iblk5 V c 0 t) (iblk5 V c 1 t) (iblk5 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: the running sum's name is forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 5200 := N_5; omega), PhiA5_eq]
  iintro ⟨⟨HS, HR⟩, Hg⟩
  isplitl [HS HR]
  · isplitl [HS]; · iexists _; iexact HS
    iexact HR
  iexact Hg

end Region5

end Cert.KernelIdeal.Hand

end
-- ==== Proof.KIFrame.lean ====
/-
  @main of the program as a list of segments — host stretches and the six kernel regions — and its run: every weakly
  fair execution terminates, nothing faults, and every unscoped buffer ends at the contents the last boundary names;
  in particular every argument array ends as launched.
-/
import proofs.«130920_j16286515987226_2_alg».proof.Proof.KIRegion0
import proofs.«130920_j16286515987226_2_alg».proof.Proof.KIRegion1
import proofs.«130920_j16286515987226_2_alg».proof.Proof.KIRegion2
import proofs.«130920_j16286515987226_2_alg».proof.Proof.KIRegion3
import proofs.«130920_j16286515987226_2_alg».proof.Proof.KIRegion4
import proofs.«130920_j16286515987226_2_alg».proof.Proof.KIRegion5
import proofs.«130920_j16286515987226_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.HandBasics

variable {F : FTy → Type} [FloatOps F]

local notation "𝕄" => MT nD τ sig Unit (Elt F) ℕ (UR sig nD τ) ℕ

/-! # @main as segments, and its run -/

variable (m : (ℓ : Loc nD τ sig) → Buf (Elt F) ℓ) (ρ : Dev nD → PrngReg)

/-! ## The buffers' contents at each boundary between two items of @main

Before region 0 they are the launch contents run through the first five stretches of host operations. A region
changes its output array only, to what its pipeline leaves there (`Dat.arrAt` at the last point); a host stretch
changes what its operations write. -/

/-- Entering region 0. -/
abbrev X5 (c : Dev nD) : Valuation τ sig (Elt F) := Gen.V5 m c

/-- The contents region 0 is entered from, read at the TensorCore's references. -/
abbrev En0 : (c : Dev nD) → (b : Ref sig .tc) → Buf (Elt F) ((c : Thread nD τ).loc b) := fun c b => X5 m c b
/-- What region 0's pipeline leaves in its output array. -/
def arr0 (c : Dev nD) : Buf (Elt F) ((c : Thread nD τ).loc main_v39) := (dat0 (En0 m) c).arrAt 3 cfg0.N
/-- Leaving region 0. -/
def X6 (c : Dev nD) : Valuation τ sig (Elt F) := Function.update (X5 m c) main_v39 (arr0 m c)
/-- After the host stretch `hostOps1`. -/
abbrev X7 (c : Dev nD) : Valuation τ sig (Elt F) := StableHlo.after hostOps1 (X6 m c)
/-- The same read at the TensorCore's references. -/
abbrev Ex0 : (c : Dev nD) → (b : Ref sig .tc) → Buf (Elt F) ((c : Thread nD τ).loc b) := fun c b => X6 m c b

theorem X6_out (c : Dev nD) : X6 m c main_v39 = arr0 m c := by
  unfold X6; exact Function.update_self _ _ _
theorem X6_of_ne (c : Dev nD) (b : Ref sig .tc) (hb : b ≠ main_v39) : X6 m c b = X5 m c b := by
  unfold X6; exact Function.update_of_ne (StableHlo.devRef_ne_of_ne hb) _ _

/-- At region 0's exit each of its arrays holds what the pipeline leaves: an input array what it held (the pipeline only
    reads it), the output array the folded write-backs. -/
theorem hF0 (c : Dev nD) : ∀ w : Fin cfg0.W, (dat0 (En0 m) c).arrAt w cfg0.N = Ex0 m c (Pipeline.arrRef spec0 w)
  | ⟨0, _⟩ => ((dat0 (En0 m) c).arrAt_in 0 rfl _).trans ((A_eq0 (En0 m) c 0).trans (X6_of_ne m c _ (by decide)).symm)
  | ⟨1, _⟩ => ((dat0 (En0 m) c).arrAt_in 1 rfl _).trans ((A_eq0 (En0 m) c 1).trans (X6_of_ne m c _ (by decide)).symm)
  | ⟨2, _⟩ => ((dat0 (En0 m) c).arrAt_in 2 rfl _).trans ((A_eq0 (En0 m) c 2).trans (X6_of_ne m c _ (by decide)).symm)
  | ⟨3, _⟩ => (X6_out m c).symm
/-- Every other buffer holds what it held at entry. -/
theorem hrest0 (c : Dev nD) : ∀ b, b ∉ Finset.univ.image (Pipeline.arrRef spec0) → Ex0 m c b = En0 m c b :=
  fun b hb => X6_of_ne m c b fun e => hb (Finset.mem_image.mpr ⟨3, Finset.mem_univ _, e.symm⟩)

/-- The contents region 1 is entered from, read at the TensorCore's references. -/
abbrev En1 : (c : Dev nD) → (b : Ref sig .tc) → Buf (Elt F) ((c : Thread nD τ).loc b) := fun c b => X7 m c b
/-- What region 1's pipeline leaves in its output array. -/
def arr1 (c : Dev nD) : Buf (Elt F) ((c : Thread nD τ).loc main_v41) := (dat1 (En1 m) c).arrAt 3 cfg1.N
/-- Leaving region 1. -/
def X8 (c : Dev nD) : Valuation τ sig (Elt F) := Function.update (X7 m c) main_v41 (arr1 m c)
/-- After the host stretch `hostOps2`. -/
abbrev X9 (c : Dev nD) : Valuation τ sig (Elt F) := StableHlo.after hostOps2 (X8 m c)
/-- The same read at the TensorCore's references. -/
abbrev Ex1 : (c : Dev nD) → (b : Ref sig .tc) → Buf (Elt F) ((c : Thread nD τ).loc b) := fun c b => X8 m c b

theorem X8_out (c : Dev nD) : X8 m c main_v41 = arr1 m c := by
  unfold X8; exact Function.update_self _ _ _
theorem X8_of_ne (c : Dev nD) (b : Ref sig .tc) (hb : b ≠ main_v41) : X8 m c b = X7 m c b := by
  unfold X8; exact Function.update_of_ne (StableHlo.devRef_ne_of_ne hb) _ _

/-- At region 1's exit each of its arrays holds what the pipeline leaves: an input array what it held (the pipeline only
    reads it), the output array the folded write-backs. -/
theorem hF1 (c : Dev nD) : ∀ w : Fin cfg1.W, (dat1 (En1 m) c).arrAt w cfg1.N = Ex1 m c (Pipeline.arrRef spec1 w)
  | ⟨0, _⟩ => ((dat1 (En1 m) c).arrAt_in 0 rfl _).trans ((A_eq1 (En1 m) c 0).trans (X8_of_ne m c _ (by decide)).symm)
  | ⟨1, _⟩ => ((dat1 (En1 m) c).arrAt_in 1 rfl _).trans ((A_eq1 (En1 m) c 1).trans (X8_of_ne m c _ (by decide)).symm)
  | ⟨2, _⟩ => ((dat1 (En1 m) c).arrAt_in 2 rfl _).trans ((A_eq1 (En1 m) c 2).trans (X8_of_ne m c _ (by decide)).symm)
  | ⟨3, _⟩ => (X8_out m c).symm
/-- Every other buffer holds what it held at entry. -/
theorem hrest1 (c : Dev nD) : ∀ b, b ∉ Finset.univ.image (Pipeline.arrRef spec1) → Ex1 m c b = En1 m c b :=
  fun b hb => X8_of_ne m c b fun e => hb (Finset.mem_image.mpr ⟨3, Finset.mem_univ _, e.symm⟩)

/-- The contents region 2 is entered from, read at the TensorCore's references. -/
abbrev En2 : (c : Dev nD) → (b : Ref sig .tc) → Buf (Elt F) ((c : Thread nD τ).loc b) := fun c b => X9 m c b
/-- What region 2's pipeline leaves in its output array. -/
def arr2 (c : Dev nD) : Buf (Elt F) ((c : Thread nD τ).loc main_v44) := (dat2 (En2 m) c).arrAt 3 cfg2.N
/-- Leaving region 2. -/
def X10 (c : Dev nD) : Valuation τ sig (Elt F) := Function.update (X9 m c) main_v44 (arr2 m c)
/-- After the host stretch `hostOps3`. -/
abbrev X11 (c : Dev nD) : Valuation τ sig (Elt F) := StableHlo.after hostOps3 (X10 m c)
/-- The same read at the TensorCore's references. -/
abbrev Ex2 : (c : Dev nD) → (b : Ref sig .tc) → Buf (Elt F) ((c : Thread nD τ).loc b) := fun c b => X10 m c b

theorem X10_out (c : Dev nD) : X10 m c main_v44 = arr2 m c := by
  unfold X10; exact Function.update_self _ _ _
theorem X10_of_ne (c : Dev nD) (b : Ref sig .tc) (hb : b ≠ main_v44) : X10 m c b = X9 m c b := by
  unfold X10; exact Function.update_of_ne (StableHlo.devRef_ne_of_ne hb) _ _

/-- At region 2's exit each of its arrays holds what the pipeline leaves: an input array what it held (the pipeline only
    reads it), the output array the folded write-backs. -/
theorem hF2 (c : Dev nD) : ∀ w : Fin cfg2.W, (dat2 (En2 m) c).arrAt w cfg2.N = Ex2 m c (Pipeline.arrRef spec2 w)
  | ⟨0, _⟩ => ((dat2 (En2 m) c).arrAt_in 0 rfl _).trans ((A_eq2 (En2 m) c 0).trans (X10_of_ne m c _ (by decide)).symm)
  | ⟨1, _⟩ => ((dat2 (En2 m) c).arrAt_in 1 rfl _).trans ((A_eq2 (En2 m) c 1).trans (X10_of_ne m c _ (by decide)).symm)
  | ⟨2, _⟩ => ((dat2 (En2 m) c).arrAt_in 2 rfl _).trans ((A_eq2 (En2 m) c 2).trans (X10_of_ne m c _ (by decide)).symm)
  | ⟨3, _⟩ => (X10_out m c).symm
/-- Every other buffer holds what it held at entry. -/
theorem hrest2 (c : Dev nD) : ∀ b, b ∉ Finset.univ.image (Pipeline.arrRef spec2) → Ex2 m c b = En2 m c b :=
  fun b hb => X10_of_ne m c b fun e => hb (Finset.mem_image.mpr ⟨3, Finset.mem_univ _, e.symm⟩)

/-- The contents region 3 is entered from, read at the TensorCore's references. -/
abbrev En3 : (c : Dev nD) → (b : Ref sig .tc) → Buf (Elt F) ((c : Thread nD τ).loc b) := fun c b => X11 m c b
/-- What region 3's pipeline leaves in its output array. -/
def arr3 (c : Dev nD) : Buf (Elt F) ((c : Thread nD τ).loc main_v46) := (dat3 (En3 m) c).arrAt 3 cfg3.N
/-- Leaving region 3. -/
def X12 (c : Dev nD) : Valuation τ sig (Elt F) := Function.update (X11 m c) main_v46 (arr3 m c)
/-- After the host stretch `hostOps4`. -/
abbrev X13 (c : Dev nD) : Valuation τ sig (Elt F) := StableHlo.after hostOps4 (X12 m c)
/-- The same read at the TensorCore's references. -/
abbrev Ex3 : (c : Dev nD) → (b : Ref sig .tc) → Buf (Elt F) ((c : Thread nD τ).loc b) := fun c b => X12 m c b

theorem X12_out (c : Dev nD) : X12 m c main_v46 = arr3 m c := by
  unfold X12; exact Function.update_self _ _ _
theorem X12_of_ne (c : Dev nD) (b : Ref sig .tc) (hb : b ≠ main_v46) : X12 m c b = X11 m c b := by
  unfold X12; exact Function.update_of_ne (StableHlo.devRef_ne_of_ne hb) _ _

/-- At region 3's exit each of its arrays holds what the pipeline leaves: an input array what it held (the pipeline only
    reads it), the output array the folded write-backs. -/
theorem hF3 (c : Dev nD) : ∀ w : Fin cfg3.W, (dat3 (En3 m) c).arrAt w cfg3.N = Ex3 m c (Pipeline.arrRef spec3 w)
  | ⟨0, _⟩ => ((dat3 (En3 m) c).arrAt_in 0 rfl _).trans ((A_eq3 (En3 m) c 0).trans (X12_of_ne m c _ (by decide)).symm)
  | ⟨1, _⟩ => ((dat3 (En3 m) c).arrAt_in 1 rfl _).trans ((A_eq3 (En3 m) c 1).trans (X12_of_ne m c _ (by decide)).symm)
  | ⟨2, _⟩ => ((dat3 (En3 m) c).arrAt_in 2 rfl _).trans ((A_eq3 (En3 m) c 2).trans (X12_of_ne m c _ (by decide)).symm)
  | ⟨3, _⟩ => (X12_out m c).symm
/-- Every other buffer holds what it held at entry. -/
theorem hrest3 (c : Dev nD) : ∀ b, b ∉ Finset.univ.image (Pipeline.arrRef spec3) → Ex3 m c b = En3 m c b :=
  fun b hb => X12_of_ne m c b fun e => hb (Finset.mem_image.mpr ⟨3, Finset.mem_univ _, e.symm⟩)

/-- The contents region 4 is entered from, read at the TensorCore's references. -/
abbrev En4 : (c : Dev nD) → (b : Ref sig .tc) → Buf (Elt F) ((c : Thread nD τ).loc b) := fun c b => X13 m c b
/-- What region 4's pipeline leaves in its output array. -/
def arr4 (c : Dev nD) : Buf (Elt F) ((c : Thread nD τ).loc main_v49) := (dat4 (En4 m) c).arrAt 3 cfg4.N
/-- Leaving region 4. -/
def X14 (c : Dev nD) : Valuation τ sig (Elt F) := Function.update (X13 m c) main_v49 (arr4 m c)
/-- After the host stretch `hostOps5`. -/
abbrev X15 (c : Dev nD) : Valuation τ sig (Elt F) := StableHlo.after hostOps5 (X14 m c)
/-- The same read at the TensorCore's references. -/
abbrev Ex4 : (c : Dev nD) → (b : Ref sig .tc) → Buf (Elt F) ((c : Thread nD τ).loc b) := fun c b => X14 m c b

theorem X14_out (c : Dev nD) : X14 m c main_v49 = arr4 m c := by
  unfold X14; exact Function.update_self _ _ _
theorem X14_of_ne (c : Dev nD) (b : Ref sig .tc) (hb : b ≠ main_v49) : X14 m c b = X13 m c b := by
  unfold X14; exact Function.update_of_ne (StableHlo.devRef_ne_of_ne hb) _ _

/-- At region 4's exit each of its arrays holds what the pipeline leaves: an input array what it held (the pipeline only
    reads it), the output array the folded write-backs. -/
theorem hF4 (c : Dev nD) : ∀ w : Fin cfg4.W, (dat4 (En4 m) c).arrAt w cfg4.N = Ex4 m c (Pipeline.arrRef spec4 w)
  | ⟨0, _⟩ => ((dat4 (En4 m) c).arrAt_in 0 rfl _).trans ((A_eq4 (En4 m) c 0).trans (X14_of_ne m c _ (by decide)).symm)
  | ⟨1, _⟩ => ((dat4 (En4 m) c).arrAt_in 1 rfl _).trans ((A_eq4 (En4 m) c 1).trans (X14_of_ne m c _ (by decide)).symm)
  | ⟨2, _⟩ => ((dat4 (En4 m) c).arrAt_in 2 rfl _).trans ((A_eq4 (En4 m) c 2).trans (X14_of_ne m c _ (by decide)).symm)
  | ⟨3, _⟩ => (X14_out m c).symm
/-- Every other buffer holds what it held at entry. -/
theorem hrest4 (c : Dev nD) : ∀ b, b ∉ Finset.univ.image (Pipeline.arrRef spec4) → Ex4 m c b = En4 m c b :=
  fun b hb => X14_of_ne m c b fun e => hb (Finset.mem_image.mpr ⟨3, Finset.mem_univ _, e.symm⟩)

/-- The contents region 5 is entered from, read at the TensorCore's references. -/
abbrev En5 : (c : Dev nD) → (b : Ref sig .tc) → Buf (Elt F) ((c : Thread nD τ).loc b) := fun c b => X15 m c b
/-- What region 5's pipeline leaves in its output array. -/
def arr5 (c : Dev nD) : Buf (Elt F) ((c : Thread nD τ).loc main_v51) := (dat5 (En5 m) c).arrAt 3 cfg5.N
/-- Leaving region 5. -/
def X16 (c : Dev nD) : Valuation τ sig (Elt F) := Function.update (X15 m c) main_v51 (arr5 m c)
/-- After the host stretch `hostOps6`. -/
abbrev X17 (c : Dev nD) : Valuation τ sig (Elt F) := StableHlo.after hostOps6 (X16 m c)
/-- The same read at the TensorCore's references. -/
abbrev Ex5 : (c : Dev nD) → (b : Ref sig .tc) → Buf (Elt F) ((c : Thread nD τ).loc b) := fun c b => X16 m c b

theorem X16_out (c : Dev nD) : X16 m c main_v51 = arr5 m c := by
  unfold X16; exact Function.update_self _ _ _
theorem X16_of_ne (c : Dev nD) (b : Ref sig .tc) (hb : b ≠ main_v51) : X16 m c b = X15 m c b := by
  unfold X16; exact Function.update_of_ne (StableHlo.devRef_ne_of_ne hb) _ _

/-- At region 5's exit each of its arrays holds what the pipeline leaves: an input array what it held (the pipeline only
    reads it), the output array the folded write-backs. -/
theorem hF5 (c : Dev nD) : ∀ w : Fin cfg5.W, (dat5 (En5 m) c).arrAt w cfg5.N = Ex5 m c (Pipeline.arrRef spec5 w)
  | ⟨0, _⟩ => ((dat5 (En5 m) c).arrAt_in 0 rfl _).trans ((A_eq5 (En5 m) c 0).trans (X16_of_ne m c _ (by decide)).symm)
  | ⟨1, _⟩ => ((dat5 (En5 m) c).arrAt_in 1 rfl _).trans ((A_eq5 (En5 m) c 1).trans (X16_of_ne m c _ (by decide)).symm)
  | ⟨2, _⟩ => ((dat5 (En5 m) c).arrAt_in 2 rfl _).trans ((A_eq5 (En5 m) c 2).trans (X16_of_ne m c _ (by decide)).symm)
  | ⟨3, _⟩ => (X16_out m c).symm
/-- Every other buffer holds what it held at entry. -/
theorem hrest5 (c : Dev nD) : ∀ b, b ∉ Finset.univ.image (Pipeline.arrRef spec5) → Ex5 m c b = En5 m c b :=
  fun b hb => X16_of_ne m c b fun e => hb (Finset.mem_image.mpr ⟨3, Finset.mem_univ _, e.symm⟩)

/-! ## The proof data family and the thread state -/

/-- Every pipeline's proof data, each at its region's entry contents: a literal match, so that the pinned configuration
    at a numeral reduces to the printed one. -/
def pdats : (p : Fin 6) → (c : Dev nD) → Dat τ (Elt F) Unit ℕ (UR sig nD τ) ℕ (Pipeline.pin (pcfgs (F := F)) Gen.adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

section Regs

set_option backward.isDefEq.respectTransparency.types false in
/-- Region 0 as a segment of @main: entered from every unscoped buffer at `X5`, left at `X6`. Its arrays are
    split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (En0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered from every unscoped buffer at `X7`, left at `X8`. Its arrays are
    split out of the unscoped buffers and put back at the exit contents; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (En1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered from every unscoped buffer at `X9`, left at `X10`. Its arrays are
    split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (En2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of @main: entered from every unscoped buffer at `X11`, left at `X12`. Its arrays are
    split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (X11 m c) ∗ R c)
  post c := iprop(StableHlo.held (c : Thread nD τ) (Pipeline.ucRefs τ sig) (X12 m c) ∗ R c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (En3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (Ex3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment of @main: entered from every unscoped buffer at `X13`, left at `X14`. Its arrays are
    split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ L lv 4 fun _ _ => rfl
  pre c := iprop(StableHlo.held (c : Thread nD τ) (Pipeline.ucRefs τ sig) (X13 m c) ∗ R c)
  post c := iprop(StableHlo.held (c : Thread nD τ) (Pipeline.ucRefs τ sig) (X14 m c) ∗ R c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (hout4 (En4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En4 m c) (Ex4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment of @main: entered from every unscoped buffer at `X15`, left at `X16`. Its arrays are
    split out of the unscoped buffers and put back at the exit contents; the generator register goes into the
    invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (En5 m) c).loose
  hwaits := Pipeline.hwaits_of_owed_zero _ _ _ _ L lv 5 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec5 c (En5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (hout5 (En5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (En5 m c) (Ex5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regs

/-! ## The generated boundary valuations, at these contents

The generated conditional frame states its boundary valuations `Gen.VJ` over unknown region outputs `outs`; at the
outputs the pipelines leave they are the chain above. -/

/-- What the regions leave, as the unknowns the generated valuations are written over. -/
def outs : Gen.Outs (F := F) := fun J r c => match J with
  | 6 => X6 m c r | 8 => X8 m c r | 10 => X10 m c r | 12 => X12 m c r | 14 => X14 m c r | 16 => X16 m c r
  | _ => X5 m c r

theorem V6_eq (c : Dev nD) : Gen.V6 m (outs m) c = X6 m c := by
  show Function.update (Gen.V5 m c) main_v39 (outs m 6 main_v39 c) = _
  rw [show outs m 6 main_v39 c = arr0 m c from X6_out m c]; rfl
theorem V7_eq (c : Dev nD) : Gen.V7 m (outs m) c = X7 m c := by
  show StableHlo.after hostOps1 (Gen.V6 m (outs m) c) = _
  rw [V6_eq]

theorem V8_eq (c : Dev nD) : Gen.V8 m (outs m) c = X8 m c := by
  show Function.update (Gen.V7 m (outs m) c) main_v41 (outs m 8 main_v41 c) = _
  rw [V7_eq, show outs m 8 main_v41 c = arr1 m c from X8_out m c]; rfl
theorem V9_eq (c : Dev nD) : Gen.V9 m (outs m) c = X9 m c := by
  show StableHlo.after hostOps2 (Gen.V8 m (outs m) c) = _
  rw [V8_eq]

theorem V10_eq (c : Dev nD) : Gen.V10 m (outs m) c = X10 m c := by
  show Function.update (Gen.V9 m (outs m) c) main_v44 (outs m 10 main_v44 c) = _
  rw [V9_eq, show outs m 10 main_v44 c = arr2 m c from X10_out m c]; rfl
theorem V11_eq (c : Dev nD) : Gen.V11 m (outs m) c = X11 m c := by
  show StableHlo.after hostOps3 (Gen.V10 m (outs m) c) = _
  rw [V10_eq]

theorem V12_eq (c : Dev nD) : Gen.V12 m (outs m) c = X12 m c := by
  show Function.update (Gen.V11 m (outs m) c) main_v46 (outs m 12 main_v46 c) = _
  rw [V11_eq, show outs m 12 main_v46 c = arr3 m c from X12_out m c]; rfl
theorem V13_eq (c : Dev nD) : Gen.V13 m (outs m) c = X13 m c := by
  show StableHlo.after hostOps4 (Gen.V12 m (outs m) c) = _
  rw [V12_eq]

theorem V14_eq (c : Dev nD) : Gen.V14 m (outs m) c = X14 m c := by
  show Function.update (Gen.V13 m (outs m) c) main_v49 (outs m 14 main_v49 c) = _
  rw [V13_eq, show outs m 14 main_v49 c = arr4 m c from X14_out m c]; rfl
theorem V15_eq (c : Dev nD) : Gen.V15 m (outs m) c = X15 m c := by
  show StableHlo.after hostOps5 (Gen.V14 m (outs m) c) = _
  rw [V14_eq]

theorem V16_eq (c : Dev nD) : Gen.V16 m (outs m) c = X16 m c := by
  show Function.update (Gen.V15 m (outs m) c) main_v51 (outs m 16 main_v51 c) = _
  rw [V15_eq, show outs m 16 main_v51 c = arr5 m c from X16_out m c]; rfl
theorem V17_eq (c : Dev nD) : Gen.V17 m (outs m) c = X17 m c := by
  show StableHlo.after hostOps6 (Gen.V16 m (outs m) c) = _
  rw [V16_eq]

theorem hpre0 (c : Dev nD) : iprop(StableHlo.held (c : Thread nD τ) (Pipeline.ucRefs τ sig) (Gen.V5 m c) ∗ R c) ⊢ (reg0 m).pre c := by
  exact .rfl
theorem hpost0 (c : Dev nD) : (reg0 m).post c ⊢ iprop(StableHlo.held (c : Thread nD τ) (Pipeline.ucRefs τ sig) (Gen.V6 m (outs m) c) ∗ R c) := by
  rw [V6_eq]; exact .rfl

theorem hpre1 (c : Dev nD) : iprop(StableHlo.held (c : Thread nD τ) (Pipeline.ucRefs τ sig) (Gen.V7 m (outs m) c) ∗ R c) ⊢ (reg1 m).pre c := by
  rw [V7_eq]; exact .rfl
theorem hpost1 (c : Dev nD) : (reg1 m).post c ⊢ iprop(StableHlo.held (c : Thread nD τ) (Pipeline.ucRefs τ sig) (Gen.V8 m (outs m) c) ∗ R c) := by
  rw [V8_eq]; exact .rfl

theorem hpre2 (c : Dev nD) : iprop(StableHlo.held (c : Thread nD τ) (Pipeline.ucRefs τ sig) (Gen.V9 m (outs m) c) ∗ R c) ⊢ (reg2 m).pre c := by
  rw [V9_eq]; exact .rfl
theorem hpost2 (c : Dev nD) : (reg2 m).post c ⊢ iprop(StableHlo.held (c : Thread nD τ) (Pipeline.ucRefs τ sig) (Gen.V10 m (outs m) c) ∗ R c) := by
  rw [V10_eq]; exact .rfl

theorem hpre3 (c : Dev nD) : iprop(StableHlo.held (c : Thread nD τ) (Pipeline.ucRefs τ sig) (Gen.V11 m (outs m) c) ∗ R c) ⊢ (reg3 m).pre c := by
  rw [V11_eq]; exact .rfl
theorem hpost3 (c : Dev nD) : (reg3 m).post c ⊢ iprop(StableHlo.held (c : Thread nD τ) (Pipeline.ucRefs τ sig) (Gen.V12 m (outs m) c) ∗ R c) := by
  rw [V12_eq]; exact .rfl

theorem hpre4 (c : Dev nD) : iprop(StableHlo.held (c : Thread nD τ) (Pipeline.ucRefs τ sig) (Gen.V13 m (outs m) c) ∗ R c) ⊢ (reg4 m).pre c := by
  rw [V13_eq]; exact .rfl
theorem hpost4 (c : Dev nD) : (reg4 m).post c ⊢ iprop(StableHlo.held (c : Thread nD τ) (Pipeline.ucRefs τ sig) (Gen.V14 m (outs m) c) ∗ R c) := by
  rw [V14_eq]; exact .rfl

theorem hpre5 (c : Dev nD) : iprop(StableHlo.held (c : Thread nD τ) (Pipeline.ucRefs τ sig) (Gen.V15 m (outs m) c) ∗ R c) ⊢ (reg5 m).pre c := by
  rw [V15_eq]; exact .rfl
theorem hpost5 (c : Dev nD) : (reg5 m).post c ⊢ iprop(StableHlo.held (c : Thread nD τ) (Pipeline.ucRefs τ sig) (Gen.V16 m (outs m) c) ∗ R c) := by
  rw [V16_eq]; exact .rfl

/-- The last thread state ends owing nothing. -/
theorem hE6 (c : Dev nD) : R c ⊢ (iprop(∃ W, owes (c : Thread nD τ) (0 : CellTallies nD τ sig Unit) W) : sProp 𝕄) := by
  iintro ⟨-, HO⟩; iexact HO

set_option backward.isDefEq.respectTransparency.types false in
/-- THE RUN. From any memory with zero counters every weakly fair execution of @main terminates, nothing faulting, and
    every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Gen.V17 m (outs m) c b) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m) (reg2 m) (reg3 m) (reg4 m) (reg5 m))
    (fun c Q => by
      rewrite [main_chain c, Pipeline.Seg.run_eq_chain,
        show (Gen.segs m (outs m) 𝒱₀ L lv (fun _ c => R c) () (pdats m) (reg0 m) (reg1 m) (reg2 m) (reg3 m) (reg4 m) (reg5 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m (outs m) c))
    (hch := fun c => ⟨.rfl, .rfl, .rfl, .rfl, .rfl, hpre0 m c, hpost0 m c, hpre1 m c, hpost1 m c, hpre2 m c, hpost2 m c, hpre3 m c, hpost3 m c, hpre4 m c, hpost4 m c, hpre5 m c, hpost5 m c, sep_mono .rfl (hE6 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V17 m (outs m) c b)
    (hfin := fun c s' => by
      iintro ⟨Hh, HSI⟩
      unfold StableHlo.held
      imodintro
      iapply (pointsTo_read_all (Pipeline.ucRefs τ sig) (fun b => ((c : Thread nD τ).1, b)) (Gen.V17 m (outs m) c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (Gen.V17_main_arg0 m (outs m) c),
    (h c _ (mem_uc main_arg1 (by decide))).trans (Gen.V17_main_arg1 m (outs m) c),
    (h c _ (mem_uc main_arg2 (by decide))).trans (Gen.V17_main_arg2 m (outs m) c),
    (h c _ (mem_uc main_arg3 (by decide))).trans (Gen.V17_main_arg3 m (outs m) c),
    (h c _ (mem_uc main_arg4 (by decide))).trans (Gen.V17_main_arg4 m (outs m) c),
    (h c _ (mem_uc main_arg5 (by decide))).trans (Gen.V17_main_arg5 m (outs m) c),
    (h c _ (mem_uc main_arg6 (by decide))).trans (Gen.V17_main_arg6 m (outs m) c),
    (h c _ (mem_uc main_arg7 (by decide))).trans (Gen.V17_main_arg7 m (outs m) c)⟩) (run_all m ρ)

end Cert.KernelIdeal.Hand

end
-- ==== Proof.LibScatterRows.lean ====
/-
  A scatter-add of whole rows, and the law that a factor constant on each landing row moves inside it.

  An operand of `N` rows of `C` entries receives `E` update rows of `C` entries each; a column of `E` row numbers, read as
  signed integers, says where each update row lands. Entry `(n, m)` of the result is the operand's entry plus the sum of the
  entries `(e, m)` of the updates over the update rows `e` whose row number is `n`; an update row whose number is outside
  `[0, N - 1]` is dropped.

  `resultIdx_rows`: an update entry `(e, m')` that lands at `(n, m)` has row number `n` and `m' = m`.

  `scatter_rows_scale`: over a zero operand, if every update entry `(e, m)` carries a factor `g (e, m)` that equals `c n` whenever
  the row number of `e` is `n`, with `0 ≤ c n < ⊤`, then
      c n · (∑ over the update rows e landing in row n of u (e, m))  =  ∑ over the same e of u (e, m) · g (e, m):
  on the extended reals a nonnegative finite factor distributes over a finite sum (`mul_sum_of_nonneg_of_ne_top`), and inside
  the sum the factor is `g` by the hypothesis.
-/
import Idealize.ShloMosaic.Lib.ValueIdx
import Idealize.ShloMosaic.PureOps.Ideal.Laws

noncomputable section

namespace Cert.LibScatterRows

open Idealize.ShloMosaic Idealize.ShloMosaic.ValueIdx

/-- The dimension numbers of a row scatter: the scatter index names axis 0, which is inserted; the window is one whole row. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update entry `j` that lands at operand entry `i`: the row number of `j`'s update row, read signed, is `i`'s row, and
    the two have the same column. -/
theorem resultIdx_rows {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatter N E C wf).resultIdx? j idx = some i) :
    (idx (ix2 (j 0) (0 : Fin 1))).toInt = ((i 0).val : Int) ∧ (i 1).val = (j 1).val := by
  have hs0 : (rowsScatter N E C wf).start j idx (0 : Fin 2) = (idx (ix2 (j 0) (0 : Fin 1))).toInt := by
    unfold ScatterDims.start
    rw [dif_pos (show (0 : Fin 2) ∈ (rowsScatter N E C wf).scatterDimsToOperandDims from List.mem_singleton.mpr rfl)]
    have hsi : (rowsScatter N E C wf).siIdx j ⟨List.idxOf (0 : Fin 2) (rowsScatter N E C wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hw0 : (rowsScatter N E C wf).window j (0 : Fin 2) = 0 := by
    unfold ScatterDims.window
    rw [dif_neg (show ¬ ((0 : Fin 2) ∈ (rowsScatter N E C wf).sKept) from
      (show ¬ ((0 : Fin 2) ∈ ([1] : List (Fin 2))) by decide))]
  have hs1 : (rowsScatter N E C wf).start j idx (1 : Fin 2) = 0 := by
    unfold ScatterDims.start
    rw [dif_neg (show ¬ ((1 : Fin 2) ∈ ([0] : List (Fin 2))) by decide)]
  have hw1 : (rowsScatter N E C wf).window j (1 : Fin 2) = (j 1).val := by
    unfold ScatterDims.window
    rw [dif_pos (show (1 : Fin 2) ∈ (rowsScatter N E C wf).sKept from (show (1 : Fin 2) ∈ ([1] : List (Fin 2)) by decide))]
    rfl
  unfold ScatterDims.resultIdx? at h
  split at h
  · rename_i hall
    have hi := Option.some.inj h
    subst hi
    have h0 := hall (0 : Fin 2)
    rw [hs0, hw0] at h0
    constructor
    · show _ = ((((rowsScatter N E C wf).start j idx (0 : Fin 2)
        + ((rowsScatter N E C wf).window j (0 : Fin 2) : Nat)).toNat : Nat) : Int)
      rw [hs0, hw0]
      omega
    · show ((rowsScatter N E C wf).start j idx (1 : Fin 2) + ((rowsScatter N E C wf).window j (1 : Fin 2) : Nat)).toNat = _
      rw [hs1, hw1]
      omega
  · exact absurd h (by simp)

/-- On the extended reals a nonnegative factor that is not `⊤` distributes over a finite sum. -/
theorem mul_sum_of_nonneg_of_ne_top {ι : Type} (s : Finset ι) (f : ι → EReal) {a : EReal} (ha : 0 ≤ a) (ha' : a ≠ ⊤) :
    a * ∑ k ∈ s, f k = ∑ k ∈ s, a * f k := by
  classical
  induction s using Finset.induction_on with
  | empty => simp
  | insert k s hk ih =>
    rw [Finset.sum_insert hk, Finset.sum_insert hk, EReal.left_distrib_of_nonneg_of_ne_top ha ha', ih]

/-- On the extended reals the accumulating scatter is the operand plus the exact sum of the updates landing at each entry. -/
theorem scatterAdd_ideal {s si su : Shape} {φ : FTy} {w : Nat} (d : ScatterDims s si su) (x : s.Idx → EReal)
    (idx : IVec si w) (upd : su.Idx → EReal) :
    Host.scatterAdd (F := Ideal) (φ := φ) d x idx upd = Ideal.hostScatterAdd d x idx upd := rfl

/-- The scaling law at an entry `i` where the operand is zero: a nonnegative finite factor `c` of the landing row, which every
    update entry of that row carries as `g`, moves inside the row scatter-add. -/
theorem scatter_rows_scale {N E C w : Nat}
    (wf : ScatterDims.WF ⟨2, ![N, C]⟩ ⟨2, ![E, 1]⟩ ⟨2, ![E, C]⟩ [1] [0] [0] 1)
    (idx : IVec ⟨2, ![E, 1]⟩ w) (c : Fin N → EReal) (hc0 : ∀ n, 0 ≤ c n) (hct : ∀ n, c n ≠ ⊤)
    (x : (⟨2, ![N, C]⟩ : Shape).Idx → EReal) (u g : (⟨2, ![E, C]⟩ : Shape).Idx → EReal)
    (hg : ∀ (j : (⟨2, ![E, C]⟩ : Shape).Idx) (n : Fin N), (idx (ix2 (j 0) (0 : Fin 1))).toInt = (n.val : Int) → g j = c n)
    (i : (⟨2, ![N, C]⟩ : Shape).Idx) (hx : x i = 0) :
    c (i 0) * Ideal.hostScatterAdd (rowsScatter N E C wf) x idx u i
      = Ideal.hostScatterAdd (rowsScatter N E C wf) x idx (fun j => u j * g j) i := by
  unfold Ideal.hostScatterAdd
  rw [hx, zero_add, zero_add]
  refine (mul_sum_of_nonneg_of_ne_top _ _ (hc0 _) (hct _)).trans ?_
  refine Finset.sum_congr rfl fun j hj => ?_
  show c (i 0) * u j = u j * g j
  rw [hg j (i 0) (resultIdx_rows wf idx j i (Finset.mem_filter.mp hj).2).1, mul_comm]

/-- The scaling law at the entry of row `n` and column `m`. -/
theorem scatter_rows_scale_ix2 {N E C w : Nat}
    (wf : ScatterDims.WF ⟨2, ![N, C]⟩ ⟨2, ![E, 1]⟩ ⟨2, ![E, C]⟩ [1] [0] [0] 1)
    (idx : IVec ⟨2, ![E, 1]⟩ w) (c : Fin N → EReal) (hc0 : ∀ n, 0 ≤ c n) (hct : ∀ n, c n ≠ ⊤)
    (x : (⟨2, ![N, C]⟩ : Shape).Idx → EReal) (u g : (⟨2, ![E, C]⟩ : Shape).Idx → EReal)
    (hg : ∀ (j : (⟨2, ![E, C]⟩ : Shape).Idx) (n : Fin N), (idx (ix2 (j 0) (0 : Fin 1))).toInt = (n.val : Int) → g j = c n)
    (n : Fin N) (m : Fin C) (hx : x (ix2 n m) = 0) :
    c n * Ideal.hostScatterAdd (rowsScatter N E C wf) x idx u (ix2 n m)
      = Ideal.hostScatterAdd (rowsScatter N E C wf) x idx (fun j => u j * g j) (ix2 n m) :=
  scatter_rows_scale wf idx c hc0 hct x u g hg (ix2 n m) hx

/-- The scaling law over the operand that is the float word zero at every entry. -/
theorem scatter_rows_scale_zero {N E C w : Nat}
    (wf : ScatterDims.WF ⟨2, ![N, C]⟩ ⟨2, ![E, 1]⟩ ⟨2, ![E, C]⟩ [1] [0] [0] 1)
    (idx : IVec ⟨2, ![E, 1]⟩ w) (c : Fin N → EReal) (hc0 : ∀ n, 0 ≤ c n) (hct : ∀ n, c n ≠ ⊤)
    (u g : (⟨2, ![E, C]⟩ : Shape).Idx → EReal)
    (hg : ∀ (j : (⟨2, ![E, C]⟩ : Shape).Idx) (n : Fin N), (idx (ix2 (j 0) (0 : Fin 1))).toInt = (n.val : Int) → g j = c n)
    (i : (⟨2, ![N, C]⟩ : Shape).Idx) :
    c (i 0) * Ideal.hostScatterAdd (rowsScatter N E C wf) (fun _ => Ideal.ofBits .f32 0x00000000#32) idx u i
      = Ideal.hostScatterAdd (rowsScatter N E C wf) (fun _ => Ideal.ofBits .f32 0x00000000#32) idx (fun j => u j * g j) i :=
  scatter_rows_scale wf idx c hc0 hct _ u g hg i Ideal.ofBits_zero_f32

/-- The scaling law for the accumulating scatter at the ideal instance, over the operand that is the float word zero, for
    any dimension numbers `d` that are those of a row scatter. -/
theorem scatterAdd_rows_scale {N E C w : Nat} {φ : FTy} (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowsScatter N E C wf)
    (idx : IVec ⟨2, ![E, 1]⟩ w) (c : Fin N → EReal) (hc0 : ∀ n, 0 ≤ c n) (hct : ∀ n, c n ≠ ⊤)
    (u g : (⟨2, ![E, C]⟩ : Shape).Idx → EReal)
    (hg : ∀ (j : (⟨2, ![E, C]⟩ : Shape).Idx) (n : Fin N), (idx (ix2 (j 0) (0 : Fin 1))).toInt = (n.val : Int) → g j = c n)
    (i : (⟨2, ![N, C]⟩ : Shape).Idx) :
    c (i 0) * Host.scatterAdd (F := Ideal) (φ := φ) d (fun _ => Ideal.ofBits .f32 0x00000000#32) idx u i
      = Host.scatterAdd (F := Ideal) (φ := φ) d (fun _ => Ideal.ofBits .f32 0x00000000#32) idx (fun j => u j * g j) i := by
  subst hd
  exact scatter_rows_scale_zero wf idx c hc0 hct u g hg i

end Cert.LibScatterRows

end
-- ==== Proof.LibGatherCells.lean ====
/-
  Two gathers of whole cells, read at an index.

  `gather_rows_apply`: an array of `M` rows of `C` entries gathered at a column of `R` row numbers gives `R` rows; entry
  `(r, c)` of the result is entry `c` of the row whose number is the `r`-th start index, read as a signed integer and clamped
  into `[0, M - 1]`.

  `gather_cells_apply`: an array `[C, D, H, W]` gathered at `N` triples `(z, y, x)` with the whole channel axis as the slice gives
  `[C, N]`; entry `(c, n)` of the result is the array at channel `c` and at the `n`-th triple, each component read signed and
  clamped into its axis.
-/
import Idealize.ShloMosaic.Lib.ValueIdx
import Idealize.ShloMosaic.PureOps.ShapeOps

noncomputable section

namespace Cert.Lib.GatherCells

open Idealize.ShloMosaic Idealize.ShloMosaic.ValueIdx

variable {α : Type}

/-- The dimension numbers of a row gather: the start index names axis 0, which is collapsed; the slice is one whole row. -/
abbrev rowsDims (M R C : Nat) (wf : GatherDims.WF ⟨2, ![M, C]⟩ ⟨2, ![R, 1]⟩ ⟨2, ![R, C]⟩ [1] [0] [] [0] [] 1 ![1, C]) :
    GatherDims ⟨2, ![M, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, c)`: entry `c` of the row the `r`-th start index names, clamped into `[0, M - 1]`. -/
theorem gather_rows_apply {M R C w : Nat} (hM : 0 < M)
    (wf : GatherDims.WF ⟨2, ![M, C]⟩ ⟨2, ![R, 1]⟩ ⟨2, ![R, C]⟩ [1] [0] [] [0] [] 1 ![1, C])
    (x : (⟨2, ![M, C]⟩ : Shape).Idx → α) (idx : IVec ⟨2, ![R, 1]⟩ w) (y : (⟨2, ![R, C]⟩ : Shape).Idx) :
    Host.gather (rowsDims M R C wf) x idx y
      = x (ix2 ⟨min (idx (ix2 (y 0) (0 : Fin 1))).toInt.toNat (M - 1), by omega⟩ (y 1)) := by
  have h0 : (rowsDims M R C wf).start y idx (0 : Fin 2) + (rowsDims M R C wf).batchCoord y (0 : Fin 2) + (rowsDims M R C wf).offCoord y (0 : Fin 2)
      = min (idx (ix2 (y 0) (0 : Fin 1))).toInt.toNat (M - 1) := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rowsDims M R C wf).startIndexMap from List.mem_singleton.mpr rfl)]
    have hsi : (rowsDims M R C wf).siIdx y ⟨List.idxOf (0 : Fin 2) (rowsDims M R C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  have h1 : (rowsDims M R C wf).start y idx (1 : Fin 2) + (rowsDims M R C wf).batchCoord y (1 : Fin 2) + (rowsDims M R C wf).offCoord y (1 : Fin 2)
      = (y 1).val := by
    rw [GatherDims.batchCoord_eq_zero _ _ _ List.not_mem_nil, Nat.add_zero]
    have hst : (rowsDims M R C wf).start y idx (1 : Fin 2) = 0 := by
      unfold GatherDims.start
      rw [dif_neg (show ¬ ((1 : Fin 2) ∈ ([0] : List (Fin 2))) by decide)]
    rw [hst, Nat.zero_add]
    unfold GatherDims.offCoord
    rw [dif_pos (show (1 : Fin 2) ∈ (rowsDims M R C wf).sKept from (show (1 : Fin 2) ∈ ([1] : List (Fin 2)) by decide))]
    rfl
  unfold Host.gather
  congr 1
  funext a
  refine Fin.ext ?_
  match a with
  | ⟨0, _⟩ => exact h0
  | ⟨1, _⟩ => exact h1

/-- The dimension numbers of a gather of whole channel columns at `(z, y, x)` triples. -/
abbrev cellsDims (C D H W N : Nat)
    (wf : GatherDims.WF ⟨4, ![C, D, H, W]⟩ ⟨2, ![N, 3]⟩ ⟨2, ![C, N]⟩ [0] [1, 2, 3] [] [1, 2, 3] [] 1 ![C, 1, 1, 1]) :
    GatherDims ⟨4, ![C, D, H, W]⟩ ⟨2, ![N, 3]⟩ ⟨2, ![C, N]⟩ where
  offsetDims := [0]
  collapsedSliceDims := [1, 2, 3]
  operandBatchingDims := []
  startIndicesBatchingDims := []
  startIndexMap := [1, 2, 3]
  indexVectorDim := 1
  sliceSizes := ![C, 1, 1, 1]
  wf := wf

/-- The cell gather at `(c, n)`: the array at channel `c` and at the `n`-th triple, each component clamped into its axis. -/
theorem gather_cells_apply {C D H W N w : Nat} (hD : 0 < D) (hH : 0 < H) (hW : 0 < W)
    (wf : GatherDims.WF ⟨4, ![C, D, H, W]⟩ ⟨2, ![N, 3]⟩ ⟨2, ![C, N]⟩ [0] [1, 2, 3] [] [1, 2, 3] [] 1 ![C, 1, 1, 1])
    (x : (⟨4, ![C, D, H, W]⟩ : Shape).Idx → α) (idx : IVec ⟨2, ![N, 3]⟩ w) (y : (⟨2, ![C, N]⟩ : Shape).Idx) :
    Host.gather (cellsDims C D H W N wf) x idx y
      = x (ix4 (y 0)
          ⟨min (idx (ix2 (y 1) (0 : Fin 3))).toInt.toNat (D - 1), by omega⟩
          ⟨min (idx (ix2 (y 1) (1 : Fin 3))).toInt.toNat (H - 1), by omega⟩
          ⟨min (idx (ix2 (y 1) (2 : Fin 3))).toInt.toNat (W - 1), by omega⟩) := by
  have hsi : ∀ (k : Fin 3) (hk : k.val < (cellsDims C D H W N wf).startIndexMap.length),
      (cellsDims C D H W N wf).siIdx y ⟨k.val, hk⟩ = ix2 (y 1) k := by
    intro k hk
    funext b; refine Fin.ext ?_
    match b with
    | ⟨0, _⟩ => rfl
    | ⟨1, _⟩ => rfl
  have h0 : (cellsDims C D H W N wf).start y idx (0 : Fin 4) + (cellsDims C D H W N wf).batchCoord y (0 : Fin 4) + (cellsDims C D H W N wf).offCoord y (0 : Fin 4)
      = (y 0).val := by
    rw [GatherDims.batchCoord_eq_zero _ _ _ List.not_mem_nil, Nat.add_zero]
    have hst : (cellsDims C D H W N wf).start y idx (0 : Fin 4) = 0 := by
      unfold GatherDims.start
      rw [dif_neg (show ¬ ((0 : Fin 4) ∈ ([1, 2, 3] : List (Fin 4))) by decide)]
    rw [hst, Nat.zero_add]
    unfold GatherDims.offCoord
    rw [dif_pos (show (0 : Fin 4) ∈ (cellsDims C D H W N wf).sKept from (show (0 : Fin 4) ∈ ([0] : List (Fin 4)) by decide))]
    rfl
  have h1 : (cellsDims C D H W N wf).start y idx (1 : Fin 4) + (cellsDims C D H W N wf).batchCoord y (1 : Fin 4) + (cellsDims C D H W N wf).offCoord y (1 : Fin 4)
      = min (idx (ix2 (y 1) (0 : Fin 3))).toInt.toNat (D - 1) := by
    rw [GatherDims.batchCoord_eq_zero _ _ _ List.not_mem_nil, Nat.add_zero,
      GatherDims.offCoord_eq_zero _ _ _ (fun h => ((GatherDims.mem_sKept _ _).mp h).1 (show (1 : Fin 4) ∈ ([1, 2, 3] : List (Fin 4)) by decide)), Nat.add_zero]
    unfold GatherDims.start
    rw [dif_pos (show (1 : Fin 4) ∈ ([1, 2, 3] : List (Fin 4)) by decide)]
    rw [show (⟨List.idxOf (1 : Fin 4) (cellsDims C D H W N wf).startIndexMap, List.idxOf_lt_length_iff.2 (show (1 : Fin 4) ∈ ([1, 2, 3] : List (Fin 4)) by decide)⟩ :
        Fin (cellsDims C D H W N wf).startIndexMap.length) = ⟨(0 : Fin 3).val, show (0 : Fin 3).val < ([1, 2, 3] : List (Fin 4)).length by decide⟩ from Fin.ext (show List.idxOf (1 : Fin 4) ([1, 2, 3] : List (Fin 4)) = 0 by decide), hsi]
    rfl
  have h2 : (cellsDims C D H W N wf).start y idx (2 : Fin 4) + (cellsDims C D H W N wf).batchCoord y (2 : Fin 4) + (cellsDims C D H W N wf).offCoord y (2 : Fin 4)
      = min (idx (ix2 (y 1) (1 : Fin 3))).toInt.toNat (H - 1) := by
    rw [GatherDims.batchCoord_eq_zero _ _ _ List.not_mem_nil, Nat.add_zero,
      GatherDims.offCoord_eq_zero _ _ _ (fun h => ((GatherDims.mem_sKept _ _).mp h).1 (show (2 : Fin 4) ∈ ([1, 2, 3] : List (Fin 4)) by decide)), Nat.add_zero]
    unfold GatherDims.start
    rw [dif_pos (show (2 : Fin 4) ∈ ([1, 2, 3] : List (Fin 4)) by decide)]
    rw [show (⟨List.idxOf (2 : Fin 4) (cellsDims C D H W N wf).startIndexMap, List.idxOf_lt_length_iff.2 (show (2 : Fin 4) ∈ ([1, 2, 3] : List (Fin 4)) by decide)⟩ :
        Fin (cellsDims C D H W N wf).startIndexMap.length) = ⟨(1 : Fin 3).val, show (1 : Fin 3).val < ([1, 2, 3] : List (Fin 4)).length by decide⟩ from Fin.ext (show List.idxOf (2 : Fin 4) ([1, 2, 3] : List (Fin 4)) = 1 by decide), hsi]
    rfl
  have h3 : (cellsDims C D H W N wf).start y idx (3 : Fin 4) + (cellsDims C D H W N wf).batchCoord y (3 : Fin 4) + (cellsDims C D H W N wf).offCoord y (3 : Fin 4)
      = min (idx (ix2 (y 1) (2 : Fin 3))).toInt.toNat (W - 1) := by
    rw [GatherDims.batchCoord_eq_zero _ _ _ List.not_mem_nil, Nat.add_zero,
      GatherDims.offCoord_eq_zero _ _ _ (fun h => ((GatherDims.mem_sKept _ _).mp h).1 (show (3 : Fin 4) ∈ ([1, 2, 3] : List (Fin 4)) by decide)), Nat.add_zero]
    unfold GatherDims.start
    rw [dif_pos (show (3 : Fin 4) ∈ ([1, 2, 3] : List (Fin 4)) by decide)]
    rw [show (⟨List.idxOf (3 : Fin 4) (cellsDims C D H W N wf).startIndexMap, List.idxOf_lt_length_iff.2 (show (3 : Fin 4) ∈ ([1, 2, 3] : List (Fin 4)) by decide)⟩ :
        Fin (cellsDims C D H W N wf).startIndexMap.length) = ⟨(2 : Fin 3).val, show (2 : Fin 3).val < ([1, 2, 3] : List (Fin 4)).length by decide⟩ from Fin.ext (show List.idxOf (3 : Fin 4) ([1, 2, 3] : List (Fin 4)) = 2 by decide), hsi]
    rfl
  unfold Host.gather
  congr 1
  funext a
  refine Fin.ext ?_
  match a with
  | ⟨0, _⟩ => exact h0
  | ⟨1, _⟩ => exact h1
  | ⟨2, _⟩ => exact h2
  | ⟨3, _⟩ => exact h3

end Cert.Lib.GatherCells

end
-- ==== Proof.LibGatherVec.lean ====
/-
  A gather of single entries of a vector, read at an index.

  A vector of `M` entries gathered at a column of `R` entry numbers gives `R` entries; entry `r` of the result is the
  vector's entry whose number is the `r`-th start index, read as a signed integer and clamped into `[0, M - 1]`. It is
  the companion, for an operand of one axis, of the gather of whole rows of a two-axis array at the same column of row
  numbers: both read at the same clamped number.
-/
import Idealize.ShloMosaic.Lib.ValueIdx
import Idealize.ShloMosaic.PureOps.ShapeOps

noncomputable section

namespace Cert.LibGatherVec

open Idealize.ShloMosaic Idealize.ShloMosaic.ValueIdx

variable {α : Type}

/-- The dimension numbers of an entry gather: the start index names the one axis, which is collapsed; the slice is one
    entry. -/
abbrev vecDims (M R : Nat) (wf : GatherDims.WF ⟨1, ![M]⟩ ⟨2, ![R, 1]⟩ ⟨1, ![R]⟩ [] [0] [] [0] [] 1 ![1]) :
    GatherDims ⟨1, ![M]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry gather at `r`: the entry the `r`-th start index names, clamped into `[0, M - 1]`. -/
theorem gather_vec_apply {M R w : Nat} (hM : 0 < M)
    (wf : GatherDims.WF ⟨1, ![M]⟩ ⟨2, ![R, 1]⟩ ⟨1, ![R]⟩ [] [0] [] [0] [] 1 ![1])
    (x : (⟨1, ![M]⟩ : Shape).Idx → α) (idx : IVec ⟨2, ![R, 1]⟩ w) (y : (⟨1, ![R]⟩ : Shape).Idx) :
    Host.gather (vecDims M R wf) x idx y
      = x (ix1 ⟨min (idx (ix2 (y 0) (0 : Fin 1))).toInt.toNat (M - 1), by omega⟩) := by
  unfold Host.gather
  congr 1
  funext a
  obtain rfl : a = 0 := Subsingleton.elim _ _
  refine Fin.ext ?_
  show (vecDims M R wf).start y idx 0 + (vecDims M R wf).batchCoord y 0 + (vecDims M R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims M R wf).startIndexMap from List.mem_singleton.mpr rfl)]
  have hsi : (vecDims M R wf).siIdx y ⟨List.idxOf (0 : Fin 1) (vecDims M R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Cert.LibGatherVec

end
-- ==== Proof.LibGcnStep.lean ====
/-
  One step of a normalised graph convolution, in two arrangements that agree on the extended reals.

  N nodes, E messages. Message e carries a source row number and a target row number, both read as signed integers off
  32-bit words; reading a row means clamping the number into [0, N - 1], and a message whose target number is outside
  [0, N - 1] is dropped by the accumulation. With P an [N, C] array and δ a nonnegative finite weight per node:

    weighted first:   out(n, c) = δ(n) · Σ over messages e landing at n of  P(src e, c) · δ(src e)
    weighted inside:  out(n, c) =        Σ over messages e landing at n of  P(src e, c) · (δ(src e) · δ(tgt e))

  The target of a message that lands at n IS n, so δ(tgt e) = δ(n) is constant on the messages of one sum, and a
  nonnegative finite factor distributes over a finite sum of extended reals (at the infinities distributivity fails for
  factors of either sign and for an infinite factor; for a nonnegative finite one it holds). The weight here is the
  reciprocal square root of max(degree, 1): whatever the degree is, that is a number in [0, 1].
-/
import proofs.«130920_j16286515987226_2_alg».proof.Proof.LibScatterRows
import proofs.«130920_j16286515987226_2_alg».proof.Proof.LibGatherCells
import proofs.«130920_j16286515987226_2_alg».proof.Proof.LibGatherVec
import Idealize.ShloMosaic.PureOps.Ideal

noncomputable section

namespace Cert.GcnCore

open Idealize.ShloMosaic Idealize.ShloMosaic.ValueIdx Cert.LibScatterRows

/-! ## The weight: the reciprocal square root of a number that is at least one -/

/-- The float word of one is one. -/
theorem ofBits_one : Ideal.ofBits .f32 0x3F800000#32 = 1 := by
  simp [Ideal.ofBits, Ideal.ieee, -EReal.coe_mul]; norm_num

/-- The reciprocal square root of an extended real that is at least one is nonnegative and finite: it is 0 at +∞ and
    1 / √r at a real r ≥ 1. -/
theorem rsqrt_of_one_le {y : EReal} (h : 1 ≤ y) : 0 ≤ Ideal.rsqrt y ∧ Ideal.rsqrt y ≠ ⊤ := by
  induction y using EReal.rec with
  | bot => exact absurd (le_bot_iff.mp h) (by exact_mod_cast EReal.coe_ne_bot 1)
  | top => exact ⟨le_refl _, EReal.zero_ne_top⟩
  | coe r =>
    have hr : (1 : ℝ) ≤ r := by exact_mod_cast h
    rw [Ideal.rsqrt_coe, if_neg (by linarith), if_neg (by linarith)]
    exact ⟨by exact_mod_cast inv_nonneg.mpr (Real.sqrt_nonneg r), EReal.coe_ne_top _⟩

/-- So is the reciprocal square root of the maximum of anything with the float word of one. -/
theorem rsqrt_max_one (x : EReal) :
    0 ≤ Ideal.rsqrt (max x (Ideal.ofBits .f32 0x3F800000#32)) ∧ Ideal.rsqrt (max x (Ideal.ofBits .f32 0x3F800000#32)) ≠ ⊤ :=
  rsqrt_of_one_le (by rw [ofBits_one]; exact le_max_right _ _)

/-! ## Row numbers read off words -/

/-- A row number clamped into [0, N - 1]. -/
def clampIdx {w : Nat} (N : Nat) (hN : 0 < N) (a : BitVec w) : Fin N := ⟨min a.toInt.toNat (N - 1), by omega⟩

/-- A word that reads, signed, as a natural is not below zero in the signed order, so the wrap of a negative number
    (select (a < 0) (a + N) a) leaves it alone. -/
theorem wrap_of_toInt {a : BitVec 32} {n : Nat} (h : a.toInt = (n : Int)) (alt : BitVec 32) :
    Scalar.select (IntOp.cmpi .slt a 0#32) alt a = a := by
  have hs : IntOp.cmpi .slt a 0#32 = 0#1 := by
    unfold IntOp.cmpi
    show BitVec.ofBool (a.slt 0#32) = 0#1
    have : a.slt 0#32 = false := by
      rw [BitVec.slt, h]
      simp
    rw [this]; rfl
  rw [hs, select_zero]

/-- A word that reads as the natural n < N clamps to n. -/
theorem clampIdx_of_toInt {a : BitVec 32} {N : Nat} (hN : 0 < N) (n : Fin N) (h : a.toInt = (n.val : Int)) :
    clampIdx N hN a = n := by
  refine Fin.ext ?_
  show min a.toInt.toNat (N - 1) = n.val
  rw [h, Int.toNat_natCast]
  have := n.isLt
  omega

/-! ## The two arrangements agree -/

/-- The weight of the landing row moves inside the accumulation. -/
theorem weighted_first_eq_inside {N E C : Nat} (hN : 0 < N)
    (wf : ScatterDims.WF ⟨2, ![N, C]⟩ ⟨2, ![E, 1]⟩ ⟨2, ![E, C]⟩ [1] [0] [0] 1)
    (tgt : IVec ⟨2, ![E, 1]⟩ 32) (sw dw : Fin E → BitVec 32)
    (δ : Fin N → EReal) (h0 : ∀ n, 0 ≤ δ n) (ht : ∀ n, δ n ≠ ⊤)
    (P : (⟨2, ![N, C]⟩ : Shape).Idx → EReal)
    (hdw : ∀ (r : Fin E) (n : Fin N), (tgt (ix2 r (0 : Fin 1))).toInt = (n.val : Int) → clampIdx N hN (dw r) = n)
    (x : (⟨2, ![N, C]⟩ : Shape).Idx → EReal) (i : (⟨2, ![N, C]⟩ : Shape).Idx) (hx : x i = 0) :
    δ (i 0) * Ideal.hostScatterAdd (rowsScatter N E C wf) x tgt
        (fun j => P (ix2 (clampIdx N hN (sw (j 0))) (j 1)) * δ (clampIdx N hN (sw (j 0)))) i
      = Ideal.hostScatterAdd (rowsScatter N E C wf) x tgt
        (fun j => P (ix2 (clampIdx N hN (sw (j 0))) (j 1)) * (δ (clampIdx N hN (sw (j 0))) * δ (clampIdx N hN (dw (j 0))))) i := by
  rw [scatter_rows_scale wf tgt δ h0 ht x _ (fun j => δ (clampIdx N hN (dw (j 0))))
    (fun j n hn => by rw [hdw (j 0) n hn]) i hx]
  simp only [mul_assoc]

/-- The same at the entry (n, c). -/
theorem weighted_first_eq_inside_ix2 {N E C : Nat} (hN : 0 < N)
    (wf : ScatterDims.WF ⟨2, ![N, C]⟩ ⟨2, ![E, 1]⟩ ⟨2, ![E, C]⟩ [1] [0] [0] 1)
    (tgt : IVec ⟨2, ![E, 1]⟩ 32) (sw dw : Fin E → BitVec 32)
    (δ : Fin N → EReal) (h0 : ∀ n, 0 ≤ δ n) (ht : ∀ n, δ n ≠ ⊤)
    (P : (⟨2, ![N, C]⟩ : Shape).Idx → EReal)
    (hdw : ∀ (r : Fin E) (n : Fin N), (tgt (ix2 r (0 : Fin 1))).toInt = (n.val : Int) → clampIdx N hN (dw r) = n)
    (x : (⟨2, ![N, C]⟩ : Shape).Idx → EReal) (n : Fin N) (q : Fin C) (hx : x (ix2 n q) = 0) :
    δ n * Ideal.hostScatterAdd (rowsScatter N E C wf) x tgt
        (fun j => P (ix2 (clampIdx N hN (sw (j 0))) (j 1)) * δ (clampIdx N hN (sw (j 0)))) (ix2 n q)
      = Ideal.hostScatterAdd (rowsScatter N E C wf) x tgt
        (fun j => P (ix2 (clampIdx N hN (sw (j 0))) (j 1)) * (δ (clampIdx N hN (sw (j 0))) * δ (clampIdx N hN (dw (j 0))))) (ix2 n q) :=
  weighted_first_eq_inside hN wf tgt sw dw δ h0 ht P hdw x (ix2 n q) hx

end Cert.GcnCore

end
-- ==== Proof.LibGcnLayer.lean ====
/-
  One layer of a graph convolution as the reference spells it, read at one entry.

  N nodes, E messages. Message e carries two 32-bit words, a source word and a target word. A word NAMES a node when,
  read as a signed integer, it is a natural below N. When every source and target word names a node, three
  precautions of the reference do nothing: the wrap of a negative number (add N where the word is below zero) leaves
  the word alone; the clamp of a gathered row number into [0, N − 1] leaves it alone; and no message is dropped by the
  accumulation for landing outside the array. What is left is, at node n and column c,

      out(n, c) = zero(n, c) + Σ over the messages e whose target is n of  P(source e, c) · weight(e),

  the sum over a filtered finite set of extended reals. The row scatter-add is first put in closed form for any words
  (the sum over the messages whose target word reads as n), then the three precautions are removed one by one. The
  small layout facts the reference needs on the way are here too: a vector laid out as a column, a column repeated
  across columns, a vector laid out as a row, a row repeated across rows, each read at an entry.
-/
import proofs.«130920_j16286515987226_2_alg».proof.Proof.LibScatterRows
import proofs.«130920_j16286515987226_2_alg».proof.Proof.LibGatherCells
import proofs.«130920_j16286515987226_2_alg».proof.Proof.LibGcnStep
import Idealize.ShloMosaic.Lib.ValueIdx
import Idealize.ShloMosaic.Lib.Pipeline.Value
import Idealize.ShloMosaic.PureOps.Ideal.Laws

noncomputable section

open scoped BigOperators

namespace Cert.LibGcnLayer

open Idealize.ShloMosaic Idealize.ShloMosaic.ValueIdx Cert.LibScatterRows Cert.Lib.GatherCells Cert.GcnCore

/-! ## Words that name nodes -/

/-- A word names a node when, read signed, it is a natural below N. -/
def InRange (N : Nat) (w : BitVec 32) : Prop := 0 ≤ w.toInt ∧ w.toInt < (N : Int)

/-- The node a word names. -/
def nodeOf (N : Nat) (w : BitVec 32) (h : InRange N w) : Fin N :=
  ⟨w.toInt.toNat, by have h1 := h.1; have h2 := h.2; omega⟩

/-- The word reads as the node it names. -/
theorem toInt_eq_nodeOf {N : Nat} {w : BitVec 32} (h : InRange N w) : w.toInt = ((nodeOf N w h).val : Int) := by
  show w.toInt = ((w.toInt.toNat : Nat) : Int)
  have h1 := h.1
  omega

/-- The word of a natural below 2 ^ 31 reads, signed, as that natural. -/
theorem toInt_ofNat {k : Nat} (hk : k < 2 ^ 31) : (BitVec.ofNat 32 k).toInt = (k : Int) := by
  have ht : (BitVec.ofNat 32 k).toNat = k := by rw [BitVec.toNat_ofNat]; exact Nat.mod_eq_of_lt (by omega)
  rw [BitVec.toInt_eq_toNat_cond, ht]
  have : 2 * k < 2 ^ 32 := by omega
  rw [if_pos this]

/-- The word of a natural below N names a node, N within the signed range. -/
theorem inRange_ofNat {N k : Nat} (hk : k < N) (hN : N ≤ 2 ^ 31) : InRange N (BitVec.ofNat 32 k) := by
  unfold InRange
  rw [toInt_ofNat (by omega)]
  omega

/-- It names the node k. -/
theorem nodeOf_ofNat {N k : Nat} (hk : k < N) (hN : N ≤ 2 ^ 31) :
    nodeOf N (BitVec.ofNat 32 k) (inRange_ofNat hk hN) = ⟨k, hk⟩ := by
  refine Fin.ext ?_
  show (BitVec.ofNat 32 k).toInt.toNat = k
  rw [toInt_ofNat (by omega)]
  exact Int.toNat_natCast k

/-! ## Layouts of a vector, read at an entry -/

section Layout
variable {α : Type}

/-- A vector laid out as a column reads, at (e, u), the vector at e. -/
theorem col_apply {E : Nat} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply ![0] h v (ix2 e u) (ix1 e) fun a => ?_
  match a with
  | ⟨0, _⟩ =>
    show e.val = if E = 1 then 0 else e.val
    split
    · have := e.isLt; omega
    · rfl

/-- A column repeated across C columns reads, at (e, c), the column at e. -/
theorem colRep_apply {E C : Nat} (v : (⟨2, ![E, 1]⟩ : Shape).Idx → α)
    (h : (⟨2, ![E, 1]⟩ : Shape).BroadcastsInDim ⟨2, ![E, C]⟩ ![0, 1]) (e : Fin E) (c : Fin C) :
    broadcastInDim ⟨2, ![E, C]⟩ ![0, 1] h v (ix2 e c) = v (ix2 e (0 : Fin 1)) := by
  refine broadcastInDim_apply ![0, 1] h v (ix2 e c) (ix2 e (0 : Fin 1)) fun a => ?_
  match a with
  | ⟨0, _⟩ =>
    show e.val = if E = 1 then 0 else e.val
    split
    · have := e.isLt; omega
    · rfl
  | ⟨1, _⟩ => rfl

/-- A vector laid out as a row reads, at (u, c), the vector at c. -/
theorem row_apply {C : Nat} (v : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h v (ix2 u c) = v (ix1 c) := by
  refine broadcastInDim_apply ![1] h v (ix2 u c) (ix1 c) fun a => ?_
  match a with
  | ⟨0, _⟩ =>
    show c.val = if C = 1 then 0 else c.val
    split
    · have := c.isLt; omega
    · rfl

/-- A row repeated across N rows reads, at (n, c), the row at c. -/
theorem rowRep_apply {N C : Nat} (v : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h v (ix2 n c) = v (ix2 (0 : Fin 1) c) := by
  refine broadcastInDim_apply ![0, 1] h v (ix2 n c) (ix2 (0 : Fin 1) c) fun a => ?_
  match a with
  | ⟨0, _⟩ => rfl
  | ⟨1, _⟩ =>
    show c.val = if C = 1 then 0 else c.val
    split
    · have := c.isLt; omega
    · rfl

/-- A vector laid out as a column and repeated across C columns reads, at (e, c), the vector at e. -/
theorem colOfVec_apply {E C : Nat} (v : (⟨1, ![E]⟩ : Shape).Idx → α)
    (h : (⟨1, ![E]⟩ : Shape).BroadcastsInDim ⟨2, ![E, 1]⟩ ![0])
    (h' : (⟨2, ![E, 1]⟩ : Shape).BroadcastsInDim ⟨2, ![E, C]⟩ ![0, 1]) (e : Fin E) (c : Fin C) :
    broadcastInDim ⟨2, ![E, C]⟩ ![0, 1] h' (broadcastInDim ⟨2, ![E, 1]⟩ ![0] h v) (ix2 e c) = v (ix1 e) :=
  (colRep_apply _ h' e c).trans (col_apply v h e 0)

/-- A vector laid out as a row and repeated across N rows reads, at (n, c), the vector at c. -/
theorem rowOfVec_apply {N C : Nat} (v : (⟨1, ![C]⟩ : Shape).Idx → α)
    (h : (⟨1, ![C]⟩ : Shape).BroadcastsInDim ⟨2, ![1, C]⟩ ![1])
    (h' : (⟨2, ![1, C]⟩ : Shape).BroadcastsInDim ⟨2, ![N, C]⟩ ![0, 1]) (n : Fin N) (c : Fin C) :
    broadcastInDim ⟨2, ![N, C]⟩ ![0, 1] h' (broadcastInDim ⟨2, ![1, C]⟩ ![1] h v) (ix2 n c) = v (ix1 c) :=
  (rowRep_apply _ h' n c).trans (row_apply v h 0 c)

end Layout

/-! ## The wrap of a negative number leaves a word that names a node alone -/

/-- Entry by entry: where the compared-with word is zero and the word reads as a natural, the wrap is the word. -/
theorem wrap_apply {s : Shape} (v z k : IVec s 32) (i : s.Idx) (hz : z i = 0#32) (n : Nat) (h : (v i).toInt = (n : Int)) :
    select (cmpi .slt v z) (addi v k) v i = v i := by
  show Scalar.select (IntOp.cmpi .slt (v i) (z i)) (IntOp.addi (v i) (k i)) (v i) = v i
  rw [hz]
  exact wrap_of_toInt h _

/-! ## The row scatter-add in closed form -/

section Scatter
variable {N E C w : Nat} (wf : ScatterDims.WF ⟨2, ![N, C]⟩ ⟨2, ![E, 1]⟩ ⟨2, ![E, C]⟩ [1] [0] [0] 1)
  (idx : IVec ⟨2, ![E, 1]⟩ w)

private theorem start0 (j : (⟨2, ![E, C]⟩ : Shape).Idx) :
    (rowsScatter N E C wf).start j idx (0 : Fin 2) = (idx (ix2 (j 0) (0 : Fin 1))).toInt := by
  unfold ScatterDims.start
  rw [dif_pos (show (0 : Fin 2) ∈ (rowsScatter N E C wf).scatterDimsToOperandDims from List.mem_singleton.mpr rfl)]
  have hsi : (rowsScatter N E C wf).siIdx j ⟨List.idxOf (0 : Fin 2) (rowsScatter N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

private theorem window0 (j : (⟨2, ![E, C]⟩ : Shape).Idx) : (rowsScatter N E C wf).window j (0 : Fin 2) = 0 := by
  unfold ScatterDims.window
  rw [dif_neg (show ¬ ((0 : Fin 2) ∈ (rowsScatter N E C wf).sKept) from
    (show ¬ ((0 : Fin 2) ∈ ([1] : List (Fin 2))) by decide))]

private theorem start1 (j : (⟨2, ![E, C]⟩ : Shape).Idx) : (rowsScatter N E C wf).start j idx (1 : Fin 2) = 0 := by
  unfold ScatterDims.start
  rw [dif_neg (show ¬ ((1 : Fin 2) ∈ ([0] : List (Fin 2))) by decide)]

private theorem window1 (j : (⟨2, ![E, C]⟩ : Shape).Idx) : (rowsScatter N E C wf).window j (1 : Fin 2) = (j 1).val := by
  unfold ScatterDims.window
  rw [dif_pos (show (1 : Fin 2) ∈ (rowsScatter N E C wf).sKept from (show (1 : Fin 2) ∈ ([1] : List (Fin 2)) by decide))]
  rfl

/-- An update entry whose row's word reads as the node n lands at row n, in its own column. -/
theorem resultIdx_rows_of (j : (⟨2, ![E, C]⟩ : Shape).Idx) (n : Fin N)
    (h : (idx (ix2 (j 0) (0 : Fin 1))).toInt = (n.val : Int)) :
    (rowsScatter N E C wf).resultIdx? j idx = some (ix2 n ⟨(j 1).val, idx2_lt1 j⟩) := by
  have hj1 : (j 1).val < C := idx2_lt1 j
  have hall : ∀ a : Fin 2, 0 ≤ (rowsScatter N E C wf).start j idx a + ((rowsScatter N E C wf).window j a : Nat)
      ∧ (rowsScatter N E C wf).start j idx a + ((rowsScatter N E C wf).window j a : Nat) < ((⟨2, ![N, C]⟩ : Shape).size a : Nat) := by
    intro a
    match a with
    | ⟨0, _⟩ =>
      show 0 ≤ (rowsScatter N E C wf).start j idx (0 : Fin 2) + ((rowsScatter N E C wf).window j (0 : Fin 2) : Nat)
        ∧ (rowsScatter N E C wf).start j idx (0 : Fin 2) + ((rowsScatter N E C wf).window j (0 : Fin 2) : Nat) < (N : Int)
      rw [start0, window0, h]
      have := n.isLt
      omega
    | ⟨1, _⟩ =>
      show 0 ≤ (rowsScatter N E C wf).start j idx (1 : Fin 2) + ((rowsScatter N E C wf).window j (1 : Fin 2) : Nat)
        ∧ (rowsScatter N E C wf).start j idx (1 : Fin 2) + ((rowsScatter N E C wf).window j (1 : Fin 2) : Nat) < (C : Int)
      rw [start1, window1]
      omega
  unfold ScatterDims.resultIdx?
  rw [dif_pos hall]
  refine congrArg some (funext fun a => Fin.ext ?_)
  match a with
  | ⟨0, _⟩ =>
    show ((rowsScatter N E C wf).start j idx (0 : Fin 2) + ((rowsScatter N E C wf).window j (0 : Fin 2) : Nat)).toNat = n.val
    rw [start0, window0, h]
    omega
  | ⟨1, _⟩ =>
    show ((rowsScatter N E C wf).start j idx (1 : Fin 2) + ((rowsScatter N E C wf).window j (1 : Fin 2) : Nat)).toNat = (j 1).val
    rw [start1, window1]
    omega

/-- THE ROW SCATTER-ADD IN CLOSED FORM: entry (n, m) is the operand's entry plus the sum of the update entries
    (e, m) over the update rows e whose word reads as n. -/
theorem scatter_rows_apply (x : (⟨2, ![N, C]⟩ : Shape).Idx → EReal) (u : (⟨2, ![E, C]⟩ : Shape).Idx → EReal)
    (n : Fin N) (m : Fin C) :
    Ideal.hostScatterAdd (rowsScatter N E C wf) x idx u (ix2 n m)
      = x (ix2 n m)
        + ∑ e ∈ Finset.univ.filter (fun e : Fin E => (idx (ix2 e (0 : Fin 1))).toInt = (n.val : Int)), u (ix2 e m) := by
  unfold Ideal.hostScatterAdd
  refine congrArg (x (ix2 n m) + ·) ?_
  symm
  refine Finset.sum_bij (fun e _ => ix2 e m) ?_ ?_ ?_ ?_
  · intro e he
    have he2 := (Finset.mem_filter.mp he).2
    exact Finset.mem_filter.mpr ⟨Finset.mem_univ _, resultIdx_rows_of wf idx (ix2 e m) n he2⟩
  · intro a _ b _ hab
    exact congrFun hab (0 : Fin 2)
  · intro j hj
    have hj2 := resultIdx_rows wf idx j (ix2 n m) (Finset.mem_filter.mp hj).2
    refine ⟨j 0, Finset.mem_filter.mpr ⟨Finset.mem_univ _, hj2.1⟩, ?_⟩
    refine (congrArg (ix2 (j 0)) (Fin.ext hj2.2 : m = j 1)).trans (eq_ix2 j).symm
  · intro e _
    rfl

/-- The same when every update row's word names a node: the sum is over the update rows whose node is n. -/
theorem scatter_rows_nodes (x : (⟨2, ![N, C]⟩ : Shape).Idx → EReal) (u : (⟨2, ![E, C]⟩ : Shape).Idx → EReal)
    (dstN : Fin E → Fin N) (hdst : ∀ e, (idx (ix2 e (0 : Fin 1))).toInt = ((dstN e).val : Int)) (n : Fin N) (m : Fin C) :
    Ideal.hostScatterAdd (rowsScatter N E C wf) x idx u (ix2 n m)
      = x (ix2 n m) + ∑ e ∈ Finset.univ.filter (fun e : Fin E => dstN e = n), u (ix2 e m) := by
  rw [scatter_rows_apply wf idx x u n m]
  refine congrArg (x (ix2 n m) + ·) (Finset.sum_congr (Finset.filter_congr fun e _ => ?_) fun _ _ => rfl)
  rw [hdst e]
  constructor
  · intro h; exact Fin.ext (by omega)
  · intro h; rw [h]

/-- The same for the accumulating scatter at the ideal values, for any dimension numbers that are a row scatter's. -/
theorem scatterAdd_rows_nodes {φ : FTy} (d : ScatterDims ⟨2, ![N, C]⟩ ⟨2, ![E, 1]⟩ ⟨2, ![E, C]⟩) (hd : d = rowsScatter N E C wf)
    (x : (⟨2, ![N, C]⟩ : Shape).Idx → EReal) (u : (⟨2, ![E, C]⟩ : Shape).Idx → EReal)
    (dstN : Fin E → Fin N) (hdst : ∀ e, (idx (ix2 e (0 : Fin 1))).toInt = ((dstN e).val : Int)) (n : Fin N) (m : Fin C) :
    Host.scatterAdd (F := Ideal) (φ := φ) d x idx u (ix2 n m)
      = x (ix2 n m) + ∑ e ∈ Finset.univ.filter (fun e : Fin E => dstN e = n), u (ix2 e m) := by
  subst hd
  exact scatter_rows_nodes wf idx x u dstN hdst n m

end Scatter

/-! ## The row gather at a word that names a node -/

/-- Entry (r, c) of the gathered rows is entry c of row n when the r-th word reads as the node n: the clamp does nothing. -/
theorem gather_rows_node {α : Type} {M R C : Nat} (hM : 0 < M)
    (wf : GatherDims.WF ⟨2, ![M, C]⟩ ⟨2, ![R, 1]⟩ ⟨2, ![R, C]⟩ [1] [0] [] [0] [] 1 ![1, C])
    (d : GatherDims ⟨2, ![M, C]⟩ ⟨2, ![R, 1]⟩ ⟨2, ![R, C]⟩) (hd : d = rowsDims M R C wf)
    (x : (⟨2, ![M, C]⟩ : Shape).Idx → α) (idx : IVec ⟨2, ![R, 1]⟩ 32) (r : Fin R) (c : Fin C) (n : Fin M)
    (h : (idx (ix2 r (0 : Fin 1))).toInt = (n.val : Int)) :
    Host.gather d x idx (ix2 r c) = x (ix2 n c) := by
  subst hd
  rw [gather_rows_apply hM wf x idx (ix2 r c)]
  refine congrArg x (congrArg (fun q => ix2 q c) (Fin.ext ?_))
  show min (idx (ix2 r (0 : Fin 1))).toInt.toNat (M - 1) = n.val
  rw [h, Int.toNat_natCast]
  have := n.isLt
  omega

/-! ## One layer, read at an entry -/

/-- With every source and target word naming a node, the accumulation over a zero array of the gathered rows times
    the messages' weights is, at (n, c), the sum over the messages whose target is n of the source's row at c times
    the message's weight. -/
theorem layer_apply {N E C : Nat} (hN : 0 < N)
    (gwf : GatherDims.WF ⟨2, ![N, C]⟩ ⟨2, ![E, 1]⟩ ⟨2, ![E, C]⟩ [1] [0] [] [0] [] 1 ![1, C])
    (gd : GatherDims ⟨2, ![N, C]⟩ ⟨2, ![E, 1]⟩ ⟨2, ![E, C]⟩) (hgd : gd = rowsDims N E C gwf)
    (swf : ScatterDims.WF ⟨2, ![N, C]⟩ ⟨2, ![E, 1]⟩ ⟨2, ![E, C]⟩ [1] [0] [0] 1)
    (sd : ScatterDims ⟨2, ![N, C]⟩ ⟨2, ![E, 1]⟩ ⟨2, ![E, C]⟩) (hsd : sd = rowsScatter N E C swf)
    (P : (⟨2, ![N, C]⟩ : Shape).Idx → EReal) (srcCol dstCol : IVec ⟨2, ![E, 1]⟩ 32)
    (wMat : (⟨2, ![E, C]⟩ : Shape).Idx → EReal) (wgt : Fin E → EReal) (srcN dstN : Fin E → Fin N)
    (hsrc : ∀ e, (srcCol (ix2 e (0 : Fin 1))).toInt = ((srcN e).val : Int))
    (hdst : ∀ e, (dstCol (ix2 e (0 : Fin 1))).toInt = ((dstN e).val : Int))
    (hw : ∀ e c, wMat (ix2 e c) = wgt e)
    (zero : (⟨2, ![N, C]⟩ : Shape).Idx → EReal) (hz : ∀ i, zero i = 0) (n : Fin N) (c : Fin C) :
    Host.scatterAdd (F := Ideal) (φ := .f32) sd zero dstCol
        (mulf (F := Ideal) (φ := .f32) (Host.gather gd P srcCol) wMat) (ix2 n c)
      = ∑ e ∈ Finset.univ.filter (fun e : Fin E => dstN e = n), P (ix2 (srcN e) c) * wgt e := by
  rw [scatterAdd_rows_nodes swf dstCol sd hsd zero _ dstN hdst n c, hz, zero_add]
  refine Finset.sum_congr rfl fun e _ => ?_
  show Host.gather gd P srcCol (ix2 e c) * wMat (ix2 e c) = _
  rw [gather_rows_node hN gwf gd hgd P srcCol e c (srcN e) (hsrc e), hw e c]

/-! ## Two lists of words laid end to end -/

section Concat
variable {α : Type}

/-- A position below the first list's length reads the first list there. -/
theorem concat1_apply_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : e.val < A) :
    concatenate ⟨1, ![T]⟩ 0 [⟨⟨1, ![A]⟩, x₁⟩, ⟨⟨1, ![B]⟩, x₂⟩] h (ix1 e) = x₁ (ix1 ⟨e.val, he⟩) :=
  concatenate_pair_apply_left 0 x₁ x₂ h (ix1 e) rfl (ix1 ⟨e.val, he⟩) fun b => by
    match b with
    | ⟨0, _⟩ => rfl

/-- A position from the first list's length on reads the second list, that length less. -/
theorem concat1_apply_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : A ≤ e.val) (hb : e.val - A < B) :
    concatenate ⟨1, ![T]⟩ 0 [⟨⟨1, ![A]⟩, x₁⟩, ⟨⟨1, ![B]⟩, x₂⟩] h (ix1 e) = x₂ (ix1 ⟨e.val - A, hb⟩) :=
  concatenate_pair_apply_right 0 x₁ x₂ h (ix1 e) rfl rfl (ix1 ⟨e.val - A, hb⟩)
    (fun b hne => by
      match b with
      | ⟨0, _⟩ => exact absurd rfl hne)
    (by show e.val - A + A = e.val; omega)

/-- Words that name nodes, followed by the node numbers 0 … N − 1 themselves, all name nodes. -/
theorem concat_loops_inRange {A N T : Nat} (hN : N ≤ 2 ^ 31) (hT : T = A + N) (x₁ : (⟨1, ![A]⟩ : Shape).Idx → BitVec 32)
    (h : Shape.Concatenates [⟨1, ![A]⟩, ⟨1, ![N]⟩] ⟨1, ![T]⟩ 0) (hx : ∀ a : Fin A, InRange N (x₁ (ix1 a))) (e : Fin T) :
    InRange N (concatenate ⟨1, ![T]⟩ 0 [⟨⟨1, ![A]⟩, x₁⟩, ⟨⟨1, ![N]⟩, iotaInDim ⟨1, ![N]⟩ 32 0⟩] h (ix1 e)) := by
  by_cases he : e.val < A
  · rw [concat1_apply_left x₁ _ h e he]
    exact hx _
  · have hb : e.val - A < N := by have := e.isLt; omega
    rw [concat1_apply_right x₁ _ h e (Nat.le_of_not_lt he) hb]
    exact inRange_ofNat hb hN

end Concat

/-! ## One layer as a function of the nodes' rows -/

/-- One layer: at node n and column c, the sum over the messages whose target is n of the source's transformed row at c
    times the message's weight, plus the bias. -/
def gcnLayer {N E Cin Cout : Nat} (srcN dstN : Fin E → Fin N) (wgt : Fin E → EReal) (h : Fin N → Fin Cin → EReal)
    (W : Fin Cin → Fin Cout → EReal) (b : Fin Cout → EReal) : Fin N → Fin Cout → EReal :=
  fun n c => (∑ e ∈ Finset.univ.filter (fun e : Fin E => dstN e = n), (∑ k : Fin Cin, h (srcN e) k * W k c) * wgt e) + b c

end Cert.LibGcnLayer

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibPlainSum.lean ====
/-
  A plain matrix product read as a sum.

  For plain dimension numbers of a product of an [M, K] array and a [K, N] array (the left operand's axis 1 contracted
  against the right operand's axis 0, no batch axis), the one-axis contraction index is its coordinate a below K, and at
  the result index (p, c) the operands are read at (p, a) and (a, c). So the product into the zero accumulator, read at
  the ideal values at (p, c), is the sum over a of l(p, a) · r(a, c); the host's contraction is the same sum.
-/
import Idealize.ShloMosaic.PureOps.Ideal.Laws
import Idealize.ShloMosaic.Lib.ValueIdx
import proofs.«130920_j16286515987226_2_alg».proof.Proof.LibPlainDot

noncomputable section

open scoped BigOperators

namespace Cert.LibPlainSum

open Idealize.ShloMosaic Idealize.ShloMosaic.ValueIdx Cert.LibPlainDot

variable {M K N : Nat} {d : DotDims ⟨2, ![M, K]⟩ ⟨2, ![K, N]⟩ ⟨2, ![M, N]⟩}

/-- At result index (p, c) and the contraction position with coordinate a, the left operand is read at (p, a). -/
theorem lhsIdx_eq (h : Plain d) (p : Fin M) (c : Fin N) (a : Fin K) :
    d.lhsIdx (ix2 p c) ((contrEquiv1 d K h.rank h.size).symm a) = ix2 p a := by
  funext b
  refine Fin.ext ?_
  match b with
  | ⟨0, _⟩ => exact h.lhs0 (ix2 p c) _
  | ⟨1, _⟩ => exact (h.lhs1 (ix2 p c) _).trans (contrEquiv1_symm_val d K h.rank h.size a)

/-- At result index (p, c) and the contraction position with coordinate a, the right operand is read at (a, c). -/
theorem rhsIdx_eq (h : Plain d) (p : Fin M) (c : Fin N) (a : Fin K) :
    d.rhsIdx (ix2 p c) ((contrEquiv1 d K h.rank h.size).symm a) = ix2 a c := by
  funext b
  refine Fin.ext ?_
  match b with
  | ⟨0, _⟩ => exact (h.rhs0 (ix2 p c) _).trans (contrEquiv1_symm_val d K h.rank h.size a)
  | ⟨1, _⟩ => exact h.rhs1 (ix2 p c) _

/-- THE PRODUCT AS A SUM: into the zero accumulator, at the ideal values, the entry (p, c) of the product is the sum
    over the shared axis of the left operand's row p against the right operand's column c. -/
theorem matmul_zero_apply (h : Plain d) (prec : Option ContractPrecision) {φ₁ φ₂ : FTy}
    (l : FVec Ideal ⟨2, ![M, K]⟩ φ₁) (r : FVec Ideal ⟨2, ![K, N]⟩ φ₂) (p : Fin M) (c : Fin N) :
    FloatOps.matmul d prec l r (constant ⟨2, ![M, N]⟩ .f32 0x00000000#32) (ix2 p c)
      = ∑ a : Fin K, l (ix2 p a) * r (ix2 a c) := by
  rw [Ideal.matmul_constant_zero_apply]
  rw [← Equiv.sum_comp (contrEquiv1 d K h.rank h.size).symm]
  exact Finset.sum_congr rfl fun a _ => by rw [lhsIdx_eq h p c a, rhsIdx_eq h p c a]

/-- The same for the host's contraction, which has no accumulator. -/
theorem dotGeneral_apply (h : Plain d) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral d prec sched l r (ix2 p c) = ∑ a : Fin K, l (ix2 p a) * r (ix2 a c) := by
  rw [Ideal.dotGeneral_apply]
  rw [← Equiv.sum_comp (contrEquiv1 d K h.rank h.size).symm]
  exact Finset.sum_congr rfl fun a _ => by rw [lhsIdx_eq h p c a, rhsIdx_eq h p c a]

end Cert.LibPlainSum

end
-- ==== Proof.KIChainReads.lean ====
/-
  The host side of the three-layer graph convolution, read buffer by buffer.

  Between the kernel regions the program runs ordinary array operations. This module reads, at each boundary, every
  buffer a region takes in as a term of earlier buffers, and then at an index:
    · the padded source words, target words and weights of the 851968 message slots: the 850000 messages (the
      argument's 800000 and one from each node to itself) followed by 1968 slots whose words are all ones and whose
      weight is zero;
    · the node features padded from 50000 to 51200 rows; each layer's transformed rows, row p against the layer's
      weight matrix, Σ a, prev(p, a) · W(a, k); each bias laid out as a row; the result as the first 50000 rows of
      the last region's output;
    · that the message words name nodes when the argument's words do.
  A buffer nothing later writes holds the same contents at every later boundary.
-/
import proofs.«130920_j16286515987226_2_alg».proof.Proof.Gen.KernelIdeal.Regions
import proofs.«130920_j16286515987226_2_alg».proof.Proof.LibGcnLayer
import proofs.«130920_j16286515987226_2_alg».proof.Proof.LibPlainSum
import Idealize.ShloMosaic.Lib.ValueIdx
import Idealize.ShloMosaic.Lib.Pipeline.Value
import Idealize.ShloMosaic.Lib.KernelVsHost

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (outs : Gen.Outs (F := Ideal)) (c : Dev nD)

/-! ## Each buffer a region reads, as a term of earlier buffers -/

/-- The padded source words: the 850000 message words followed by 1968 words of all ones. -/
theorem v31_term : (Gen.V3 m c main_v31 : S851968.Idx → BitVec 32)
    = concatenate S851968 0 [⟨S850000, (Gen.V2 m c main_v5 : S850000.Idx → BitVec 32)⟩,
        ⟨S1968, broadcastInDim S1968 ![] Facts₀.bcast_S_S1968 (constantI S_ 32 4294967295#32)⟩] Facts₀.concatenates_S850000_S1968_S851968_d0 := by
  show StableHlo.after hostOps0_2 (Gen.V2 m c) main_v31 = _
  generalize Gen.V2 m c = W
  after_results
  all_goals rfl

/-- The padded target words. -/
theorem v33_term : (Gen.V3 m c main_v33 : S851968.Idx → BitVec 32)
    = concatenate S851968 0 [⟨S850000, (Gen.V2 m c main_v6 : S850000.Idx → BitVec 32)⟩,
        ⟨S1968, broadcastInDim S1968 ![] Facts₀.bcast_S_S1968 (constantI S_ 32 4294967295#32)⟩] Facts₀.concatenates_S850000_S1968_S851968_d0 := by
  show StableHlo.after hostOps0_2 (Gen.V2 m c) main_v33 = _
  generalize Gen.V2 m c = W
  after_results
  all_goals rfl

/-- Running two lines one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The padded weights: the 850000 message weights followed by 1968 zeros. The weights are written by the same
    stretch of operations, so the stretch is cut after the operation that writes them. -/
theorem v35_of (W : Valuation τ sig (Elt Ideal)) :
    (StableHlo.after hostOps0_2 W main_v35 : S851968.Idx → EReal)
    = concatenate S851968 0 [⟨S850000, (StableHlo.after hostOps0_2 W main_v29 : S850000.Idx → EReal)⟩,
        ⟨S1968, broadcastInDim S1968 ![] Facts₀.bcast_S_S1968 (constant (F := Ideal) S_ .f32 0x00000000#32)⟩] Facts₀.concatenates_S850000_S1968_S851968_d0 := by
  rw [show (hostOps0_2 : List (HloOp τ sig (Elt Ideal))) = hostOps0_2.take 19 ++ hostOps0_2.drop 19 from (List.take_append_drop 19 _).symm,
    after_append]
  generalize StableHlo.after (List.take 19 hostOps0_2) W = W'
  simp only [hostOps0_2, List.drop_succ_cons, List.drop_zero]
  after_results
  all_goals rfl

theorem v35_term : (Gen.V3 m c main_v35 : S851968.Idx → EReal)
    = concatenate S851968 0 [⟨S850000, (Gen.V3 m c main_v29 : S850000.Idx → EReal)⟩,
        ⟨S1968, broadcastInDim S1968 ![] Facts₀.bcast_S_S1968 (constant (F := Ideal) S_ .f32 0x00000000#32)⟩] Facts₀.concatenates_S850000_S1968_S851968_d0 :=
  v35_of (Gen.V2 m c)

/-- The zero word the padding value is converted from. -/
theorem c9_term : (Gen.V3 m c main_c_9 : S_.Idx → BitVec 32) = constantI S_ 32 0#32 := by
  show StableHlo.after hostOps0_2 (Gen.V2 m c) main_c_9 = _
  generalize Gen.V2 m c = W
  after_results
  all_goals rfl

/-- The node features padded by 1200 rows. -/
theorem v36_term : (Gen.V4 m c main_v36 : S51200x64.Idx → EReal)
    = pad S51200x64 ![0, 0] ![1200, 0] ![0, 0] (Gen.V3 m c main_arg0 : S50000x64.Idx → EReal)
        (sitofp (F := Ideal) .f32 (Gen.V3 m c main_c_9 : S_.Idx → BitVec 32)) Facts₀.pads_S50000x64_S51200x64_012000_000 Facts₀.h_S_ := by
  show StableHlo.after hostOps0_3 (Gen.V3 m c) main_v36 = _
  generalize Gen.V3 m c = W
  after_results
  all_goals rfl

/-- The first layer's transformed rows. -/
theorem v38_term : (Gen.V5 m c main_v38 : S51200x64.Idx → EReal)
    = truncf .bf16 (Host.dotGeneral (F := Ideal) (φ₁ := .f32) (φ₂ := .f32) dot_S51200x64_S64x64_S51200x64_1_0_0_1_n_n none
        (Gen.V4 m c main_v36 : S51200x64.Idx → EReal) (Gen.V4 m c main_arg2 : S64x64.Idx → EReal)) Facts₀.bitsLt_bf16_f32 := by
  show StableHlo.after hostOps0_4 (Gen.V4 m c) main_v38 = _
  generalize Gen.V4 m c = W
  after_results
  all_goals rfl

/-- The first bias as a row. -/
theorem v40_term : (Gen.V7 m outs c main_v40 : S1x64.Idx → EReal)
    = shapeCast S1x64 (Gen.V6 m outs c main_arg3 : S64.Idx → EReal) Facts₀.shapeCasts_S64_S1x64 := by
  show StableHlo.after hostOps1 (Gen.V6 m outs c) main_v40 = _
  generalize Gen.V6 m outs c = W
  after_results
  all_goals rfl

/-- The second layer's transformed rows. -/
theorem v43_term : (Gen.V9 m outs c main_v43 : S51200x64.Idx → EReal)
    = truncf .bf16 (Host.dotGeneral (F := Ideal) (φ₁ := .f32) (φ₂ := .f32) dot_S51200x64_S64x64_S51200x64_1_0_0_1_n_n none
        (Gen.V8 m outs c main_v41 : S51200x64.Idx → EReal) (Gen.V8 m outs c main_arg4 : S64x64.Idx → EReal)) Facts₀.bitsLt_bf16_f32 := by
  show StableHlo.after hostOps2 (Gen.V8 m outs c) main_v43 = _
  generalize Gen.V8 m outs c = W
  after_results
  all_goals rfl

/-- The second bias as a row. -/
theorem v45_term : (Gen.V11 m outs c main_v45 : S1x64.Idx → EReal)
    = shapeCast S1x64 (Gen.V10 m outs c main_arg5 : S64.Idx → EReal) Facts₀.shapeCasts_S64_S1x64 := by
  show StableHlo.after hostOps3 (Gen.V10 m outs c) main_v45 = _
  generalize Gen.V10 m outs c = W
  after_results
  all_goals rfl

/-- The third layer's transformed rows. -/
theorem v48_term : (Gen.V13 m outs c main_v48 : S51200x32.Idx → EReal)
    = truncf .bf16 (Host.dotGeneral (F := Ideal) (φ₁ := .f32) (φ₂ := .f32) dot_S51200x64_S64x32_S51200x32_1_0_0_1_n_n none
        (Gen.V12 m outs c main_v46 : S51200x64.Idx → EReal) (Gen.V12 m outs c main_arg6 : S64x32.Idx → EReal)) Facts₀.bitsLt_bf16_f32 := by
  show StableHlo.after hostOps4 (Gen.V12 m outs c) main_v48 = _
  generalize Gen.V12 m outs c = W
  after_results
  all_goals rfl

/-- The third bias as a row. -/
theorem v50_term : (Gen.V15 m outs c main_v50 : S1x32.Idx → EReal)
    = shapeCast S1x32 (Gen.V14 m outs c main_arg7 : S32.Idx → EReal) Facts₀.shapeCasts_S32_S1x32 := by
  show StableHlo.after hostOps5 (Gen.V14 m outs c) main_v50 = _
  generalize Gen.V14 m outs c = W
  after_results
  all_goals rfl

/-- The result: the first 50000 rows of the last region's output. -/
theorem v52_term : (Gen.V17 m outs c main_v52 : S50000x32.Idx → EReal)
    = extractStridedSlice S50000x32 ![0, 0] (Gen.V16 m outs c main_v51 : S51200x32.Idx → EReal) Facts₀.slices_S51200x32_S50000x32_0_0 := by
  show StableHlo.after hostOps6 (Gen.V16 m outs c) main_v52 = _
  generalize Gen.V16 m outs c = W
  after_results
  all_goals rfl

/-! ## Buffers no later item writes -/

theorem nm {r : Ref sig .tc} {A B : List (Ref sig .tc)} (hs : ∀ x ∈ A, x ∈ B) (h : r ∉ B) : r ∉ A :=
  fun hm => h (hs r hm)

/-- Every buffer some item from region 0 on writes. -/
abbrev Wtail : List (Ref sig .tc) :=
  [main_v39, main_v40, main_v41, main_v42, main_v43, main_v44, main_v45, main_v46, main_v47, main_v48, main_v49,
    main_v50, main_v51, main_v52]

theorem keep6 (r : Ref sig .tc) (h : r ∉ Wtail) : Gen.V6 m outs c r = Gen.V5 m c r :=
  Gen.V6_of m outs c r (nm (by decide) h)
theorem keep7 (r : Ref sig .tc) (h : r ∉ Wtail) : Gen.V7 m outs c r = Gen.V5 m c r :=
  (Gen.V7_of m outs c r (nm (by decide) h)).trans (keep6 m outs c r h)
theorem keep8 (r : Ref sig .tc) (h : r ∉ Wtail) : Gen.V8 m outs c r = Gen.V5 m c r :=
  (Gen.V8_of m outs c r (nm (by decide) h)).trans (keep7 m outs c r h)
theorem keep9 (r : Ref sig .tc) (h : r ∉ Wtail) : Gen.V9 m outs c r = Gen.V5 m c r :=
  (Gen.V9_of m outs c r (nm (by decide) h)).trans (keep8 m outs c r h)
theorem keep10 (r : Ref sig .tc) (h : r ∉ Wtail) : Gen.V10 m outs c r = Gen.V5 m c r :=
  (Gen.V10_of m outs c r (nm (by decide) h)).trans (keep9 m outs c r h)
theorem keep11 (r : Ref sig .tc) (h : r ∉ Wtail) : Gen.V11 m outs c r = Gen.V5 m c r :=
  (Gen.V11_of m outs c r (nm (by decide) h)).trans (keep10 m outs c r h)
theorem keep12 (r : Ref sig .tc) (h : r ∉ Wtail) : Gen.V12 m outs c r = Gen.V5 m c r :=
  (Gen.V12_of m outs c r (nm (by decide) h)).trans (keep11 m outs c r h)
theorem keep13 (r : Ref sig .tc) (h : r ∉ Wtail) : Gen.V13 m outs c r = Gen.V5 m c r :=
  (Gen.V13_of m outs c r (nm (by decide) h)).trans (keep12 m outs c r h)
theorem keep14 (r : Ref sig .tc) (h : r ∉ Wtail) : Gen.V14 m outs c r = Gen.V5 m c r :=
  (Gen.V14_of m outs c r (nm (by decide) h)).trans (keep13 m outs c r h)
theorem keep15 (r : Ref sig .tc) (h : r ∉ Wtail) : Gen.V15 m outs c r = Gen.V5 m c r :=
  (Gen.V15_of m outs c r (nm (by decide) h)).trans (keep14 m outs c r h)

/-- Every buffer some host operation before region 0 writes. -/
abbrev Whead : List (Ref sig .tc) := hostOps0_W ++ hostOps0_1_W ++ hostOps0_2_W ++ hostOps0_3_W ++ hostOps0_4_W

theorem head1 (r : Ref sig .tc) (h : r ∉ Whead) : Gen.V1 m c r = Gen.V0 m c r :=
  Gen.V1_of m c r (nm (by decide) h)
theorem head2 (r : Ref sig .tc) (h : r ∉ Whead) : Gen.V2 m c r = Gen.V0 m c r :=
  (Gen.V2_of m c r (nm (by decide) h)).trans (head1 m c r h)
theorem head3 (r : Ref sig .tc) (h : r ∉ Whead) : Gen.V3 m c r = Gen.V0 m c r :=
  (Gen.V3_of m c r (nm (by decide) h)).trans (head2 m c r h)
theorem head4 (r : Ref sig .tc) (h : r ∉ Whead) : Gen.V4 m c r = Gen.V0 m c r :=
  (Gen.V4_of m c r (nm (by decide) h)).trans (head3 m c r h)
theorem head5 (r : Ref sig .tc) (h : r ∉ Whead) : Gen.V5 m c r = Gen.V0 m c r :=
  (Gen.V5_of m c r (nm (by decide) h)).trans (head4 m c r h)

/-! ## The words and weights of the messages -/

/-- Source word of padded message e. -/
def srcW (e : Fin 851968) : BitVec 32 := (Gen.V5 m c main_v31 : S851968.Idx → BitVec 32) (ix1 e)
/-- Target word of padded message e. -/
def dstW (e : Fin 851968) : BitVec 32 := (Gen.V5 m c main_v33 : S851968.Idx → BitVec 32) (ix1 e)
/-- Weight of padded message e. -/
def nrmW (e : Fin 851968) : EReal := (Gen.V5 m c main_v35 : S851968.Idx → EReal) (ix1 e)
/-- Source word of message e. -/
def srcE (e : Fin 850000) : BitVec 32 := (Gen.V5 m c main_v5 : S850000.Idx → BitVec 32) (ix1 e)
/-- Target word of message e. -/
def dstE (e : Fin 850000) : BitVec 32 := (Gen.V5 m c main_v6 : S850000.Idx → BitVec 32) (ix1 e)
/-- Weight of message e. -/
def wgtE (e : Fin 850000) : EReal := (Gen.V5 m c main_v29 : S850000.Idx → EReal) (ix1 e)

theorem hE : 850000 ≤ 851968 := by decide
theorem hN : 50000 ≤ 51200 := by decide

theorem srcW_lo (e : Fin 850000) : srcW m c (Fin.castLE hE e) = srcE m c e := by
  unfold srcW srcE
  rw [show Gen.V5 m c main_v31 = Gen.V3 m c main_v31 from (Gen.V5_of m c _ (by decide)).trans (Gen.V4_of m c _ (by decide)),
    show Gen.V5 m c main_v5 = Gen.V2 m c main_v5 from
      (Gen.V5_of m c _ (by decide)).trans ((Gen.V4_of m c _ (by decide)).trans (Gen.V3_of m c _ (by decide))),
    v31_term]
  exact Cert.LibGcnLayer.concat1_apply_left _ _ _ (Fin.castLE hE e) e.isLt

theorem dstW_lo (e : Fin 850000) : dstW m c (Fin.castLE hE e) = dstE m c e := by
  unfold dstW dstE
  rw [show Gen.V5 m c main_v33 = Gen.V3 m c main_v33 from (Gen.V5_of m c _ (by decide)).trans (Gen.V4_of m c _ (by decide)),
    show Gen.V5 m c main_v6 = Gen.V2 m c main_v6 from
      (Gen.V5_of m c _ (by decide)).trans ((Gen.V4_of m c _ (by decide)).trans (Gen.V3_of m c _ (by decide))),
    v33_term]
  exact Cert.LibGcnLayer.concat1_apply_left _ _ _ (Fin.castLE hE e) e.isLt

theorem nrmW_lo (e : Fin 850000) : nrmW m c (Fin.castLE hE e) = wgtE m c e := by
  unfold nrmW wgtE
  rw [show Gen.V5 m c main_v35 = Gen.V3 m c main_v35 from (Gen.V5_of m c _ (by decide)).trans (Gen.V4_of m c _ (by decide)),
    show Gen.V5 m c main_v29 = Gen.V3 m c main_v29 from (Gen.V5_of m c _ (by decide)).trans (Gen.V4_of m c _ (by decide)),
    v35_term]
  exact Cert.LibGcnLayer.concat1_apply_left _ _ _ (Fin.castLE hE e) e.isLt

/-- A padding message's target word is all ones. -/
theorem dstW_hi (e : Fin 851968) (he : 850000 ≤ e.val) : dstW m c e = 4294967295#32 := by
  unfold dstW
  rw [show Gen.V5 m c main_v33 = Gen.V3 m c main_v33 from (Gen.V5_of m c _ (by decide)).trans (Gen.V4_of m c _ (by decide)),
    v33_term]
  have hb : e.val - 850000 < 1968 := by have := e.isLt; omega
  rw [Cert.LibGcnLayer.concat1_apply_right _ _ _ e he hb]
  rfl

/-! ## The transformed rows, the biases, the result -/

/-- A vector of extended reals read at a coordinate. -/
abbrev rd1 {n : Nat} (X : (⟨1, ![n]⟩ : Shape).Idx → EReal) (a : Fin n) : EReal := X (ix1 a)
/-- A matrix of extended reals read at its two coordinates. -/
abbrev rd2 {n0 n1 : Nat} (X : (⟨2, ![n0, n1]⟩ : Shape).Idx → EReal) (a : Fin n0) (b : Fin n1) : EReal := X (ix2 a b)

theorem plain64 : Cert.LibPlainDot.Plain dot_S51200x64_S64x64_S51200x64_1_0_0_1_n_n := ⟨rfl, rfl, rfl, rfl, rfl, rfl⟩
theorem plain32 : Cert.LibPlainDot.Plain dot_S51200x64_S64x32_S51200x32_1_0_0_1_n_n := ⟨rfl, rfl, rfl, rfl, rfl, rfl⟩

/-- The padded features, at a row below 50000, are the features. -/
theorem v36_apply (n : Fin 50000) (a : Fin 64) :
    rd2 (n0 := 51200) (n1 := 64) (Gen.V4 m c main_v36) (Fin.castLE hN n) a = rd2 (n0 := 50000) (n1 := 64) (Gen.V0 m c main_arg0) n a := by
  unfold rd2
  rw [v36_term, head3 m c main_arg0 (by decide)]
  refine pad_apply_of_inside _ _ _ _ _ _ _ (ix2 (Fin.castLE hN n) a) (ix2 n a) fun b => ?_
  match b with
  | ⟨0, _⟩ => show n.val = 0 + n.val * (0 + 1); omega
  | ⟨1, _⟩ => show a.val = 0 + a.val * (0 + 1); omega

/-- Row p of the first layer's transformed rows: row p of the padded features against the first weight matrix. -/
theorem v38_apply (p : Fin 51200) (k : Fin 64) :
    rd2 (n0 := 51200) (n1 := 64) (Gen.V5 m c main_v38) p k
      = ∑ a : Fin 64, rd2 (n0 := 51200) (n1 := 64) (Gen.V4 m c main_v36) p a * rd2 (n0 := 64) (n1 := 64) (Gen.V0 m c main_arg2) a k := by
  unfold rd2
  rw [v38_term, head4 m c main_arg2 (by decide)]
  exact Cert.LibPlainSum.dotGeneral_apply plain64 none .single (φ₁ := .f32) (φ₂ := .f32) _ _ p k

theorem v43_apply (p : Fin 51200) (k : Fin 64) :
    rd2 (n0 := 51200) (n1 := 64) (Gen.V9 m outs c main_v43) p k
      = ∑ a : Fin 64, rd2 (n0 := 51200) (n1 := 64) (outs 8 main_v41 c) p a * rd2 (n0 := 64) (n1 := 64) (Gen.V0 m c main_arg4) a k := by
  unfold rd2
  rw [v43_term, show Gen.V8 m outs c main_v41 = outs 8 main_v41 c from Function.update_self _ _ _, show Gen.V8 m outs c main_arg4 = Gen.V0 m c main_arg4 from (keep8 m outs c _ (by decide)).trans (head5 m c _ (by decide))]
  exact Cert.LibPlainSum.dotGeneral_apply plain64 none .single (φ₁ := .f32) (φ₂ := .f32) _ _ p k

theorem v48_apply (p : Fin 51200) (k : Fin 32) :
    rd2 (n0 := 51200) (n1 := 32) (Gen.V13 m outs c main_v48) p k
      = ∑ a : Fin 64, rd2 (n0 := 51200) (n1 := 64) (outs 12 main_v46 c) p a * rd2 (n0 := 64) (n1 := 32) (Gen.V0 m c main_arg6) a k := by
  unfold rd2
  rw [v48_term, show Gen.V12 m outs c main_v46 = outs 12 main_v46 c from Function.update_self _ _ _, show Gen.V12 m outs c main_arg6 = Gen.V0 m c main_arg6 from (keep12 m outs c _ (by decide)).trans (head5 m c _ (by decide))]
  exact Cert.LibPlainSum.dotGeneral_apply plain32 none .single (φ₁ := .f32) (φ₂ := .f32) _ _ p k

/-- A bias laid out as a row reads, at (0, k), the bias at k. -/
theorem v40_apply (k : Fin 64) :
    rd2 (n0 := 1) (n1 := 64) (Gen.V7 m outs c main_v40) 0 k = rd1 (n := 64) (Gen.V0 m c main_arg3) k := by
  unfold rd2 rd1
  rw [v40_term, show Gen.V6 m outs c main_arg3 = Gen.V0 m c main_arg3 from (keep6 m outs c _ (by decide)).trans (head5 m c _ (by decide))]
  refine shapeCast_apply _ _ (ix2 (0 : Fin 1) k) (ix1 k) ?_
  rw [Shape.rowMajor_val_one, Shape.rowMajor_val_two]
  show k.val = 0 * 64 + k.val
  omega
theorem v45_apply (k : Fin 64) :
    rd2 (n0 := 1) (n1 := 64) (Gen.V11 m outs c main_v45) 0 k = rd1 (n := 64) (Gen.V0 m c main_arg5) k := by
  unfold rd2 rd1
  rw [v45_term, show Gen.V10 m outs c main_arg5 = Gen.V0 m c main_arg5 from (keep10 m outs c _ (by decide)).trans (head5 m c _ (by decide))]
  refine shapeCast_apply _ _ (ix2 (0 : Fin 1) k) (ix1 k) ?_
  rw [Shape.rowMajor_val_one, Shape.rowMajor_val_two]
  show k.val = 0 * 64 + k.val
  omega
theorem v50_apply (k : Fin 32) :
    rd2 (n0 := 1) (n1 := 32) (Gen.V15 m outs c main_v50) 0 k = rd1 (n := 32) (Gen.V0 m c main_arg7) k := by
  unfold rd2 rd1
  rw [v50_term, show Gen.V14 m outs c main_arg7 = Gen.V0 m c main_arg7 from (keep14 m outs c _ (by decide)).trans (head5 m c _ (by decide))]
  refine shapeCast_apply _ _ (ix2 (0 : Fin 1) k) (ix1 k) ?_
  rw [Shape.rowMajor_val_one, Shape.rowMajor_val_two]
  show k.val = 0 * 32 + k.val
  omega

/-- The result at (n, k) is the last region's output at row n. -/
theorem v52_apply (n : Fin 50000) (k : Fin 32) :
    rd2 (n0 := 50000) (n1 := 32) (Gen.V17 m outs c main_v52) n k = rd2 (n0 := 51200) (n1 := 32) (outs 16 main_v51 c) (Fin.castLE hN n) k := by
  unfold rd2
  rw [v52_term, show Gen.V16 m outs c main_v51 = outs 16 main_v51 c from Function.update_self _ _ _]
  refine extractStridedSlice_apply _ _ _ (ix2 n k) (ix2 (Fin.castLE hN n) k) fun b => ?_
  match b with
  | ⟨0, _⟩ => show n.val = 0 + n.val; omega
  | ⟨1, _⟩ => show k.val = 0 + k.val; omega

/-! ## The message words name nodes -/

/-- The source words: row 0 of the argument's 800000 words, then the node numbers 0 … 49999. -/
theorem v5_term : (Gen.V1 m c main_v5 : S850000.Idx → BitVec 32)
    = concatenate S850000 0 [⟨S800000, shapeCast S800000 (extractStridedSlice S1x800000 ![0, 0]
          (Gen.V0 m c main_arg1 : S2x800000.Idx → BitVec 32) Facts₀.slices_S2x800000_S1x800000_0_0) Facts₀.shapeCasts_S1x800000_S800000⟩,
        ⟨S50000, iotaInDim S50000 32 0⟩] Facts₀.concatenates_S800000_S50000_S850000_d0 := by
  show StableHlo.after hostOps0 (Gen.V0 m c) main_v5 = _
  generalize Gen.V0 m c = W
  after_results
  all_goals rfl

/-- The target words: row 1 of the argument's 800000 words, then the node numbers 0 … 49999. -/
theorem v6_term : (Gen.V1 m c main_v6 : S850000.Idx → BitVec 32)
    = concatenate S850000 0 [⟨S800000, shapeCast S800000 (extractStridedSlice S1x800000 ![1, 0]
          (Gen.V0 m c main_arg1 : S2x800000.Idx → BitVec 32) Facts₀.slices_S2x800000_S1x800000_1_0) Facts₀.shapeCasts_S1x800000_S800000⟩,
        ⟨S50000, iotaInDim S50000 32 0⟩] Facts₀.concatenates_S800000_S50000_S850000_d0 := by
  show StableHlo.after hostOps0 (Gen.V0 m c) main_v6 = _
  generalize Gen.V0 m c = W
  after_results
  all_goals rfl

open Cert.LibGcnLayer in
/-- When every word of the argument names a node, so does every message's source word. -/
theorem srcE_inRange (hr : ∀ i, InRange 50000 ((Gen.V0 m c main_arg1 : S2x800000.Idx → BitVec 32) i)) (e : Fin 850000) :
    InRange 50000 (srcE m c e) := by
  unfold srcE
  rw [show Gen.V5 m c main_v5 = Gen.V1 m c main_v5 from
      (Gen.V5_of m c _ (by decide)).trans ((Gen.V4_of m c _ (by decide)).trans ((Gen.V3_of m c _ (by decide)).trans (Gen.V2_of m c _ (by decide)))),
    v5_term]
  refine concat_loops_inRange (A := 800000) (N := 50000) (T := 850000) (by norm_num) rfl _
    Facts₀.concatenates_S800000_S50000_S850000_d0 (fun a => ?_) e
  unfold shapeCast extractStridedSlice
  exact hr _

open Cert.LibGcnLayer in
/-- … and every message's target word. -/
theorem dstE_inRange (hr : ∀ i, InRange 50000 ((Gen.V0 m c main_arg1 : S2x800000.Idx → BitVec 32) i)) (e : Fin 850000) :
    InRange 50000 (dstE m c e) := by
  unfold dstE
  rw [show Gen.V5 m c main_v6 = Gen.V1 m c main_v6 from
      (Gen.V5_of m c _ (by decide)).trans ((Gen.V4_of m c _ (by decide)).trans ((Gen.V3_of m c _ (by decide)).trans (Gen.V2_of m c _ (by decide)))),
    v6_term]
  refine concat_loops_inRange (A := 800000) (N := 50000) (T := 850000) (by norm_num) rfl _
    Facts₀.concatenates_S800000_S50000_S850000_d0 (fun a => ?_) e
  unfold shapeCast extractStridedSlice
  exact hr _

/-- Equal words name equal nodes. -/
theorem nodeOf_congr {N : Nat} {w w' : BitVec 32} (e : w = w') (h : Cert.LibGcnLayer.InRange N w) (h' : Cert.LibGcnLayer.InRange N w') :
    Cert.LibGcnLayer.nodeOf N w h = Cert.LibGcnLayer.nodeOf N w' h' := by
  subst e; rfl

end Cert.KernelIdeal.Val
end
-- ==== Proof.LibOneHot.lean ====
/-
  One-hot entries at the ideal values, and sums against them.

  A one-hot entry is the comparison of two 32-bit words for equality, widened to a 32-bit word, converted as a signed
  integer to a float and narrowed to a shorter float format. Read at the ideal values, where a conversion of an integer
  is that integer and a change of format is the identity, the entry is the extended real 1 where the two words are
  equal and 0 where they differ. On the extended reals 0 · x = 0 and 1 · x = x for every x, the infinities included, so a
  sum of one-hot entries against any family needs no finiteness: it is 0 when no word matches, the one matching term when
  the words are distinct and one matches, and in general the sum of the family over the matching positions.

  The words compared are of the form base + a for a position a below K. While base + K stays within the non-negative
  signed range these words are distinct for distinct a, are the word of the natural number base + a, and read back as
  base + a; a block's base, the block number times the block length, is the word of that product.
-/
import Idealize.ShloMosaic.PureOps.Ideal.Laws
import Idealize.ShloMosaic.Lib.ValueIdx

noncomputable section

open scoped BigOperators

namespace Cert.LibOneHot

open Idealize.ShloMosaic Idealize.ShloMosaic.ValueIdx

/-! ## The entry -/

/-- A one-hot entry at the ideal values: equality of two words, widened, converted signed to f32, narrowed to bf16. -/
def hot (a b : BitVec 32) : EReal :=
  FloatOps.truncf (F := Ideal) (φ := .f32) .bf16 (by decide)
    (FloatOps.sitofp (F := Ideal) .f32 ((IntOp.cmpi .eq a b).setWidth 32))

/-- The vector expression read at an index is the entry of the two words there. -/
theorem hot_vec {s : Shape} (x y : IVec s 32) (h1 : 1 < 32) (h2 : FTy.bits .bf16 < FTy.bits .f32) (i : s.Idx) :
    (truncf .bf16 (sitofp (F := Ideal) .f32 (extui 32 (cmpi .eq x y) h1)) h2 : FVec Ideal s .bf16) i = hot (x i) (y i) :=
  rfl

/-- The entry is 1 on equal words and 0 on different ones. -/
theorem hot_eq (a b : BitVec 32) : hot a b = if a = b then 1 else 0 := by
  show (((((IntOp.cmpi .eq a b).setWidth 32).toInt : ℝ)) : EReal) = _
  by_cases h : a = b
  · subst h
    have e : ((IntOp.cmpi .eq a a).setWidth 32) = 1#32 := by simp [IntOp.cmpi]
    rw [e, if_pos rfl]
    norm_num
  · have hb : (a == b) = false := beq_eq_false_iff_ne.mpr h
    have e : ((IntOp.cmpi .eq a b).setWidth 32) = 0#32 := by simp [IntOp.cmpi, hb]
    rw [e, if_neg h]
    norm_num

theorem hot_self (a : BitVec 32) : hot a a = 1 := by rw [hot_eq, if_pos rfl]
theorem hot_of_ne {a b : BitVec 32} (h : a ≠ b) : hot a b = 0 := by rw [hot_eq, if_neg h]
theorem hot_comm (a b : BitVec 32) : hot a b = hot b a := by
  rw [hot_eq, hot_eq]; exact if_congr eq_comm rfl rfl

/-! ## Sums against one-hot entries -/

/-- No word matches: the sum vanishes. -/
theorem sum_hot_none {K : Nat} (ids : Fin K → BitVec 32) (s : BitVec 32) (f : Fin K → EReal) (h : ∀ a, ids a ≠ s) :
    ∑ a, hot (ids a) s * f a = 0 :=
  Finset.sum_eq_zero fun a _ => by rw [hot_of_ne (h a), zero_mul]

/-- Distinct words, one of which matches: the sum is the matching term. -/
theorem sum_hot_one {K : Nat} (ids : Fin K → BitVec 32) (hinj : Function.Injective ids) (s : BitVec 32) (f : Fin K → EReal)
    (a₀ : Fin K) (h : ids a₀ = s) : ∑ a, hot (ids a) s * f a = f a₀ := by
  rw [Finset.sum_eq_single a₀]
  · rw [h, hot_self, one_mul]
  · intro a _ hne
    rw [hot_of_ne (fun e => hne (hinj (e.trans h.symm))), zero_mul]
  · intro hn; exact absurd (Finset.mem_univ a₀) hn

/-- In general: the sum of the family over the positions whose word is the given one. -/
theorem sum_hot_filter {K : Nat} (n : BitVec 32) (dst : Fin K → BitVec 32) (g : Fin K → EReal) :
    ∑ e, hot n (dst e) * g e = ∑ e ∈ Finset.univ.filter (fun e => dst e = n), g e := by
  rw [Finset.sum_filter]
  refine Finset.sum_congr rfl fun e _ => ?_
  by_cases h : dst e = n
  · rw [if_pos h, h, hot_self, one_mul]
  · rw [if_neg h, hot_of_ne (fun e' => h e'.symm), zero_mul]

/-! ## The words base + a -/

/-- The sum of two words of naturals is the word of the sum. -/
theorem ofNat_add_ofNat (x y : Nat) : BitVec.ofNat 32 x + BitVec.ofNat 32 y = BitVec.ofNat 32 (x + y) :=
  (BitVec.ofNat_add x y).symm

/-- The product of two words of naturals is the word of the product. -/
theorem ofNat_mul_ofNat (x y : Nat) : BitVec.ofNat 32 x * BitVec.ofNat 32 y = BitVec.ofNat 32 (x * y) :=
  (BitVec.ofNat_mul x y).symm

/-- A natural below 2 ^ 32 reads back from its word. -/
theorem toNat_ofNat_of_lt {x : Nat} (h : x < 2 ^ 32) : (BitVec.ofNat 32 x).toNat = x := by
  rw [BitVec.toNat_ofNat]; exact Nat.mod_eq_of_lt h

section Ids
variable (base K : Nat)

/-- The word at position a is the word of base + a. -/
theorem ids_eq (a : Fin K) : BitVec.ofNat 32 base + BitVec.ofNat 32 a.val = BitVec.ofNat 32 (base + a.val) :=
  ofNat_add_ofNat _ _

/-- It reads back as base + a. -/
theorem ids_toNat (hb : base + K ≤ 2 ^ 31) (a : Fin K) :
    (BitVec.ofNat 32 base + BitVec.ofNat 32 a.val).toNat = base + a.val := by
  rw [ids_eq]; exact toNat_ofNat_of_lt (by have := a.isLt; omega)

/-- Distinct positions carry distinct words. -/
theorem ids_injective (hb : base + K ≤ 2 ^ 31) :
    Function.Injective fun a : Fin K => BitVec.ofNat 32 base + BitVec.ofNat 32 a.val := by
  intro a a' e
  have e' := congrArg BitVec.toNat e
  simp only [ids_toNat base K hb] at e'
  exact Fin.ext (by omega)

/-- The same three facts with the sum spelt as the integer addition of the program. -/
theorem addi_eq (a : Fin K) : IntOp.addi (BitVec.ofNat 32 base) (BitVec.ofNat 32 a.val) = BitVec.ofNat 32 (base + a.val) :=
  ids_eq base K a
theorem addi_toNat (hb : base + K ≤ 2 ^ 31) (a : Fin K) :
    (IntOp.addi (BitVec.ofNat 32 base) (BitVec.ofNat 32 a.val)).toNat = base + a.val :=
  ids_toNat base K hb a
theorem addi_injective (hb : base + K ≤ 2 ^ 31) :
    Function.Injective fun a : Fin K => IntOp.addi (BitVec.ofNat 32 base) (BitVec.ofNat 32 a.val) :=
  ids_injective base K hb

end Ids

/-! ## A block's base -/

/-- Block number times 1024, as words. -/
theorem mul_1024 (nb : Nat) : BitVec.ofNat 32 nb * 1024#32 = BitVec.ofNat 32 (nb * 1024) := ofNat_mul_ofNat nb 1024
/-- Block number times 2048, as words. -/
theorem mul_2048 (nb : Nat) : BitVec.ofNat 32 nb * 2048#32 = BitVec.ofNat 32 (nb * 2048) := ofNat_mul_ofNat nb 2048
/-- The same with the product spelt as the scalar integer multiplication of the program. -/
theorem muli_1024 (nb : Nat) : Scalar.muli (BitVec.ofNat 32 nb) 1024#32 = BitVec.ofNat 32 (nb * 1024) := mul_1024 nb
theorem muli_2048 (nb : Nat) : Scalar.muli (BitVec.ofNat 32 nb) 2048#32 = BitVec.ofNat 32 (nb * 2048) := mul_2048 nb
theorem intMuli_1024 (nb : Nat) : IntOp.muli (BitVec.ofNat 32 nb) 1024#32 = BitVec.ofNat 32 (nb * 1024) := mul_1024 nb
theorem intMuli_2048 (nb : Nat) : IntOp.muli (BitVec.ofNat 32 nb) 2048#32 = BitVec.ofNat 32 (nb * 2048) := mul_2048 nb
/-- Below 2 ^ 20 blocks the base reads back as the product. -/
theorem mul_1024_toNat {nb : Nat} (h : nb < 2 ^ 20) : (BitVec.ofNat 32 nb * 1024#32).toNat = nb * 1024 := by
  rw [mul_1024]; exact toNat_ofNat_of_lt (by omega)
theorem mul_2048_toNat {nb : Nat} (h : nb < 2 ^ 20) : (BitVec.ofNat 32 nb * 2048#32).toNat = nb * 2048 := by
  rw [mul_2048]; exact toNat_ofNat_of_lt (by omega)

/-- The word at position a of block nb of length 1024, as the program computes it. -/
theorem block_1024 (nb : Nat) {K : Nat} (a : Fin K) :
    IntOp.addi (Scalar.muli (BitVec.ofNat 32 nb) 1024#32) (BitVec.ofNat 32 a.val) = BitVec.ofNat 32 (nb * 1024 + a.val) := by
  rw [muli_1024]; exact addi_eq _ K a
/-- The word at position a of block nb of length 2048, as the program computes it. -/
theorem block_2048 (nb : Nat) {K : Nat} (a : Fin K) :
    IntOp.addi (Scalar.muli (BitVec.ofNat 32 nb) 2048#32) (BitVec.ofNat 32 a.val) = BitVec.ofNat 32 (nb * 2048 + a.val) := by
  rw [muli_2048]; exact addi_eq _ K a

/-! ## The sum against the words base + a, in closed form -/

/-- Against the words base + a, a below K, the sum picks the term at position s - base when the word s reads as a
    natural in [base, base + K), and vanishes otherwise. -/
theorem sum_hot_range {K : Nat} (base : Nat) (hb : base + K ≤ 2 ^ 31) (s : BitVec 32) (f : Fin K → EReal) :
    ∑ a : Fin K, hot (BitVec.ofNat 32 (base + a.val)) s * f a
      = if h : base ≤ s.toNat ∧ s.toNat < base + K then f ⟨s.toNat - base, by omega⟩ else 0 := by
  have hinj : Function.Injective fun a : Fin K => BitVec.ofNat 32 (base + a.val) := by
    intro a a' e
    have e' : (BitVec.ofNat 32 (base + a.val)).toNat = (BitVec.ofNat 32 (base + a'.val)).toNat := congrArg BitVec.toNat e
    rw [toNat_ofNat_of_lt (by have := a.isLt; omega), toNat_ofNat_of_lt (by have := a'.isLt; omega)] at e'
    exact Fin.ext (by omega)
  by_cases h : base ≤ s.toNat ∧ s.toNat < base + K
  · rw [dif_pos h]
    refine sum_hot_one (fun a : Fin K => BitVec.ofNat 32 (base + a.val)) hinj s f ⟨s.toNat - base, by omega⟩ ?_
    show BitVec.ofNat 32 (base + (s.toNat - base)) = s
    rw [Nat.add_sub_cancel' h.1]
    exact BitVec.eq_of_toNat_eq (toNat_ofNat_of_lt s.isLt)
  · rw [dif_neg h]
    refine sum_hot_none (fun a : Fin K => BitVec.ofNat 32 (base + a.val)) s f fun a e => h ?_
    have e' : (BitVec.ofNat 32 (base + a.val)).toNat = s.toNat := congrArg BitVec.toNat e
    rw [toNat_ofNat_of_lt (by have := a.isLt; omega)] at e'
    have := a.isLt
    constructor <;> omega

end Cert.LibOneHot

end
-- ==== Proof.LibOneHotFold.lean ====
/-
  Sums against one-hot entries accumulated block by block.

  GATHER. A table of NB · BN rows is visited in NB blocks of BN rows. At each block, every output row e adds the sum,
  over the block's rows, of the one-hot entry comparing the row's number with the word src e, times the table's row.
  Started from zero, after k blocks the accumulated row e is the table's row number src e when that number is below
  k · BN, and zero otherwise; after all NB blocks it is the table's row src e whenever src e is a row number at all.

  SCATTER. A list of EB · BE entries is visited in EB blocks of BE entries. At each block the output adds the sum, over
  the block's entries, of the one-hot entry comparing the word n with the entry's word dst e, times the entry's value.
  Started from zero, after k blocks the output is the sum over the entries below k · BE, and after all EB blocks it is
  the sum over all entries, that is, the sum of the values of the entries whose word is n.

  Both rest on two facts about finite sums in any additive commutative monoid: a sum over m · n positions is the sum
  over the m blocks of each block's sum, and a family that vanishes from position E on sums over the first E positions.
  On the extended reals 0 + x = x, 0 · x = 0 and 1 · x = x for every x, so nothing here needs a finiteness hypothesis.
-/
import Idealize.ShloMosaic.PureOps.Ideal.Laws
import Idealize.ShloMosaic.Lib.ValueIdx
import proofs.«130920_j16286515987226_2_alg».proof.Proof.LibOneHot

noncomputable section

open scoped BigOperators

namespace Cert.LibOneHotFold

open Idealize.ShloMosaic Cert.LibOneHot

/-! ## Blocks of an index range -/

/-- Position a of block nb, among NB blocks of length BN, is below NB · BN. -/
theorem block_lt {NB BN nb : Nat} (hnb : nb < NB) (a : Fin BN) : nb * BN + a.val < NB * BN := by
  have h1 : nb * BN + a.val < (nb + 1) * BN := by
    rw [Nat.add_mul, Nat.one_mul]; exact Nat.add_lt_add_left a.isLt _
  exact lt_of_lt_of_le h1 (Nat.mul_le_mul_right BN hnb)

/-- Block nb ends at or before NB · BN. -/
theorem block_end_le {NB BN nb : Nat} (hnb : nb < NB) : nb * BN + BN ≤ NB * BN := by
  rw [← Nat.succ_mul]; exact Nat.mul_le_mul_right BN hnb

section Sums
variable {M : Type*} [AddCommMonoid M]

/-- A family that vanishes from position E on sums over the first E positions. -/
theorem sum_castLE {E EP : Nat} (h : E ≤ EP) (f : Fin EP → M) (hz : ∀ e : Fin EP, E ≤ e.val → f e = 0) :
    ∑ e : Fin EP, f e = ∑ e : Fin E, f (Fin.castLE h e) := by
  symm
  refine Fintype.sum_of_injective (Fin.castLE h) (Fin.castLE_injective h) _ f (fun i hi => hz i ?_) (fun _ => rfl)
  by_contra hlt
  exact hi ⟨⟨i.val, by omega⟩, Fin.ext rfl⟩

/-- The same for a sum over the positions that satisfy a condition, when no position from E on satisfies it. -/
theorem sum_filter_castLE {E EP : Nat} (h : E ≤ EP) (P : Fin EP → Prop) [DecidablePred P] (g : Fin EP → M)
    (hpad : ∀ e : Fin EP, E ≤ e.val → ¬P e) :
    ∑ e ∈ Finset.univ.filter P, g e = ∑ e ∈ Finset.univ.filter (fun e : Fin E => P (Fin.castLE h e)), g (Fin.castLE h e) := by
  rw [Finset.sum_filter, Finset.sum_filter]
  exact sum_castLE h (fun e => if P e then g e else 0) fun e he => if_neg (hpad e he)

/-- A sum over m · n positions is the sum over the m blocks of each block's sum. -/
theorem sum_fin_mul (m n : Nat) (f : Fin (m * n) → M) :
    ∑ e : Fin (m * n), f e = ∑ i : Fin m, ∑ j : Fin n, f ⟨i.val * n + j.val, block_lt i.isLt j⟩ := by
  rw [← Equiv.sum_comp finProdFinEquiv f, Fintype.sum_prod_type]
  refine Finset.sum_congr rfl fun i _ => Finset.sum_congr rfl fun j _ => congrArg f (Fin.ext ?_)
  show j.val + n * i.val = i.val * n + j.val
  rw [Nat.mul_comm, Nat.add_comm]

/-- The positions below k · n are the first k blocks. -/
theorem sum_lt_blocks {m n : Nat} (f : Fin (m * n) → M) (k : Nat) (hk : k ≤ m) :
    ∑ e : Fin (m * n), (if e.val < k * n then f e else 0)
      = ∑ i : Fin k, ∑ j : Fin n, f ⟨i.val * n + j.val, block_lt (lt_of_lt_of_le i.isLt hk) j⟩ := by
  refine (sum_fin_mul m n _).trans ((sum_castLE hk _ ?_).trans ?_)
  · intro i hi
    refine Finset.sum_eq_zero fun j _ => if_neg ?_
    show ¬(i.val * n + j.val < k * n)
    have : k * n ≤ i.val * n := Nat.mul_le_mul_right n hi
    omega
  · refine Finset.sum_congr rfl fun i _ => Finset.sum_congr rfl fun j _ => ?_
    exact if_pos (block_lt i.isLt j)

end Sums

/-! ## Gather by row blocks -/

section Gather
variable {BN NB BE D : Nat} (src : Fin BE → BitVec 32) (Hfull : Fin (NB * BN) → Fin D → EReal)

/-- One block's step: every output row adds the block's rows against their one-hot entries. -/
def gstep (nb : Nat) (hnb : nb < NB) (acc : Fin BE → Fin D → EReal) : Fin BE → Fin D → EReal :=
  fun e c => acc e c
    + ∑ a : Fin BN, hot (BitVec.ofNat 32 (nb * BN + a.val)) (src e) * Hfull ⟨nb * BN + a.val, block_lt hnb a⟩ c

/-- The accumulator after blocks 0 … k − 1, started from zero. -/
def gacc : (k : Nat) → k ≤ NB → Fin BE → Fin D → EReal
  | 0, _ => fun _ _ => 0
  | k + 1, hk => gstep src Hfull k (Nat.lt_of_succ_le hk) (gacc k (Nat.le_of_succ_le hk))

theorem gacc_zero (h : 0 ≤ NB) : gacc src Hfull 0 h = fun _ _ => 0 := rfl
theorem gacc_succ (k : Nat) (hk : k + 1 ≤ NB) :
    gacc src Hfull (k + 1) hk = gstep src Hfull k (Nat.lt_of_succ_le hk) (gacc src Hfull k (Nat.le_of_succ_le hk)) := rfl

/-- One block's sum in closed form: the table's row s when s is a row number of the block, zero otherwise. -/
theorem block_sum (hN : NB * BN ≤ 2 ^ 31) (nb : Nat) (hnb : nb < NB) (s : BitVec 32) (c : Fin D) :
    ∑ a : Fin BN, hot (BitVec.ofNat 32 (nb * BN + a.val)) s * Hfull ⟨nb * BN + a.val, block_lt hnb a⟩ c
      = if h : nb * BN ≤ s.toNat ∧ s.toNat < nb * BN + BN then
          Hfull ⟨s.toNat, lt_of_lt_of_le h.2 (block_end_le hnb)⟩ c else 0 := by
  have hb : nb * BN + BN ≤ 2 ^ 31 := le_trans (block_end_le hnb) hN
  rw [sum_hot_range (nb * BN) hb s (fun a => Hfull ⟨nb * BN + a.val, block_lt hnb a⟩ c)]
  by_cases h : nb * BN ≤ s.toNat ∧ s.toNat < nb * BN + BN
  · rw [dif_pos h, dif_pos h]
    exact congrArg (fun i => Hfull i c) (Fin.ext (Nat.add_sub_cancel' h.1))
  · rw [dif_neg h, dif_neg h]

/-- After k blocks, row e is the table's row number src e when that number is below k · BN, and zero otherwise. -/
theorem gacc_eq (hN : NB * BN ≤ 2 ^ 31) (k : Nat) (hk : k ≤ NB) (e : Fin BE) (c : Fin D) :
    gacc src Hfull k hk e c
      = if h : (src e).toNat < k * BN then
          Hfull ⟨(src e).toNat, lt_of_lt_of_le h (Nat.mul_le_mul_right BN hk)⟩ c else 0 := by
  induction k with
  | zero =>
    have h0 : ¬((src e).toNat < 0 * BN) := by rw [Nat.zero_mul]; exact Nat.not_lt_zero _
    rw [dif_neg h0]; rfl
  | succ k ih =>
    have hk' : k ≤ NB := Nat.le_of_succ_le hk
    have hlt : k < NB := Nat.lt_of_succ_le hk
    have hsucc : (k + 1) * BN = k * BN + BN := Nat.succ_mul k BN
    show gacc src Hfull k hk' e c
        + ∑ a : Fin BN, hot (BitVec.ofNat 32 (k * BN + a.val)) (src e) * Hfull ⟨k * BN + a.val, block_lt hlt a⟩ c = _
    rw [ih hk', block_sum Hfull hN k hlt (src e) c]
    by_cases h1 : (src e).toNat < k * BN
    · have h2 : (src e).toNat < (k + 1) * BN := by omega
      have hn : ¬(k * BN ≤ (src e).toNat ∧ (src e).toNat < k * BN + BN) := by omega
      rw [dif_pos h1, dif_neg hn, dif_pos h2, add_zero]
    · by_cases h2 : (src e).toNat < (k + 1) * BN
      · have hp : k * BN ≤ (src e).toNat ∧ (src e).toNat < k * BN + BN := ⟨by omega, by omega⟩
        rw [dif_neg h1, dif_pos hp, dif_pos h2, zero_add]
      · have hn : ¬(k * BN ≤ (src e).toNat ∧ (src e).toNat < k * BN + BN) := by omega
        rw [dif_neg h1, dif_neg hn, dif_neg h2, add_zero]

/-- After all blocks, row e is the table's row number src e, or zero when src e is no row number. -/
theorem gacc_full (hN : NB * BN ≤ 2 ^ 31) (e : Fin BE) (c : Fin D) :
    gacc src Hfull NB le_rfl e c = if h : (src e).toNat < NB * BN then Hfull ⟨(src e).toNat, h⟩ c else 0 :=
  gacc_eq src Hfull hN NB le_rfl e c

end Gather

/-! ## Scatter by entry blocks -/

section Scatter
variable {BE EB D : Nat} (n : BitVec 32) (dst : Fin (EB * BE) → BitVec 32) (msg : Fin (EB * BE) → Fin D → EReal)

/-- One block's step: the output adds the block's entries against their one-hot entries. -/
def sstep (eb : Nat) (heb : eb < EB) (acc : Fin D → EReal) : Fin D → EReal :=
  fun c => acc c
    + ∑ e : Fin BE, hot n (dst ⟨eb * BE + e.val, block_lt heb e⟩) * msg ⟨eb * BE + e.val, block_lt heb e⟩ c

/-- The accumulator after blocks 0 … k − 1, started from zero. -/
def sacc : (k : Nat) → k ≤ EB → Fin D → EReal
  | 0, _ => fun _ => 0
  | k + 1, hk => sstep n dst msg k (Nat.lt_of_succ_le hk) (sacc k (Nat.le_of_succ_le hk))

theorem sacc_zero (h : 0 ≤ EB) : sacc n dst msg 0 h = fun _ => 0 := rfl
theorem sacc_succ (k : Nat) (hk : k + 1 ≤ EB) :
    sacc n dst msg (k + 1) hk = sstep n dst msg k (Nat.lt_of_succ_le hk) (sacc n dst msg k (Nat.le_of_succ_le hk)) := rfl

/-- After k blocks the output is the sum of the first k blocks' sums. -/
theorem sacc_blocks (k : Nat) (hk : k ≤ EB) (c : Fin D) :
    sacc n dst msg k hk c
      = ∑ i : Fin k, ∑ e : Fin BE, hot n (dst ⟨i.val * BE + e.val, block_lt (lt_of_lt_of_le i.isLt hk) e⟩)
          * msg ⟨i.val * BE + e.val, block_lt (lt_of_lt_of_le i.isLt hk) e⟩ c := by
  induction k with
  | zero => rw [Finset.univ_eq_empty, Finset.sum_empty]; rfl
  | succ k ih =>
    rw [Fin.sum_univ_castSucc]
    show sacc n dst msg k (Nat.le_of_succ_le hk) c + _ = _
    rw [ih (Nat.le_of_succ_le hk)]
    rfl

/-- After k blocks the output is the sum over the entries below k · BE. -/
theorem sacc_partial (k : Nat) (hk : k ≤ EB) (c : Fin D) :
    sacc n dst msg k hk c = ∑ e : Fin (EB * BE), if e.val < k * BE then hot n (dst e) * msg e c else 0 :=
  (sacc_blocks n dst msg k hk c).trans (sum_lt_blocks (fun e => hot n (dst e) * msg e c) k hk).symm

/-- After all blocks the output is the sum over all entries … -/
theorem sacc_eq (c : Fin D) : sacc n dst msg EB le_rfl c = ∑ e : Fin (EB * BE), hot n (dst e) * msg e c :=
  (sacc_blocks n dst msg EB le_rfl c).trans (sum_fin_mul EB BE (fun e => hot n (dst e) * msg e c)).symm

/-- … that is, the sum of the values of the entries whose word is n. -/
theorem sacc_eq_filter (c : Fin D) :
    sacc n dst msg EB le_rfl c = ∑ e ∈ Finset.univ.filter (fun e => dst e = n), msg e c :=
  (sacc_eq n dst msg c).trans (sum_hot_filter n dst (fun e => msg e c))

end Scatter

end Cert.LibOneHotFold

end
-- ==== Proof.LibGcnKernel.lean ====
/-
  One layer of a graph convolution computed over padded arrays, and the same layer over the true arrays.

  The true graph has N nodes and E messages; the arrays are padded to NP ≥ N rows and EP ≥ E messages, NP within the
  signed range of a 32-bit word. Message e carries a source word, a target word and a weight. The padded computation
  forms, for every row n' of the padded table, the transformed row Σ k, h(n', k) · W(k, c); gives message e the
  transformed row its source word reads (unsigned) when that is a row number at all, zero otherwise, times the
  message's weight; and gives row n' of the output the sum of the messages whose target word is the word of n', plus
  the bias.

  When the first E messages' words name nodes (read signed, they are naturals below N) and every padding message's
  target word is 2 ^ 32 − 1, the output's rows below N are the layer over the true arrays:
    · 2 ^ 32 − 1 is the word of no row number below NP ≤ 2 ^ 31, so a padding message reaches no row;
    · a word that names a node equals the word of the natural n exactly when the node is n;
    · a word that names a node reads, unsigned, as that node's number, below N ≤ NP, so the message reads the
      transformed row of that node, and that row is formed from row number < N of the table alone.
  So rows below N of the output depend on the input table only through its rows below N, and layers compose: the
  rows below N of three padded layers with activations between them are the three true layers with those
  activations.
-/
import proofs.«130920_j16286515987226_2_alg».proof.Proof.LibGcnLayer
import proofs.«130920_j16286515987226_2_alg».proof.Proof.LibOneHotFold

noncomputable section

open scoped BigOperators

namespace Cert.LibGcnKernel

open Cert.LibGcnLayer

/-! ## Words -/

/-- A word that reads, signed, as a nonnegative number reads the same unsigned. -/
theorem toNat_of_nonneg (w : BitVec 32) (h : 0 ≤ w.toInt) : w.toNat = w.toInt.toNat := by
  have hw := w.isLt
  rw [BitVec.toInt_eq_toNat_cond] at h ⊢
  by_cases hc : 2 * w.toNat < 2 ^ 32
  · rw [if_pos hc]; exact (Int.toNat_natCast _).symm
  · rw [if_neg hc] at h; omega

/-- A word that names a node reads, unsigned, as the node's number. -/
theorem toNat_eq_nodeOf {N : Nat} {w : BitVec 32} (h : InRange N w) : w.toNat = (nodeOf N w h).val :=
  toNat_of_nonneg w h.1

/-- A word that names a node is the word of the natural n exactly when the node is n (N within the signed range). -/
theorem eq_ofNat_iff {N : Nat} {w : BitVec 32} (h : InRange N w) (n : Fin N) (hN : N ≤ 2 ^ 31) :
    w = BitVec.ofNat 32 n.val ↔ nodeOf N w h = n := by
  have hn : n.val < 2 ^ 31 := lt_of_lt_of_le n.isLt hN
  constructor
  · intro e
    refine Fin.ext ?_
    show w.toInt.toNat = n.val
    rw [e, toInt_ofNat hn]
    exact Int.toNat_natCast _
  · intro e
    refine BitVec.eq_of_toInt_eq ?_
    rw [toInt_ofNat hn, toInt_eq_nodeOf h, e]

/-- The word 2 ^ 32 − 1 is the word of no natural below 2 ^ 31. -/
theorem allOnes_ne_ofNat {k : Nat} (hk : k < 2 ^ 31) : ¬((4294967295#32 : BitVec 32) = BitVec.ofNat 32 k) := by
  intro h
  have h2 : (4294967295#32 : BitVec 32).toNat = (BitVec.ofNat 32 k).toNat := congrArg BitVec.toNat h
  have h3 : (4294967295#32 : BitVec 32).toNat = 4294967295 := by decide
  have h4 : (BitVec.ofNat 32 k).toNat = k := by rw [BitVec.toNat_ofNat]; exact Nat.mod_eq_of_lt (by omega)
  rw [h3, h4] at h2
  omega

/-! ## The padded layer -/

section Layer
variable {N NP E EP Din Dout : Nat}

/-- The transformed table: row n' times the weight matrix, at column c. -/
def Hmat (hin : Fin NP → Fin Din → EReal) (W : Fin Din → Fin Dout → EReal) (n' : Fin NP) (c : Fin Dout) : EReal :=
  ∑ k : Fin Din, hin n' k * W k c

/-- Message e at column c: the transformed row its source word reads, unsigned, when that is a row number, zero
    otherwise; times the message's weight. -/
def msg (srcW : Fin EP → BitVec 32) (nrm : Fin EP → EReal) (hin : Fin NP → Fin Din → EReal)
    (W : Fin Din → Fin Dout → EReal) (e : Fin EP) (c : Fin Dout) : EReal :=
  (if h : (srcW e).toNat < NP then Hmat hin W ⟨(srcW e).toNat, h⟩ c else 0) * nrm e

/-- Row n of the padded layer's output at column c: the messages whose target word is the word of n, summed, plus the
    bias. -/
def outRow (srcW dstW : Fin EP → BitVec 32) (nrm : Fin EP → EReal) (hin : Fin NP → Fin Din → EReal)
    (W : Fin Din → Fin Dout → EReal) (b : Fin Dout → EReal) (n : Fin NP) (c : Fin Dout) : EReal :=
  (∑ e ∈ Finset.univ.filter (fun e : Fin EP => dstW e = BitVec.ofNat 32 n.val), msg srcW nrm hin W e c) + b c

/-- A message whose source word names a node reads that node's transformed row, formed from that row of the table. -/
theorem msg_of_inRange (hN : N ≤ NP) (srcW : Fin EP → BitVec 32) (nrm : Fin EP → EReal)
    (hin : Fin NP → Fin Din → EReal) (W : Fin Din → Fin Dout → EReal) (e : Fin EP) (hs : InRange N (srcW e))
    (c : Fin Dout) :
    msg srcW nrm hin W e c = (∑ k : Fin Din, hin (Fin.castLE hN (nodeOf N (srcW e) hs)) k * W k c) * nrm e := by
  have hlt : (srcW e).toNat < NP := by
    have h1 := toNat_eq_nodeOf hs
    have h2 := (nodeOf N (srcW e) hs).isLt
    omega
  have hrow : (⟨(srcW e).toNat, hlt⟩ : Fin NP) = Fin.castLE hN (nodeOf N (srcW e) hs) := Fin.ext (toNat_eq_nodeOf hs)
  unfold msg
  rw [dif_pos hlt, hrow]
  rfl

variable (hN : N ≤ NP) (hE : E ≤ EP) (hNP : NP ≤ 2 ^ 31) (srcW dstW : Fin EP → BitVec 32) (nrm : Fin EP → EReal)
  (hsrc : ∀ e : Fin E, InRange N (srcW (Fin.castLE hE e))) (hdst : ∀ e : Fin E, InRange N (dstW (Fin.castLE hE e)))
  (hpad : ∀ e : Fin EP, E ≤ e.val → dstW e = 4294967295#32)

include hNP hpad in
/-- THE PADDED LAYER AT A TRUE ROW IS THE TRUE LAYER: row n < N of the padded output is the layer over the N nodes and
    E messages the words name, reading the table only at its rows below N. -/
theorem outRow_eq (hin : Fin NP → Fin Din → EReal) (W : Fin Din → Fin Dout → EReal) (b : Fin Dout → EReal)
    (n : Fin N) (c : Fin Dout) :
    outRow srcW dstW nrm hin W b (Fin.castLE hN n) c
      = gcnLayer (fun e : Fin E => nodeOf N (srcW (Fin.castLE hE e)) (hsrc e))
          (fun e : Fin E => nodeOf N (dstW (Fin.castLE hE e)) (hdst e)) (fun e : Fin E => nrm (Fin.castLE hE e))
          (fun (n : Fin N) (k : Fin Din) => hin (Fin.castLE hN n) k) W b n c := by
  have hn31 : n.val < 2 ^ 31 := by have := n.isLt; omega
  show (∑ e ∈ Finset.univ.filter (fun e : Fin EP => dstW e = BitVec.ofNat 32 n.val), msg srcW nrm hin W e c) + b c
    = (∑ e ∈ Finset.univ.filter (fun e : Fin E => nodeOf N (dstW (Fin.castLE hE e)) (hdst e) = n),
        (∑ k : Fin Din, hin (Fin.castLE hN (nodeOf N (srcW (Fin.castLE hE e)) (hsrc e))) k * W k c)
          * nrm (Fin.castLE hE e)) + b c
  refine congrArg (· + b c) ?_
  rw [Cert.LibOneHotFold.sum_filter_castLE hE (fun e : Fin EP => dstW e = BitVec.ofNat 32 n.val)
    (fun e => msg srcW nrm hin W e c) (fun e he h => allOnes_ne_ofNat hn31 ((hpad e he).symm.trans h))]
  refine Finset.sum_congr (Finset.filter_congr fun e _ => ?_) fun e _ => ?_
  · exact eq_ofNat_iff (hdst e) n (le_trans hN hNP)
  · exact msg_of_inRange hN srcW nrm hin W (Fin.castLE hE e) (hsrc e) c

include hNP hpad in
/-- The same against any table g of N rows that agrees with the padded table's rows below N. -/
theorem outRow_eq_of (hin : Fin NP → Fin Din → EReal) (W : Fin Din → Fin Dout → EReal) (b : Fin Dout → EReal)
    (g : Fin N → Fin Din → EReal) (hg : ∀ (n : Fin N) (k : Fin Din), hin (Fin.castLE hN n) k = g n k)
    (n : Fin N) (c : Fin Dout) :
    outRow srcW dstW nrm hin W b (Fin.castLE hN n) c
      = gcnLayer (fun e : Fin E => nodeOf N (srcW (Fin.castLE hE e)) (hsrc e))
          (fun e : Fin E => nodeOf N (dstW (Fin.castLE hE e)) (hdst e)) (fun e : Fin E => nrm (Fin.castLE hE e))
          g W b n c := by
  have e : (fun (n : Fin N) (k : Fin Din) => hin (Fin.castLE hN n) k) = g := funext fun n => funext fun k => hg n k
  rw [← e]
  exact outRow_eq hN hE hNP srcW dstW nrm hsrc hdst hpad hin W b n c

end Layer

/-! ## Three layers -/

section Three
variable {N NP E EP D0 D1 D2 D3 : Nat}
variable (hN : N ≤ NP) (hE : E ≤ EP) (hNP : NP ≤ 2 ^ 31) (srcW dstW : Fin EP → BitVec 32) (nrm : Fin EP → EReal)
  (hsrc : ∀ e : Fin E, InRange N (srcW (Fin.castLE hE e))) (hdst : ∀ e : Fin E, InRange N (dstW (Fin.castLE hE e)))
  (hpad : ∀ e : Fin EP, E ≤ e.val → dstW e = 4294967295#32)

include hNP hpad in
/-- THREE PADDED LAYERS AT A TRUE ROW ARE THE THREE TRUE LAYERS: with an activation applied entry by entry after the
    first and after the second layer, row n < N of the third padded output is the third true layer of the activated
    second true layer of the activated first true layer of the table's rows below N. -/
theorem outRow3_eq (h0 : Fin NP → Fin D0 → EReal)
    (W1 : Fin D0 → Fin D1 → EReal) (b1 : Fin D1 → EReal) (W2 : Fin D1 → Fin D2 → EReal) (b2 : Fin D2 → EReal)
    (W3 : Fin D2 → Fin D3 → EReal) (b3 : Fin D3 → EReal) (act₁ act₂ : EReal → EReal) (n : Fin N) (c : Fin D3) :
    outRow srcW dstW nrm
        (fun n' k => act₂ (outRow srcW dstW nrm (fun n' k => act₁ (outRow srcW dstW nrm h0 W1 b1 n' k)) W2 b2 n' k))
        W3 b3 (Fin.castLE hN n) c
      = gcnLayer (fun e : Fin E => nodeOf N (srcW (Fin.castLE hE e)) (hsrc e))
          (fun e : Fin E => nodeOf N (dstW (Fin.castLE hE e)) (hdst e)) (fun e : Fin E => nrm (Fin.castLE hE e))
          (fun (n : Fin N) (k : Fin D2) => act₂ (gcnLayer (fun e : Fin E => nodeOf N (srcW (Fin.castLE hE e)) (hsrc e))
            (fun e : Fin E => nodeOf N (dstW (Fin.castLE hE e)) (hdst e)) (fun e : Fin E => nrm (Fin.castLE hE e))
            (fun (n : Fin N) (k : Fin D1) => act₁ (gcnLayer (fun e : Fin E => nodeOf N (srcW (Fin.castLE hE e)) (hsrc e))
              (fun e : Fin E => nodeOf N (dstW (Fin.castLE hE e)) (hdst e)) (fun e : Fin E => nrm (Fin.castLE hE e))
              (fun (n : Fin N) (k : Fin D0) => h0 (Fin.castLE hN n) k) W1 b1 n k))
            W2 b2 n k))
          W3 b3 n c := by
  refine outRow_eq_of hN hE hNP srcW dstW nrm hsrc hdst hpad _ W3 b3 _ (fun n k => congrArg act₂ ?_) n c
  refine outRow_eq_of hN hE hNP srcW dstW nrm hsrc hdst hpad _ W2 b2 _ (fun n k => congrArg act₁ ?_) n k
  exact outRow_eq hN hE hNP srcW dstW nrm hsrc hdst hpad h0 W1 b1 n k

end Three

end Cert.LibGcnKernel

end
-- ==== Proof.KIChainLayers.lean ====
/-
  The six kernel regions as three padded layers, and the three padded layers as the network.

  Taken as given here, for unknown region outputs: what each gather region leaves (for message slot e and column k, the
  transformed row its source word reads, zero when the word is no row number, times the slot's weight) and what each
  scatter region leaves (at row n and column k, the sum of the messages whose target word is the word of n, plus the
  bias, activated after the first and the second layer). A gather region and the scatter region after it are then one
  padded layer over the 51200 rows and 851968 message slots; and since padding slots carry the all-ones target word,
  which is the word of no row, and every true message's words name nodes, rows below 50000 of three padded layers are
  the three layers of the network over the 50000 nodes and 850000 messages.
-/
import proofs.«130920_j16286515987226_2_alg».proof.Proof.KIChainReads
import proofs.«130920_j16286515987226_2_alg».proof.Proof.LibGcnKernel

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (outs : Gen.Outs (F := Ideal)) (c : Dev nD)

/-! ## One padded layer out of its two regions

The gather region leaves, for message e and column k, the transformed row its source word reads (zero when the word is no
row number) times the weight; the scatter region leaves, at row n and column k, the activation of the sum of the
messages whose target word is the word of n, plus the bias. Together they are one padded layer. -/

section Step
open Cert.LibGcnKernel
variable {NP EP D Dout : Nat}

theorem layer_step (act : EReal → EReal) (srcA dstA : Fin EP → BitVec 32) (nrmA : Fin EP → EReal)
    (HA : Fin NP → Fin Dout → EReal) (msgA : Fin EP → Fin Dout → EReal) (bA : Fin Dout → EReal)
    (outA : Fin NP → Fin Dout → EReal) (hin : Fin NP → Fin D → EReal) (W : Fin D → Fin Dout → EReal)
    (hH : ∀ p k, HA p k = ∑ a : Fin D, hin p a * W a k)
    (hG : ∀ e k, msgA e k = (if h : (srcA e).toNat < NP then HA ⟨(srcA e).toNat, h⟩ k else 0) * nrmA e)
    (hS : ∀ n' k, outA n' k
      = act ((∑ e ∈ Finset.univ.filter (fun e : Fin EP => dstA e = BitVec.ofNat 32 n'.val), msgA e k) + bA k))
    (n' : Fin NP) (k : Fin Dout) : outA n' k = act (outRow srcA dstA nrmA hin W bA n' k) := by
  rw [hS n' k]
  refine congrArg act (congrArg (· + bA k) (Finset.sum_congr rfl fun e _ => ?_))
  rw [hG e k]
  unfold msg
  by_cases h : (srcA e).toNat < NP
  · rw [dif_pos h, dif_pos h, hH]; rfl
  · rw [dif_neg h, dif_neg h]

/-- The same with no activation (the last layer). -/
theorem layer_core (srcA dstA : Fin EP → BitVec 32) (nrmA : Fin EP → EReal)
    (HA : Fin NP → Fin Dout → EReal) (msgA : Fin EP → Fin Dout → EReal) (bA : Fin Dout → EReal)
    (outA : Fin NP → Fin Dout → EReal) (hin : Fin NP → Fin D → EReal) (W : Fin D → Fin Dout → EReal)
    (hH : ∀ p k, HA p k = ∑ a : Fin D, hin p a * W a k)
    (hG : ∀ e k, msgA e k = (if h : (srcA e).toNat < NP then HA ⟨(srcA e).toNat, h⟩ k else 0) * nrmA e)
    (hS : ∀ n' k, outA n' k
      = (∑ e ∈ Finset.univ.filter (fun e : Fin EP => dstA e = BitVec.ofNat 32 n'.val), msgA e k) + bA k)
    (n' : Fin NP) (k : Fin Dout) : outA n' k = outRow srcA dstA nrmA hin W bA n' k := by
  rw [hS n' k]
  refine congrArg (· + bA k) (Finset.sum_congr rfl fun e _ => ?_)
  rw [hG e k]
  unfold msg
  by_cases h : (srcA e).toNat < NP
  · rw [dif_pos h, dif_pos h, hH]; rfl
  · rw [dif_neg h, dif_neg h]

end Step

/-! ## The three layers -/

/-- A vector of words read at a coordinate. -/
abbrev rdw {n : Nat} (X : (⟨1, ![n]⟩ : Shape).Idx → BitVec 32) (a : Fin n) : BitVec 32 := X (ix1 a)

section Compose
open Cert.LibGcnLayer Cert.LibGcnKernel

variable (act₁ act₂ : EReal → EReal)
/- What the six regions leave, as the two kinds of region state it: over the contents each region is entered from. -/
variable
  (G0 : ∀ (e : Fin 851968) (k : Fin 64), rd2 (n0 := 851968) (n1 := 64) (outs 6 main_v39 c) e k
    = (if h : (rdw (n := 851968) (Gen.V5 m c main_v31) e).toNat < 51200
        then rd2 (n0 := 51200) (n1 := 64) (Gen.V5 m c main_v38) ⟨(rdw (n := 851968) (Gen.V5 m c main_v31) e).toNat, h⟩ k else 0)
      * rd1 (n := 851968) (Gen.V5 m c main_v35) e)
  (S1 : ∀ (n' : Fin 51200) (k : Fin 64), rd2 (n0 := 51200) (n1 := 64) (outs 8 main_v41 c) n' k
    = act₁ ((∑ e ∈ Finset.univ.filter (fun e : Fin 851968 => rdw (n := 851968) (Gen.V7 m outs c main_v33) e = BitVec.ofNat 32 n'.val),
        rd2 (n0 := 851968) (n1 := 64) (Gen.V7 m outs c main_v39) e k) + rd2 (n0 := 1) (n1 := 64) (Gen.V7 m outs c main_v40) 0 k))
  (G2 : ∀ (e : Fin 851968) (k : Fin 64), rd2 (n0 := 851968) (n1 := 64) (outs 10 main_v44 c) e k
    = (if h : (rdw (n := 851968) (Gen.V9 m outs c main_v31) e).toNat < 51200
        then rd2 (n0 := 51200) (n1 := 64) (Gen.V9 m outs c main_v43) ⟨(rdw (n := 851968) (Gen.V9 m outs c main_v31) e).toNat, h⟩ k else 0)
      * rd1 (n := 851968) (Gen.V9 m outs c main_v35) e)
  (S3 : ∀ (n' : Fin 51200) (k : Fin 64), rd2 (n0 := 51200) (n1 := 64) (outs 12 main_v46 c) n' k
    = act₂ ((∑ e ∈ Finset.univ.filter (fun e : Fin 851968 => rdw (n := 851968) (Gen.V11 m outs c main_v33) e = BitVec.ofNat 32 n'.val),
        rd2 (n0 := 851968) (n1 := 64) (Gen.V11 m outs c main_v44) e k) + rd2 (n0 := 1) (n1 := 64) (Gen.V11 m outs c main_v45) 0 k))
  (G4 : ∀ (e : Fin 851968) (k : Fin 32), rd2 (n0 := 851968) (n1 := 32) (outs 14 main_v49 c) e k
    = (if h : (rdw (n := 851968) (Gen.V13 m outs c main_v31) e).toNat < 51200
        then rd2 (n0 := 51200) (n1 := 32) (Gen.V13 m outs c main_v48) ⟨(rdw (n := 851968) (Gen.V13 m outs c main_v31) e).toNat, h⟩ k else 0)
      * rd1 (n := 851968) (Gen.V13 m outs c main_v35) e)
  (S5 : ∀ (n' : Fin 51200) (k : Fin 32), rd2 (n0 := 51200) (n1 := 32) (outs 16 main_v51 c) n' k
    = (∑ e ∈ Finset.univ.filter (fun e : Fin 851968 => rdw (n := 851968) (Gen.V15 m outs c main_v33) e = BitVec.ofNat 32 n'.val),
        rd2 (n0 := 851968) (n1 := 32) (Gen.V15 m outs c main_v49) e k) + rd2 (n0 := 1) (n1 := 32) (Gen.V15 m outs c main_v50) 0 k)

/-- The padded features. -/
def featP (p : Fin 51200) (a : Fin 64) : EReal := rd2 (n0 := 51200) (n1 := 64) (Gen.V4 m c main_v36) p a
/-- The three weight matrices and the three biases. -/
def W1 (a : Fin 64) (k : Fin 64) : EReal := rd2 (n0 := 64) (n1 := 64) (Gen.V0 m c main_arg2) a k
def b1 (k : Fin 64) : EReal := rd1 (n := 64) (Gen.V0 m c main_arg3) k
def W2 (a : Fin 64) (k : Fin 64) : EReal := rd2 (n0 := 64) (n1 := 64) (Gen.V0 m c main_arg4) a k
def b2 (k : Fin 64) : EReal := rd1 (n := 64) (Gen.V0 m c main_arg5) k
def W3 (a : Fin 64) (k : Fin 32) : EReal := rd2 (n0 := 64) (n1 := 32) (Gen.V0 m c main_arg6) a k
def b3 (k : Fin 32) : EReal := rd1 (n := 32) (Gen.V0 m c main_arg7) k

include G0 S1 in
/-- Regions 0 and 1 are the first padded layer, activated. -/
theorem layer1 (n' : Fin 51200) (k : Fin 64) : rd2 (n0 := 51200) (n1 := 64) (outs 8 main_v41 c) n' k
    = act₁ (outRow (srcW m c) (dstW m c) (nrmW m c) (featP m c) (W1 m c) (b1 m c) n' k) := by
  refine layer_step act₁ (srcW m c) (dstW m c) (nrmW m c) (fun p k => rd2 (n0 := 51200) (n1 := 64) (Gen.V5 m c main_v38) p k)
    (fun e k => rd2 (n0 := 851968) (n1 := 64) (outs 6 main_v39 c) e k) (b1 m c)
    (fun p k => rd2 (n0 := 51200) (n1 := 64) (outs 8 main_v41 c) p k) (featP m c) (W1 m c)
    (fun p k => v38_apply m c p k) (fun e k => G0 e k) (fun p k => ?_) n' k
  rw [S1 p k, keep7 m outs c main_v33 (by decide), v40_apply m outs c k,
    show Gen.V7 m outs c main_v39 = outs 6 main_v39 c from (Gen.V7_of m outs c _ (by decide)).trans (Function.update_self _ _ _)]
  rfl

include G2 S3 in
/-- Regions 2 and 3 are the second padded layer over what region 1 leaves, activated. -/
theorem layer2 (n' : Fin 51200) (k : Fin 64) : rd2 (n0 := 51200) (n1 := 64) (outs 12 main_v46 c) n' k
    = act₂ (outRow (srcW m c) (dstW m c) (nrmW m c) (fun p a => rd2 (n0 := 51200) (n1 := 64) (outs 8 main_v41 c) p a) (W2 m c) (b2 m c) n' k) := by
  refine layer_step act₂ (srcW m c) (dstW m c) (nrmW m c) (fun p k => rd2 (n0 := 51200) (n1 := 64) (Gen.V9 m outs c main_v43) p k)
    (fun e k => rd2 (n0 := 851968) (n1 := 64) (outs 10 main_v44 c) e k) (b2 m c)
    (fun p k => rd2 (n0 := 51200) (n1 := 64) (outs 12 main_v46 c) p k) _ (W2 m c)
    (fun p k => v43_apply m outs c p k) (fun e k => ?_) (fun p k => ?_) n' k
  · rw [G2 e k, keep9 m outs c main_v31 (by decide), keep9 m outs c main_v35 (by decide)]
    rfl
  · rw [S3 p k, keep11 m outs c main_v33 (by decide), v45_apply m outs c k,
      show Gen.V11 m outs c main_v44 = outs 10 main_v44 c from (Gen.V11_of m outs c _ (by decide)).trans (Function.update_self _ _ _)]
    rfl

include G4 S5 in
/-- Regions 4 and 5 are the third padded layer over what region 3 leaves. -/
theorem layer3 (n' : Fin 51200) (k : Fin 32) : rd2 (n0 := 51200) (n1 := 32) (outs 16 main_v51 c) n' k
    = outRow (srcW m c) (dstW m c) (nrmW m c) (fun p a => rd2 (n0 := 51200) (n1 := 64) (outs 12 main_v46 c) p a) (W3 m c) (b3 m c) n' k := by
  refine layer_core (srcW m c) (dstW m c) (nrmW m c) (fun p k => rd2 (n0 := 51200) (n1 := 32) (Gen.V13 m outs c main_v48) p k)
    (fun e k => rd2 (n0 := 851968) (n1 := 32) (outs 14 main_v49 c) e k) (b3 m c)
    (fun p k => rd2 (n0 := 51200) (n1 := 32) (outs 16 main_v51 c) p k) _ (W3 m c)
    (fun p k => v48_apply m outs c p k) (fun e k => ?_) (fun p k => ?_) n' k
  · rw [G4 e k, keep13 m outs c main_v31 (by decide), keep13 m outs c main_v35 (by decide)]
    rfl
  · rw [S5 p k, keep15 m outs c main_v33 (by decide), v50_apply m outs c k,
      show Gen.V15 m outs c main_v49 = outs 14 main_v49 c from (Gen.V15_of m outs c _ (by decide)).trans (Function.update_self _ _ _)]
    rfl

include G0 S1 G2 S3 G4 S5 in
/-- THE KERNEL'S RESULT: when every word of the message argument names a node, entry (n, k) of the result is the third
    layer of the activated second layer of the activated first layer of the features, over the 850000 messages
    (the argument's 800000 and one from each node to itself) with their weights. -/
theorem ker_value_of (hr : ∀ i, InRange 50000 ((Gen.V0 m c main_arg1 : S2x800000.Idx → BitVec 32) i)) (n : Fin 50000) (k : Fin 32) :
    rd2 (n0 := 50000) (n1 := 32) (Gen.V17 m outs c main_v52) n k
      = gcnLayer (fun e => nodeOf 50000 (srcE m c e) (srcE_inRange m c hr e)) (fun e => nodeOf 50000 (dstE m c e) (dstE_inRange m c hr e))
          (wgtE m c)
          (fun n k => act₂ (gcnLayer (fun e => nodeOf 50000 (srcE m c e) (srcE_inRange m c hr e))
              (fun e => nodeOf 50000 (dstE m c e) (dstE_inRange m c hr e)) (wgtE m c)
            (fun n k => act₁ (gcnLayer (fun e => nodeOf 50000 (srcE m c e) (srcE_inRange m c hr e))
                (fun e => nodeOf 50000 (dstE m c e) (dstE_inRange m c hr e)) (wgtE m c)
              (fun n a => rd2 (n0 := 50000) (n1 := 64) (Gen.V0 m c main_arg0) n a) (W1 m c) (b1 m c) n k))
            (W2 m c) (b2 m c) n k))
          (W3 m c) (b3 m c) n k := by
  have hsrc : ∀ e : Fin 850000, InRange 50000 (srcW m c (Fin.castLE hE e)) := fun e => (srcW_lo m c e).symm ▸ srcE_inRange m c hr e
  have hdst : ∀ e : Fin 850000, InRange 50000 (dstW m c (Fin.castLE hE e)) := fun e => (dstW_lo m c e).symm ▸ dstE_inRange m c hr e
  have e3 := outRow3_eq (N := 50000) (E := 850000) hN hE (by norm_num) (srcW m c) (dstW m c) (nrmW m c) hsrc hdst (dstW_hi m c)
    (featP m c) (W1 m c) (b1 m c) (W2 m c) (b2 m c) (W3 m c) (b3 m c) act₁ act₂ n k
  rw [show (fun e : Fin 850000 => nodeOf 50000 (srcW m c (Fin.castLE hE e)) (hsrc e))
        = fun e => nodeOf 50000 (srcE m c e) (srcE_inRange m c hr e) from funext fun e => nodeOf_congr (srcW_lo m c e) _ _,
    show (fun e : Fin 850000 => nodeOf 50000 (dstW m c (Fin.castLE hE e)) (hdst e))
        = fun e => nodeOf 50000 (dstE m c e) (dstE_inRange m c hr e) from funext fun e => nodeOf_congr (dstW_lo m c e) _ _,
    show (fun e : Fin 850000 => nrmW m c (Fin.castLE hE e)) = wgtE m c from funext fun e => nrmW_lo m c e,
    show (fun (n : Fin 50000) (a : Fin 64) => featP m c (Fin.castLE hN n) a)
        = fun n a => rd2 (n0 := 50000) (n1 := 64) (Gen.V0 m c main_arg0) n a from funext fun n => funext fun a => v36_apply m c n a] at e3
  rw [← e3, v52_apply m outs c n k, layer3 m outs c G4 S5 (Fin.castLE hN n) k,
    show (fun p a => rd2 (n0 := 51200) (n1 := 64) (outs 12 main_v46 c) p a)
        = fun p a => act₂ (outRow (srcW m c) (dstW m c) (nrmW m c) (fun p a => rd2 (n0 := 51200) (n1 := 64) (outs 8 main_v41 c) p a) (W2 m c) (b2 m c) p a)
      from funext fun p => funext fun a => layer2 m outs c act₂ G2 S3 p a,
    show (fun p a => rd2 (n0 := 51200) (n1 := 64) (outs 8 main_v41 c) p a)
        = fun p a => act₁ (outRow (srcW m c) (dstW m c) (nrmW m c) (featP m c) (W1 m c) (b1 m c) p a)
      from funext fun p => funext fun a => layer1 m outs c act₁ G0 S1 p a]

end Compose

end Cert.KernelIdeal.Val
end
-- ==== Proof.KIGlue.lean ====
/-
  The kernel's messages are the reference's.

  Before its first region the kernel's program forms, from the argument holding the message words, the same three
  arrays the reference forms: the 850000 source words and the 850000 target words (the argument's 800000 followed by
  the node numbers 0 … 49999, one message from each node to itself), and the 850000 weights — a node's factor is the
  inverse square root of the number of messages that reach it (zero where none does), and a message's weight is the
  product of its two ends' factors. The two programs apply the same operations, one for one, so each array is the
  reference's stage of that name, as whole arrays; nothing about the values is used.
-/
import proofs.«130920_j16286515987226_2_alg».proof.Proof.Gen.KernelIdeal.Regions
import proofs.«130920_j16286515987226_2_alg».proof.Proof.RefReadP
import Idealize.ShloMosaic.Lib.ValueIdx

set_option maxRecDepth 16384

noncomputable section
open scoped BigOperators
namespace Cert.KernelIdeal.Val
open Cert.KernelIdeal Cert.KernelIdeal.Gen
open Idealize.ShloMosaic Idealize.ShloMosaic.TcCoe Idealize.ShloMosaic.ValueIdx
open Cert.ReferenceIdeal.Read (val_main_v3 val_main_v6 val_main_v10 val_main_v12 val_main_v13 val_main_cst_2 val_main_v14
  val_main_v21 val_main_v28 val_main_v29)

variable (m : (ℓ : Loc nD τ sig) → Buf (Elt Ideal) ℓ) (c : Dev nD)

/-! ## The kernel's message words and weights are the reference's

Both programs form the messages from the argument in the same way: the 800000 source (target) words followed by the
node numbers; a node's factor is the inverse square root of the number of messages that reach it (zero when none
does); and a message's weight is the product of its two ends' factors. The operations are the same, one for one; the
long stretches are read in short pieces, each over the contents the piece starts from. -/

/-- The argument holding the message words. -/
abbrev argE : (⟨Cert.ReferenceIdeal.S2x800000, .i32⟩ : BufTy).Contents (Elt Ideal) := m ((c.tc : Thread nD τ).loc main_arg1)

/-- Running two lines one after the other is running their concatenation. -/
theorem after_append' (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- A line run as its first k operations and then the rest. -/
theorem after_split (k : Nat) (ops : List (HloOp τ sig (Elt Ideal))) (V : Valuation τ sig (Elt Ideal)) :
    StableHlo.after ops V = StableHlo.after (ops.drop k) (StableHlo.after (ops.take k) V) := by
  rw [← after_append', List.take_append_drop]

theorem glue5_1 : (Gen.V1 m c main_v5 : S850000.Idx → BitVec 32) = val_main_v3 (F := Ideal) (argE m c) := by
  show StableHlo.after hostOps0 (Gen.V0 m c) main_v5 = _
  after_results
  all_goals rfl

theorem glue6_1 : (Gen.V1 m c main_v6 : S850000.Idx → BitVec 32) = val_main_v6 (F := Ideal) (argE m c) := by
  show StableHlo.after hostOps0 (Gen.V0 m c) main_v6 = _
  after_results
  all_goals rfl

section Pieces
variable (W : Valuation τ sig (Elt Ideal)) (x1 : (⟨Cert.ReferenceIdeal.S2x800000, .i32⟩ : BufTy).Contents (Elt Ideal))

/-- The number of messages that reach each node. -/
theorem piece10 (h : (W main_arg1 : S2x800000.Idx → BitVec 32) = x1) :
    (StableHlo.after (List.take 13 hostOps0) W main_v10 : S50000.Idx → EReal) = val_main_v10 (F := Ideal) x1 := by
  simp only [hostOps0, List.take_succ_cons, List.take_zero]
  after_results
  rw [h]
  rfl

theorem piece12 (h : (W main_v10 : S50000.Idx → EReal) = val_main_v10 (F := Ideal) x1) :
    (StableHlo.after (List.drop 13 hostOps0) W main_v12 : S50000.Idx → BitVec 1) = val_main_v12 (F := Ideal) x1 := by
  simp only [hostOps0, List.drop_succ_cons, List.drop_zero]
  after_results
  rw [h]
  rfl

theorem piece13 (h : (W main_v10 : S50000.Idx → EReal) = val_main_v10 (F := Ideal) x1) :
    (StableHlo.after (List.drop 13 hostOps0) W main_v13 : S50000.Idx → EReal) = val_main_v13 (F := Ideal) x1 := by
  simp only [hostOps0, List.drop_succ_cons, List.drop_zero]
  after_results
  rw [h]
  rfl

theorem pieceC2 :
    (StableHlo.after (List.drop 13 hostOps0) W main_cst_2 : S_.Idx → EReal) = val_main_cst_2 (F := Ideal) := by
  simp only [hostOps0, List.drop_succ_cons, List.drop_zero]
  after_results
  all_goals rfl

/-- Each node's factor: where some message reaches the node, the inverse square root of their number; zero otherwise. -/
theorem piece14 (a12 : S50000.Idx → BitVec 1) (a13 : S50000.Idx → EReal) (ac : S_.Idx → EReal)
    (h12 : (W main_v12 : S50000.Idx → BitVec 1) = a12) (h13 : (W main_v13 : S50000.Idx → EReal) = a13)
    (hc : (W main_cst_2 : S_.Idx → EReal) = ac) :
    (StableHlo.after hostOps0_1 W main_v14 : S50000.Idx → EReal)
      = select a12 a13 (broadcastInDim S50000 ![] Facts₀.bcast_S_S50000 (id ac)) := by
  after_results
  rw [h12, h13, hc]
  rfl

/-- The factor of each message's source. -/
theorem piece21 (h14 : (W main_v14 : S50000.Idx → EReal) = val_main_v14 (F := Ideal) x1)
    (h5 : (W main_v5 : S850000.Idx → BitVec 32) = val_main_v3 (F := Ideal) x1) :
    (StableHlo.after (List.take 9 hostOps0_2) W main_v21 : S850000.Idx → EReal) = val_main_v21 (F := Ideal) x1 := by
  simp only [hostOps0_2, List.take_succ_cons, List.take_zero]
  after_results
  rw [h14, h5]
  rfl

/-- The factor of each message's target. -/
theorem piece28 (h14 : (W main_v14 : S50000.Idx → EReal) = val_main_v14 (F := Ideal) x1)
    (h6 : (W main_v6 : S850000.Idx → BitVec 32) = val_main_v6 (F := Ideal) x1) :
    (StableHlo.after (List.take 9 (List.drop 9 hostOps0_2)) W main_v28 : S850000.Idx → EReal) = val_main_v28 (F := Ideal) x1 := by
  simp only [hostOps0_2, List.drop_succ_cons, List.drop_zero, List.take_succ_cons, List.take_zero]
  after_results
  rw [h14, h6]
  rfl

/-- The weights. -/
theorem piece29 (h21 : (W main_v21 : S850000.Idx → EReal) = val_main_v21 (F := Ideal) x1)
    (h28 : (W main_v28 : S850000.Idx → EReal) = val_main_v28 (F := Ideal) x1) :
    (StableHlo.after (List.drop 9 (List.drop 9 hostOps0_2)) W main_v29 : S850000.Idx → EReal) = val_main_v29 (F := Ideal) x1 := by
  simp only [hostOps0_2, List.drop_succ_cons, List.drop_zero]
  after_results
  rw [h21, h28]
  rfl

/-- What a piece does not write it leaves. -/
theorem keepA14 : StableHlo.after (List.take 9 hostOps0_2) W main_v14 = W main_v14 := by
  simp only [hostOps0_2, List.take_succ_cons, List.take_zero]
  after_results
  all_goals rfl
theorem keepA6 : StableHlo.after (List.take 9 hostOps0_2) W main_v6 = W main_v6 := by
  simp only [hostOps0_2, List.take_succ_cons, List.take_zero]
  after_results
  all_goals rfl
theorem keepB21 : StableHlo.after (List.take 9 (List.drop 9 hostOps0_2)) W main_v21 = W main_v21 := by
  simp only [hostOps0_2, List.drop_succ_cons, List.drop_zero, List.take_succ_cons, List.take_zero]
  after_results
  all_goals rfl

end Pieces

/-- The nodes' factors are the reference's. -/
theorem glue14 : (Gen.V2 m c main_v14 : S50000.Idx → EReal) = val_main_v14 (F := Ideal) (argE m c) := by
  show StableHlo.after hostOps0_1 (StableHlo.after hostOps0 (Gen.V0 m c)) main_v14 = _
  rw [after_split 13 hostOps0]
  have h10 := piece10 (Gen.V0 m c) (argE m c) rfl
  refine (piece14 _ _ _ _ (piece12 _ _ h10) (piece13 _ _ h10) (pieceC2 _)).trans ?_
  rfl

/-- The weights are the reference's, after the stretch that forms them … -/
theorem glue29_3 : (Gen.V3 m c main_v29 : S850000.Idx → EReal) = val_main_v29 (F := Ideal) (argE m c) := by
  have e14 := glue14 m c
  have e5 : (Gen.V2 m c main_v5 : S850000.Idx → BitVec 32) = val_main_v3 (F := Ideal) (argE m c) :=
    (Gen.V2_of m c _ (by decide)).trans (glue5_1 m c)
  have e6 : (Gen.V2 m c main_v6 : S850000.Idx → BitVec 32) = val_main_v6 (F := Ideal) (argE m c) :=
    (Gen.V2_of m c _ (by decide)).trans (glue6_1 m c)
  show StableHlo.after hostOps0_2 (Gen.V2 m c) main_v29 = _
  rw [after_split 9 hostOps0_2, after_split 9 (List.drop 9 hostOps0_2)]
  refine piece29 _ _ ?_ ?_
  · rw [keepB21]
    exact piece21 _ _ e14 e5
  · exact piece28 _ _ ((keepA14 _).trans e14) ((keepA6 _).trans e6)

/-- … and at the boundary region 0 is entered from, as are the words. -/
theorem glue5 : (Gen.V5 m c main_v5 : S850000.Idx → BitVec 32) = val_main_v3 (F := Ideal) (argE m c) :=
  ((Gen.V5_of m c _ (by decide)).trans ((Gen.V4_of m c _ (by decide)).trans ((Gen.V3_of m c _ (by decide)).trans
    (Gen.V2_of m c _ (by decide))))).trans (glue5_1 m c)
theorem glue6 : (Gen.V5 m c main_v6 : S850000.Idx → BitVec 32) = val_main_v6 (F := Ideal) (argE m c) :=
  ((Gen.V5_of m c _ (by decide)).trans ((Gen.V4_of m c _ (by decide)).trans ((Gen.V3_of m c _ (by decide)).trans
    (Gen.V2_of m c _ (by decide))))).trans (glue6_1 m c)
theorem glue29 : (Gen.V5 m c main_v29 : S850000.Idx → EReal) = val_main_v29 (F := Ideal) (argE m c) :=
  ((Gen.V5_of m c _ (by decide)).trans (Gen.V4_of m c _ (by decide))).trans (glue29_3 m c)

end Cert.KernelIdeal.Val
end
-- ==== Proof.LibDotTN.lean ====
/-
  Dimension numbers of a matrix product that contracts both operands along their axis 0, read at their indices.

  Dimension numbers of a product of a [K, M] array and a [K, N] array are of the TN kind when they contract the left
  operand's axis 0 against the right operand's axis 0, keep the left operand's axis 1 and the right operand's axis 1 as
  the result's two axes in that order, and have no batch axis: the result is the product of the left operand's
  transpose with the right operand. For such numbers the contraction shape has the one axis of extent K, and at a
  result index (p, c) and a contraction position a the left operand is read at (a, p) and the right operand at (a, c).
  From these six facts the product into the zero accumulator, read at the ideal values at (p, c), is the sum over a of
  l(a, p) · r(a, c).
-/
import Idealize.ShloMosaic.PureOps.Ideal.Laws
import Idealize.ShloMosaic.Lib.ValueIdx

noncomputable section

open scoped BigOperators

namespace Cert.LibDotTN

open Idealize.ShloMosaic Idealize.ShloMosaic.ValueIdx

variable {M K N : Nat} (d : DotDims ⟨2, ![K, M]⟩ ⟨2, ![K, N]⟩ ⟨2, ![M, N]⟩)

/-- The six lists of dimension numbers that contract both operands along axis 0. -/
structure TN : Prop where
  lc : d.lhsContracting = [0]
  rc : d.rhsContracting = [0]
  ln : d.lhsNonContracting = [1]
  rn : d.rhsNonContracting = [1]
  lb : d.lhsBatch = []
  rb : d.rhsBatch = []

variable {d}

/-- One contracted axis. -/
theorem TN.rank (h : TN d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The contracted axis has the operands' shared extent. -/
theorem TN.size (h : TN d) : d.contr.size ⟨0, by rw [h.rank]; exact Nat.one_pos⟩ = K := by
  have hp : 0 < d.lhsContracting.length := by rw [h.lc]; exact Nat.one_pos
  have e1 : d.lhsContracting[0] = (0 : Fin (⟨2, ![K, M]⟩ : Shape).rank) := by simp [h.lc]
  exact (d.size_contr 0 hp).trans (by rw [e1]; rfl)

/-- The left operand's row is the contraction position. -/
theorem TN.lhs0 (h : TN d) (i : (⟨2, ![M, N]⟩ : Shape).Idx) (q : d.contr.Idx) :
    (d.lhsIdx i q 0).val = (q ⟨0, by rw [h.rank]; exact Nat.one_pos⟩).val :=
  d.lhsIdx_val_of_single h.lc i q

/-- The left operand's column is the result's row. -/
theorem TN.lhs1 (h : TN d) (i : (⟨2, ![M, N]⟩ : Shape).Idx) (q : d.contr.Idx) : (d.lhsIdx i q 1).val = (i 0).val := by
  have hb : (1 : Fin (⟨2, ![K, M]⟩ : Shape).rank) ∉ d.lhsBatch := by rw [h.lb]; exact List.not_mem_nil
  have hn : (1 : Fin (⟨2, ![K, M]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The right operand's row is the contraction position. -/
theorem TN.rhs0 (h : TN d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem TN.rhs1 (h : TN d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- At result index (p, c) and the contraction position with coordinate a, the left operand is read at (a, p). -/
theorem TN.lhsIdx_eq (h : TN d) (p : Fin M) (c : Fin N) (a : Fin K) :
    d.lhsIdx (ix2 p c) ((contrEquiv1 d K h.rank h.size).symm a) = ix2 a p := by
  funext b
  refine Fin.ext ?_
  match b with
  | ⟨0, _⟩ => exact (h.lhs0 (ix2 p c) _).trans (contrEquiv1_symm_val d K h.rank h.size a)
  | ⟨1, _⟩ => exact h.lhs1 (ix2 p c) _

/-- At result index (p, c) and the contraction position with coordinate a, the right operand is read at (a, c). -/
theorem TN.rhsIdx_eq (h : TN d) (p : Fin M) (c : Fin N) (a : Fin K) :
    d.rhsIdx (ix2 p c) ((contrEquiv1 d K h.rank h.size).symm a) = ix2 a c := by
  funext b
  refine Fin.ext ?_
  match b with
  | ⟨0, _⟩ => exact (h.rhs0 (ix2 p c) _).trans (contrEquiv1_symm_val d K h.rank h.size a)
  | ⟨1, _⟩ => exact h.rhs1 (ix2 p c) _

/-- THE PRODUCT AS A SUM: into the zero accumulator, at the ideal values, the entry (p, c) of the product is the sum
    over the shared axis of the left operand's column p against the right operand's column c. -/
theorem TN.matmul_zero_apply (h : TN d) (prec : Option ContractPrecision) {φ₁ φ₂ : FTy}
    (l : FVec Ideal ⟨2, ![K, M]⟩ φ₁) (r : FVec Ideal ⟨2, ![K, N]⟩ φ₂) (p : Fin M) (c : Fin N) :
    FloatOps.matmul d prec l r (constant ⟨2, ![M, N]⟩ .f32 0x00000000#32) (ix2 p c)
      = ∑ a : Fin K, l (ix2 a p) * r (ix2 a c) := by
  rw [Ideal.matmul_constant_zero_apply]
  rw [← Equiv.sum_comp (contrEquiv1 d K h.rank h.size).symm]
  exact Finset.sum_congr rfl fun a _ => by rw [h.lhsIdx_eq p c a, h.rhsIdx_eq p c a]

/-- The same for the host's contraction, which has no accumulator. -/
theorem TN.dotGeneral_apply (h : TN d) (prec : Option ContractPrecision) (sched : HostSchedule) {φ₁ φ₂ : FTy}
    (l : FVec Ideal ⟨2, ![K, M]⟩ φ₁) (r : FVec Ideal ⟨2, ![K, N]⟩ φ₂) (p : Fin M) (c : Fin N) :
    FloatOps.dotGeneral d prec sched l r (ix2 p c) = ∑ a : Fin K, l (ix2 a p) * r (ix2 a c) := by
  rw [Ideal.dotGeneral_apply]
  rw [← Equiv.sum_comp (contrEquiv1 d K h.rank h.size).symm]
  exact Finset.sum_congr rfl fun a _ => by rw [h.lhsIdx_eq p c a, h.rhsIdx_eq p c a]

end Cert.LibDotTN

end
-- ==== Proof.LibColumn.lean ====
/-
  A column of values: a vector viewed as a one-column matrix, and a one-column matrix repeated across columns.

  A vector of length a cast to the shape [a, 1] reads, at (i, u), the vector at i, whatever the unit coordinate u; a
  matrix of shape [a, 1] broadcast to [a, b] reads, at (p, c), its one column at row p. Together they say that a vector
  turned into a column and repeated across b columns reads, at (p, c), the vector at p.
-/
import Idealize.ShloMosaic.Lib.ValueIdx
import Idealize.ShloMosaic.Lib.Pipeline.Value
import Idealize.ShloMosaic.Lib.ValueLayout

namespace Cert.LibColumn

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector turned into a column and repeated across b columns reads, at (p, c), the vector at p. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A vector turned into a row and repeated across a rows reads, at (p, c), the vector at c. -/
theorem row_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

end Cert.LibColumn
-- ==== Proof.PayValue.lean ====
/-
  The kernels' stored values read at one index, at the ideal values.

  The gather kernel's accumulator block starts at zero; at each block of 1024 table rows it adds to entry (e, c) the
  sum over the block's rows a of the one-hot entry comparing the row's number, block number times 1024 plus a, with
  the e-th source word, times the table block's entry (a, c); its final value is scaled row by row. The scatter
  kernel's accumulator block starts at zero; at each block of 4096 entries it adds to entry (n, c) the sum over the
  block's entries e of the one-hot entry comparing the row's number, block number times 2048 plus n, with the e-th
  destination word, times the message block's entry (e, c); its final value has a bias row added and, in the first two
  layers, the hyperbolic tangent applied.
-/
import proofs.«130920_j16286515987226_2_alg».proof.Proof.Gen.KernelIdeal.Skeleton
import proofs.«130920_j16286515987226_2_alg».proof.Proof.LibOneHot
import proofs.«130920_j16286515987226_2_alg».proof.Proof.LibDotTN
import proofs.«130920_j16286515987226_2_alg».proof.Proof.LibPlainDot
import proofs.«130920_j16286515987226_2_alg».proof.Proof.LibPlainSum
import proofs.«130920_j16286515987226_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx
open Cert.LibOneHot Cert.LibColumn

/-! ## The dimension numbers of the two products -/

/-- The gather product contracts both operands along their rows. -/
theorem tn64 : Cert.LibDotTN.TN (M := 8192) (K := 1024) (N := 64) dot_S1024x8192_S1024x64_S8192x64_0_0_1_1_n_n :=
  ⟨rfl, rfl, rfl, rfl, rfl, rfl⟩
/-- The scatter product is a plain one. -/
theorem plain64 : Cert.LibPlainDot.Plain (M := 2048) (K := 4096) (N := 64) dot_S2048x4096_S4096x64_S2048x64_1_0_0_1_n_n :=
  ⟨rfl, rfl, rfl, rfl, rfl, rfl⟩

/-- The same two facts for the products of width 32. -/
theorem tn32 : Cert.LibDotTN.TN (M := 8192) (K := 1024) (N := 32) dot_S1024x8192_S1024x32_S8192x32_0_0_1_1_n_n :=
  ⟨rfl, rfl, rfl, rfl, rfl, rfl⟩
theorem plain32 : Cert.LibPlainDot.Plain (M := 2048) (K := 4096) (N := 32) dot_S2048x4096_S4096x32_S2048x32_1_0_0_1_n_n :=
  ⟨rfl, rfl, rfl, rfl, rfl, rfl⟩

/-! ## The row numbers and the compared words, read at an index -/

/-- The row-number column of a block of 1024 rows, repeated across the columns, reads the row's number. -/
theorem rowId1024 (nb : Nat) {B : Nat} (hi : (⟨2, ![1024, 1]⟩ : Shape).Iotas .tc 32 [0])
    (hb : (⟨2, ![1024, 1]⟩ : Shape).Broadcasts ⟨2, ![1024, B]⟩) (a : Fin 1024) (e : Fin B) :
    broadcastTo ⟨2, ![1024, B]⟩
        (addi (broadcast ⟨2, ![1024, 1]⟩ (Scalar.muli (BitVec.ofNat 32 nb) 1024#32)) (iota .tc ⟨2, ![1024, 1]⟩ 32 [0] hi)) hb (ix2 a e)
      = BitVec.ofNat 32 (nb * 1024 + a.val) := by
  refine (broadcastTo_a1_ab_apply _ hb a e).trans ?_
  show IntOp.addi (Scalar.muli (BitVec.ofNat 32 nb) 1024#32) (iota .tc ⟨2, ![1024, 1]⟩ 32 [0] hi (ix2 a (0 : Fin 1))) = _
  rw [iota_single_apply]
  exact block_1024 nb a

/-- The row-number column of a block of 2048 rows, repeated across the columns, reads the row's number. -/
theorem rowId2048 (nb : Nat) {B : Nat} (hi : (⟨2, ![2048, 1]⟩ : Shape).Iotas .tc 32 [0])
    (hb : (⟨2, ![2048, 1]⟩ : Shape).Broadcasts ⟨2, ![2048, B]⟩) (a : Fin 2048) (e : Fin B) :
    broadcastTo ⟨2, ![2048, B]⟩
        (addi (broadcast ⟨2, ![2048, 1]⟩ (Scalar.muli (BitVec.ofNat 32 nb) 2048#32)) (iota .tc ⟨2, ![2048, 1]⟩ 32 [0] hi)) hb (ix2 a e)
      = BitVec.ofNat 32 (nb * 2048 + a.val) := by
  refine (broadcastTo_a1_ab_apply _ hb a e).trans ?_
  show IntOp.addi (Scalar.muli (BitVec.ofNat 32 nb) 2048#32) (iota .tc ⟨2, ![2048, 1]⟩ 32 [0] hi (ix2 a (0 : Fin 1))) = _
  rw [iota_single_apply]
  exact block_2048 nb a

/-! ## The gather kernel, width 64 -/

/-- The accumulator block's first value is zero. -/
theorem k0_pay1_apply (e : Fin 8192) (c : Fin 64) : k0_pay1 (F := Ideal) (ix2 e c) = 0 := by
  unfold k0_pay1
  simp only [shapeCast_self]
  exact Ideal.ofBits_zero_f32

/-- One block's step adds the block's rows against their one-hot entries. -/
theorem k0_pay2_apply (i : grid0.Coords) (x2 : Vec Ideal S8192 .i32) (x4 : Vec Ideal S1024x64 .bf16)
    (xs : Vec Ideal S8192x64 .f32) (e : Fin 8192) (c : Fin 64) :
    k0_pay2 (F := Ideal) i x2 x4 xs (ix2 e c)
      = xs (ix2 e c) + ∑ a : Fin 1024, hot (BitVec.ofNat 32 ((i 1).val * 1024 + a.val)) (x2 (ix1 e)) * x4 (ix2 a c) := by
  unfold k0_pay2
  simp only [shapeCast_self]
  refine congrArg (xs (ix2 e c) + ·) ?_
  refine (Cert.LibDotTN.TN.matmul_zero_apply tn64 none (φ₁ := .bf16) (φ₂ := .bf16) _ x4 e c).trans ?_
  refine Finset.sum_congr rfl fun a _ => congrArg (· * x4 (ix2 a c)) ?_
  refine (hot_vec _ _ _ _ (ix2 a e)).trans ?_
  exact congrArg₂ hot (rowId1024 (i 1).val _ _ a e) (row_apply x2 _ _ a e)

/-- The final value is the accumulated row scaled by the row's factor. -/
theorem k0_pay3_apply (x3 : Vec Ideal S8192 .f32) (v : Vec Ideal S8192x64 .f32) (e : Fin 8192) (c : Fin 64) :
    k0_pay3 (F := Ideal) x3 v (ix2 e c) = v (ix2 e c) * x3 (ix1 e) := by
  unfold k0_pay3
  simp only [shapeCast_self]
  exact congrArg (v (ix2 e c) * ·) (column_apply x3 _ _ e c)

/-! ## The scatter kernel, width 64 -/

/-- The accumulator block's first value is zero. -/
theorem k1_pay1_apply (n : Fin 2048) (c : Fin 64) : k1_pay1 (F := Ideal) (ix2 n c) = 0 := by
  unfold k1_pay1
  simp only [shapeCast_self]
  exact Ideal.ofBits_zero_f32

/-- One block's step adds the block's entries against their one-hot entries. -/
theorem k1_pay2_apply (i : grid1.Coords) (x2 : Vec Ideal S4096 .i32) (acc : Vec Ideal S2048x64 .f32)
    (x3 : Vec Ideal S4096x64 .bf16) (n : Fin 2048) (c : Fin 64) :
    k1_pay2 (F := Ideal) i x2 acc x3 (ix2 n c)
      = acc (ix2 n c) + ∑ e : Fin 4096, hot (BitVec.ofNat 32 ((i 0).val * 2048 + n.val)) (x2 (ix1 e)) * x3 (ix2 e c) := by
  unfold k1_pay2
  simp only [shapeCast_self]
  refine congrArg (acc (ix2 n c) + ·) ?_
  refine (Cert.LibPlainSum.matmul_zero_apply plain64 none (φ₁ := .bf16) (φ₂ := .bf16) _ x3 n c).trans ?_
  refine Finset.sum_congr rfl fun e _ => congrArg (· * x3 (ix2 e c)) ?_
  refine (hot_vec _ _ _ _ (ix2 n e)).trans ?_
  exact congrArg₂ hot (rowId2048 (i 0).val _ _ n e) (row_apply x2 _ _ n e)

/-- The final value is the hyperbolic tangent of the accumulated entry plus the bias. -/
theorem k1_pay3_apply (v : Vec Ideal S2048x64 .f32) (b : Vec Ideal S1x64 .f32) (n : Fin 2048) (c : Fin 64) :
    k1_pay3 (F := Ideal) v b (ix2 n c) = FloatOps.tanh (F := Ideal) (v (ix2 n c) + b (ix2 (0 : Fin 1) c)) := by
  unfold k1_pay3
  simp only [shapeCast_self]
  exact congrArg (fun t => FloatOps.tanh (F := Ideal) (v (ix2 n c) + t)) (broadcastTo_1b_ab_apply b _ n c)
/-! ## The gather kernel, width 64, second layer -/

/-- The accumulator block's first value is zero. -/
theorem k2_pay1_apply (e : Fin 8192) (c : Fin 64) : k2_pay1 (F := Ideal) (ix2 e c) = 0 := by
  unfold k2_pay1
  simp only [shapeCast_self]
  exact Ideal.ofBits_zero_f32

/-- One block's step adds the block's rows against their one-hot entries. -/
theorem k2_pay2_apply (i : grid2.Coords) (x2 : Vec Ideal S8192 .i32) (x4 : Vec Ideal S1024x64 .bf16)
    (xs : Vec Ideal S8192x64 .f32) (e : Fin 8192) (c : Fin 64) :
    k2_pay2 (F := Ideal) i x2 x4 xs (ix2 e c)
      = xs (ix2 e c) + ∑ a : Fin 1024, hot (BitVec.ofNat 32 ((i 1).val * 1024 + a.val)) (x2 (ix1 e)) * x4 (ix2 a c) := by
  unfold k2_pay2
  simp only [shapeCast_self]
  refine congrArg (xs (ix2 e c) + ·) ?_
  refine (Cert.LibDotTN.TN.matmul_zero_apply tn64 none (φ₁ := .bf16) (φ₂ := .bf16) _ x4 e c).trans ?_
  refine Finset.sum_congr rfl fun a _ => congrArg (· * x4 (ix2 a c)) ?_
  refine (hot_vec _ _ _ _ (ix2 a e)).trans ?_
  exact congrArg₂ hot (rowId1024 (i 1).val _ _ a e) (row_apply x2 _ _ a e)

/-- The final value is the accumulated row scaled by the row's factor. -/
theorem k2_pay3_apply (x3 : Vec Ideal S8192 .f32) (v : Vec Ideal S8192x64 .f32) (e : Fin 8192) (c : Fin 64) :
    k2_pay3 (F := Ideal) x3 v (ix2 e c) = v (ix2 e c) * x3 (ix1 e) := by
  unfold k2_pay3
  simp only [shapeCast_self]
  exact congrArg (v (ix2 e c) * ·) (column_apply x3 _ _ e c)

/-! ## The scatter kernel, width 64, second layer -/

/-- The accumulator block's first value is zero. -/
theorem k3_pay1_apply (n : Fin 2048) (c : Fin 64) : k3_pay1 (F := Ideal) (ix2 n c) = 0 := by
  unfold k3_pay1
  simp only [shapeCast_self]
  exact Ideal.ofBits_zero_f32

/-- One block's step adds the block's entries against their one-hot entries. -/
theorem k3_pay2_apply (i : grid3.Coords) (x2 : Vec Ideal S4096 .i32) (acc : Vec Ideal S2048x64 .f32)
    (x3 : Vec Ideal S4096x64 .bf16) (n : Fin 2048) (c : Fin 64) :
    k3_pay2 (F := Ideal) i x2 acc x3 (ix2 n c)
      = acc (ix2 n c) + ∑ e : Fin 4096, hot (BitVec.ofNat 32 ((i 0).val * 2048 + n.val)) (x2 (ix1 e)) * x3 (ix2 e c) := by
  unfold k3_pay2
  simp only [shapeCast_self]
  refine congrArg (acc (ix2 n c) + ·) ?_
  refine (Cert.LibPlainSum.matmul_zero_apply plain64 none (φ₁ := .bf16) (φ₂ := .bf16) _ x3 n c).trans ?_
  refine Finset.sum_congr rfl fun e _ => congrArg (· * x3 (ix2 e c)) ?_
  refine (hot_vec _ _ _ _ (ix2 n e)).trans ?_
  exact congrArg₂ hot (rowId2048 (i 0).val _ _ n e) (row_apply x2 _ _ n e)

/-- The final value is the hyperbolic tangent of the accumulated entry plus the bias. -/
theorem k3_pay3_apply (v : Vec Ideal S2048x64 .f32) (b : Vec Ideal S1x64 .f32) (n : Fin 2048) (c : Fin 64) :
    k3_pay3 (F := Ideal) v b (ix2 n c) = FloatOps.tanh (F := Ideal) (v (ix2 n c) + b (ix2 (0 : Fin 1) c)) := by
  unfold k3_pay3
  simp only [shapeCast_self]
  exact congrArg (fun t => FloatOps.tanh (F := Ideal) (v (ix2 n c) + t)) (broadcastTo_1b_ab_apply b _ n c)
/-! ## The gather kernel, width 32 -/

/-- The accumulator block's first value is zero. -/
theorem k4_pay1_apply (e : Fin 8192) (c : Fin 32) : k4_pay1 (F := Ideal) (ix2 e c) = 0 := by
  unfold k4_pay1
  simp only [shapeCast_self]
  exact Ideal.ofBits_zero_f32

/-- One block's step adds the block's rows against their one-hot entries. -/
theorem k4_pay2_apply (i : grid4.Coords) (x2 : Vec Ideal S8192 .i32) (x4 : Vec Ideal S1024x32 .bf16)
    (xs : Vec Ideal S8192x32 .f32) (e : Fin 8192) (c : Fin 32) :
    k4_pay2 (F := Ideal) i x2 x4 xs (ix2 e c)
      = xs (ix2 e c) + ∑ a : Fin 1024, hot (BitVec.ofNat 32 ((i 1).val * 1024 + a.val)) (x2 (ix1 e)) * x4 (ix2 a c) := by
  unfold k4_pay2
  simp only [shapeCast_self]
  refine congrArg (xs (ix2 e c) + ·) ?_
  refine (Cert.LibDotTN.TN.matmul_zero_apply tn32 none (φ₁ := .bf16) (φ₂ := .bf16) _ x4 e c).trans ?_
  refine Finset.sum_congr rfl fun a _ => congrArg (· * x4 (ix2 a c)) ?_
  refine (hot_vec _ _ _ _ (ix2 a e)).trans ?_
  exact congrArg₂ hot (rowId1024 (i 1).val _ _ a e) (row_apply x2 _ _ a e)

/-- The final value is the accumulated row scaled by the row's factor. -/
theorem k4_pay3_apply (x3 : Vec Ideal S8192 .f32) (v : Vec Ideal S8192x32 .f32) (e : Fin 8192) (c : Fin 32) :
    k4_pay3 (F := Ideal) x3 v (ix2 e c) = v (ix2 e c) * x3 (ix1 e) := by
  unfold k4_pay3
  simp only [shapeCast_self]
  exact congrArg (v (ix2 e c) * ·) (column_apply x3 _ _ e c)

/-! ## The scatter kernel, width 32 -/

/-- The accumulator block's first value is zero. -/
theorem k5_pay1_apply (n : Fin 2048) (c : Fin 32) : k5_pay1 (F := Ideal) (ix2 n c) = 0 := by
  unfold k5_pay1
  simp only [shapeCast_self]
  exact Ideal.ofBits_zero_f32

/-- One block's step adds the block's entries against their one-hot entries. -/
theorem k5_pay2_apply (i : grid5.Coords) (x2 : Vec Ideal S4096 .i32) (acc : Vec Ideal S2048x32 .f32)
    (x3 : Vec Ideal S4096x32 .bf16) (n : Fin 2048) (c : Fin 32) :
    k5_pay2 (F := Ideal) i x2 acc x3 (ix2 n c)
      = acc (ix2 n c) + ∑ e : Fin 4096, hot (BitVec.ofNat 32 ((i 0).val * 2048 + n.val)) (x2 (ix1 e)) * x3 (ix2 e c) := by
  unfold k5_pay2
  simp only [shapeCast_self]
  refine congrArg (acc (ix2 n c) + ·) ?_
  refine (Cert.LibPlainSum.matmul_zero_apply plain32 none (φ₁ := .bf16) (φ₂ := .bf16) _ x3 n c).trans ?_
  refine Finset.sum_congr rfl fun e _ => congrArg (· * x3 (ix2 e c)) ?_
  refine (hot_vec _ _ _ _ (ix2 n e)).trans ?_
  exact congrArg₂ hot (rowId2048 (i 0).val _ _ n e) (row_apply x2 _ _ n e)

/-- The final value is the accumulated entry plus the bias. -/
theorem k5_pay3_apply (v : Vec Ideal S2048x32 .f32) (b : Vec Ideal S1x32 .f32) (n : Fin 2048) (c : Fin 32) :
    k5_pay3 (F := Ideal) v b (ix2 n c) = v (ix2 n c) + b (ix2 (0 : Fin 1) c) := by
  unfold k5_pay3
  simp only [shapeCast_self]
  exact congrArg (v (ix2 n c) + ·) (broadcastTo_1b_ab_apply b _ n c)

end Cert.KernelIdeal.PayValue

end
-- ==== Proof.KIValue0.lean ====
/-
  What gather region 0 leaves in its output array, as one function of the three arrays it reads.

  The grid has 104 · 50 points: point t works on edge block t / 50 (8192 edges) and node block t % 50 (1024 table rows).
  Along a row of the grid the accumulator block starts at zero and at node block nb adds, to entry (e, c'), the sum over
  the block's rows a of the one-hot entry comparing the row number nb · 1024 + a with the source word of edge e, times the
  table's entry (nb · 1024 + a, c'). After the 50 node blocks entry (e, c') is the table's row number src e when that word,
  read unsigned, is below 51200, and zero otherwise; the last point of the row scales it by the edge's factor and the block
  is written back to rows (t / 50) · 8192 … of the output. The 104 blocks written back tile the output array.
-/
import proofs.«130920_j16286515987226_2_alg».proof.Proof.KIRegion0
import proofs.«130920_j16286515987226_2_alg».proof.Proof.PayValue
import proofs.«130920_j16286515987226_2_alg».proof.Proof.LibOneHotFold
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibOneHot Cert.LibOneHotFold

variable (V : (c : Dev nD) → (b : Ref sig .tc) → Buf (Elt Ideal) ((c : Thread nD τ).loc b))

/-! ## The three arrays the region reads, and the array it leaves -/

/-- The source words, one per edge, as the region finds them. -/
def srcA0 (c : Dev nD) : S851968.Idx → BitVec 32 := (cfg0.win 0).arr.view.read (Elt Ideal) (V c (Pipeline.arrRef spec0 0))
/-- The scaling factors, one per edge. -/
def nrmA0 (c : Dev nD) : S851968.Idx → EReal := (cfg0.win 1).arr.view.read (Elt Ideal) (V c (Pipeline.arrRef spec0 1))
/-- The table of node rows. -/
def HA0 (c : Dev nD) : S51200x64.Idx → EReal := (cfg0.win 2).arr.view.read (Elt Ideal) (V c (Pipeline.arrRef spec0 2))

/-- Entry (e, c') of the result: the table's row number src e, column c', when the word src e read unsigned is a row
    number, and zero otherwise; times the edge's factor. -/
def msg0 (c : Dev nD) (e : Fin 851968) (c' : Fin 64) : EReal :=
  (if h : (srcA0 V c (ix1 e)).toNat < 51200 then HA0 V c (ix2 ⟨(srcA0 V c (ix1 e)).toNat, h⟩ c') else 0) * nrmA0 V c (ix1 e)

/-- The result as one array. -/
def msgA0 (c : Dev nD) : S851968x64.Idx → EReal := fun j => msg0 V c (j 0) (j 1)

/-! ## The grid: point t is edge block t / 50 and node block t % 50 -/

theorem idx_facts0 : ∀ t : Fin cfg0.N,
    win0_0.index t (0 : Fin 1) = t.val / 50
    ∧ win0_1.index t (0 : Fin 1) = t.val / 50
    ∧ win0_2.index t (0 : Fin 2) = t.val % 50 ∧ win0_2.index t (1 : Fin 2) = 0
    ∧ win0_3.index t (0 : Fin 2) = t.val / 50 ∧ win0_3.index t (1 : Fin 2) = 0
    ∧ ((grid0.coords t) 1).val = t.val % 50 :=
  (by decide +kernel : ∀ t : Fin grid0.N, _)

/-! ## Each input block read off its array -/

/-- Entry e of the block of source words at point t is word (t / 50) · 8192 + e. -/
theorem read0_0 (c : Dev nD) (t : Fin cfg0.N) (e : Fin 8192) (k : Fin 851968) (hk : k.val = t.val / 50 * 8192 + e.val) :
    (iblk0 V c 0 t : Vec Ideal S8192 .i32) (ix1 e) = srcA0 V c (ix1 k) := by
  obtain ⟨e0, -⟩ := idx_facts0 t
  show V c (Pipeline.arrRef spec0 0) (((cfg0.win 0).blk t).view.emb (ix1 e)) = V c (Pipeline.arrRef spec0 0) (ix1 k)
  refine congrArg _ (funext fun d => Fin.ext ?_)
  match d with
  | ⟨0, _⟩ =>
    show win0_0.index t (0 : Fin 1) * 8192 + 1 * e.val = k.val
    rw [e0, hk]; omega

/-- The same for the block of factors. -/
theorem read0_1 (c : Dev nD) (t : Fin cfg0.N) (e : Fin 8192) (k : Fin 851968) (hk : k.val = t.val / 50 * 8192 + e.val) :
    (iblk0 V c 1 t : Vec Ideal S8192 .f32) (ix1 e) = nrmA0 V c (ix1 k) := by
  obtain ⟨-, e1, -⟩ := idx_facts0 t
  show V c (Pipeline.arrRef spec0 1) (((cfg0.win 1).blk t).view.emb (ix1 e)) = V c (Pipeline.arrRef spec0 1) (ix1 k)
  refine congrArg _ (funext fun d => Fin.ext ?_)
  match d with
  | ⟨0, _⟩ =>
    show win0_1.index t (0 : Fin 1) * 8192 + 1 * e.val = k.val
    rw [e1, hk]; omega

/-- Entry (a, c') of the table's block at point t is the table's entry ((t % 50) · 1024 + a, c'). -/
theorem read0_2 (c : Dev nD) (t : Fin cfg0.N) (a : Fin 1024) (c' : Fin 64) (k : Fin 51200) (hk : k.val = t.val % 50 * 1024 + a.val) :
    (iblk0 V c 2 t : Vec Ideal S1024x64 .bf16) (ix2 a c') = HA0 V c (ix2 k c') := by
  obtain ⟨-, -, e2, e3, -⟩ := idx_facts0 t
  show V c (Pipeline.arrRef spec0 2) (((cfg0.win 2).blk t).view.emb (ix2 a c')) = V c (Pipeline.arrRef spec0 2) (ix2 k c')
  refine congrArg _ (funext fun d => Fin.ext ?_)
  match d with
  | ⟨0, _⟩ =>
    show win0_2.index t (0 : Fin 2) * 1024 + 1 * a.val = k.val
    rw [e2, hk]; omega
  | ⟨1, _⟩ =>
    show win0_2.index t (1 : Fin 2) * 64 + 1 * c'.val = c'.val
    rw [e3]; omega

/-! ## The running sum along a row -/

/-- The source words of edge block eb. -/
def srcRow0 (c : Dev nD) (eb : Fin 104) : Fin 8192 → BitVec 32 :=
  fun e => srcA0 V c (ix1 ⟨eb.val * 8192 + e.val, by have := eb.isLt; have := e.isLt; omega⟩)

/-- The table by row number and column. -/
def Hrows0 (c : Dev nD) : Fin (50 * 1024) → Fin 64 → EReal := fun n c' => HA0 V c (ix2 (⟨n.val, n.isLt⟩ : Fin 51200) c')

theorem acc0_congr (c : Dev nD) {n n' : ℕ} (h : n = n') (hn : n < cfg0.N) (hn' : n' < cfg0.N) :
    acc0 V c n hn = acc0 V c n' hn' := by subst h; rfl

/-- One point's step, at point t = eb · 50 + nb, over the arrays: entry (e, c') adds the sum over the rows a of node block
    nb of the one-hot entry of row number nb · 1024 + a against edge e's source word, times the table's entry. -/
theorem step0_eq (c : Dev nD) (t : Fin cfg0.N) (eb : Fin 104) (nb : ℕ) (hnb : nb < 50) (ht : t.val = eb.val * 50 + nb)
    (xs : Vec Ideal S8192x64 .f32) (e : Fin 8192) (c' : Fin 64) :
    k0_pay2 (F := Ideal) (grid0.coords t) (iblk0 V c 0 t) (iblk0 V c 2 t) xs (ix2 e c')
      = xs (ix2 e c') + ∑ a : Fin 1024, hot (BitVec.ofNat 32 (nb * 1024 + a.val)) (srcRow0 V c eb e)
          * Hrows0 V c ⟨nb * 1024 + a.val, block_lt hnb a⟩ c' := by
  obtain ⟨-, -, -, -, -, -, hco⟩ := idx_facts0 t
  have hdiv : t.val / 50 = eb.val := by omega
  have hmod : t.val % 50 = nb := by omega
  have hco' : ((grid0.coords t) 1).val = nb := hco.trans hmod
  refine (PayValue.k0_pay2_apply (grid0.coords t) (iblk0 V c 0 t) (iblk0 V c 2 t) xs e c').trans ?_
  refine congrArg (xs (ix2 e c') + ·) (Finset.sum_congr rfl fun a _ => ?_)
  refine congrArg₂ (· * ·) (congrArg₂ hot ?_ ?_) ?_
  · rw [hco']
  · exact read0_0 V c t e _ (by rw [hdiv])
  · exact read0_2 V c t a c' _ (by rw [hmod])

/-- After node block nb of edge block eb the accumulator is the gather's partial sum over node blocks 0 … nb. -/
theorem acc0_row (c : Dev nD) (eb : Fin 104) : ∀ (nb : ℕ) (hnb : nb < 50) (hn : eb.val * 50 + nb < cfg0.N) (e : Fin 8192) (c' : Fin 64),
    acc0 V c (eb.val * 50 + nb) hn (ix2 e c')
      = gacc (NB := 50) (BN := 1024) (srcRow0 V c eb) (Hrows0 V c) (nb + 1) (Nat.succ_le_of_lt hnb) e c'
  | 0, hnb, hn, e, c' => by
    have h0 : (⟨eb.val * 50 + 0, hn⟩ : Fin cfg0.N).val % 50 = 0 := by show (eb.val * 50 + 0) % 50 = 0; omega
    refine (congrFun (acc0_first V c ⟨eb.val * 50 + 0, hn⟩ h0) (ix2 e c')).trans ?_
    refine (step0_eq V c ⟨eb.val * 50 + 0, hn⟩ eb 0 hnb rfl (k0_pay1 (F := Ideal)) e c').trans ?_
    rw [PayValue.k0_pay1_apply]
    rfl
  | nb + 1, hnb, hn, e, c' => by
    have h0 : ¬ (⟨eb.val * 50 + (nb + 1), hn⟩ : Fin cfg0.N).val % 50 = 0 := by
      show ¬ (eb.val * 50 + (nb + 1)) % 50 = 0; omega
    refine (congrFun (acc0_next V c ⟨eb.val * 50 + (nb + 1), hn⟩ h0) (ix2 e c')).trans ?_
    refine (step0_eq V c ⟨eb.val * 50 + (nb + 1), hn⟩ eb (nb + 1) hnb rfl _ e c').trans ?_
    have hn' : eb.val * 50 + nb < cfg0.N := Nat.lt_of_succ_lt hn
    rw [acc0_congr V c (show eb.val * 50 + (nb + 1) - 1 = eb.val * 50 + nb by omega) _ hn']
    rw [acc0_row c eb nb (Nat.lt_of_succ_lt hnb) hn' e c']
    rfl

/-- At the last point of a row the accumulator's entry (e, c') is the table's row number src e, or zero. -/
theorem acc0_last (c : Dev nD) (t : Fin cfg0.N) (h : t.val % 50 = 49) (ht : t.val / 50 < 104) (e : Fin 8192) (c' : Fin 64) :
    acc0 V c t.val t.isLt (ix2 e c')
      = if hs : (srcRow0 V c ⟨t.val / 50, ht⟩ e).toNat < 50 * 1024 then Hrows0 V c ⟨(srcRow0 V c ⟨t.val / 50, ht⟩ e).toNat, hs⟩ c' else 0 := by
  have hv : t.val = (⟨t.val / 50, ht⟩ : Fin 104).val * 50 + 49 := by show t.val = t.val / 50 * 50 + 49; omega
  rw [acc0_congr V c hv t.isLt (hv ▸ t.isLt)]
  refine (acc0_row V c ⟨t.val / 50, ht⟩ 49 (by norm_num) _ e c').trans ?_
  exact gacc_full (srcRow0 V c ⟨t.val / 50, ht⟩) (Hrows0 V c) (by norm_num) e c'

/-! ## What a point writes back, the cover, the array -/

/-- The block written back at the last point of a row is that block of the result array. -/
theorem flushed0_eq (c : Dev nD) (t : Fin cfg0.N) (hf : (cfg0.win 3).flush t = true) :
    (dat0 V c).flushed 3 t = ((cfg0.win 3).blk t).view.read (Elt Ideal) (msgA0 V c) := by
  have h49 : t.val % 50 = 49 := (flush0_3 t).mp hf
  have hN : t.val < 5200 := lt_of_lt_of_eq t.isLt N_0
  have ht : t.val / 50 < 104 := by omega
  obtain ⟨-, -, -, -, e4, e5, -⟩ := idx_facts0 t
  show (cfg0.win 3).cut (grid0.coords t) ((dat0 V c).after 3 t) = _
  rw [after0_3]
  funext y
  obtain ⟨e, c', rfl⟩ : ∃ (e : Fin 8192) (c' : Fin 64), y = ix2 e c' := ⟨y 0, y 1, eq_ix2 y⟩
  show k0_pay3 (F := Ideal) (iblk0 V c 1 t) (acc0 V c t.val t.isLt) (ix2 e c')
    = msgA0 V c (((cfg0.win 3).blk t).view.emb (ix2 e c'))
  have hk : ((cfg0.win 3).blk t).view.emb (ix2 e c')
      = ix2 (⟨t.val / 50 * 8192 + e.val, by have := e.isLt; omega⟩ : Fin 851968) c' := by
    funext d; apply Fin.ext
    match d with
    | ⟨0, _⟩ =>
      show win0_3.index t (0 : Fin 2) * 8192 + 1 * e.val = t.val / 50 * 8192 + e.val
      rw [e4]; omega
    | ⟨1, _⟩ =>
      show win0_3.index t (1 : Fin 2) * 64 + 1 * c'.val = c'.val
      rw [e5]; omega
  rw [hk]
  refine (PayValue.k0_pay3_apply (iblk0 V c 1 t) (acc0 V c t.val t.isLt) e c').trans ?_
  rw [acc0_last V c t h49 ht e c', read0_1 V c t e ⟨t.val / 50 * 8192 + e.val, by have := e.isLt; omega⟩ rfl]
  rfl

/-- Row r of the result array lies in the block written back at the last point of grid row r / 8192. -/
theorem cover0 (i : S851968x64.Idx) :
    ∃ t : Fin cfg0.N, (cfg0.win 3).flush t = true ∧ i ∈ ((cfg0.win 3).blk t).view.set := by
  have hi0 : (i 0).val < 851968 := (i 0).isLt
  have hi1 : (i 1).val < 64 := (i 1).isLt
  have hN : cfg0.N = 5200 := N_0
  have htN : (i 0).val / 8192 * 50 + 49 < cfg0.N := by rw [hN]; omega
  refine ⟨⟨(i 0).val / 8192 * 50 + 49, htN⟩, (flush0_3 _).mpr (by show ((i 0).val / 8192 * 50 + 49) % 50 = 49; omega), ?_⟩
  obtain ⟨-, -, -, -, e4, e5, -⟩ := idx_facts0 ⟨(i 0).val / 8192 * 50 + 49, htN⟩
  have hdiv : ((i 0).val / 8192 * 50 + 49) / 50 = (i 0).val / 8192 := by omega
  show i ∈ ((View.whole main_v39).slice (win0_3.rect ⟨(i 0).val / 8192 * 50 + 49, htN⟩)).set
  rw [View.set_slice_whole, Rect.mem_set_unit]
  intro a
  match a with
  | ⟨0, _⟩ =>
    show win0_3.index ⟨(i 0).val / 8192 * 50 + 49, htN⟩ (0 : Fin 2) * 8192 ≤ (i 0).val
      ∧ (i 0).val < win0_3.index ⟨(i 0).val / 8192 * 50 + 49, htN⟩ (0 : Fin 2) * 8192 + 8192
    rw [e4]; show ((i 0).val / 8192 * 50 + 49) / 50 * 8192 ≤ _ ∧ _ < ((i 0).val / 8192 * 50 + 49) / 50 * 8192 + 8192
    rw [hdiv]; omega
  | ⟨1, _⟩ =>
    show win0_3.index ⟨(i 0).val / 8192 * 50 + 49, htN⟩ (1 : Fin 2) * 64 ≤ (i 1).val
      ∧ (i 1).val < win0_3.index ⟨(i 0).val / 8192 * 50 + 49, htN⟩ (1 : Fin 2) * 64 + 64
    rw [e5]; omega

/-- The output array after the region: entry (e, c') is the table's entry (src e, c') times the factor of edge e when the
    word src e, read unsigned, is below 51200, and zero times that factor otherwise. -/
theorem final0 (c : Dev nD) :
    ((cfg0.win 3).arr.view.read (Elt Ideal) ((dat0 V c).arrAt 3 cfg0.N) : S851968x64.Idx → EReal)
      = fun j => (if h : (srcA0 V c (ix1 (j 0))).toNat < 51200 then HA0 V c (ix2 ⟨(srcA0 V c (ix1 (j 0))).toNat, h⟩ (j 1)) else 0)
          * nrmA0 V c (ix1 (j 0)) := by
  rw [(dat0 V c).arrAt_eq_of_cover 3 (msgA0 V c) (flushed0_eq V c) cover0]
  rfl

end Cert.KernelIdeal.Val

end
-- ==== Proof.KIValue1.lean ====
/-
  What scatter region 1 leaves in its output array, as one function of the arrays it reads.

  The region's grid has 25 rows of 208 points. Point t belongs to node block nb = t / 208 (2048 nodes) and reads edge
  block eb = t % 208 (4096 edges): the edges' destination words, their message rows, and the one bias row. Along a row
  of the grid the scratch block holds a running sum, restarted at the row's first point: after point (nb, eb) its entry
  (a, c') is the sum, over the edges e below (eb + 1) · 4096, of the one-hot entry comparing the word of node
  nb · 2048 + a with the destination word of e, times the message entry (e, c'). After the row's last point this is the
  sum of the message entries (e, c') over those of the 208 · 4096 = 851968 edges whose destination word is the node's
  word. The last point of the row stores the hyperbolic tangent of that sum plus the bias entry c' into the output
  block, which is written back to rows nb · 2048 … nb · 2048 + 2047 of the output array. The 25 blocks tile the 51200
  rows, so the array ends holding, at every (n, c'), tanh(Σ over the edges e with dst e = word of n of msg(e, c') + bias(c')).
  Sums of extended reals against entries that are 0 or 1 need no finiteness, so nothing is assumed of the contents.
-/
import proofs.«130920_j16286515987226_2_alg».proof.Proof.KIRegion1
import proofs.«130920_j16286515987226_2_alg».proof.Proof.PayValue
import proofs.«130920_j16286515987226_2_alg».proof.Proof.LibOneHotFold
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.KernelIdeal.PayValue
open Idealize.ShloMosaic Idealize.ShloMosaic.TcCoe Idealize.ShloMosaic.ValueIdx
open Idealize.SL Idealize.SL.Sem
open Idealize.ShloMosaic.Pipeline (Dat)
open Cert.LibOneHot Cert.LibOneHotFold
open scoped BigOperators

section Region1

variable (V : (c : Dev nD) → (b : Ref sig .tc) → Buf (Elt Ideal) ((c : Thread nD τ).loc b))

/-- The three arrays the region reads, as it finds them: the edges' destination words, the messages, the bias row. -/
abbrev dst1 (c : Dev nD) : S851968.Idx → BitVec 32 := V c (Pipeline.arrRef spec1 0)
abbrev msg1 (c : Dev nD) : S851968x64.Idx → EReal := V c (Pipeline.arrRef spec1 1)
abbrev bias1 (c : Dev nD) : S1x64.Idx → EReal := V c (Pipeline.arrRef spec1 2)

/-- The grid's coordinates and the four index maps, at every point: point t is (t / 208, t % 208); the destination and
    message windows follow the edge block, the bias window stays, the output window follows the node block. -/
theorem where1 : ∀ t : Fin cfg1.N,
    ((grid1.coords t) 0).val = t.val / 208 ∧ ((grid1.coords t) 1).val = t.val % 208
    ∧ win1_0.index t (0 : Fin 1) = t.val % 208
    ∧ win1_1.index t (0 : Fin 2) = t.val % 208 ∧ win1_1.index t (1 : Fin 2) = 0
    ∧ win1_2.index t (0 : Fin 2) = 0 ∧ win1_2.index t (1 : Fin 2) = 0
    ∧ win1_3.index t (0 : Fin 2) = t.val / 208 ∧ win1_3.index t (1 : Fin 2) = 0 :=
  (by decide +kernel : ∀ t : Fin grid1.N, _)

/-- A block's coordinate in its array is the block index times the block size plus the coordinate inside the block:
    the destination block at point t, read at a, is the destination array at edge (t % 208) · 4096 + a; -/
theorem iblk1_0_apply (c : Dev nD) (t : Fin cfg1.N) (a : Fin 4096) (e : Fin 851968) (he : e.val = t.val % 208 * 4096 + a.val) :
    (iblk1 V c 0 t : S4096.Idx → BitVec 32) (ix1 a) = dst1 V c (ix1 e) := by
  obtain ⟨-, -, h0, -⟩ := where1 t
  unfold iblk1
  rw [View.read_apply]
  show V c (Pipeline.arrRef spec1 0) _ = V c (Pipeline.arrRef spec1 0) _
  refine congrArg (V c (Pipeline.arrRef spec1 0)) ?_
  funext d; apply Fin.ext
  match d with
  | ⟨0, _⟩ => show win1_0.index t 0 * 4096 + 1 * a.val = e.val; rw [h0, he]; omega

/-- the message block at (a, c') is the message array at that edge and column c'; -/
theorem iblk1_1_apply (c : Dev nD) (t : Fin cfg1.N) (a : Fin 4096) (c' : Fin 64) (e : Fin 851968) (he : e.val = t.val % 208 * 4096 + a.val) :
    (iblk1 V c 1 t : S4096x64.Idx → EReal) (ix2 a c') = msg1 V c (ix2 e c') := by
  obtain ⟨-, -, -, h0, h1, -⟩ := where1 t
  unfold iblk1
  rw [View.read_apply]
  show V c (Pipeline.arrRef spec1 1) _ = V c (Pipeline.arrRef spec1 1) _
  refine congrArg (V c (Pipeline.arrRef spec1 1)) ?_
  funext d; apply Fin.ext
  match d with
  | ⟨0, _⟩ => show win1_1.index t 0 * 4096 + 1 * a.val = e.val; rw [h0, he]; omega
  | ⟨1, _⟩ => show win1_1.index t 1 * 64 + 1 * c'.val = c'.val; rw [h1]; omega

/-- the bias block is the bias row. -/
theorem iblk1_2_apply (c : Dev nD) (t : Fin cfg1.N) (c' : Fin 64) :
    (iblk1 V c 2 t : S1x64.Idx → EReal) (ix2 (0 : Fin 1) c') = bias1 V c (ix2 (0 : Fin 1) c') := by
  obtain ⟨-, -, -, -, -, h0, h1, -⟩ := where1 t
  unfold iblk1
  rw [View.read_apply]
  show V c (Pipeline.arrRef spec1 2) _ = V c (Pipeline.arrRef spec1 2) _
  refine congrArg (V c (Pipeline.arrRef spec1 2)) ?_
  funext d; apply Fin.ext
  match d with
  | ⟨0, _⟩ => show win1_2.index t 0 * 1 + 1 * 0 = 0; rw [h0]
  | ⟨1, _⟩ => show win1_2.index t 1 * 64 + 1 * c'.val = c'.val; rw [h1]; omega

/-- 208 edge blocks of 4096 edges are all 851968 edges. -/
theorem edges1 : 208 * 4096 = 851968 := by norm_num

/-- The destination words and the messages indexed by the edge as block number times 4096 plus position. -/
def dstE1 (c : Dev nD) : Fin (208 * 4096) → BitVec 32 := fun e => dst1 V c (ix1 (Fin.cast edges1 e))
def msgE1 (c : Dev nD) : Fin (208 * 4096) → Fin 64 → EReal := fun e c' => msg1 V c (ix2 (Fin.cast edges1 e) c')

/-- One point's step on the scratch block, read at (a, c'): the accumulated entry plus the edge block's entries against
    their one-hot entries for the word of node nb · 2048 + a. -/
theorem step1 (c : Dev nD) (t : Fin cfg1.N) (nb eb : ℕ) (hnb : t.val / 208 = nb) (heb : t.val % 208 = eb) (hlt : eb < 208)
    (acc : Vec Ideal S2048x64 .f32) (a : Fin 2048) (c' : Fin 64) :
    k1_pay2 (F := Ideal) (grid1.coords t) (iblk1 V c 0 t) acc (iblk1 V c 1 t) (ix2 a c')
      = sstep (BitVec.ofNat 32 (nb * 2048 + a.val)) (dstE1 V c) (msgE1 V c) eb hlt (fun c'' => acc (ix2 a c'')) c' := by
  obtain ⟨g0, -⟩ := where1 t
  refine (k1_pay2_apply (grid1.coords t) (iblk1 V c 0 t) acc (iblk1 V c 1 t) a c').trans ?_
  unfold sstep
  refine congrArg (acc (ix2 a c') + ·) (Finset.sum_congr rfl fun e _ => ?_)
  rw [g0, hnb]
  exact congrArg₂ (fun x y => hot (BitVec.ofNat 32 (nb * 2048 + a.val)) x * y)
    (iblk1_0_apply V c t e (Fin.cast edges1 ⟨eb * 4096 + e.val, block_lt hlt e⟩) (by rw [heb]; rfl))
    (iblk1_1_apply V c t e c' (Fin.cast edges1 ⟨eb * 4096 + e.val, block_lt hlt e⟩) (by rw [heb]; rfl))

/-- The running sum depends on the point only through its number. -/
theorem acc1_cast (c : Dev nD) (n n' : ℕ) (h : n = n') (hn : n < cfg1.N) (hn' : n' < cfg1.N) :
    acc1 V c n hn = acc1 V c n' hn' := by subst h; rfl

/-- The running sum in closed form, by induction along a row of the grid: after point (nb, eb) entry (a, c') is the
    block-by-block accumulation over the first eb + 1 edge blocks, started from zero. -/
theorem acc1_closed (c : Dev nD) (nb : ℕ) (a : Fin 2048) :
    ∀ (eb : ℕ) (heb : eb < 208) (hn : nb * 208 + eb < cfg1.N) (c' : Fin 64),
      acc1 V c (nb * 208 + eb) hn (ix2 a c')
        = sacc (BitVec.ofNat 32 (nb * 2048 + a.val)) (dstE1 V c) (msgE1 V c) (eb + 1) (Nat.succ_le_of_lt heb) c' := by
  intro eb
  induction eb with
  | zero =>
    intro heb hn c'
    have hmod : (⟨nb * 208 + 0, hn⟩ : Fin cfg1.N).val % 208 = 0 := by show (nb * 208 + 0) % 208 = 0; omega
    have hdiv : (⟨nb * 208 + 0, hn⟩ : Fin cfg1.N).val / 208 = nb := by show (nb * 208 + 0) / 208 = nb; omega
    refine (congrFun (acc1_first V c ⟨nb * 208 + 0, hn⟩ hmod) (ix2 a c')).trans ?_
    refine (step1 V c ⟨nb * 208 + 0, hn⟩ nb 0 hdiv hmod heb (k1_pay1 (F := Ideal)) a c').trans ?_
    exact congrArg (fun f => sstep (BitVec.ofNat 32 (nb * 2048 + a.val)) (dstE1 V c) (msgE1 V c) 0 heb f c')
      (funext fun c'' => k1_pay1_apply a c'')
  | succ eb ih =>
    intro heb hn c'
    have hmod : (⟨nb * 208 + (eb + 1), hn⟩ : Fin cfg1.N).val % 208 = eb + 1 := by show (nb * 208 + (eb + 1)) % 208 = eb + 1; omega
    have hdiv : (⟨nb * 208 + (eb + 1), hn⟩ : Fin cfg1.N).val / 208 = nb := by show (nb * 208 + (eb + 1)) / 208 = nb; omega
    have hne : ¬ (⟨nb * 208 + (eb + 1), hn⟩ : Fin cfg1.N).val % 208 = 0 := by rw [hmod]; omega
    refine (congrFun (acc1_next V c ⟨nb * 208 + (eb + 1), hn⟩ hne) (ix2 a c')).trans ?_
    refine (step1 V c ⟨nb * 208 + (eb + 1), hn⟩ nb (eb + 1) hdiv hmod heb _ a c').trans ?_
    refine congrArg (fun f => sstep (BitVec.ofNat 32 (nb * 2048 + a.val)) (dstE1 V c) (msgE1 V c) (eb + 1) heb f c') (funext fun c'' => ?_)
    have hn' : nb * 208 + eb < cfg1.N := by omega
    refine (congrFun (acc1_cast V c _ (nb * 208 + eb) (by show nb * 208 + (eb + 1) - 1 = nb * 208 + eb; omega) _ hn') (ix2 a c'')).trans ?_
    exact ih (by omega) hn' c''

/-- Re-indexing a filtered sum along an equation between the two index bounds. -/
theorem sum_filter_cast1 {n m : ℕ} (h : n = m) (w : BitVec 32) (d : Fin m → BitVec 32) (g : Fin m → EReal) :
    ∑ e ∈ Finset.univ.filter (fun e : Fin n => d (Fin.cast h e) = w), g (Fin.cast h e)
      = ∑ e ∈ Finset.univ.filter (fun e : Fin m => d e = w), g e := by
  subst h; rfl

/-- At the last point of row nb the running sum at (a, c') is the sum of the messages' entries c' over the edges whose
    destination word is the word of the node nb · 2048 + a. -/
theorem acc1_last (c : Dev nD) (t : Fin cfg1.N) (h207 : t.val % 208 = 207) (a : Fin 2048) (c' : Fin 64) :
    acc1 V c t.val t.isLt (ix2 a c')
      = ∑ e ∈ Finset.univ.filter (fun e : Fin 851968 => dst1 V c (ix1 e) = BitVec.ofNat 32 (t.val / 208 * 2048 + a.val)),
          msg1 V c (ix2 e c') := by
  have hN : t.val < 5200 := lt_of_lt_of_eq t.isLt N_1
  have hn' : t.val / 208 * 208 + 207 < cfg1.N := lt_of_lt_of_eq (show t.val / 208 * 208 + 207 < 5200 by omega) N_1.symm
  refine (congrFun (acc1_cast V c _ (t.val / 208 * 208 + 207) (by omega) _ hn') (ix2 a c')).trans ?_
  refine (acc1_closed V c (t.val / 208) a 207 (by norm_num) hn' c').trans ?_
  refine (sacc_eq_filter (BitVec.ofNat 32 (t.val / 208 * 2048 + a.val)) (dstE1 V c) (msgE1 V c) c').trans ?_
  exact sum_filter_cast1 edges1 (BitVec.ofNat 32 (t.val / 208 * 2048 + a.val)) (fun e => dst1 V c (ix1 e)) (fun e => msg1 V c (ix2 e c'))

/-- Entry (n, c') of the region's output, as a function of the three arrays it reads: the hyperbolic tangent of the sum of
    the messages' entries c' over the edges whose destination word is the word of n, plus the bias entry c'. -/
def outAt1 (c : Dev nD) (n : Fin 51200) (c' : Fin 64) : EReal :=
  FloatOps.tanh (F := Ideal) (φ := .f32)
    ((∑ e ∈ Finset.univ.filter (fun e : Fin 851968 => dst1 V c (ix1 e) = BitVec.ofNat 32 n.val), msg1 V c (ix2 e c'))
      + bias1 V c (ix2 (0 : Fin 1) c'))

/-- The region's output as one whole-array function. -/
def out1 (c : Dev nD) : S51200x64.Idx → EReal := fun j => outAt1 V c (j 0) (j 1)

theorem out1_apply (c : Dev nD) (n : Fin 51200) (c' : Fin 64) : out1 V c (ix2 n c') = outAt1 V c n c' := rfl

/-- Contents X of the output block at point t are what the write-back of a whole-array function G reads through the
    block, as soon as X at (a, c') is G at (row block · 2048 + a, c'). -/
theorem cut_eq_read1 (t : Fin cfg1.N) (X : S2048x64.Idx → EReal) (G : S51200x64.Idx → EReal)
    (h : ∀ (a : Fin 2048) (c' : Fin 64) (n : Fin 51200), n.val = t.val / 208 * 2048 + a.val → X (ix2 a c') = G (ix2 n c')) :
    (cfg1.win 3).cut (grid1.coords t) X = ((cfg1.win 3).blk t).view.read (Elt Ideal) G := by
  obtain ⟨-, -, -, -, -, -, -, h0, h1⟩ := where1 t
  have hN : t.val < 5200 := lt_of_lt_of_eq t.isLt N_1
  funext y
  obtain ⟨a, c', rfl⟩ : ∃ (a : Fin 2048) (c' : Fin 64), y = ix2 a c' := ⟨y 0, y 1, eq_ix2 y⟩
  rw [View.read_apply]
  have hj : ((cfg1.win 3).blk t).view.emb (ix2 a c') = (ix2 (⟨t.val / 208 * 2048 + a.val, by omega⟩ : Fin 51200) c' : S51200x64.Idx) := by
    funext d; apply Fin.ext
    match d with
    | ⟨0, _⟩ => show win1_3.index t 0 * 2048 + 1 * a.val = t.val / 208 * 2048 + a.val; rw [h0]; omega
    | ⟨1, _⟩ => show win1_3.index t 1 * 64 + 1 * c'.val = c'.val; rw [h1]; omega
  rw [hj]
  show X _ = G _
  refine Eq.trans (congrArg X ?_) (h a c' ⟨t.val / 208 * 2048 + a.val, by omega⟩ rfl)
  funext d; apply Fin.ext
  match d with
  | ⟨0, _⟩ => rfl
  | ⟨1, _⟩ => rfl

section Data
open Idealize.ShloMosaic.Rounds
variable {c : Dev nD} (dat : Dat τ (Elt Ideal) Unit ℕ (UR sig nD τ) ℕ cfg1 c)
  (hafter : ∀ t, dat.after 3 t = k1_pay3 (acc1 V c t.val t.isLt) (iblk1 V c 2 t))

include hafter in
/-- What a point that writes back writes is its block of the whole-array function. -/
theorem flushed1_eq (t : Fin cfg1.N) (hf : (cfg1.win 3).flush t = true) :
    dat.flushed 3 t = ((cfg1.win 3).blk t).view.read (Elt Ideal) (out1 V c) := by
  have h207 : t.val % 208 = 207 := (flush1_3 t).mp hf
  show (cfg1.win 3).cut (grid1.coords t) (dat.after 3 t) = _
  rw [hafter]
  refine cut_eq_read1 t (k1_pay3 (F := Ideal) (acc1 V c t.val t.isLt) (iblk1 V c 2 t)) (out1 V c) fun a c' n hn => ?_
  refine (k1_pay3_apply (acc1 V c t.val t.isLt) (iblk1 V c 2 t) a c').trans ?_
  refine Eq.trans ?_ (out1_apply V c n c').symm
  unfold outAt1
  rw [hn]
  exact congrArg (FloatOps.tanh (F := Ideal) (φ := .f32)) (congrArg₂ (· + ·) (acc1_last V c t h207 a c') (iblk1_2_apply V c t c'))

/-- An index of the output array lies in point t's block iff each coordinate is in the block's range on its axis. -/
theorem mem_blk1 (t : Fin cfg1.N) (i : S51200x64.Idx) :
    i ∈ ((cfg1.win 3).blk t).view.set
      ↔ ∀ a : Fin 2, win1_3.index t a * S2048x64.size a ≤ (i a).val ∧ (i a).val < win1_3.index t a * S2048x64.size a + S2048x64.size a := by
  show i ∈ ((View.whole main_v41).slice (win1_3.rect t)).set ↔ _
  rw [View.set_slice_whole, Rect.mem_set_unit]
  exact Iff.rfl

/-- Row n of the output is written back by the last point of the row of the grid that owns node block n / 2048. -/
theorem cover1 (i : S51200x64.Idx) :
    ∃ t : Fin cfg1.N, (cfg1.win 3).flush t = true ∧ i ∈ ((cfg1.win 3).blk t).view.set := by
  have hi0 : (i 0).val < 51200 := idx2_lt0 i
  have hi1 : (i 1).val < 64 := idx2_lt1 i
  have ht : (i 0).val / 2048 * 208 + 207 < cfg1.N := lt_of_lt_of_eq (show (i 0).val / 2048 * 208 + 207 < 5200 by omega) N_1.symm
  have hmod : (⟨(i 0).val / 2048 * 208 + 207, ht⟩ : Fin cfg1.N).val % 208 = 207 := by
    show ((i 0).val / 2048 * 208 + 207) % 208 = 207; omega
  have hdiv : (⟨(i 0).val / 2048 * 208 + 207, ht⟩ : Fin cfg1.N).val / 208 = (i 0).val / 2048 := by
    show ((i 0).val / 2048 * 208 + 207) / 208 = (i 0).val / 2048; omega
  refine ⟨⟨(i 0).val / 2048 * 208 + 207, ht⟩, (flush1_3 _).mpr hmod, ?_⟩
  obtain ⟨-, -, -, -, -, -, -, h0, h1⟩ := where1 ⟨(i 0).val / 2048 * 208 + 207, ht⟩
  rw [mem_blk1]
  intro a
  match a with
  | ⟨0, _⟩ =>
    show win1_3.index _ 0 * 2048 ≤ (i 0).val ∧ (i 0).val < win1_3.index _ 0 * 2048 + 2048
    rw [h0, hdiv]; omega
  | ⟨1, _⟩ =>
    show win1_3.index _ 1 * 64 ≤ (i 1).val ∧ (i 1).val < win1_3.index _ 1 * 64 + 64
    rw [h1]; omega

include hafter in
/-- The output array after the region's pipeline. -/
theorem final1_of : dat.arrAt 3 cfg1.N = out1 V c :=
  dat.arrAt_eq_of_cover 3 (out1 V c) (fun t hf => flushed1_eq V dat hafter t hf) cover1

end Data

/-- The output array after the region's pipeline, entered from buffer contents V. -/
theorem final1_arr (c : Dev nD) : (dat1 V c).arrAt 3 cfg1.N = out1 V c :=
  final1_of V (dat1 V c) (after1_3 V c)

/-- The same, with the array read through its whole view. -/
theorem final1 (c : Dev nD) :
    ((cfg1.win 3).arr.view.read (Elt Ideal) ((dat1 V c).arrAt 3 cfg1.N) : S51200x64.Idx → EReal) = out1 V c :=
  (View.read_whole main_v41 ((dat1 V c).arrAt 3 cfg1.N)).trans (final1_arr V c)

/-- The whole-array function spelt out. -/
theorem out1_eq (c : Dev nD) :
    out1 V c = fun j => FloatOps.tanh (F := Ideal) (φ := .f32)
      ((∑ e ∈ Finset.univ.filter (fun e : Fin 851968 => dst1 V c (ix1 e) = BitVec.ofNat 32 (j 0).val), msg1 V c (ix2 e (j 1)))
        + bias1 V c (ix2 (0 : Fin 1) (j 1))) := rfl

end Region1
end Cert.KernelIdeal.Val
end
-- ==== Proof.KIValue2.lean ====
/-
  What gather region 2 leaves in its output array, as one function of the three arrays it reads.

  The grid has 104 · 50 points: point t works on edge block t / 50 (8192 edges) and node block t % 50 (1024 table rows).
  Along a row of the grid the accumulator block starts at zero and at node block nb adds, to entry (e, c'), the sum over
  the block's rows a of the one-hot entry comparing the row number nb · 1024 + a with the source word of edge e, times the
  table's entry (nb · 1024 + a, c'). After the 50 node blocks entry (e, c') is the table's row number src e when that word,
  read unsigned, is below 51200, and zero otherwise; the last point of the row scales it by the edge's factor and the block
  is written back to rows (t / 50) · 8192 … of the output. The 104 blocks written back tile the output array.
-/
import proofs.«130920_j16286515987226_2_alg».proof.Proof.KIRegion2
import proofs.«130920_j16286515987226_2_alg».proof.Proof.PayValue
import proofs.«130920_j16286515987226_2_alg».proof.Proof.LibOneHotFold
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibOneHot Cert.LibOneHotFold

variable (V : (c : Dev nD) → (b : Ref sig .tc) → Buf (Elt Ideal) ((c : Thread nD τ).loc b))

/-! ## The three arrays the region reads, and the array it leaves -/

/-- The source words, one per edge, as the region finds them. -/
def srcA2 (c : Dev nD) : S851968.Idx → BitVec 32 := (cfg2.win 0).arr.view.read (Elt Ideal) (V c (Pipeline.arrRef spec2 0))
/-- The scaling factors, one per edge. -/
def nrmA2 (c : Dev nD) : S851968.Idx → EReal := (cfg2.win 1).arr.view.read (Elt Ideal) (V c (Pipeline.arrRef spec2 1))
/-- The table of node rows. -/
def HA2 (c : Dev nD) : S51200x64.Idx → EReal := (cfg2.win 2).arr.view.read (Elt Ideal) (V c (Pipeline.arrRef spec2 2))

/-- Entry (e, c') of the result: the table's row number src e, column c', when the word src e read unsigned is a row
    number, and zero otherwise; times the edge's factor. -/
def msg2 (c : Dev nD) (e : Fin 851968) (c' : Fin 64) : EReal :=
  (if h : (srcA2 V c (ix1 e)).toNat < 51200 then HA2 V c (ix2 ⟨(srcA2 V c (ix1 e)).toNat, h⟩ c') else 0) * nrmA2 V c (ix1 e)

/-- The result as one array. -/
def msgA2 (c : Dev nD) : S851968x64.Idx → EReal := fun j => msg2 V c (j 0) (j 1)

/-! ## The grid: point t is edge block t / 50 and node block t % 50 -/

theorem idx_facts2 : ∀ t : Fin cfg2.N,
    win2_0.index t (0 : Fin 1) = t.val / 50
    ∧ win2_1.index t (0 : Fin 1) = t.val / 50
    ∧ win2_2.index t (0 : Fin 2) = t.val % 50 ∧ win2_2.index t (1 : Fin 2) = 0
    ∧ win2_3.index t (0 : Fin 2) = t.val / 50 ∧ win2_3.index t (1 : Fin 2) = 0
    ∧ ((grid2.coords t) 1).val = t.val % 50 :=
  (by decide +kernel : ∀ t : Fin grid2.N, _)

/-! ## Each input block read off its array -/

/-- Entry e of the block of source words at point t is word (t / 50) · 8192 + e. -/
theorem read2_0 (c : Dev nD) (t : Fin cfg2.N) (e : Fin 8192) (k : Fin 851968) (hk : k.val = t.val / 50 * 8192 + e.val) :
    (iblk2 V c 0 t : Vec Ideal S8192 .i32) (ix1 e) = srcA2 V c (ix1 k) := by
  obtain ⟨e0, -⟩ := idx_facts2 t
  show V c (Pipeline.arrRef spec2 0) (((cfg2.win 0).blk t).view.emb (ix1 e)) = V c (Pipeline.arrRef spec2 0) (ix1 k)
  refine congrArg _ (funext fun d => Fin.ext ?_)
  match d with
  | ⟨0, _⟩ =>
    show win2_0.index t (0 : Fin 1) * 8192 + 1 * e.val = k.val
    rw [e0, hk]; omega

/-- The same for the block of factors. -/
theorem read2_1 (c : Dev nD) (t : Fin cfg2.N) (e : Fin 8192) (k : Fin 851968) (hk : k.val = t.val / 50 * 8192 + e.val) :
    (iblk2 V c 1 t : Vec Ideal S8192 .f32) (ix1 e) = nrmA2 V c (ix1 k) := by
  obtain ⟨-, e1, -⟩ := idx_facts2 t
  show V c (Pipeline.arrRef spec2 1) (((cfg2.win 1).blk t).view.emb (ix1 e)) = V c (Pipeline.arrRef spec2 1) (ix1 k)
  refine congrArg _ (funext fun d => Fin.ext ?_)
  match d with
  | ⟨0, _⟩ =>
    show win2_1.index t (0 : Fin 1) * 8192 + 1 * e.val = k.val
    rw [e1, hk]; omega

/-- Entry (a, c') of the table's block at point t is the table's entry ((t % 50) · 1024 + a, c'). -/
theorem read2_2 (c : Dev nD) (t : Fin cfg2.N) (a : Fin 1024) (c' : Fin 64) (k : Fin 51200) (hk : k.val = t.val % 50 * 1024 + a.val) :
    (iblk2 V c 2 t : Vec Ideal S1024x64 .bf16) (ix2 a c') = HA2 V c (ix2 k c') := by
  obtain ⟨-, -, e2, e3, -⟩ := idx_facts2 t
  show V c (Pipeline.arrRef spec2 2) (((cfg2.win 2).blk t).view.emb (ix2 a c')) = V c (Pipeline.arrRef spec2 2) (ix2 k c')
  refine congrArg _ (funext fun d => Fin.ext ?_)
  match d with
  | ⟨0, _⟩ =>
    show win2_2.index t (0 : Fin 2) * 1024 + 1 * a.val = k.val
    rw [e2, hk]; omega
  | ⟨1, _⟩ =>
    show win2_2.index t (1 : Fin 2) * 64 + 1 * c'.val = c'.val
    rw [e3]; omega

/-! ## The running sum along a row -/

/-- The source words of edge block eb. -/
def srcRow2 (c : Dev nD) (eb : Fin 104) : Fin 8192 → BitVec 32 :=
  fun e => srcA2 V c (ix1 ⟨eb.val * 8192 + e.val, by have := eb.isLt; have := e.isLt; omega⟩)

/-- The table by row number and column. -/
def Hrows2 (c : Dev nD) : Fin (50 * 1024) → Fin 64 → EReal := fun n c' => HA2 V c (ix2 (⟨n.val, n.isLt⟩ : Fin 51200) c')

theorem acc2_congr (c : Dev nD) {n n' : ℕ} (h : n = n') (hn : n < cfg2.N) (hn' : n' < cfg2.N) :
    acc2 V c n hn = acc2 V c n' hn' := by subst h; rfl

/-- One point's step, at point t = eb · 50 + nb, over the arrays: entry (e, c') adds the sum over the rows a of node block
    nb of the one-hot entry of row number nb · 1024 + a against edge e's source word, times the table's entry. -/
theorem step2_eq (c : Dev nD) (t : Fin cfg2.N) (eb : Fin 104) (nb : ℕ) (hnb : nb < 50) (ht : t.val = eb.val * 50 + nb)
    (xs : Vec Ideal S8192x64 .f32) (e : Fin 8192) (c' : Fin 64) :
    k2_pay2 (F := Ideal) (grid2.coords t) (iblk2 V c 0 t) (iblk2 V c 2 t) xs (ix2 e c')
      = xs (ix2 e c') + ∑ a : Fin 1024, hot (BitVec.ofNat 32 (nb * 1024 + a.val)) (srcRow2 V c eb e)
          * Hrows2 V c ⟨nb * 1024 + a.val, block_lt hnb a⟩ c' := by
  obtain ⟨-, -, -, -, -, -, hco⟩ := idx_facts2 t
  have hdiv : t.val / 50 = eb.val := by omega
  have hmod : t.val % 50 = nb := by omega
  have hco' : ((grid2.coords t) 1).val = nb := hco.trans hmod
  refine (PayValue.k2_pay2_apply (grid2.coords t) (iblk2 V c 0 t) (iblk2 V c 2 t) xs e c').trans ?_
  refine congrArg (xs (ix2 e c') + ·) (Finset.sum_congr rfl fun a _ => ?_)
  refine congrArg₂ (· * ·) (congrArg₂ hot ?_ ?_) ?_
  · rw [hco']
  · exact read2_0 V c t e _ (by rw [hdiv])
  · exact read2_2 V c t a c' _ (by rw [hmod])

/-- After node block nb of edge block eb the accumulator is the gather's partial sum over node blocks 0 … nb. -/
theorem acc2_row (c : Dev nD) (eb : Fin 104) : ∀ (nb : ℕ) (hnb : nb < 50) (hn : eb.val * 50 + nb < cfg2.N) (e : Fin 8192) (c' : Fin 64),
    acc2 V c (eb.val * 50 + nb) hn (ix2 e c')
      = gacc (NB := 50) (BN := 1024) (srcRow2 V c eb) (Hrows2 V c) (nb + 1) (Nat.succ_le_of_lt hnb) e c'
  | 0, hnb, hn, e, c' => by
    have h0 : (⟨eb.val * 50 + 0, hn⟩ : Fin cfg2.N).val % 50 = 0 := by show (eb.val * 50 + 0) % 50 = 0; omega
    refine (congrFun (acc2_first V c ⟨eb.val * 50 + 0, hn⟩ h0) (ix2 e c')).trans ?_
    refine (step2_eq V c ⟨eb.val * 50 + 0, hn⟩ eb 0 hnb rfl (k2_pay1 (F := Ideal)) e c').trans ?_
    rw [PayValue.k2_pay1_apply]
    rfl
  | nb + 1, hnb, hn, e, c' => by
    have h0 : ¬ (⟨eb.val * 50 + (nb + 1), hn⟩ : Fin cfg2.N).val % 50 = 0 := by
      show ¬ (eb.val * 50 + (nb + 1)) % 50 = 0; omega
    refine (congrFun (acc2_next V c ⟨eb.val * 50 + (nb + 1), hn⟩ h0) (ix2 e c')).trans ?_
    refine (step2_eq V c ⟨eb.val * 50 + (nb + 1), hn⟩ eb (nb + 1) hnb rfl _ e c').trans ?_
    have hn' : eb.val * 50 + nb < cfg2.N := Nat.lt_of_succ_lt hn
    rw [acc2_congr V c (show eb.val * 50 + (nb + 1) - 1 = eb.val * 50 + nb by omega) _ hn']
    rw [acc2_row c eb nb (Nat.lt_of_succ_lt hnb) hn' e c']
    rfl

/-- At the last point of a row the accumulator's entry (e, c') is the table's row number src e, or zero. -/
theorem acc2_last (c : Dev nD) (t : Fin cfg2.N) (h : t.val % 50 = 49) (ht : t.val / 50 < 104) (e : Fin 8192) (c' : Fin 64) :
    acc2 V c t.val t.isLt (ix2 e c')
      = if hs : (srcRow2 V c ⟨t.val / 50, ht⟩ e).toNat < 50 * 1024 then Hrows2 V c ⟨(srcRow2 V c ⟨t.val / 50, ht⟩ e).toNat, hs⟩ c' else 0 := by
  have hv : t.val = (⟨t.val / 50, ht⟩ : Fin 104).val * 50 + 49 := by show t.val = t.val / 50 * 50 + 49; omega
  rw [acc2_congr V c hv t.isLt (hv ▸ t.isLt)]
  refine (acc2_row V c ⟨t.val / 50, ht⟩ 49 (by norm_num) _ e c').trans ?_
  exact gacc_full (srcRow2 V c ⟨t.val / 50, ht⟩) (Hrows2 V c) (by norm_num) e c'

/-! ## What a point writes back, the cover, the array -/

/-- The block written back at the last point of a row is that block of the result array. -/
theorem flushed2_eq (c : Dev nD) (t : Fin cfg2.N) (hf : (cfg2.win 3).flush t = true) :
    (dat2 V c).flushed 3 t = ((cfg2.win 3).blk t).view.read (Elt Ideal) (msgA2 V c) := by
  have h49 : t.val % 50 = 49 := (flush2_3 t).mp hf
  have hN : t.val < 5200 := lt_of_lt_of_eq t.isLt N_2
  have ht : t.val / 50 < 104 := by omega
  obtain ⟨-, -, -, -, e4, e5, -⟩ := idx_facts2 t
  show (cfg2.win 3).cut (grid2.coords t) ((dat2 V c).after 3 t) = _
  rw [after2_3]
  funext y
  obtain ⟨e, c', rfl⟩ : ∃ (e : Fin 8192) (c' : Fin 64), y = ix2 e c' := ⟨y 0, y 1, eq_ix2 y⟩
  show k2_pay3 (F := Ideal) (iblk2 V c 1 t) (acc2 V c t.val t.isLt) (ix2 e c')
    = msgA2 V c (((cfg2.win 3).blk t).view.emb (ix2 e c'))
  have hk : ((cfg2.win 3).blk t).view.emb (ix2 e c')
      = ix2 (⟨t.val / 50 * 8192 + e.val, by have := e.isLt; omega⟩ : Fin 851968) c' := by
    funext d; apply Fin.ext
    match d with
    | ⟨0, _⟩ =>
      show win2_3.index t (0 : Fin 2) * 8192 + 1 * e.val = t.val / 50 * 8192 + e.val
      rw [e4]; omega
    | ⟨1, _⟩ =>
      show win2_3.index t (1 : Fin 2) * 64 + 1 * c'.val = c'.val
      rw [e5]; omega
  rw [hk]
  refine (PayValue.k2_pay3_apply (iblk2 V c 1 t) (acc2 V c t.val t.isLt) e c').trans ?_
  rw [acc2_last V c t h49 ht e c', read2_1 V c t e ⟨t.val / 50 * 8192 + e.val, by have := e.isLt; omega⟩ rfl]
  rfl

/-- Row r of the result array lies in the block written back at the last point of grid row r / 8192. -/
theorem cover2 (i : S851968x64.Idx) :
    ∃ t : Fin cfg2.N, (cfg2.win 3).flush t = true ∧ i ∈ ((cfg2.win 3).blk t).view.set := by
  have hi0 : (i 0).val < 851968 := (i 0).isLt
  have hi1 : (i 1).val < 64 := (i 1).isLt
  have hN : cfg2.N = 5200 := N_2
  have htN : (i 0).val / 8192 * 50 + 49 < cfg2.N := by rw [hN]; omega
  refine ⟨⟨(i 0).val / 8192 * 50 + 49, htN⟩, (flush2_3 _).mpr (by show ((i 0).val / 8192 * 50 + 49) % 50 = 49; omega), ?_⟩
  obtain ⟨-, -, -, -, e4, e5, -⟩ := idx_facts2 ⟨(i 0).val / 8192 * 50 + 49, htN⟩
  have hdiv : ((i 0).val / 8192 * 50 + 49) / 50 = (i 0).val / 8192 := by omega
  show i ∈ ((View.whole main_v44).slice (win2_3.rect ⟨(i 0).val / 8192 * 50 + 49, htN⟩)).set
  rw [View.set_slice_whole, Rect.mem_set_unit]
  intro a
  match a with
  | ⟨0, _⟩ =>
    show win2_3.index ⟨(i 0).val / 8192 * 50 + 49, htN⟩ (0 : Fin 2) * 8192 ≤ (i 0).val
      ∧ (i 0).val < win2_3.index ⟨(i 0).val / 8192 * 50 + 49, htN⟩ (0 : Fin 2) * 8192 + 8192
    rw [e4]; show ((i 0).val / 8192 * 50 + 49) / 50 * 8192 ≤ _ ∧ _ < ((i 0).val / 8192 * 50 + 49) / 50 * 8192 + 8192
    rw [hdiv]; omega
  | ⟨1, _⟩ =>
    show win2_3.index ⟨(i 0).val / 8192 * 50 + 49, htN⟩ (1 : Fin 2) * 64 ≤ (i 1).val
      ∧ (i 1).val < win2_3.index ⟨(i 0).val / 8192 * 50 + 49, htN⟩ (1 : Fin 2) * 64 + 64
    rw [e5]; omega

/-- The output array after the region: entry (e, c') is the table's entry (src e, c') times the factor of edge e when the
    word src e, read unsigned, is below 51200, and zero times that factor otherwise. -/
theorem final2 (c : Dev nD) :
    ((cfg2.win 3).arr.view.read (Elt Ideal) ((dat2 V c).arrAt 3 cfg2.N) : S851968x64.Idx → EReal)
      = fun j => (if h : (srcA2 V c (ix1 (j 0))).toNat < 51200 then HA2 V c (ix2 ⟨(srcA2 V c (ix1 (j 0))).toNat, h⟩ (j 1)) else 0)
          * nrmA2 V c (ix1 (j 0)) := by
  rw [(dat2 V c).arrAt_eq_of_cover 3 (msgA2 V c) (flushed2_eq V c) cover2]
  rfl

end Cert.KernelIdeal.Val

end
-- ==== Proof.KIValue3.lean ====
/-
  What scatter region 3 leaves in its output array, as one function of the arrays it reads.

  The region's grid has 25 rows of 208 points. Point t belongs to node block nb = t / 208 (2048 nodes) and reads edge
  block eb = t % 208 (4096 edges): the edges' destination words, their message rows, and the one bias row. Along a row
  of the grid the scratch block holds a running sum, restarted at the row's first point: after point (nb, eb) its entry
  (a, c') is the sum, over the edges e below (eb + 1) · 4096, of the one-hot entry comparing the word of node
  nb · 2048 + a with the destination word of e, times the message entry (e, c'). After the row's last point this is the
  sum of the message entries (e, c') over those of the 208 · 4096 = 851968 edges whose destination word is the node's
  word. The last point of the row stores the hyperbolic tangent of that sum plus the bias entry c' into the output
  block, which is written back to rows nb · 2048 … nb · 2048 + 2047 of the output array. The 25 blocks tile the 51200
  rows, so the array ends holding, at every (n, c'), tanh(Σ over the edges e with dst e = word of n of msg(e, c') + bias(c')).
  Sums of extended reals against entries that are 0 or 1 need no finiteness, so nothing is assumed of the contents.
-/
import proofs.«130920_j16286515987226_2_alg».proof.Proof.KIRegion3
import proofs.«130920_j16286515987226_2_alg».proof.Proof.PayValue
import proofs.«130920_j16286515987226_2_alg».proof.Proof.LibOneHotFold
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.KernelIdeal.PayValue
open Idealize.ShloMosaic Idealize.ShloMosaic.TcCoe Idealize.ShloMosaic.ValueIdx
open Idealize.SL Idealize.SL.Sem
open Idealize.ShloMosaic.Pipeline (Dat)
open Cert.LibOneHot Cert.LibOneHotFold
open scoped BigOperators

section Region3

variable (V : (c : Dev nD) → (b : Ref sig .tc) → Buf (Elt Ideal) ((c : Thread nD τ).loc b))

/-- The three arrays the region reads, as it finds them: the edges' destination words, the messages, the bias row. -/
abbrev dst3 (c : Dev nD) : S851968.Idx → BitVec 32 := V c (Pipeline.arrRef spec3 0)
abbrev msg3 (c : Dev nD) : S851968x64.Idx → EReal := V c (Pipeline.arrRef spec3 1)
abbrev bias3 (c : Dev nD) : S1x64.Idx → EReal := V c (Pipeline.arrRef spec3 2)

/-- The grid's coordinates and the four index maps, at every point: point t is (t / 208, t % 208); the destination and
    message windows follow the edge block, the bias window stays, the output window follows the node block. -/
theorem where3 : ∀ t : Fin cfg3.N,
    ((grid3.coords t) 0).val = t.val / 208 ∧ ((grid3.coords t) 1).val = t.val % 208
    ∧ win3_0.index t (0 : Fin 1) = t.val % 208
    ∧ win3_1.index t (0 : Fin 2) = t.val % 208 ∧ win3_1.index t (1 : Fin 2) = 0
    ∧ win3_2.index t (0 : Fin 2) = 0 ∧ win3_2.index t (1 : Fin 2) = 0
    ∧ win3_3.index t (0 : Fin 2) = t.val / 208 ∧ win3_3.index t (1 : Fin 2) = 0 :=
  (by decide +kernel : ∀ t : Fin grid3.N, _)

/-- A block's coordinate in its array is the block index times the block size plus the coordinate inside the block:
    the destination block at point t, read at a, is the destination array at edge (t % 208) · 4096 + a; -/
theorem iblk3_0_apply (c : Dev nD) (t : Fin cfg3.N) (a : Fin 4096) (e : Fin 851968) (he : e.val = t.val % 208 * 4096 + a.val) :
    (iblk3 V c 0 t : S4096.Idx → BitVec 32) (ix1 a) = dst3 V c (ix1 e) := by
  obtain ⟨-, -, h0, -⟩ := where3 t
  unfold iblk3
  rw [View.read_apply]
  show V c (Pipeline.arrRef spec3 0) _ = V c (Pipeline.arrRef spec3 0) _
  refine congrArg (V c (Pipeline.arrRef spec3 0)) ?_
  funext d; apply Fin.ext
  match d with
  | ⟨0, _⟩ => show win3_0.index t 0 * 4096 + 1 * a.val = e.val; rw [h0, he]; omega

/-- the message block at (a, c') is the message array at that edge and column c'; -/
theorem iblk3_1_apply (c : Dev nD) (t : Fin cfg3.N) (a : Fin 4096) (c' : Fin 64) (e : Fin 851968) (he : e.val = t.val % 208 * 4096 + a.val) :
    (iblk3 V c 1 t : S4096x64.Idx → EReal) (ix2 a c') = msg3 V c (ix2 e c') := by
  obtain ⟨-, -, -, h0, h1, -⟩ := where3 t
  unfold iblk3
  rw [View.read_apply]
  show V c (Pipeline.arrRef spec3 1) _ = V c (Pipeline.arrRef spec3 1) _
  refine congrArg (V c (Pipeline.arrRef spec3 1)) ?_
  funext d; apply Fin.ext
  match d with
  | ⟨0, _⟩ => show win3_1.index t 0 * 4096 + 1 * a.val = e.val; rw [h0, he]; omega
  | ⟨1, _⟩ => show win3_1.index t 1 * 64 + 1 * c'.val = c'.val; rw [h1]; omega

/-- the bias block is the bias row. -/
theorem iblk3_2_apply (c : Dev nD) (t : Fin cfg3.N) (c' : Fin 64) :
    (iblk3 V c 2 t : S1x64.Idx → EReal) (ix2 (0 : Fin 1) c') = bias3 V c (ix2 (0 : Fin 1) c') := by
  obtain ⟨-, -, -, -, -, h0, h1, -⟩ := where3 t
  unfold iblk3
  rw [View.read_apply]
  show V c (Pipeline.arrRef spec3 2) _ = V c (Pipeline.arrRef spec3 2) _
  refine congrArg (V c (Pipeline.arrRef spec3 2)) ?_
  funext d; apply Fin.ext
  match d with
  | ⟨0, _⟩ => show win3_2.index t 0 * 1 + 1 * 0 = 0; rw [h0]
  | ⟨1, _⟩ => show win3_2.index t 1 * 64 + 1 * c'.val = c'.val; rw [h1]; omega

/-- 208 edge blocks of 4096 edges are all 851968 edges. -/
theorem edges3 : 208 * 4096 = 851968 := by norm_num

/-- The destination words and the messages indexed by the edge as block number times 4096 plus position. -/
def dstE3 (c : Dev nD) : Fin (208 * 4096) → BitVec 32 := fun e => dst3 V c (ix1 (Fin.cast edges3 e))
def msgE3 (c : Dev nD) : Fin (208 * 4096) → Fin 64 → EReal := fun e c' => msg3 V c (ix2 (Fin.cast edges3 e) c')

/-- One point's step on the scratch block, read at (a, c'): the accumulated entry plus the edge block's entries against
    their one-hot entries for the word of node nb · 2048 + a. -/
theorem step3 (c : Dev nD) (t : Fin cfg3.N) (nb eb : ℕ) (hnb : t.val / 208 = nb) (heb : t.val % 208 = eb) (hlt : eb < 208)
    (acc : Vec Ideal S2048x64 .f32) (a : Fin 2048) (c' : Fin 64) :
    k3_pay2 (F := Ideal) (grid3.coords t) (iblk3 V c 0 t) acc (iblk3 V c 1 t) (ix2 a c')
      = sstep (BitVec.ofNat 32 (nb * 2048 + a.val)) (dstE3 V c) (msgE3 V c) eb hlt (fun c'' => acc (ix2 a c'')) c' := by
  obtain ⟨g0, -⟩ := where3 t
  refine (k3_pay2_apply (grid3.coords t) (iblk3 V c 0 t) acc (iblk3 V c 1 t) a c').trans ?_
  unfold sstep
  refine congrArg (acc (ix2 a c') + ·) (Finset.sum_congr rfl fun e _ => ?_)
  rw [g0, hnb]
  exact congrArg₂ (fun x y => hot (BitVec.ofNat 32 (nb * 2048 + a.val)) x * y)
    (iblk3_0_apply V c t e (Fin.cast edges3 ⟨eb * 4096 + e.val, block_lt hlt e⟩) (by rw [heb]; rfl))
    (iblk3_1_apply V c t e c' (Fin.cast edges3 ⟨eb * 4096 + e.val, block_lt hlt e⟩) (by rw [heb]; rfl))

/-- The running sum depends on the point only through its number. -/
theorem acc3_cast (c : Dev nD) (n n' : ℕ) (h : n = n') (hn : n < cfg3.N) (hn' : n' < cfg3.N) :
    acc3 V c n hn = acc3 V c n' hn' := by subst h; rfl

/-- The running sum in closed form, by induction along a row of the grid: after point (nb, eb) entry (a, c') is the
    block-by-block accumulation over the first eb + 1 edge blocks, started from zero. -/
theorem acc3_closed (c : Dev nD) (nb : ℕ) (a : Fin 2048) :
    ∀ (eb : ℕ) (heb : eb < 208) (hn : nb * 208 + eb < cfg3.N) (c' : Fin 64),
      acc3 V c (nb * 208 + eb) hn (ix2 a c')
        = sacc (BitVec.ofNat 32 (nb * 2048 + a.val)) (dstE3 V c) (msgE3 V c) (eb + 1) (Nat.succ_le_of_lt heb) c' := by
  intro eb
  induction eb with
  | zero =>
    intro heb hn c'
    have hmod : (⟨nb * 208 + 0, hn⟩ : Fin cfg3.N).val % 208 = 0 := by show (nb * 208 + 0) % 208 = 0; omega
    have hdiv : (⟨nb * 208 + 0, hn⟩ : Fin cfg3.N).val / 208 = nb := by show (nb * 208 + 0) / 208 = nb; omega
    refine (congrFun (acc3_first V c ⟨nb * 208 + 0, hn⟩ hmod) (ix2 a c')).trans ?_
    refine (step3 V c ⟨nb * 208 + 0, hn⟩ nb 0 hdiv hmod heb (k3_pay1 (F := Ideal)) a c').trans ?_
    exact congrArg (fun f => sstep (BitVec.ofNat 32 (nb * 2048 + a.val)) (dstE3 V c) (msgE3 V c) 0 heb f c')
      (funext fun c'' => k3_pay1_apply a c'')
  | succ eb ih =>
    intro heb hn c'
    have hmod : (⟨nb * 208 + (eb + 1), hn⟩ : Fin cfg3.N).val % 208 = eb + 1 := by show (nb * 208 + (eb + 1)) % 208 = eb + 1; omega
    have hdiv : (⟨nb * 208 + (eb + 1), hn⟩ : Fin cfg3.N).val / 208 = nb := by show (nb * 208 + (eb + 1)) / 208 = nb; omega
    have hne : ¬ (⟨nb * 208 + (eb + 1), hn⟩ : Fin cfg3.N).val % 208 = 0 := by rw [hmod]; omega
    refine (congrFun (acc3_next V c ⟨nb * 208 + (eb + 1), hn⟩ hne) (ix2 a c')).trans ?_
    refine (step3 V c ⟨nb * 208 + (eb + 1), hn⟩ nb (eb + 1) hdiv hmod heb _ a c').trans ?_
    refine congrArg (fun f => sstep (BitVec.ofNat 32 (nb * 2048 + a.val)) (dstE3 V c) (msgE3 V c) (eb + 1) heb f c') (funext fun c'' => ?_)
    have hn' : nb * 208 + eb < cfg3.N := by omega
    refine (congrFun (acc3_cast V c _ (nb * 208 + eb) (by show nb * 208 + (eb + 1) - 1 = nb * 208 + eb; omega) _ hn') (ix2 a c'')).trans ?_
    exact ih (by omega) hn' c''

/-- Re-indexing a filtered sum along an equation between the two index bounds. -/
theorem sum_filter_cast3 {n m : ℕ} (h : n = m) (w : BitVec 32) (d : Fin m → BitVec 32) (g : Fin m → EReal) :
    ∑ e ∈ Finset.univ.filter (fun e : Fin n => d (Fin.cast h e) = w), g (Fin.cast h e)
      = ∑ e ∈ Finset.univ.filter (fun e : Fin m => d e = w), g e := by
  subst h; rfl

/-- At the last point of row nb the running sum at (a, c') is the sum of the messages' entries c' over the edges whose
    destination word is the word of the node nb · 2048 + a. -/
theorem acc3_last (c : Dev nD) (t : Fin cfg3.N) (h207 : t.val % 208 = 207) (a : Fin 2048) (c' : Fin 64) :
    acc3 V c t.val t.isLt (ix2 a c')
      = ∑ e ∈ Finset.univ.filter (fun e : Fin 851968 => dst3 V c (ix1 e) = BitVec.ofNat 32 (t.val / 208 * 2048 + a.val)),
          msg3 V c (ix2 e c') := by
  have hN : t.val < 5200 := lt_of_lt_of_eq t.isLt N_3
  have hn' : t.val / 208 * 208 + 207 < cfg3.N := lt_of_lt_of_eq (show t.val / 208 * 208 + 207 < 5200 by omega) N_3.symm
  refine (congrFun (acc3_cast V c _ (t.val / 208 * 208 + 207) (by omega) _ hn') (ix2 a c')).trans ?_
  refine (acc3_closed V c (t.val / 208) a 207 (by norm_num) hn' c').trans ?_
  refine (sacc_eq_filter (BitVec.ofNat 32 (t.val / 208 * 2048 + a.val)) (dstE3 V c) (msgE3 V c) c').trans ?_
  exact sum_filter_cast3 edges3 (BitVec.ofNat 32 (t.val / 208 * 2048 + a.val)) (fun e => dst3 V c (ix1 e)) (fun e => msg3 V c (ix2 e c'))

/-- Entry (n, c') of the region's output, as a function of the three arrays it reads: the hyperbolic tangent of the sum of
    the messages' entries c' over the edges whose destination word is the word of n, plus the bias entry c'. -/
def outAt3 (c : Dev nD) (n : Fin 51200) (c' : Fin 64) : EReal :=
  FloatOps.tanh (F := Ideal) (φ := .f32)
    ((∑ e ∈ Finset.univ.filter (fun e : Fin 851968 => dst3 V c (ix1 e) = BitVec.ofNat 32 n.val), msg3 V c (ix2 e c'))
      + bias3 V c (ix2 (0 : Fin 1) c'))

/-- The region's output as one whole-array function. -/
def out3 (c : Dev nD) : S51200x64.Idx → EReal := fun j => outAt3 V c (j 0) (j 1)

theorem out3_apply (c : Dev nD) (n : Fin 51200) (c' : Fin 64) : out3 V c (ix2 n c') = outAt3 V c n c' := rfl

/-- Contents X of the output block at point t are what the write-back of a whole-array function G reads through the
    block, as soon as X at (a, c') is G at (row block · 2048 + a, c'). -/
theorem cut_eq_read3 (t : Fin cfg3.N) (X : S2048x64.Idx → EReal) (G : S51200x64.Idx → EReal)
    (h : ∀ (a : Fin 2048) (c' : Fin 64) (n : Fin 51200), n.val = t.val / 208 * 2048 + a.val → X (ix2 a c') = G (ix2 n c')) :
    (cfg3.win 3).cut (grid3.coords t) X = ((cfg3.win 3).blk t).view.read (Elt Ideal) G := by
  obtain ⟨-, -, -, -, -, -, -, h0, h1⟩ := where3 t
  have hN : t.val < 5200 := lt_of_lt_of_eq t.isLt N_3
  funext y
  obtain ⟨a, c', rfl⟩ : ∃ (a : Fin 2048) (c' : Fin 64), y = ix2 a c' := ⟨y 0, y 1, eq_ix2 y⟩
  rw [View.read_apply]
  have hj : ((cfg3.win 3).blk t).view.emb (ix2 a c') = (ix2 (⟨t.val / 208 * 2048 + a.val, by omega⟩ : Fin 51200) c' : S51200x64.Idx) := by
    funext d; apply Fin.ext
    match d with
    | ⟨0, _⟩ => show win3_3.index t 0 * 2048 + 1 * a.val = t.val / 208 * 2048 + a.val; rw [h0]; omega
    | ⟨1, _⟩ => show win3_3.index t 1 * 64 + 1 * c'.val = c'.val; rw [h1]; omega
  rw [hj]
  show X _ = G _
  refine Eq.trans (congrArg X ?_) (h a c' ⟨t.val / 208 * 2048 + a.val, by omega⟩ rfl)
  funext d; apply Fin.ext
  match d with
  | ⟨0, _⟩ => rfl
  | ⟨1, _⟩ => rfl

section Data
open Idealize.ShloMosaic.Rounds
variable {c : Dev nD} (dat : Dat τ (Elt Ideal) Unit ℕ (UR sig nD τ) ℕ cfg3 c)
  (hafter : ∀ t, dat.after 3 t = k3_pay3 (acc3 V c t.val t.isLt) (iblk3 V c 2 t))

include hafter in
/-- What a point that writes back writes is its block of the whole-array function. -/
theorem flushed3_eq (t : Fin cfg3.N) (hf : (cfg3.win 3).flush t = true) :
    dat.flushed 3 t = ((cfg3.win 3).blk t).view.read (Elt Ideal) (out3 V c) := by
  have h207 : t.val % 208 = 207 := (flush3_3 t).mp hf
  show (cfg3.win 3).cut (grid3.coords t) (dat.after 3 t) = _
  rw [hafter]
  refine cut_eq_read3 t (k3_pay3 (F := Ideal) (acc3 V c t.val t.isLt) (iblk3 V c 2 t)) (out3 V c) fun a c' n hn => ?_
  refine (k3_pay3_apply (acc3 V c t.val t.isLt) (iblk3 V c 2 t) a c').trans ?_
  refine Eq.trans ?_ (out3_apply V c n c').symm
  unfold outAt3
  rw [hn]
  exact congrArg (FloatOps.tanh (F := Ideal) (φ := .f32)) (congrArg₂ (· + ·) (acc3_last V c t h207 a c') (iblk3_2_apply V c t c'))

/-- An index of the output array lies in point t's block iff each coordinate is in the block's range on its axis. -/
theorem mem_blk3 (t : Fin cfg3.N) (i : S51200x64.Idx) :
    i ∈ ((cfg3.win 3).blk t).view.set
      ↔ ∀ a : Fin 2, win3_3.index t a * S2048x64.size a ≤ (i a).val ∧ (i a).val < win3_3.index t a * S2048x64.size a + S2048x64.size a := by
  show i ∈ ((View.whole main_v46).slice (win3_3.rect t)).set ↔ _
  rw [View.set_slice_whole, Rect.mem_set_unit]
  exact Iff.rfl

/-- Row n of the output is written back by the last point of the row of the grid that owns node block n / 2048. -/
theorem cover3 (i : S51200x64.Idx) :
    ∃ t : Fin cfg3.N, (cfg3.win 3).flush t = true ∧ i ∈ ((cfg3.win 3).blk t).view.set := by
  have hi0 : (i 0).val < 51200 := idx2_lt0 i
  have hi1 : (i 1).val < 64 := idx2_lt1 i
  have ht : (i 0).val / 2048 * 208 + 207 < cfg3.N := lt_of_lt_of_eq (show (i 0).val / 2048 * 208 + 207 < 5200 by omega) N_3.symm
  have hmod : (⟨(i 0).val / 2048 * 208 + 207, ht⟩ : Fin cfg3.N).val % 208 = 207 := by
    show ((i 0).val / 2048 * 208 + 207) % 208 = 207; omega
  have hdiv : (⟨(i 0).val / 2048 * 208 + 207, ht⟩ : Fin cfg3.N).val / 208 = (i 0).val / 2048 := by
    show ((i 0).val / 2048 * 208 + 207) / 208 = (i 0).val / 2048; omega
  refine ⟨⟨(i 0).val / 2048 * 208 + 207, ht⟩, (flush3_3 _).mpr hmod, ?_⟩
  obtain ⟨-, -, -, -, -, -, -, h0, h1⟩ := where3 ⟨(i 0).val / 2048 * 208 + 207, ht⟩
  rw [mem_blk3]
  intro a
  match a with
  | ⟨0, _⟩ =>
    show win3_3.index _ 0 * 2048 ≤ (i 0).val ∧ (i 0).val < win3_3.index _ 0 * 2048 + 2048
    rw [h0, hdiv]; omega
  | ⟨1, _⟩ =>
    show win3_3.index _ 1 * 64 ≤ (i 1).val ∧ (i 1).val < win3_3.index _ 1 * 64 + 64
    rw [h1]; omega

include hafter in
/-- The output array after the region's pipeline. -/
theorem final3_of : dat.arrAt 3 cfg3.N = out3 V c :=
  dat.arrAt_eq_of_cover 3 (out3 V c) (fun t hf => flushed3_eq V dat hafter t hf) cover3

end Data

/-- The output array after the region's pipeline, entered from buffer contents V. -/
theorem final3_arr (c : Dev nD) : (dat3 V c).arrAt 3 cfg3.N = out3 V c :=
  final3_of V (dat3 V c) (after3_3 V c)

/-- The same, with the array read through its whole view. -/
theorem final3 (c : Dev nD) :
    ((cfg3.win 3).arr.view.read (Elt Ideal) ((dat3 V c).arrAt 3 cfg3.N) : S51200x64.Idx → EReal) = out3 V c :=
  (View.read_whole main_v46 ((dat3 V c).arrAt 3 cfg3.N)).trans (final3_arr V c)

/-- The whole-array function spelt out. -/
theorem out3_eq (c : Dev nD) :
    out3 V c = fun j => FloatOps.tanh (F := Ideal) (φ := .f32)
      ((∑ e ∈ Finset.univ.filter (fun e : Fin 851968 => dst3 V c (ix1 e) = BitVec.ofNat 32 (j 0).val), msg3 V c (ix2 e (j 1)))
        + bias3 V c (ix2 (0 : Fin 1) (j 1))) := rfl

end Region3
end Cert.KernelIdeal.Val
end
-- ==== Proof.KIValue4.lean ====
/-
  What gather region 4 leaves in its output array, as one function of the three arrays it reads.

  The grid has 104 · 50 points: point t works on edge block t / 50 (8192 edges) and node block t % 50 (1024 table rows).
  Along a row of the grid the accumulator block starts at zero and at node block nb adds, to entry (e, c'), the sum over
  the block's rows a of the one-hot entry comparing the row number nb · 1024 + a with the source word of edge e, times the
  table's entry (nb · 1024 + a, c'). After the 50 node blocks entry (e, c') is the table's row number src e when that word,
  read unsigned, is below 51200, and zero otherwise; the last point of the row scales it by the edge's factor and the block
  is written back to rows (t / 50) · 8192 … of the output. The 104 blocks written back tile the output array.
-/
import proofs.«130920_j16286515987226_2_alg».proof.Proof.KIRegion4
import proofs.«130920_j16286515987226_2_alg».proof.Proof.PayValue
import proofs.«130920_j16286515987226_2_alg».proof.Proof.LibOneHotFold
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.LibOneHot Cert.LibOneHotFold

variable (V : (c : Dev nD) → (b : Ref sig .tc) → Buf (Elt Ideal) ((c : Thread nD τ).loc b))

/-! ## The three arrays the region reads, and the array it leaves -/

/-- The source words, one per edge, as the region finds them. -/
def srcA4 (c : Dev nD) : S851968.Idx → BitVec 32 := (cfg4.win 0).arr.view.read (Elt Ideal) (V c (Pipeline.arrRef spec4 0))
/-- The scaling factors, one per edge. -/
def nrmA4 (c : Dev nD) : S851968.Idx → EReal := (cfg4.win 1).arr.view.read (Elt Ideal) (V c (Pipeline.arrRef spec4 1))
/-- The table of node rows. -/
def HA4 (c : Dev nD) : S51200x32.Idx → EReal := (cfg4.win 2).arr.view.read (Elt Ideal) (V c (Pipeline.arrRef spec4 2))

/-- Entry (e, c') of the result: the table's row number src e, column c', when the word src e read unsigned is a row
    number, and zero otherwise; times the edge's factor. -/
def msg4 (c : Dev nD) (e : Fin 851968) (c' : Fin 32) : EReal :=
  (if h : (srcA4 V c (ix1 e)).toNat < 51200 then HA4 V c (ix2 ⟨(srcA4 V c (ix1 e)).toNat, h⟩ c') else 0) * nrmA4 V c (ix1 e)

/-- The result as one array. -/
def msgA4 (c : Dev nD) : S851968x32.Idx → EReal := fun j => msg4 V c (j 0) (j 1)

/-! ## The grid: point t is edge block t / 50 and node block t % 50 -/

theorem idx_facts4 : ∀ t : Fin cfg4.N,
    win4_0.index t (0 : Fin 1) = t.val / 50
    ∧ win4_1.index t (0 : Fin 1) = t.val / 50
    ∧ win4_2.index t (0 : Fin 2) = t.val % 50 ∧ win4_2.index t (1 : Fin 2) = 0
    ∧ win4_3.index t (0 : Fin 2) = t.val / 50 ∧ win4_3.index t (1 : Fin 2) = 0
    ∧ ((grid4.coords t) 1).val = t.val % 50 :=
  (by decide +kernel : ∀ t : Fin grid4.N, _)

/-! ## Each input block read off its array -/

/-- Entry e of the block of source words at point t is word (t / 50) · 8192 + e. -/
theorem read4_0 (c : Dev nD) (t : Fin cfg4.N) (e : Fin 8192) (k : Fin 851968) (hk : k.val = t.val / 50 * 8192 + e.val) :
    (iblk4 V c 0 t : Vec Ideal S8192 .i32) (ix1 e) = srcA4 V c (ix1 k) := by
  obtain ⟨e0, -⟩ := idx_facts4 t
  show V c (Pipeline.arrRef spec4 0) (((cfg4.win 0).blk t).view.emb (ix1 e)) = V c (Pipeline.arrRef spec4 0) (ix1 k)
  refine congrArg _ (funext fun d => Fin.ext ?_)
  match d with
  | ⟨0, _⟩ =>
    show win4_0.index t (0 : Fin 1) * 8192 + 1 * e.val = k.val
    rw [e0, hk]; omega

/-- The same for the block of factors. -/
theorem read4_1 (c : Dev nD) (t : Fin cfg4.N) (e : Fin 8192) (k : Fin 851968) (hk : k.val = t.val / 50 * 8192 + e.val) :
    (iblk4 V c 1 t : Vec Ideal S8192 .f32) (ix1 e) = nrmA4 V c (ix1 k) := by
  obtain ⟨-, e1, -⟩ := idx_facts4 t
  show V c (Pipeline.arrRef spec4 1) (((cfg4.win 1).blk t).view.emb (ix1 e)) = V c (Pipeline.arrRef spec4 1) (ix1 k)
  refine congrArg _ (funext fun d => Fin.ext ?_)
  match d with
  | ⟨0, _⟩ =>
    show win4_1.index t (0 : Fin 1) * 8192 + 1 * e.val = k.val
    rw [e1, hk]; omega

/-- Entry (a, c') of the table's block at point t is the table's entry ((t % 50) · 1024 + a, c'). -/
theorem read4_2 (c : Dev nD) (t : Fin cfg4.N) (a : Fin 1024) (c' : Fin 32) (k : Fin 51200) (hk : k.val = t.val % 50 * 1024 + a.val) :
    (iblk4 V c 2 t : Vec Ideal S1024x32 .bf16) (ix2 a c') = HA4 V c (ix2 k c') := by
  obtain ⟨-, -, e2, e3, -⟩ := idx_facts4 t
  show V c (Pipeline.arrRef spec4 2) (((cfg4.win 2).blk t).view.emb (ix2 a c')) = V c (Pipeline.arrRef spec4 2) (ix2 k c')
  refine congrArg _ (funext fun d => Fin.ext ?_)
  match d with
  | ⟨0, _⟩ =>
    show win4_2.index t (0 : Fin 2) * 1024 + 1 * a.val = k.val
    rw [e2, hk]; omega
  | ⟨1, _⟩ =>
    show win4_2.index t (1 : Fin 2) * 32 + 1 * c'.val = c'.val
    rw [e3]; omega

/-! ## The running sum along a row -/

/-- The source words of edge block eb. -/
def srcRow4 (c : Dev nD) (eb : Fin 104) : Fin 8192 → BitVec 32 :=
  fun e => srcA4 V c (ix1 ⟨eb.val * 8192 + e.val, by have := eb.isLt; have := e.isLt; omega⟩)

/-- The table by row number and column. -/
def Hrows4 (c : Dev nD) : Fin (50 * 1024) → Fin 32 → EReal := fun n c' => HA4 V c (ix2 (⟨n.val, n.isLt⟩ : Fin 51200) c')

theorem acc4_congr (c : Dev nD) {n n' : ℕ} (h : n = n') (hn : n < cfg4.N) (hn' : n' < cfg4.N) :
    acc4 V c n hn = acc4 V c n' hn' := by subst h; rfl

/-- One point's step, at point t = eb · 50 + nb, over the arrays: entry (e, c') adds the sum over the rows a of node block
    nb of the one-hot entry of row number nb · 1024 + a against edge e's source word, times the table's entry. -/
theorem step4_eq (c : Dev nD) (t : Fin cfg4.N) (eb : Fin 104) (nb : ℕ) (hnb : nb < 50) (ht : t.val = eb.val * 50 + nb)
    (xs : Vec Ideal S8192x32 .f32) (e : Fin 8192) (c' : Fin 32) :
    k4_pay2 (F := Ideal) (grid4.coords t) (iblk4 V c 0 t) (iblk4 V c 2 t) xs (ix2 e c')
      = xs (ix2 e c') + ∑ a : Fin 1024, hot (BitVec.ofNat 32 (nb * 1024 + a.val)) (srcRow4 V c eb e)
          * Hrows4 V c ⟨nb * 1024 + a.val, block_lt hnb a⟩ c' := by
  obtain ⟨-, -, -, -, -, -, hco⟩ := idx_facts4 t
  have hdiv : t.val / 50 = eb.val := by omega
  have hmod : t.val % 50 = nb := by omega
  have hco' : ((grid4.coords t) 1).val = nb := hco.trans hmod
  refine (PayValue.k4_pay2_apply (grid4.coords t) (iblk4 V c 0 t) (iblk4 V c 2 t) xs e c').trans ?_
  refine congrArg (xs (ix2 e c') + ·) (Finset.sum_congr rfl fun a _ => ?_)
  refine congrArg₂ (· * ·) (congrArg₂ hot ?_ ?_) ?_
  · rw [hco']
  · exact read4_0 V c t e _ (by rw [hdiv])
  · exact read4_2 V c t a c' _ (by rw [hmod])

/-- After node block nb of edge block eb the accumulator is the gather's partial sum over node blocks 0 … nb. -/
theorem acc4_row (c : Dev nD) (eb : Fin 104) : ∀ (nb : ℕ) (hnb : nb < 50) (hn : eb.val * 50 + nb < cfg4.N) (e : Fin 8192) (c' : Fin 32),
    acc4 V c (eb.val * 50 + nb) hn (ix2 e c')
      = gacc (NB := 50) (BN := 1024) (srcRow4 V c eb) (Hrows4 V c) (nb + 1) (Nat.succ_le_of_lt hnb) e c'
  | 0, hnb, hn, e, c' => by
    have h0 : (⟨eb.val * 50 + 0, hn⟩ : Fin cfg4.N).val % 50 = 0 := by show (eb.val * 50 + 0) % 50 = 0; omega
    refine (congrFun (acc4_first V c ⟨eb.val * 50 + 0, hn⟩ h0) (ix2 e c')).trans ?_
    refine (step4_eq V c ⟨eb.val * 50 + 0, hn⟩ eb 0 hnb rfl (k4_pay1 (F := Ideal)) e c').trans ?_
    rw [PayValue.k4_pay1_apply]
    rfl
  | nb + 1, hnb, hn, e, c' => by
    have h0 : ¬ (⟨eb.val * 50 + (nb + 1), hn⟩ : Fin cfg4.N).val % 50 = 0 := by
      show ¬ (eb.val * 50 + (nb + 1)) % 50 = 0; omega
    refine (congrFun (acc4_next V c ⟨eb.val * 50 + (nb + 1), hn⟩ h0) (ix2 e c')).trans ?_
    refine (step4_eq V c ⟨eb.val * 50 + (nb + 1), hn⟩ eb (nb + 1) hnb rfl _ e c').trans ?_
    have hn' : eb.val * 50 + nb < cfg4.N := Nat.lt_of_succ_lt hn
    rw [acc4_congr V c (show eb.val * 50 + (nb + 1) - 1 = eb.val * 50 + nb by omega) _ hn']
    rw [acc4_row c eb nb (Nat.lt_of_succ_lt hnb) hn' e c']
    rfl

/-- At the last point of a row the accumulator's entry (e, c') is the table's row number src e, or zero. -/
theorem acc4_last (c : Dev nD) (t : Fin cfg4.N) (h : t.val % 50 = 49) (ht : t.val / 50 < 104) (e : Fin 8192) (c' : Fin 32) :
    acc4 V c t.val t.isLt (ix2 e c')
      = if hs : (srcRow4 V c ⟨t.val / 50, ht⟩ e).toNat < 50 * 1024 then Hrows4 V c ⟨(srcRow4 V c ⟨t.val / 50, ht⟩ e).toNat, hs⟩ c' else 0 := by
  have hv : t.val = (⟨t.val / 50, ht⟩ : Fin 104).val * 50 + 49 := by show t.val = t.val / 50 * 50 + 49; omega
  rw [acc4_congr V c hv t.isLt (hv ▸ t.isLt)]
  refine (acc4_row V c ⟨t.val / 50, ht⟩ 49 (by norm_num) _ e c').trans ?_
  exact gacc_full (srcRow4 V c ⟨t.val / 50, ht⟩) (Hrows4 V c) (by norm_num) e c'

/-! ## What a point writes back, the cover, the array -/

/-- The block written back at the last point of a row is that block of the result array. -/
theorem flushed4_eq (c : Dev nD) (t : Fin cfg4.N) (hf : (cfg4.win 3).flush t = true) :
    (dat4 V c).flushed 3 t = ((cfg4.win 3).blk t).view.read (Elt Ideal) (msgA4 V c) := by
  have h49 : t.val % 50 = 49 := (flush4_3 t).mp hf
  have hN : t.val < 5200 := lt_of_lt_of_eq t.isLt N_4
  have ht : t.val / 50 < 104 := by omega
  obtain ⟨-, -, -, -, e4, e5, -⟩ := idx_facts4 t
  show (cfg4.win 3).cut (grid4.coords t) ((dat4 V c).after 3 t) = _
  rw [after4_3]
  funext y
  obtain ⟨e, c', rfl⟩ : ∃ (e : Fin 8192) (c' : Fin 32), y = ix2 e c' := ⟨y 0, y 1, eq_ix2 y⟩
  show k4_pay3 (F := Ideal) (iblk4 V c 1 t) (acc4 V c t.val t.isLt) (ix2 e c')
    = msgA4 V c (((cfg4.win 3).blk t).view.emb (ix2 e c'))
  have hk : ((cfg4.win 3).blk t).view.emb (ix2 e c')
      = ix2 (⟨t.val / 50 * 8192 + e.val, by have := e.isLt; omega⟩ : Fin 851968) c' := by
    funext d; apply Fin.ext
    match d with
    | ⟨0, _⟩ =>
      show win4_3.index t (0 : Fin 2) * 8192 + 1 * e.val = t.val / 50 * 8192 + e.val
      rw [e4]; omega
    | ⟨1, _⟩ =>
      show win4_3.index t (1 : Fin 2) * 32 + 1 * c'.val = c'.val
      rw [e5]; omega
  rw [hk]
  refine (PayValue.k4_pay3_apply (iblk4 V c 1 t) (acc4 V c t.val t.isLt) e c').trans ?_
  rw [acc4_last V c t h49 ht e c', read4_1 V c t e ⟨t.val / 50 * 8192 + e.val, by have := e.isLt; omega⟩ rfl]
  rfl

/-- Row r of the result array lies in the block written back at the last point of grid row r / 8192. -/
theorem cover4 (i : S851968x32.Idx) :
    ∃ t : Fin cfg4.N, (cfg4.win 3).flush t = true ∧ i ∈ ((cfg4.win 3).blk t).view.set := by
  have hi0 : (i 0).val < 851968 := (i 0).isLt
  have hi1 : (i 1).val < 32 := (i 1).isLt
  have hN : cfg4.N = 5200 := N_4
  have htN : (i 0).val / 8192 * 50 + 49 < cfg4.N := by rw [hN]; omega
  refine ⟨⟨(i 0).val / 8192 * 50 + 49, htN⟩, (flush4_3 _).mpr (by show ((i 0).val / 8192 * 50 + 49) % 50 = 49; omega), ?_⟩
  obtain ⟨-, -, -, -, e4, e5, -⟩ := idx_facts4 ⟨(i 0).val / 8192 * 50 + 49, htN⟩
  have hdiv : ((i 0).val / 8192 * 50 + 49) / 50 = (i 0).val / 8192 := by omega
  show i ∈ ((View.whole main_v49).slice (win4_3.rect ⟨(i 0).val / 8192 * 50 + 49, htN⟩)).set
  rw [View.set_slice_whole, Rect.mem_set_unit]
  intro a
  match a with
  | ⟨0, _⟩ =>
    show win4_3.index ⟨(i 0).val / 8192 * 50 + 49, htN⟩ (0 : Fin 2) * 8192 ≤ (i 0).val
      ∧ (i 0).val < win4_3.index ⟨(i 0).val / 8192 * 50 + 49, htN⟩ (0 : Fin 2) * 8192 + 8192
    rw [e4]; show ((i 0).val / 8192 * 50 + 49) / 50 * 8192 ≤ _ ∧ _ < ((i 0).val / 8192 * 50 + 49) / 50 * 8192 + 8192
    rw [hdiv]; omega
  | ⟨1, _⟩ =>
    show win4_3.index ⟨(i 0).val / 8192 * 50 + 49, htN⟩ (1 : Fin 2) * 32 ≤ (i 1).val
      ∧ (i 1).val < win4_3.index ⟨(i 0).val / 8192 * 50 + 49, htN⟩ (1 : Fin 2) * 32 + 32
    rw [e5]; omega

/-- The output array after the region: entry (e, c') is the table's entry (src e, c') times the factor of edge e when the
    word src e, read unsigned, is below 51200, and zero times that factor otherwise. -/
theorem final4 (c : Dev nD) :
    ((cfg4.win 3).arr.view.read (Elt Ideal) ((dat4 V c).arrAt 3 cfg4.N) : S851968x32.Idx → EReal)
      = fun j => (if h : (srcA4 V c (ix1 (j 0))).toNat < 51200 then HA4 V c (ix2 ⟨(srcA4 V c (ix1 (j 0))).toNat, h⟩ (j 1)) else 0)
          * nrmA4 V c (ix1 (j 0)) := by
  rw [(dat4 V c).arrAt_eq_of_cover 3 (msgA4 V c) (flushed4_eq V c) cover4]
  rfl

end Cert.KernelIdeal.Val

end
-- ==== Proof.KIValue5.lean ====
/-
  What scatter region 5 leaves in its output array, as one function of the arrays it reads.

  The region's grid has 25 rows of 208 points. Point t belongs to node block nb = t / 208 (2048 nodes) and reads edge
  block eb = t % 208 (4096 edges): the edges' destination words, their message rows, and the one bias row. Along a row
  of the grid the scratch block holds a running sum, restarted at the row's first point: after point (nb, eb) its entry
  (a, c') is the sum, over the edges e below (eb + 1) · 4096, of the one-hot entry comparing the word of node
  nb · 2048 + a with the destination word of e, times the message entry (e, c'). After the row's last point this is the
  sum of the message entries (e, c') over those of the 208 · 4096 = 851968 edges whose destination word is the node's
  word. The last point of the row stores that sum plus the bias entry c' into the output
  block, which is written back to rows nb · 2048 … nb · 2048 + 2047 of the output array. The 25 blocks tile the 51200
  rows, so the array ends holding, at every (n, c'), Σ over the edges e with dst e = word of n of msg(e, c'), plus bias(c').
  Sums of extended reals against entries that are 0 or 1 need no finiteness, so nothing is assumed of the contents.
-/
import proofs.«130920_j16286515987226_2_alg».proof.Proof.KIRegion5
import proofs.«130920_j16286515987226_2_alg».proof.Proof.PayValue
import proofs.«130920_j16286515987226_2_alg».proof.Proof.LibOneHotFold
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.KernelIdeal.PayValue
open Idealize.ShloMosaic Idealize.ShloMosaic.TcCoe Idealize.ShloMosaic.ValueIdx
open Idealize.SL Idealize.SL.Sem
open Idealize.ShloMosaic.Pipeline (Dat)
open Cert.LibOneHot Cert.LibOneHotFold
open scoped BigOperators

section Region5

variable (V : (c : Dev nD) → (b : Ref sig .tc) → Buf (Elt Ideal) ((c : Thread nD τ).loc b))

/-- The three arrays the region reads, as it finds them: the edges' destination words, the messages, the bias row. -/
abbrev dst5 (c : Dev nD) : S851968.Idx → BitVec 32 := V c (Pipeline.arrRef spec5 0)
abbrev msg5 (c : Dev nD) : S851968x32.Idx → EReal := V c (Pipeline.arrRef spec5 1)
abbrev bias5 (c : Dev nD) : S1x32.Idx → EReal := V c (Pipeline.arrRef spec5 2)

/-- The grid's coordinates and the four index maps, at every point: point t is (t / 208, t % 208); the destination and
    message windows follow the edge block, the bias window stays, the output window follows the node block. -/
theorem where5 : ∀ t : Fin cfg5.N,
    ((grid5.coords t) 0).val = t.val / 208 ∧ ((grid5.coords t) 1).val = t.val % 208
    ∧ win5_0.index t (0 : Fin 1) = t.val % 208
    ∧ win5_1.index t (0 : Fin 2) = t.val % 208 ∧ win5_1.index t (1 : Fin 2) = 0
    ∧ win5_2.index t (0 : Fin 2) = 0 ∧ win5_2.index t (1 : Fin 2) = 0
    ∧ win5_3.index t (0 : Fin 2) = t.val / 208 ∧ win5_3.index t (1 : Fin 2) = 0 :=
  (by decide +kernel : ∀ t : Fin grid5.N, _)

/-- A block's coordinate in its array is the block index times the block size plus the coordinate inside the block:
    the destination block at point t, read at a, is the destination array at edge (t % 208) · 4096 + a; -/
theorem iblk5_0_apply (c : Dev nD) (t : Fin cfg5.N) (a : Fin 4096) (e : Fin 851968) (he : e.val = t.val % 208 * 4096 + a.val) :
    (iblk5 V c 0 t : S4096.Idx → BitVec 32) (ix1 a) = dst5 V c (ix1 e) := by
  obtain ⟨-, -, h0, -⟩ := where5 t
  unfold iblk5
  rw [View.read_apply]
  show V c (Pipeline.arrRef spec5 0) _ = V c (Pipeline.arrRef spec5 0) _
  refine congrArg (V c (Pipeline.arrRef spec5 0)) ?_
  funext d; apply Fin.ext
  match d with
  | ⟨0, _⟩ => show win5_0.index t 0 * 4096 + 1 * a.val = e.val; rw [h0, he]; omega

/-- the message block at (a, c') is the message array at that edge and column c'; -/
theorem iblk5_1_apply (c : Dev nD) (t : Fin cfg5.N) (a : Fin 4096) (c' : Fin 32) (e : Fin 851968) (he : e.val = t.val % 208 * 4096 + a.val) :
    (iblk5 V c 1 t : S4096x32.Idx → EReal) (ix2 a c') = msg5 V c (ix2 e c') := by
  obtain ⟨-, -, -, h0, h1, -⟩ := where5 t
  unfold iblk5
  rw [View.read_apply]
  show V c (Pipeline.arrRef spec5 1) _ = V c (Pipeline.arrRef spec5 1) _
  refine congrArg (V c (Pipeline.arrRef spec5 1)) ?_
  funext d; apply Fin.ext
  match d with
  | ⟨0, _⟩ => show win5_1.index t 0 * 4096 + 1 * a.val = e.val; rw [h0, he]; omega
  | ⟨1, _⟩ => show win5_1.index t 1 * 32 + 1 * c'.val = c'.val; rw [h1]; omega

/-- the bias block is the bias row. -/
theorem iblk5_2_apply (c : Dev nD) (t : Fin cfg5.N) (c' : Fin 32) :
    (iblk5 V c 2 t : S1x32.Idx → EReal) (ix2 (0 : Fin 1) c') = bias5 V c (ix2 (0 : Fin 1) c') := by
  obtain ⟨-, -, -, -, -, h0, h1, -⟩ := where5 t
  unfold iblk5
  rw [View.read_apply]
  show V c (Pipeline.arrRef spec5 2) _ = V c (Pipeline.arrRef spec5 2) _
  refine congrArg (V c (Pipeline.arrRef spec5 2)) ?_
  funext d; apply Fin.ext
  match d with
  | ⟨0, _⟩ => show win5_2.index t 0 * 1 + 1 * 0 = 0; rw [h0]
  | ⟨1, _⟩ => show win5_2.index t 1 * 32 + 1 * c'.val = c'.val; rw [h1]; omega

/-- 208 edge blocks of 4096 edges are all 851968 edges. -/
theorem edges5 : 208 * 4096 = 851968 := by norm_num

/-- The destination words and the messages indexed by the edge as block number times 4096 plus position. -/
def dstE5 (c : Dev nD) : Fin (208 * 4096) → BitVec 32 := fun e => dst5 V c (ix1 (Fin.cast edges5 e))
def msgE5 (c : Dev nD) : Fin (208 * 4096) → Fin 32 → EReal := fun e c' => msg5 V c (ix2 (Fin.cast edges5 e) c')

/-- One point's step on the scratch block, read at (a, c'): the accumulated entry plus the edge block's entries against
    their one-hot entries for the word of node nb · 2048 + a. -/
theorem step5 (c : Dev nD) (t : Fin cfg5.N) (nb eb : ℕ) (hnb : t.val / 208 = nb) (heb : t.val % 208 = eb) (hlt : eb < 208)
    (acc : Vec Ideal S2048x32 .f32) (a : Fin 2048) (c' : Fin 32) :
    k5_pay2 (F := Ideal) (grid5.coords t) (iblk5 V c 0 t) acc (iblk5 V c 1 t) (ix2 a c')
      = sstep (BitVec.ofNat 32 (nb * 2048 + a.val)) (dstE5 V c) (msgE5 V c) eb hlt (fun c'' => acc (ix2 a c'')) c' := by
  obtain ⟨g0, -⟩ := where5 t
  refine (k5_pay2_apply (grid5.coords t) (iblk5 V c 0 t) acc (iblk5 V c 1 t) a c').trans ?_
  unfold sstep
  refine congrArg (acc (ix2 a c') + ·) (Finset.sum_congr rfl fun e _ => ?_)
  rw [g0, hnb]
  exact congrArg₂ (fun x y => hot (BitVec.ofNat 32 (nb * 2048 + a.val)) x * y)
    (iblk5_0_apply V c t e (Fin.cast edges5 ⟨eb * 4096 + e.val, block_lt hlt e⟩) (by rw [heb]; rfl))
    (iblk5_1_apply V c t e c' (Fin.cast edges5 ⟨eb * 4096 + e.val, block_lt hlt e⟩) (by rw [heb]; rfl))

/-- The running sum depends on the point only through its number. -/
theorem acc5_cast (c : Dev nD) (n n' : ℕ) (h : n = n') (hn : n < cfg5.N) (hn' : n' < cfg5.N) :
    acc5 V c n hn = acc5 V c n' hn' := by subst h; rfl

/-- The running sum in closed form, by induction along a row of the grid: after point (nb, eb) entry (a, c') is the
    block-by-block accumulation over the first eb + 1 edge blocks, started from zero. -/
theorem acc5_closed (c : Dev nD) (nb : ℕ) (a : Fin 2048) :
    ∀ (eb : ℕ) (heb : eb < 208) (hn : nb * 208 + eb < cfg5.N) (c' : Fin 32),
      acc5 V c (nb * 208 + eb) hn (ix2 a c')
        = sacc (BitVec.ofNat 32 (nb * 2048 + a.val)) (dstE5 V c) (msgE5 V c) (eb + 1) (Nat.succ_le_of_lt heb) c' := by
  intro eb
  induction eb with
  | zero =>
    intro heb hn c'
    have hmod : (⟨nb * 208 + 0, hn⟩ : Fin cfg5.N).val % 208 = 0 := by show (nb * 208 + 0) % 208 = 0; omega
    have hdiv : (⟨nb * 208 + 0, hn⟩ : Fin cfg5.N).val / 208 = nb := by show (nb * 208 + 0) / 208 = nb; omega
    refine (congrFun (acc5_first V c ⟨nb * 208 + 0, hn⟩ hmod) (ix2 a c')).trans ?_
    refine (step5 V c ⟨nb * 208 + 0, hn⟩ nb 0 hdiv hmod heb (k5_pay1 (F := Ideal)) a c').trans ?_
    exact congrArg (fun f => sstep (BitVec.ofNat 32 (nb * 2048 + a.val)) (dstE5 V c) (msgE5 V c) 0 heb f c')
      (funext fun c'' => k5_pay1_apply a c'')
  | succ eb ih =>
    intro heb hn c'
    have hmod : (⟨nb * 208 + (eb + 1), hn⟩ : Fin cfg5.N).val % 208 = eb + 1 := by show (nb * 208 + (eb + 1)) % 208 = eb + 1; omega
    have hdiv : (⟨nb * 208 + (eb + 1), hn⟩ : Fin cfg5.N).val / 208 = nb := by show (nb * 208 + (eb + 1)) / 208 = nb; omega
    have hne : ¬ (⟨nb * 208 + (eb + 1), hn⟩ : Fin cfg5.N).val % 208 = 0 := by rw [hmod]; omega
    refine (congrFun (acc5_next V c ⟨nb * 208 + (eb + 1), hn⟩ hne) (ix2 a c')).trans ?_
    refine (step5 V c ⟨nb * 208 + (eb + 1), hn⟩ nb (eb + 1) hdiv hmod heb _ a c').trans ?_
    refine congrArg (fun f => sstep (BitVec.ofNat 32 (nb * 2048 + a.val)) (dstE5 V c) (msgE5 V c) (eb + 1) heb f c') (funext fun c'' => ?_)
    have hn' : nb * 208 + eb < cfg5.N := by omega
    refine (congrFun (acc5_cast V c _ (nb * 208 + eb) (by show nb * 208 + (eb + 1) - 1 = nb * 208 + eb; omega) _ hn') (ix2 a c'')).trans ?_
    exact ih (by omega) hn' c''

/-- Re-indexing a filtered sum along an equation between the two index bounds. -/
theorem sum_filter_cast5 {n m : ℕ} (h : n = m) (w : BitVec 32) (d : Fin m → BitVec 32) (g : Fin m → EReal) :
    ∑ e ∈ Finset.univ.filter (fun e : Fin n => d (Fin.cast h e) = w), g (Fin.cast h e)
      = ∑ e ∈ Finset.univ.filter (fun e : Fin m => d e = w), g e := by
  subst h; rfl

/-- At the last point of row nb the running sum at (a, c') is the sum of the messages' entries c' over the edges whose
    destination word is the word of the node nb · 2048 + a. -/
theorem acc5_last (c : Dev nD) (t : Fin cfg5.N) (h207 : t.val % 208 = 207) (a : Fin 2048) (c' : Fin 32) :
    acc5 V c t.val t.isLt (ix2 a c')
      = ∑ e ∈ Finset.univ.filter (fun e : Fin 851968 => dst5 V c (ix1 e) = BitVec.ofNat 32 (t.val / 208 * 2048 + a.val)),
          msg5 V c (ix2 e c') := by
  have hN : t.val < 5200 := lt_of_lt_of_eq t.isLt N_5
  have hn' : t.val / 208 * 208 + 207 < cfg5.N := lt_of_lt_of_eq (show t.val / 208 * 208 + 207 < 5200 by omega) N_5.symm
  refine (congrFun (acc5_cast V c _ (t.val / 208 * 208 + 207) (by omega) _ hn') (ix2 a c')).trans ?_
  refine (acc5_closed V c (t.val / 208) a 207 (by norm_num) hn' c').trans ?_
  refine (sacc_eq_filter (BitVec.ofNat 32 (t.val / 208 * 2048 + a.val)) (dstE5 V c) (msgE5 V c) c').trans ?_
  exact sum_filter_cast5 edges5 (BitVec.ofNat 32 (t.val / 208 * 2048 + a.val)) (fun e => dst5 V c (ix1 e)) (fun e => msg5 V c (ix2 e c'))

/-- Entry (n, c') of the region's output, as a function of the three arrays it reads: the sum of the messages' entries c'
    over the edges whose destination word is the word of n, plus the bias entry c'. -/
def outAt5 (c : Dev nD) (n : Fin 51200) (c' : Fin 32) : EReal :=
  (∑ e ∈ Finset.univ.filter (fun e : Fin 851968 => dst5 V c (ix1 e) = BitVec.ofNat 32 n.val), msg5 V c (ix2 e c'))
    + bias5 V c (ix2 (0 : Fin 1) c')

/-- The region's output as one whole-array function. -/
def out5 (c : Dev nD) : S51200x32.Idx → EReal := fun j => outAt5 V c (j 0) (j 1)

theorem out5_apply (c : Dev nD) (n : Fin 51200) (c' : Fin 32) : out5 V c (ix2 n c') = outAt5 V c n c' := rfl

/-- Contents X of the output block at point t are what the write-back of a whole-array function G reads through the
    block, as soon as X at (a, c') is G at (row block · 2048 + a, c'). -/
theorem cut_eq_read5 (t : Fin cfg5.N) (X : S2048x32.Idx → EReal) (G : S51200x32.Idx → EReal)
    (h : ∀ (a : Fin 2048) (c' : Fin 32) (n : Fin 51200), n.val = t.val / 208 * 2048 + a.val → X (ix2 a c') = G (ix2 n c')) :
    (cfg5.win 3).cut (grid5.coords t) X = ((cfg5.win 3).blk t).view.read (Elt Ideal) G := by
  obtain ⟨-, -, -, -, -, -, -, h0, h1⟩ := where5 t
  have hN : t.val < 5200 := lt_of_lt_of_eq t.isLt N_5
  funext y
  obtain ⟨a, c', rfl⟩ : ∃ (a : Fin 2048) (c' : Fin 32), y = ix2 a c' := ⟨y 0, y 1, eq_ix2 y⟩
  rw [View.read_apply]
  have hj : ((cfg5.win 3).blk t).view.emb (ix2 a c') = (ix2 (⟨t.val / 208 * 2048 + a.val, by omega⟩ : Fin 51200) c' : S51200x32.Idx) := by
    funext d; apply Fin.ext
    match d with
    | ⟨0, _⟩ => show win5_3.index t 0 * 2048 + 1 * a.val = t.val / 208 * 2048 + a.val; rw [h0]; omega
    | ⟨1, _⟩ => show win5_3.index t 1 * 32 + 1 * c'.val = c'.val; rw [h1]; omega
  rw [hj]
  show X _ = G _
  refine Eq.trans (congrArg X ?_) (h a c' ⟨t.val / 208 * 2048 + a.val, by omega⟩ rfl)
  funext d; apply Fin.ext
  match d with
  | ⟨0, _⟩ => rfl
  | ⟨1, _⟩ => rfl

section Data
open Idealize.ShloMosaic.Rounds
variable {c : Dev nD} (dat : Dat τ (Elt Ideal) Unit ℕ (UR sig nD τ) ℕ cfg5 c)
  (hafter : ∀ t, dat.after 3 t = k5_pay3 (acc5 V c t.val t.isLt) (iblk5 V c 2 t))

include hafter in
/-- What a point that writes back writes is its block of the whole-array function. -/
theorem flushed5_eq (t : Fin cfg5.N) (hf : (cfg5.win 3).flush t = true) :
    dat.flushed 3 t = ((cfg5.win 3).blk t).view.read (Elt Ideal) (out5 V c) := by
  have h207 : t.val % 208 = 207 := (flush5_3 t).mp hf
  show (cfg5.win 3).cut (grid5.coords t) (dat.after 3 t) = _
  rw [hafter]
  refine cut_eq_read5 t (k5_pay3 (F := Ideal) (acc5 V c t.val t.isLt) (iblk5 V c 2 t)) (out5 V c) fun a c' n hn => ?_
  refine (k5_pay3_apply (acc5 V c t.val t.isLt) (iblk5 V c 2 t) a c').trans ?_
  refine Eq.trans ?_ (out5_apply V c n c').symm
  unfold outAt5
  rw [hn]
  exact congrArg₂ (· + ·) (acc5_last V c t h207 a c') (iblk5_2_apply V c t c')

/-- An index of the output array lies in point t's block iff each coordinate is in the block's range on its axis. -/
theorem mem_blk5 (t : Fin cfg5.N) (i : S51200x32.Idx) :
    i ∈ ((cfg5.win 3).blk t).view.set
      ↔ ∀ a : Fin 2, win5_3.index t a * S2048x32.size a ≤ (i a).val ∧ (i a).val < win5_3.index t a * S2048x32.size a + S2048x32.size a := by
  show i ∈ ((View.whole main_v51).slice (win5_3.rect t)).set ↔ _
  rw [View.set_slice_whole, Rect.mem_set_unit]
  exact Iff.rfl

/-- Row n of the output is written back by the last point of the row of the grid that owns node block n / 2048. -/
theorem cover5 (i : S51200x32.Idx) :
    ∃ t : Fin cfg5.N, (cfg5.win 3).flush t = true ∧ i ∈ ((cfg5.win 3).blk t).view.set := by
  have hi0 : (i 0).val < 51200 := idx2_lt0 i
  have hi1 : (i 1).val < 32 := idx2_lt1 i
  have ht : (i 0).val / 2048 * 208 + 207 < cfg5.N := lt_of_lt_of_eq (show (i 0).val / 2048 * 208 + 207 < 5200 by omega) N_5.symm
  have hmod : (⟨(i 0).val / 2048 * 208 + 207, ht⟩ : Fin cfg5.N).val % 208 = 207 := by
    show ((i 0).val / 2048 * 208 + 207) % 208 = 207; omega
  have hdiv : (⟨(i 0).val / 2048 * 208 + 207, ht⟩ : Fin cfg5.N).val / 208 = (i 0).val / 2048 := by
    show ((i 0).val / 2048 * 208 + 207) / 208 = (i 0).val / 2048; omega
  refine ⟨⟨(i 0).val / 2048 * 208 + 207, ht⟩, (flush5_3 _).mpr hmod, ?_⟩
  obtain ⟨-, -, -, -, -, -, -, h0, h1⟩ := where5 ⟨(i 0).val / 2048 * 208 + 207, ht⟩
  rw [mem_blk5]
  intro a
  match a with
  | ⟨0, _⟩ =>
    show win5_3.index _ 0 * 2048 ≤ (i 0).val ∧ (i 0).val < win5_3.index _ 0 * 2048 + 2048
    rw [h0, hdiv]; omega
  | ⟨1, _⟩ =>
    show win5_3.index _ 1 * 32 ≤ (i 1).val ∧ (i 1).val < win5_3.index _ 1 * 32 + 32
    rw [h1]; omega

include hafter in
/-- The output array after the region's pipeline. -/
theorem final5_of : dat.arrAt 3 cfg5.N = out5 V c :=
  dat.arrAt_eq_of_cover 3 (out5 V c) (fun t hf => flushed5_eq V dat hafter t hf) cover5

end Data

/-- The output array after the region's pipeline, entered from buffer contents V. -/
theorem final5_arr (c : Dev nD) : (dat5 V c).arrAt 3 cfg5.N = out5 V c :=
  final5_of V (dat5 V c) (after5_3 V c)

/-- The same, with the array read through its whole view. -/
theorem final5 (c : Dev nD) :
    ((cfg5.win 3).arr.view.read (Elt Ideal) ((dat5 V c).arrAt 3 cfg5.N) : S51200x32.Idx → EReal) = out5 V c :=
  (View.read_whole main_v51 ((dat5 V c).arrAt 3 cfg5.N)).trans (final5_arr V c)

/-- The whole-array function spelt out. -/
theorem out5_eq (c : Dev nD) :
    out5 V c = fun j =>
      (∑ e ∈ Finset.univ.filter (fun e : Fin 851968 => dst5 V c (ix1 e) = BitVec.ofNat 32 (j 0).val), msg5 V c (ix2 e (j 1)))
        + bias5 V c (ix2 (0 : Fin 1) (j 1)) := rfl

end Region5
end Cert.KernelIdeal.Val
end
-- ==== Proof.RefSide.lean ====
/-
  The reference read as three graph-convolution layers.

  The reference takes node features x0 [50000, 64], an edge list x1 [2, 800000] of 32-bit words (row 0 the sources,
  row 1 the targets), and three weight matrices with their bias rows. It appends to the sources and to the targets the
  node numbers 0 … 49999 (a loop at every node), so there are 850000 messages; it computes a weight per message from
  the nodes' degrees; and three times over it multiplies the nodes' rows by a weight matrix, gathers for every message
  its source's row, multiplies by the message's weight, accumulates at the message's target into a zero array and adds
  the bias row, applying the hyperbolic tangent after the first two rounds.

  HYPOTHESIS: every word of the edge list names a node (read signed, it is a natural below 50000). Then every one of
  the 850000 source and target words names a node, the reference's wrap of negative numbers, its clamp of gathered row
  numbers and its dropping of out-of-range targets all do nothing, and each round is, at node n and column c,

      (Σ over the messages e whose target is n of (Σ over k of h(source e, k) · W(k, c)) · weight(e)) + b(c),

  with the message weights left as the reference computes them.
-/
import proofs.«130920_j16286515987226_2_alg».proof.Proof.RefReadP
import proofs.«130920_j16286515987226_2_alg».proof.Proof.LibGcnLayer
import Idealize.ShloMosaic.Lib.ValueIdx
import Idealize.ShloMosaic.Lib.Pipeline.Value
import Idealize.ShloMosaic.PureOps.Ideal.Laws

noncomputable section

open scoped BigOperators

namespace Cert.ReferenceIdeal.RefSide

open Cert.ReferenceIdeal Cert.ReferenceIdeal.Read Idealize.ShloMosaic Idealize.ShloMosaic.ValueIdx
open Cert.LibGcnLayer Cert.LibScatterRows Cert.Lib.GatherCells

/-- The arguments' contents at the ideal values. -/
abbrev Feat : Type := (⟨S50000x64, .f32⟩ : BufTy).Contents (Elt Ideal)
abbrev Edges : Type := (⟨S2x800000, .i32⟩ : BufTy).Contents (Elt Ideal)
abbrev Mat64 : Type := (⟨S64x64, .f32⟩ : BufTy).Contents (Elt Ideal)
abbrev Row64 : Type := (⟨S64, .f32⟩ : BufTy).Contents (Elt Ideal)
abbrev Mat32 : Type := (⟨S64x32, .f32⟩ : BufTy).Contents (Elt Ideal)
abbrev Row32 : Type := (⟨S32, .f32⟩ : BufTy).Contents (Elt Ideal)

/-- THE HYPOTHESIS: every word of the edge list names a node. -/
def EdgesInRange (x1 : Edges) : Prop := ∀ i : S2x800000.Idx, InRange 50000 (x1 i)

variable (x1 : Edges)

/-! ## The 850000 source and target words name nodes -/

/-- Every source word names a node. -/
theorem src_inRange (h : EdgesInRange x1) (e : Fin 850000) : InRange 50000 (val_main_v3 (F := Ideal) x1 (ix1 e)) := by
  unfold val_main_v3 val_main_v0
  refine concat_loops_inRange (A := 800000) (N := 50000) (T := 850000) (by norm_num) rfl
    (val_main_v2 (F := Ideal) x1) Gen.concatenates_S800000_S50000_S850000_d0 (fun a => ?_) e
  rw [val_main_v2_apply, val_main_v1_apply]
  exact h _

/-- Every target word names a node. -/
theorem dst_inRange (h : EdgesInRange x1) (e : Fin 850000) : InRange 50000 (val_main_v6 (F := Ideal) x1 (ix1 e)) := by
  unfold val_main_v6 val_main_v0
  refine concat_loops_inRange (A := 800000) (N := 50000) (T := 850000) (by norm_num) rfl
    (val_main_v5 (F := Ideal) x1) Gen.concatenates_S800000_S50000_S850000_d0 (fun a => ?_) e
  rw [val_main_v5_apply, val_main_v4_apply]
  exact h _

/-- The source node of message e. -/
def srcN (h : EdgesInRange x1) (e : Fin 850000) : Fin 50000 := nodeOf 50000 _ (src_inRange x1 h e)
/-- The target node of message e. -/
def dstN (h : EdgesInRange x1) (e : Fin 850000) : Fin 50000 := nodeOf 50000 _ (dst_inRange x1 h e)
/-- The weight of message e, as the reference computes it. -/
def wgt (e : Fin 850000) : EReal := val_main_v29 (F := Ideal) x1 (ix1 e)

theorem src_toInt (h : EdgesInRange x1) (e : Fin 850000) :
    (val_main_v3 (F := Ideal) x1 (ix1 e)).toInt = ((srcN x1 h e).val : Int) := toInt_eq_nodeOf _
theorem dst_toInt (h : EdgesInRange x1) (e : Fin 850000) :
    (val_main_v6 (F := Ideal) x1 (ix1 e)).toInt = ((dstN x1 h e).val : Int) := toInt_eq_nodeOf _

/-! ## The wrap of negative numbers does nothing (three copies, one per round) -/

theorem wrap1 (h : EdgesInRange x1) (e : Fin 850000) :
    val_main_v35 (F := Ideal) x1 (ix1 e) = val_main_v3 (F := Ideal) x1 (ix1 e) := by
  unfold val_main_v35 val_main_v32 val_main_v34
  exact wrap_apply (val_main_v3 (F := Ideal) x1) (val_main_v31 (F := Ideal)) (val_main_v33 (F := Ideal)) (ix1 e)
    ((val_main_v31_apply _).trans (val_main_c_6_apply _)) _ (src_toInt x1 h e)

theorem wrap2 (h : EdgesInRange x1) (e : Fin 850000) :
    val_main_v53 (F := Ideal) x1 (ix1 e) = val_main_v3 (F := Ideal) x1 (ix1 e) := by
  unfold val_main_v53 val_main_v50 val_main_v52
  exact wrap_apply (val_main_v3 (F := Ideal) x1) (val_main_v49 (F := Ideal)) (val_main_v51 (F := Ideal)) (ix1 e)
    ((val_main_v49_apply _).trans (val_main_c_9_apply _)) _ (src_toInt x1 h e)

theorem wrap3 (h : EdgesInRange x1) (e : Fin 850000) :
    val_main_v71 (F := Ideal) x1 (ix1 e) = val_main_v3 (F := Ideal) x1 (ix1 e) := by
  unfold val_main_v71 val_main_v68 val_main_v70
  exact wrap_apply (val_main_v3 (F := Ideal) x1) (val_main_v67 (F := Ideal)) (val_main_v69 (F := Ideal)) (ix1 e)
    ((val_main_v67_apply _).trans (val_main_c_12_apply _)) _ (src_toInt x1 h e)

/-! ## The columns of source words, target words and weights -/

theorem srcCol1 (h : EdgesInRange x1) (e : Fin 850000) :
    (val_main_v36 (F := Ideal) x1 (ix2 e (0 : Fin 1))).toInt = ((srcN x1 h e).val : Int) := by
  have e1 : val_main_v36 (F := Ideal) x1 (ix2 e (0 : Fin 1)) = val_main_v35 (F := Ideal) x1 (ix1 e) := by
    unfold val_main_v36; exact col_apply _ _ e 0
  rw [e1, wrap1 x1 h e]; exact src_toInt x1 h e

theorem srcCol2 (h : EdgesInRange x1) (e : Fin 850000) :
    (val_main_v54 (F := Ideal) x1 (ix2 e (0 : Fin 1))).toInt = ((srcN x1 h e).val : Int) := by
  have e1 : val_main_v54 (F := Ideal) x1 (ix2 e (0 : Fin 1)) = val_main_v53 (F := Ideal) x1 (ix1 e) := by
    unfold val_main_v54; exact col_apply _ _ e 0
  rw [e1, wrap2 x1 h e]; exact src_toInt x1 h e

theorem srcCol3 (h : EdgesInRange x1) (e : Fin 850000) :
    (val_main_v72 (F := Ideal) x1 (ix2 e (0 : Fin 1))).toInt = ((srcN x1 h e).val : Int) := by
  have e1 : val_main_v72 (F := Ideal) x1 (ix2 e (0 : Fin 1)) = val_main_v71 (F := Ideal) x1 (ix1 e) := by
    unfold val_main_v72; exact col_apply _ _ e 0
  rw [e1, wrap3 x1 h e]; exact src_toInt x1 h e

theorem dstCol1 (h : EdgesInRange x1) (e : Fin 850000) :
    (val_main_v42 (F := Ideal) x1 (ix2 e (0 : Fin 1))).toInt = ((dstN x1 h e).val : Int) := by
  have e1 : val_main_v42 (F := Ideal) x1 (ix2 e (0 : Fin 1)) = val_main_v6 (F := Ideal) x1 (ix1 e) := by
    unfold val_main_v42; exact col_apply _ _ e 0
  rw [e1]; exact dst_toInt x1 h e

theorem dstCol2 (h : EdgesInRange x1) (e : Fin 850000) :
    (val_main_v60 (F := Ideal) x1 (ix2 e (0 : Fin 1))).toInt = ((dstN x1 h e).val : Int) := by
  have e1 : val_main_v60 (F := Ideal) x1 (ix2 e (0 : Fin 1)) = val_main_v6 (F := Ideal) x1 (ix1 e) := by
    unfold val_main_v60; exact col_apply _ _ e 0
  rw [e1]; exact dst_toInt x1 h e

theorem dstCol3 (h : EdgesInRange x1) (e : Fin 850000) :
    (val_main_v78 (F := Ideal) x1 (ix2 e (0 : Fin 1))).toInt = ((dstN x1 h e).val : Int) := by
  have e1 : val_main_v78 (F := Ideal) x1 (ix2 e (0 : Fin 1)) = val_main_v6 (F := Ideal) x1 (ix1 e) := by
    unfold val_main_v78; exact col_apply _ _ e 0
  rw [e1]; exact dst_toInt x1 h e

theorem wgtMat1 (e : Fin 850000) (c : Fin 64) : val_main_v39 (F := Ideal) x1 (ix2 e c) = wgt x1 e := by
  unfold val_main_v39 val_main_v38; exact colOfVec_apply _ _ _ e c
theorem wgtMat2 (e : Fin 850000) (c : Fin 64) : val_main_v57 (F := Ideal) x1 (ix2 e c) = wgt x1 e := by
  unfold val_main_v57 val_main_v56; exact colOfVec_apply _ _ _ e c
theorem wgtMat3 (e : Fin 850000) (c : Fin 32) : val_main_v75 (F := Ideal) x1 (ix2 e c) = wgt x1 e := by
  unfold val_main_v75 val_main_v74; exact colOfVec_apply _ _ _ e c

/-! ## The zero arrays and the bias rows -/

theorem zero1 (i : S50000x64.Idx) : val_main_v41 (F := Ideal) i = 0 :=
  (val_main_v41_apply i).trans ((val_main_cst_8_apply _).trans Ideal.ofBits_zero_f32)
theorem zero2 (i : S50000x64.Idx) : val_main_v59 (F := Ideal) i = 0 :=
  (val_main_v59_apply i).trans ((val_main_cst_11_apply _).trans Ideal.ofBits_zero_f32)
theorem zero3 (i : S50000x32.Idx) : val_main_v77 (F := Ideal) i = 0 :=
  (val_main_v77_apply i).trans ((val_main_cst_14_apply _).trans Ideal.ofBits_zero_f32)

theorem bias1 (x3 : Row64) (n : Fin 50000) (c : Fin 64) : val_main_v45 (F := Ideal) x3 (ix2 n c) = x3 (ix1 c) := by
  unfold val_main_v45 val_main_v44; exact rowOfVec_apply x3 _ _ n c
theorem bias2 (x5 : Row64) (n : Fin 50000) (c : Fin 64) : val_main_v63 (F := Ideal) x5 (ix2 n c) = x5 (ix1 c) := by
  unfold val_main_v63 val_main_v62; exact rowOfVec_apply x5 _ _ n c
theorem bias3 (x7 : Row32) (n : Fin 50000) (c : Fin 32) : val_main_v81 (F := Ideal) x7 (ix2 n c) = x7 (ix1 c) := by
  unfold val_main_v81 val_main_v80; exact rowOfVec_apply x7 _ _ n c

/-! ## The three matrix products at an entry -/

theorem prod1 (x0 : Feat) (x2 : Mat64) (n : Fin 50000) (c : Fin 64) :
    val_main_v30 (F := Ideal) x0 x2 (ix2 n c) = ∑ k : Fin 64, x0 (ix2 n k) * x2 (ix2 k c) := by
  rw [val_main_v30_apply]
  refine Finset.sum_congr rfl fun k _ => ?_
  have el : lidx_main_v30 (ix2 n c) k = ix2 n k := funext fun a => by
    match a with
    | ⟨0, _⟩ => rfl
    | ⟨1, _⟩ => rfl
  have er : ridx_main_v30 (ix2 n c) k = ix2 k c := funext fun a => by
    match a with
    | ⟨0, _⟩ => rfl
    | ⟨1, _⟩ => rfl
  rw [el, er]

/-! ## Round 1 -/

section Round1
variable (x0 : Feat) (x2 : Mat64) (x3 : Row64)

/-- The accumulation of round 1 at (n, c). -/
theorem acc1 (h : EdgesInRange x1) (n : Fin 50000) (c : Fin 64) :
    val_main_v43 (F := Ideal) x0 x1 x2 (ix2 n c)
      = ∑ e ∈ Finset.univ.filter (fun e : Fin 850000 => dstN x1 h e = n),
          val_main_v30 (F := Ideal) x0 x2 (ix2 (srcN x1 h e) c) * wgt x1 e := by
  unfold val_main_v43 val_main_v40 val_main_v37
  exact layer_apply (N := 50000) (E := 850000) (C := 64) (by norm_num)
    Gen.gather_S50000x64_S850000x1_S850000x64_1_0_n_n_0_1_164_wf _ rfl
    Gen.scatter_S50000x64_S850000x1_S850000x64_1_0_0_1_wf _ rfl
    (val_main_v30 (F := Ideal) x0 x2) (val_main_v36 (F := Ideal) x1) (val_main_v42 (F := Ideal) x1)
    (val_main_v39 (F := Ideal) x1) (wgt x1) (srcN x1 h) (dstN x1 h)
    (srcCol1 x1 h) (dstCol1 x1 h) (wgtMat1 x1) (val_main_v41 (F := Ideal)) zero1 n c

/-- Round 1 before the hyperbolic tangent. -/
theorem round1 (h : EdgesInRange x1) (n : Fin 50000) (c : Fin 64) :
    val_main_v46 (F := Ideal) x0 x1 x2 x3 (ix2 n c)
      = gcnLayer (srcN x1 h) (dstN x1 h) (wgt x1) (fun n k => x0 (ix2 n k)) (fun k c => x2 (ix2 k c)) (fun c => x3 (ix1 c)) n c := by
  rw [val_main_v46_apply, Ideal.addf_def, acc1 x1 x0 x2 h n c, bias1 x3 n c]
  unfold gcnLayer
  refine congrArg (· + x3 (ix1 c)) (Finset.sum_congr rfl fun e _ => ?_)
  rw [prod1 x0 x2 (srcN x1 h e) c]

/-- Round 1. -/
theorem out1 (h : EdgesInRange x1) (n : Fin 50000) (c : Fin 64) :
    val_main_v47 (F := Ideal) x0 x1 x2 x3 (ix2 n c)
      = Ideal.tanh (gcnLayer (srcN x1 h) (dstN x1 h) (wgt x1) (fun n k => x0 (ix2 n k)) (fun k c => x2 (ix2 k c)) (fun c => x3 (ix1 c)) n c) := by
  rw [val_main_v47_apply, Ideal.hostUnary_tanh_def, round1 x1 x0 x2 x3 h n c]

end Round1

/-! ## Round 2 -/

section Round2
variable (x0 : Feat) (x2 : Mat64) (x3 : Row64) (x4 : Mat64) (x5 : Row64)

theorem prod2 (n : Fin 50000) (c : Fin 64) :
    val_main_v48 (F := Ideal) x0 x1 x2 x3 x4 (ix2 n c)
      = ∑ k : Fin 64, val_main_v47 (F := Ideal) x0 x1 x2 x3 (ix2 n k) * x4 (ix2 k c) := by
  rw [val_main_v48_apply]
  refine Finset.sum_congr rfl fun k _ => ?_
  have el : lidx_main_v48 (ix2 n c) k = ix2 n k := funext fun a => by
    match a with
    | ⟨0, _⟩ => rfl
    | ⟨1, _⟩ => rfl
  have er : ridx_main_v48 (ix2 n c) k = ix2 k c := funext fun a => by
    match a with
    | ⟨0, _⟩ => rfl
    | ⟨1, _⟩ => rfl
  rw [el, er]

/-- The accumulation of round 2 at (n, c). -/
theorem acc2 (h : EdgesInRange x1) (n : Fin 50000) (c : Fin 64) :
    val_main_v61 (F := Ideal) x0 x1 x2 x3 x4 (ix2 n c)
      = ∑ e ∈ Finset.univ.filter (fun e : Fin 850000 => dstN x1 h e = n),
          val_main_v48 (F := Ideal) x0 x1 x2 x3 x4 (ix2 (srcN x1 h e) c) * wgt x1 e := by
  unfold val_main_v61 val_main_v58 val_main_v55
  exact layer_apply (N := 50000) (E := 850000) (C := 64) (by norm_num)
    Gen.gather_S50000x64_S850000x1_S850000x64_1_0_n_n_0_1_164_wf _ rfl
    Gen.scatter_S50000x64_S850000x1_S850000x64_1_0_0_1_wf _ rfl
    (val_main_v48 (F := Ideal) x0 x1 x2 x3 x4) (val_main_v54 (F := Ideal) x1) (val_main_v60 (F := Ideal) x1)
    (val_main_v57 (F := Ideal) x1) (wgt x1) (srcN x1 h) (dstN x1 h)
    (srcCol2 x1 h) (dstCol2 x1 h) (wgtMat2 x1) (val_main_v59 (F := Ideal)) zero2 n c

/-- Round 2 before the hyperbolic tangent, over round 1's result. -/
theorem round2 (h : EdgesInRange x1) (n : Fin 50000) (c : Fin 64) :
    val_main_v64 (F := Ideal) x0 x1 x2 x3 x4 x5 (ix2 n c)
      = gcnLayer (srcN x1 h) (dstN x1 h) (wgt x1) (fun n k => val_main_v47 (F := Ideal) x0 x1 x2 x3 (ix2 n k))
          (fun k c => x4 (ix2 k c)) (fun c => x5 (ix1 c)) n c := by
  rw [val_main_v64_apply, Ideal.addf_def, acc2 x1 x0 x2 x3 x4 h n c, bias2 x5 n c]
  unfold gcnLayer
  refine congrArg (· + x5 (ix1 c)) (Finset.sum_congr rfl fun e _ => ?_)
  rw [prod2 x1 x0 x2 x3 x4 (srcN x1 h e) c]

/-- Round 2. -/
theorem out2 (h : EdgesInRange x1) (n : Fin 50000) (c : Fin 64) :
    val_main_v65 (F := Ideal) x0 x1 x2 x3 x4 x5 (ix2 n c)
      = Ideal.tanh (gcnLayer (srcN x1 h) (dstN x1 h) (wgt x1) (fun n k => val_main_v47 (F := Ideal) x0 x1 x2 x3 (ix2 n k))
          (fun k c => x4 (ix2 k c)) (fun c => x5 (ix1 c)) n c) := by
  rw [val_main_v65_apply, Ideal.hostUnary_tanh_def, round2 x1 x0 x2 x3 x4 x5 h n c]

end Round2

/-! ## Round 3 -/

section Round3
variable (x0 : Feat) (x2 : Mat64) (x3 : Row64) (x4 : Mat64) (x5 : Row64) (x6 : Mat32) (x7 : Row32)

theorem prod3 (n : Fin 50000) (c : Fin 32) :
    val_main_v66 (F := Ideal) x0 x1 x2 x3 x4 x5 x6 (ix2 n c)
      = ∑ k : Fin 64, val_main_v65 (F := Ideal) x0 x1 x2 x3 x4 x5 (ix2 n k) * x6 (ix2 k c) := by
  rw [val_main_v66_apply]
  refine Finset.sum_congr rfl fun k _ => ?_
  have el : lidx_main_v66 (ix2 n c) k = ix2 n k := funext fun a => by
    match a with
    | ⟨0, _⟩ => rfl
    | ⟨1, _⟩ => rfl
  have er : ridx_main_v66 (ix2 n c) k = ix2 k c := funext fun a => by
    match a with
    | ⟨0, _⟩ => rfl
    | ⟨1, _⟩ => rfl
  rw [el, er]

/-- The accumulation of round 3 at (n, c). -/
theorem acc3 (h : EdgesInRange x1) (n : Fin 50000) (c : Fin 32) :
    val_main_v79 (F := Ideal) x0 x1 x2 x3 x4 x5 x6 (ix2 n c)
      = ∑ e ∈ Finset.univ.filter (fun e : Fin 850000 => dstN x1 h e = n),
          val_main_v66 (F := Ideal) x0 x1 x2 x3 x4 x5 x6 (ix2 (srcN x1 h e) c) * wgt x1 e := by
  unfold val_main_v79 val_main_v76 val_main_v73
  exact layer_apply (N := 50000) (E := 850000) (C := 32) (by norm_num)
    Gen.gather_S50000x32_S850000x1_S850000x32_1_0_n_n_0_1_132_wf _ rfl
    Gen.scatter_S50000x32_S850000x1_S850000x32_1_0_0_1_wf _ rfl
    (val_main_v66 (F := Ideal) x0 x1 x2 x3 x4 x5 x6) (val_main_v72 (F := Ideal) x1) (val_main_v78 (F := Ideal) x1)
    (val_main_v75 (F := Ideal) x1) (wgt x1) (srcN x1 h) (dstN x1 h)
    (srcCol3 x1 h) (dstCol3 x1 h) (wgtMat3 x1) (val_main_v77 (F := Ideal)) zero3 n c

/-- Round 3, the reference's result, over round 2's result. -/
theorem round3 (h : EdgesInRange x1) (n : Fin 50000) (c : Fin 32) :
    val_main_v82 (F := Ideal) x0 x1 x2 x3 x4 x5 x6 x7 (ix2 n c)
      = gcnLayer (srcN x1 h) (dstN x1 h) (wgt x1) (fun n k => val_main_v65 (F := Ideal) x0 x1 x2 x3 x4 x5 (ix2 n k))
          (fun k c => x6 (ix2 k c)) (fun c => x7 (ix1 c)) n c := by
  rw [val_main_v82_apply, Ideal.addf_def, acc3 x1 x0 x2 x3 x4 x5 x6 h n c, bias3 x7 n c]
  unfold gcnLayer
  refine congrArg (· + x7 (ix1 c)) (Finset.sum_congr rfl fun e _ => ?_)
  rw [prod3 x1 x0 x2 x3 x4 x5 x6 (srcN x1 h e) c]

/-- THE REFERENCE AS THREE LAYERS: its result at node n and column c. -/
theorem result_apply (h : EdgesInRange x1) (n : Fin 50000) (c : Fin 32) :
    val_main_v82 (F := Ideal) x0 x1 x2 x3 x4 x5 x6 x7 (ix2 n c)
      = gcnLayer (srcN x1 h) (dstN x1 h) (wgt x1)
          (fun n k => Ideal.tanh (gcnLayer (srcN x1 h) (dstN x1 h) (wgt x1)
            (fun n k => Ideal.tanh (gcnLayer (srcN x1 h) (dstN x1 h) (wgt x1)
              (fun n k => x0 (ix2 n k)) (fun k c => x2 (ix2 k c)) (fun c => x3 (ix1 c)) n k))
            (fun k c => x4 (ix2 k c)) (fun c => x5 (ix1 c)) n k))
          (fun k c => x6 (ix2 k c)) (fun c => x7 (ix1 c)) n c := by
  rw [round3 x1 x0 x2 x3 x4 x5 x6 x7 h n c]
  have e2 : (fun (n : Fin 50000) (k : Fin 64) => val_main_v65 (F := Ideal) x0 x1 x2 x3 x4 x5 (ix2 n k))
      = fun n k => Ideal.tanh (gcnLayer (srcN x1 h) (dstN x1 h) (wgt x1)
          (fun n k => val_main_v47 (F := Ideal) x0 x1 x2 x3 (ix2 n k)) (fun k c => x4 (ix2 k c)) (fun c => x5 (ix1 c)) n k) :=
    funext fun n => funext fun k => out2 x1 x0 x2 x3 x4 x5 h n k
  have e1 : (fun (n : Fin 50000) (k : Fin 64) => val_main_v47 (F := Ideal) x0 x1 x2 x3 (ix2 n k))
      = fun n k => Ideal.tanh (gcnLayer (srcN x1 h) (dstN x1 h) (wgt x1)
          (fun n k => x0 (ix2 n k)) (fun k c => x2 (ix2 k c)) (fun c => x3 (ix1 c)) n k) :=
    funext fun n => funext fun k => out1 x1 x0 x2 x3 h n k
  rw [e2, e1]

end Round3

/-! ## The run's result buffer -/

section Run
open Idealize.ShloMosaic.TcCoe Idealize.SL.Sem

/-- The result buffer of the reference's run, read at node n and column q, over the launch contents m of the arguments. -/
theorem res_apply (m : (ℓ : Loc nD τ sig) → Buf (Elt Ideal) ℓ) (c : Dev nD)
    (h : EdgesInRange (m ((c.tc : Thread nD τ).loc main_arg1))) (n : Fin 50000) (q : Fin 32) :
    Cert.ReferenceIdeal.Value.res_main_v82 m c (ix2 n q)
      = gcnLayer (srcN _ h) (dstN _ h) (wgt (m ((c.tc : Thread nD τ).loc main_arg1)))
          (fun n k => Ideal.tanh (gcnLayer (srcN _ h) (dstN _ h) (wgt (m ((c.tc : Thread nD τ).loc main_arg1)))
            (fun n k => Ideal.tanh (gcnLayer (srcN _ h) (dstN _ h) (wgt (m ((c.tc : Thread nD τ).loc main_arg1)))
              (fun n k => (m ((c.tc : Thread nD τ).loc main_arg0)) (ix2 n k))
              (fun k c' => (m ((c.tc : Thread nD τ).loc main_arg2)) (ix2 k c'))
              (fun c' => (m ((c.tc : Thread nD τ).loc main_arg3)) (ix1 c')) n k))
            (fun k c' => (m ((c.tc : Thread nD τ).loc main_arg4)) (ix2 k c'))
            (fun c' => (m ((c.tc : Thread nD τ).loc main_arg5)) (ix1 c')) n k))
          (fun k c' => (m ((c.tc : Thread nD τ).loc main_arg6)) (ix2 k c'))
          (fun c' => (m ((c.tc : Thread nD τ).loc main_arg7)) (ix1 c')) n q := by
  rw [val_main_v82_eq]
  exact result_apply _ _ _ _ _ _ _ _ h n q

/-- The same at an index j of the result's shape. -/
theorem res_apply_idx (m : (ℓ : Loc nD τ sig) → Buf (Elt Ideal) ℓ) (c : Dev nD)
    (h : EdgesInRange (m ((c.tc : Thread nD τ).loc main_arg1))) (j : S50000x32.Idx) :
    Cert.ReferenceIdeal.Value.res_main_v82 m c j
      = Cert.ReferenceIdeal.Value.res_main_v82 m c (ix2 ⟨(j 0).val, idx2_lt0 j⟩ ⟨(j 1).val, idx2_lt1 j⟩) :=
  congrArg _ (eq_ix2 j)

end Run

end Cert.ReferenceIdeal.RefSide

end
-- ==== Proof.KIChain.lean ====
/-
  The kernel's result, entry by entry.

  What the six kernel regions leave, read off their pipelines, makes them three padded layers; the host operations
  between them form each layer's transformed rows and biases; and the messages the kernel forms are the reference's.
  So, when every word of the message argument names a node, entry (n, q) of the kernel's result is the third layer
  of tanh of the second layer of tanh of the first layer of the node features, over the reference's own 850000
  messages and weights.
-/
import proofs.«130920_j16286515987226_2_alg».proof.Proof.KIChainLayers
import proofs.«130920_j16286515987226_2_alg».proof.Proof.KIGlue
import proofs.«130920_j16286515987226_2_alg».proof.Proof.KIFrame
import proofs.«130920_j16286515987226_2_alg».proof.Proof.KIValue0
import proofs.«130920_j16286515987226_2_alg».proof.Proof.KIValue1
import proofs.«130920_j16286515987226_2_alg».proof.Proof.KIValue2
import proofs.«130920_j16286515987226_2_alg».proof.Proof.KIValue3
import proofs.«130920_j16286515987226_2_alg».proof.Proof.KIValue4
import proofs.«130920_j16286515987226_2_alg».proof.Proof.KIValue5
import proofs.«130920_j16286515987226_2_alg».proof.Proof.RefSide

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Cert.LibGcnLayer

variable (m : (ℓ : Loc nD τ sig) → Buf (Elt Ideal) ℓ) (c : Dev nD)

/-- The activation between layers. -/
abbrev tanhI : EReal → EReal := fun x => Ideal.tanh x

/-! ## What the six regions leave, at the contents the run really passes through -/

section Inputs
variable (V : (c : Dev nD) → (b : Ref sig .tc) → Buf (Elt Ideal) ((c : Thread nD τ).loc b))

/-- A gather region's three input arrays are whole buffers: the padded source words, the padded weights, the layer's
    transformed rows. -/
theorem srcA0_eq : srcA0 V c = (V c main_v31 : S851968.Idx → BitVec 32) := rfl
theorem nrmA0_eq : nrmA0 V c = (V c main_v35 : S851968.Idx → EReal) := rfl
theorem HA0_eq : HA0 V c = (V c main_v38 : S51200x64.Idx → EReal) := rfl
theorem srcA2_eq : srcA2 V c = (V c main_v31 : S851968.Idx → BitVec 32) := rfl
theorem nrmA2_eq : nrmA2 V c = (V c main_v35 : S851968.Idx → EReal) := rfl
theorem HA2_eq : HA2 V c = (V c main_v43 : S51200x64.Idx → EReal) := rfl
theorem srcA4_eq : srcA4 V c = (V c main_v31 : S851968.Idx → BitVec 32) := rfl
theorem nrmA4_eq : nrmA4 V c = (V c main_v35 : S851968.Idx → EReal) := rfl
theorem HA4_eq : HA4 V c = (V c main_v48 : S51200x32.Idx → EReal) := rfl

end Inputs

theorem G0_at (e : Fin 851968) (k : Fin 64) : rd2 (n0 := 851968) (n1 := 64) (Hand.outs m 6 main_v39 c) e k
    = (if h : (rdw (n := 851968) (Gen.V5 m c main_v31) e).toNat < 51200
        then rd2 (n0 := 51200) (n1 := 64) (Gen.V5 m c main_v38) ⟨(rdw (n := 851968) (Gen.V5 m c main_v31) e).toNat, h⟩ k else 0)
      * rd1 (n := 851968) (Gen.V5 m c main_v35) e := by
  have h : (Hand.arr0 m c : S851968x64.Idx → EReal) (ix2 e k) = _ := congrFun (final0 (Hand.En0 m) c) (ix2 e k)
  rw [srcA0_eq, nrmA0_eq, HA0_eq] at h
  rw [show Hand.outs m 6 main_v39 c = Hand.arr0 m c from Hand.X6_out m c]
  exact h

theorem S1_at (n' : Fin 51200) (k : Fin 64) : rd2 (n0 := 51200) (n1 := 64) (Hand.outs m 8 main_v41 c) n' k
    = tanhI ((∑ e ∈ Finset.univ.filter (fun e : Fin 851968 => rdw (n := 851968) (Gen.V7 m (Hand.outs m) c main_v33) e = BitVec.ofNat 32 n'.val),
        rd2 (n0 := 851968) (n1 := 64) (Gen.V7 m (Hand.outs m) c main_v39) e k) + rd2 (n0 := 1) (n1 := 64) (Gen.V7 m (Hand.outs m) c main_v40) 0 k) := by
  rw [Hand.V7_eq, show Hand.outs m 8 main_v41 c = out1 (Hand.En1 m) c from (Hand.X8_out m c).trans (final1_arr (Hand.En1 m) c)]
  rfl

theorem G2_at (e : Fin 851968) (k : Fin 64) : rd2 (n0 := 851968) (n1 := 64) (Hand.outs m 10 main_v44 c) e k
    = (if h : (rdw (n := 851968) (Gen.V9 m (Hand.outs m) c main_v31) e).toNat < 51200
        then rd2 (n0 := 51200) (n1 := 64) (Gen.V9 m (Hand.outs m) c main_v43) ⟨(rdw (n := 851968) (Gen.V9 m (Hand.outs m) c main_v31) e).toNat, h⟩ k else 0)
      * rd1 (n := 851968) (Gen.V9 m (Hand.outs m) c main_v35) e := by
  have h : (Hand.arr2 m c : S851968x64.Idx → EReal) (ix2 e k) = _ := congrFun (final2 (Hand.En2 m) c) (ix2 e k)
  rw [srcA2_eq, nrmA2_eq, HA2_eq] at h
  rw [Hand.V9_eq, show Hand.outs m 10 main_v44 c = Hand.arr2 m c from Hand.X10_out m c]
  exact h

theorem S3_at (n' : Fin 51200) (k : Fin 64) : rd2 (n0 := 51200) (n1 := 64) (Hand.outs m 12 main_v46 c) n' k
    = tanhI ((∑ e ∈ Finset.univ.filter (fun e : Fin 851968 => rdw (n := 851968) (Gen.V11 m (Hand.outs m) c main_v33) e = BitVec.ofNat 32 n'.val),
        rd2 (n0 := 851968) (n1 := 64) (Gen.V11 m (Hand.outs m) c main_v44) e k) + rd2 (n0 := 1) (n1 := 64) (Gen.V11 m (Hand.outs m) c main_v45) 0 k) := by
  rw [Hand.V11_eq, show Hand.outs m 12 main_v46 c = out3 (Hand.En3 m) c from (Hand.X12_out m c).trans (final3_arr (Hand.En3 m) c)]
  rfl

theorem G4_at (e : Fin 851968) (k : Fin 32) : rd2 (n0 := 851968) (n1 := 32) (Hand.outs m 14 main_v49 c) e k
    = (if h : (rdw (n := 851968) (Gen.V13 m (Hand.outs m) c main_v31) e).toNat < 51200
        then rd2 (n0 := 51200) (n1 := 32) (Gen.V13 m (Hand.outs m) c main_v48) ⟨(rdw (n := 851968) (Gen.V13 m (Hand.outs m) c main_v31) e).toNat, h⟩ k else 0)
      * rd1 (n := 851968) (Gen.V13 m (Hand.outs m) c main_v35) e := by
  have h : (Hand.arr4 m c : S851968x32.Idx → EReal) (ix2 e k) = _ := congrFun (final4 (Hand.En4 m) c) (ix2 e k)
  rw [srcA4_eq, nrmA4_eq, HA4_eq] at h
  rw [Hand.V13_eq, show Hand.outs m 14 main_v49 c = Hand.arr4 m c from Hand.X14_out m c]
  exact h

theorem S5_at (n' : Fin 51200) (k : Fin 32) : rd2 (n0 := 51200) (n1 := 32) (Hand.outs m 16 main_v51 c) n' k
    = (∑ e ∈ Finset.univ.filter (fun e : Fin 851968 => rdw (n := 851968) (Gen.V15 m (Hand.outs m) c main_v33) e = BitVec.ofNat 32 n'.val),
        rd2 (n0 := 851968) (n1 := 32) (Gen.V15 m (Hand.outs m) c main_v49) e k) + rd2 (n0 := 1) (n1 := 32) (Gen.V15 m (Hand.outs m) c main_v50) 0 k := by
  rw [Hand.V15_eq, show Hand.outs m 16 main_v51 c = out5 (Hand.En5 m) c from (Hand.X16_out m c).trans (final5_arr (Hand.En5 m) c)]
  rfl

/-! ## The result -/

/-- THE KERNEL'S RESULT at entry (n, q): the three layers of the network over the reference's messages. -/
theorem ker_value (c : Dev nD) (h : Cert.ReferenceIdeal.RefSide.EdgesInRange (m ((c.tc : Thread nD τ).loc main_arg1)))
    (n : Fin 50000) (q : Fin 32) :
    (Gen.V17 m (Hand.outs m) c main_v52 : S50000x32.Idx → EReal) (ix2 n q)
      = gcnLayer (Cert.ReferenceIdeal.RefSide.srcN _ h) (Cert.ReferenceIdeal.RefSide.dstN _ h)
          (Cert.ReferenceIdeal.RefSide.wgt (m ((c.tc : Thread nD τ).loc main_arg1)))
          (fun n k => Ideal.tanh (gcnLayer (Cert.ReferenceIdeal.RefSide.srcN _ h) (Cert.ReferenceIdeal.RefSide.dstN _ h)
              (Cert.ReferenceIdeal.RefSide.wgt (m ((c.tc : Thread nD τ).loc main_arg1)))
            (fun n k => Ideal.tanh (gcnLayer (Cert.ReferenceIdeal.RefSide.srcN _ h) (Cert.ReferenceIdeal.RefSide.dstN _ h)
                (Cert.ReferenceIdeal.RefSide.wgt (m ((c.tc : Thread nD τ).loc main_arg1)))
              (fun n k => (m ((c.tc : Thread nD τ).loc main_arg0)) (ix2 n k))
              (fun k c' => (m ((c.tc : Thread nD τ).loc main_arg2)) (ix2 k c'))
              (fun c' => (m ((c.tc : Thread nD τ).loc main_arg3)) (ix1 c')) n k))
            (fun k c' => (m ((c.tc : Thread nD τ).loc main_arg4)) (ix2 k c'))
            (fun c' => (m ((c.tc : Thread nD τ).loc main_arg5)) (ix1 c')) n k))
          (fun k c' => (m ((c.tc : Thread nD τ).loc main_arg6)) (ix2 k c'))
          (fun c' => (m ((c.tc : Thread nD τ).loc main_arg7)) (ix1 c')) n q := by
  have hr : ∀ i, InRange 50000 ((Gen.V0 m c main_arg1 : S2x800000.Idx → BitVec 32) i) := h
  have key := ker_value_of m (Hand.outs m) c tanhI tanhI (G0_at m c) (S1_at m c) (G2_at m c) (S3_at m c) (G4_at m c) (S5_at m c) hr n q
  have es : (fun e => nodeOf 50000 (srcE m c e) (srcE_inRange m c hr e)) = Cert.ReferenceIdeal.RefSide.srcN (argE m c) h :=
    funext fun e => nodeOf_congr (congrFun (glue5 m c) (ix1 e)) _ _
  have ed : (fun e => nodeOf 50000 (dstE m c e) (dstE_inRange m c hr e)) = Cert.ReferenceIdeal.RefSide.dstN (argE m c) h :=
    funext fun e => nodeOf_congr (congrFun (glue6 m c) (ix1 e)) _ _
  have ew : wgtE m c = Cert.ReferenceIdeal.RefSide.wgt (argE m c) := funext fun e => congrFun (glue29 m c) (ix1 e)
  rw [es, ed, ew] at key
  exact key

end Cert.KernelIdeal.Val

end
-- ==== Proof.PreRange.lean ====
/-
  The printed precondition, decoded for the integer input. The precondition is one conjunction: every float
  input is finite, and every entry e of the [2, 800000] array of edge endpoints satisfies 0 ≤ e and e < 50000,
  both comparisons signed. Its last conjunct is an "all" over the array: an and-reduction, from 1, of the
  entrywise and of the two comparison bits. If the whole conjunction is 1 then that reduction is 1, so the bit
  at every index is 1, so both comparisons hold at every index; read as signed integers they say
  0 ≤ e < 50000. The float conjuncts are not opened.
-/
import proofs.«130920_j16286515987226_2_alg».proof.Pre_finite_inputs
import Idealize.ShloMosaic.Lib.ReduceAll
import Idealize.ShloMosaic.Lib.ValueIdx
import Idealize.ShloMosaic.PureOps.Ideal

noncomputable section

namespace Cert.PreRange

open Idealize.ShloMosaic
open Cert.Pre_finite_inputs

variable [Cert.Pre_finite_inputs.Facts]

/-- The two literals the entries are compared with, read as signed integers. -/
theorem toInt_zero : (0#32 : BitVec 32).toInt = 0 := by decide
theorem toInt_bound : (50000#32 : BitVec 32).toInt = 50000 := by decide

/-- The last stretch of the precondition: if its result is 1 at the one index of a rank-0 array, then every
    entry of the integer array lies in [0, 50000). The result is the and of the conjuncts so far with the
    and-reduction of the bits (0 ≤ e) and (e < 50000); the reduction being 1, each bit is 1. -/
theorem range_of_part2 {F : FTy → Type} [FloatOps F] (a1 : IVec S2x800000 32) (v : IVec S_ 1)
    (h : fn_part2 (F := F) a1 v ValueIdx.ix0 = 1#1) (i : S2x800000.Idx) :
    0 ≤ (a1 i).toInt ∧ (a1 i).toInt < 50000 := by
  dsimp only [fn_part2] at h
  have hred := (IntOp.andi_eq_one.1 h).2
  have hbit := Host.reduce_andi_eq_one _ _ _ _ _ hred i (funext fun d => d.elim0)
  obtain ⟨hge, hlt⟩ := IntOp.andi_eq_one.1 hbit
  have hge' : (0#32 : BitVec 32).toInt ≤ (a1 i).toInt := IntOp.cmpi_sge.1 hge
  have hlt' : (a1 i).toInt < (50000#32 : BitVec 32).toInt := IntOp.cmpi_slt.1 hlt
  rw [toInt_zero] at hge'
  rw [toInt_bound] at hlt'
  exact ⟨hge', hlt'⟩

/-- THE PRECONDITION DECODED: if the printed precondition holds of the eight inputs, every entry of the
    integer input (the edge endpoints) lies in [0, 50000). -/
theorem range_of_pre {F : FTy → Type} [FloatOps F]
    (a0 : FVec F S50000x64 .f32) (a1 : IVec S2x800000 32) (a2 : FVec F S64x64 .f32) (a3 : FVec F S64 .f32)
    (a4 : FVec F S64x64 .f32) (a5 : FVec F S64 .f32) (a6 : FVec F S64x32 .f32) (a7 : FVec F S32 .f32)
    (h : Cert.Pre_finite_inputs.fn (F := F) a0 a1 a2 a3 a4 a5 a6 a7 = fun _ => 1#1) :
    ∀ i : S2x800000.Idx, 0 ≤ (a1 i).toInt ∧ (a1 i).toInt < 50000 := by
  intro i
  have e := congrFun h ValueIdx.ix0
  dsimp only [fn, fn_part1] at e
  exact range_of_part2 (F := F) a1 _ e i

/-- A word whose signed reading lies in [0, 50000) reads the same unsigned, below 50000. -/
theorem toNat_of_range (w : BitVec 32) (h0 : 0 ≤ w.toInt) (h1 : w.toInt < 50000) :
    w.toInt = (w.toNat : Int) ∧ w.toNat < 50000 := by
  have hw := w.isLt
  rw [BitVec.toInt_eq_toNat_cond] at h0 h1 ⊢
  by_cases hc : 2 * w.toNat < 2 ^ 32
  · rw [if_pos hc] at h0 h1 ⊢
    exact ⟨rfl, by omega⟩
  · rw [if_neg hc] at h0 h1
    omega

/-- The same decoding with the entries read unsigned: every entry of the integer input is below 50000 as a
    natural number, and its signed and unsigned readings agree. -/
theorem toNat_lt_of_pre {F : FTy → Type} [FloatOps F]
    (a0 : FVec F S50000x64 .f32) (a1 : IVec S2x800000 32) (a2 : FVec F S64x64 .f32) (a3 : FVec F S64 .f32)
    (a4 : FVec F S64x64 .f32) (a5 : FVec F S64 .f32) (a6 : FVec F S64x32 .f32) (a7 : FVec F S32 .f32)
    (h : Cert.Pre_finite_inputs.fn (F := F) a0 a1 a2 a3 a4 a5 a6 a7 = fun _ => 1#1) (i : S2x800000.Idx) :
    (a1 i).toInt = ((a1 i).toNat : Int) ∧ (a1 i).toNat < 50000 :=
  toNat_of_range _ (range_of_pre a0 a1 a2 a3 a4 a5 a6 a7 h i).1 (range_of_pre a0 a1 a2 a3 a4 a5 a6 a7 h i).2

end Cert.PreRange

end
-- ==== Proof.lean ====
/-
  The proof of `Cert.Claim` for the three-layer graph convolution whose gathers and scatters are one-hot matrix
  products accumulated over blocks of nodes and of edges.

  The kernel program is six kernel regions between stretches of host operations. Each region keeps a running sum
  in a scratch buffer along a row of its grid and stores its output block at the row's last point; its frame is the
  run of @main as a list of segments (KIFrame for the idealized program, KBFrame for the program as printed), which
  also names every buffer's final contents. At the ideal instance a gather region leaves H[src e, ·] · norm e in row
  e of its output (a one-hot row picks one row of H; zero times anything is zero on the extended reals, so no
  finiteness is used), and a scatter region leaves in row n the sum of the messages whose target is node n, plus the
  bias; with every edge index a node number these are the reference's gather, scale and scatter-add, layer by layer.
  The precondition's added conjunct says exactly that every edge index is a node number.
-/
import proofs.«130920_j16286515987226_2_alg».proof.Defs
import proofs.«130920_j16286515987226_2_alg».proof.Proof.Gen.Kernel
import proofs.«130920_j16286515987226_2_alg».proof.Proof.Gen.KernelIdeal
import proofs.«130920_j16286515987226_2_alg».proof.Proof.Gen.ReferenceIdeal
import proofs.«130920_j16286515987226_2_alg».proof.Proof.Gen.Pre_finite_inputs
import proofs.«130920_j16286515987226_2_alg».proof.Proof.KBFrame
import proofs.«130920_j16286515987226_2_alg».proof.Proof.KIFrame
import proofs.«130920_j16286515987226_2_alg».proof.Proof.KIChain
import proofs.«130920_j16286515987226_2_alg».proof.Proof.RefSide
import proofs.«130920_j16286515987226_2_alg».proof.Proof.PreRange
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.ValueIdx
open Cert.LibGcnLayer Cert.ReferenceIdeal.RefSide

/-- The program as printed runs, and its arguments end as launched. -/
theorem frame_k : Cert.frame_Kernel := fun m ρ _ => Cert.Kernel.Hand.frame (F := Bits) m ρ
/-- So does the idealized program. -/
theorem frame_ki : Cert.frame_KernelIdeal := fun m ρ _ => Cert.KernelIdeal.Hand.frame (F := Ideal) m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- The three layers as one function of the eight arguments. -/
def net (x0 : Feat) (x1 : Edges) (x2 : Mat64) (x3 : Row64) (x4 : Mat64) (x5 : Row64) (x6 : Mat32) (x7 : Row32)
    (h : EdgesInRange x1) (n : Fin 50000) (q : Fin 32) : EReal :=
  gcnLayer (srcN x1 h) (dstN x1 h) (wgt x1) (fun n k => Ideal.tanh (gcnLayer (srcN x1 h) (dstN x1 h) (wgt x1) (fun n k => Ideal.tanh (gcnLayer (srcN x1 h) (dstN x1 h) (wgt x1) (fun n k => x0 (ix2 n k)) (fun k c => x2 (ix2 k c)) (fun c => x3 (ix1 c)) n k)) (fun k c => x4 (ix2 k c)) (fun c => x5 (ix1 c)) n k)) (fun k c => x6 (ix2 k c)) (fun c => x7 (ix1 c)) n q

/-- It depends on its arguments only. -/
theorem net_congr {x0 y0 : Feat} {x1 y1 : Edges} {x2 y2 : Mat64} {x3 y3 : Row64} {x4 y4 : Mat64} {x5 y5 : Row64} {x6 y6 : Mat32} {x7 y7 : Row32} (hy : EdgesInRange y1) (hx : EdgesInRange x1)
    (e0 : y0 = x0) (e1 : y1 = x1) (e2 : y2 = x2) (e3 : y3 = x3) (e4 : y4 = x4) (e5 : y5 = x5) (e6 : y6 = x6) (e7 : y7 = x7)
    (n : Fin 50000) (q : Fin 32) : net y0 y1 y2 y3 y4 y5 y6 y7 hy n q = net x0 x1 x2 x3 x4 x5 x6 x7 hx n q := by
  subst e0 e1 e2 e3 e4 e5 e6 e7; rfl

/-- From memories agreeing on the arguments both idealized programs run, and end with equal results: each result is
    `net` of the arguments. -/
theorem algebraic : Cert.algebraic_KernelIdeal_ReferenceIdeal := by
  intro m ρ m' ρ' hpre hagree
  have hr : ∀ c : Dev Cert.KernelIdeal.nD, EdgesInRange (m ((c.tc : Thread Cert.KernelIdeal.nD Cert.KernelIdeal.τ).loc Cert.KernelIdeal.main_arg1)) :=
    fun c i => Cert.PreRange.range_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c) i
  refine ⟨fun c => Cert.KernelIdeal.Gen.V17 m (Cert.KernelIdeal.Hand.outs m) c Cert.KernelIdeal.main_v52, ?_, ?_⟩
  · exact (θ_run Cert.KernelIdeal.defs _ _).mono (fun r h c => ⟨h c _ (Cert.KernelIdeal.Hand.mem_uc Cert.KernelIdeal.main_v52 (by decide)),
      (h c _ (Cert.KernelIdeal.Hand.mem_uc Cert.KernelIdeal.main_arg0 (by decide))).trans (Cert.KernelIdeal.Gen.V17_main_arg0 m (Cert.KernelIdeal.Hand.outs m) c),
      (h c _ (Cert.KernelIdeal.Hand.mem_uc Cert.KernelIdeal.main_arg1 (by decide))).trans (Cert.KernelIdeal.Gen.V17_main_arg1 m (Cert.KernelIdeal.Hand.outs m) c),
      (h c _ (Cert.KernelIdeal.Hand.mem_uc Cert.KernelIdeal.main_arg2 (by decide))).trans (Cert.KernelIdeal.Gen.V17_main_arg2 m (Cert.KernelIdeal.Hand.outs m) c),
      (h c _ (Cert.KernelIdeal.Hand.mem_uc Cert.KernelIdeal.main_arg3 (by decide))).trans (Cert.KernelIdeal.Gen.V17_main_arg3 m (Cert.KernelIdeal.Hand.outs m) c),
      (h c _ (Cert.KernelIdeal.Hand.mem_uc Cert.KernelIdeal.main_arg4 (by decide))).trans (Cert.KernelIdeal.Gen.V17_main_arg4 m (Cert.KernelIdeal.Hand.outs m) c),
      (h c _ (Cert.KernelIdeal.Hand.mem_uc Cert.KernelIdeal.main_arg5 (by decide))).trans (Cert.KernelIdeal.Gen.V17_main_arg5 m (Cert.KernelIdeal.Hand.outs m) c),
      (h c _ (Cert.KernelIdeal.Hand.mem_uc Cert.KernelIdeal.main_arg6 (by decide))).trans (Cert.KernelIdeal.Gen.V17_main_arg6 m (Cert.KernelIdeal.Hand.outs m) c),
      (h c _ (Cert.KernelIdeal.Hand.mem_uc Cert.KernelIdeal.main_arg7 (by decide))).trans (Cert.KernelIdeal.Gen.V17_main_arg7 m (Cert.KernelIdeal.Hand.outs m) c)⟩) (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    have hr' : EdgesInRange (m' ((c.tc : Thread Cert.ReferenceIdeal.nD Cert.ReferenceIdeal.τ).loc Cert.ReferenceIdeal.main_arg1)) := by
      rw [e1]; exact hr c
    funext j
    obtain ⟨n, q, rfl⟩ : ∃ (n : Fin 50000) (q : Fin 32), j = ix2 n q := ⟨j 0, j 1, eq_ix2 j⟩
    have h1 : Cert.ReferenceIdeal.Value.res_main_v82 m' c (ix2 n q)
        = net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) hr' n q := res_apply m' c hr' n q
    have h2 : (Cert.KernelIdeal.Gen.V17 m (Cert.KernelIdeal.Hand.outs m) c Cert.KernelIdeal.main_v52 : Cert.KernelIdeal.S50000x32.Idx → EReal) (ix2 n q)
        = net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hr c) n q := Cert.KernelIdeal.Val.ker_value m c (hr c) n q
    exact (h1.trans (net_congr hr' (hr c) e0 e1 e2 e3 e4 e5 e6 e7 n q)).trans h2.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
